-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S3 : Shape := ⟨1, ![3]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S3 .f32) (main_arg10 : FVec F S64x10 .f32) (main_arg11 : FVec F S10 .f32) (main_v33 : IVec S_ 1) : IVec S_ 1 :=
  let main_v34 : FVec F S3 .f32 := Host.absf main_arg9
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S64x10 .f32 := Host.absf main_arg10
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S3x64 .f32) (main_arg7 : FVec F S3x64 .f32) (main_arg8 : FVec F S3x64 .f32) (main_arg9 : FVec F S3 .f32) (main_arg10 : FVec F S64x10 .f32) (main_arg11 : FVec F S10 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1000000 32) (main_arg2 : IVec S100000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S3x64 .f32) (main_arg9 : FVec F S3 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S3 : Shape := ⟨1, ![3]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S5000x64 : Shape := ⟨2, ![5000, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 204
  | .vmem => 60
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S3, .f32⟩
  | 10 => ⟨S64x10, .f32⟩
  | 11 => ⟨S10, .f32⟩
  | 12 => ⟨S1x1000000, .i32⟩
  | 13 => ⟨S1000000, .i32⟩
  | 14 => ⟨S1x1000000, .i32⟩
  | 15 => ⟨S1000000, .i32⟩
  | 16 => ⟨S1x64x64, .f32⟩
  | 17 => ⟨S64x64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1, .f32⟩
  | 29 => ⟨S_, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S100000x64, .f32⟩
  | 41 => ⟨S1000000x1, .i32⟩
  | 42 => ⟨S100000x64, .f32⟩
  | 43 => ⟨S_, .f32⟩
  | 44 => ⟨S_, .f32⟩
  | 45 => ⟨S100000x64, .f32⟩
  | 46 => ⟨S100000x64, .f32⟩
  | 47 => ⟨S100000x64, .f32⟩
  | 48 => ⟨S1x64, .f32⟩
  | 49 => ⟨S1x64, .f32⟩
  | 50 => ⟨S100000x64, .f32⟩
  | 51 => ⟨S1x64, .f32⟩
  | 52 => ⟨S1x64, .f32⟩
  | 53 => ⟨S64, .f32⟩
  | 54 => ⟨S_, .f32⟩
  | 55 => ⟨S64, .f32⟩
  | 56 => ⟨S64, .f32⟩
  | 57 => ⟨S64, .f32⟩
  | 58 => ⟨S_, .f32⟩
  | 59 => ⟨S64, .f32⟩
  | 60 => ⟨S64, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S1x64, .f32⟩
  | 68 => ⟨S1x64, .f32⟩
  | 69 => ⟨S1x64, .f32⟩
  | 70 => ⟨S1x64, .f32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1, .f32⟩
  | 85 => ⟨S_, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S_, .f32⟩
  | 100 => ⟨S_, .f32⟩
  | 101 => ⟨S100000x64, .f32⟩
  | 102 => ⟨S100000x64, .f32⟩
  | 103 => ⟨S100000x64, .f32⟩
  | 104 => ⟨S1x64, .f32⟩
  | 105 => ⟨S1x64, .f32⟩
  | 106 => ⟨S100000x64, .f32⟩
  | 107 => ⟨S1x64, .f32⟩
  | 108 => ⟨S1x64, .f32⟩
  | 109 => ⟨S64, .f32⟩
  | 110 => ⟨S_, .f32⟩
  | 111 => ⟨S64, .f32⟩
  | 112 => ⟨S64, .f32⟩
  | 113 => ⟨S64, .f32⟩
  | 114 => ⟨S_, .f32⟩
  | 115 => ⟨S64, .f32⟩
  | 116 => ⟨S64, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S1x64, .f32⟩
  | 124 => ⟨S1x64, .f32⟩
  | 125 => ⟨S1x64, .f32⟩
  | 126 => ⟨S1x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S1, .f32⟩
  | 13 => ⟨S_, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S_, .f32⟩
  | 28 => ⟨S_, .f32⟩
  | 29 => ⟨S100000x64, .f32⟩
  | 30 => ⟨S100000x64, .f32⟩
  | 31 => ⟨S100000x64, .f32⟩
  | 32 => ⟨S1x64, .f32⟩
  | 33 => ⟨S1x64, .f32⟩
  | 34 => ⟨S100000x64, .f32⟩
  | 35 => ⟨S1x64, .f32⟩
  | 36 => ⟨S1x64, .f32⟩
  | 37 => ⟨S64, .f32⟩
  | 38 => ⟨S_, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S64, .f32⟩
  | 47 => ⟨S_, .f32⟩
  | 48 => ⟨S64, .f32⟩
  | 49 => ⟨S64, .f32⟩
  | 50 => ⟨S64, .f32⟩
  | 51 => ⟨S1x64, .f32⟩
  | 52 => ⟨S1x64, .f32⟩
  | 53 => ⟨S1x64, .f32⟩
  | 54 => ⟨S1x64, .f32⟩
  | 55 => ⟨S100000x64, .f32⟩
  | 56 => ⟨S_, .f32⟩
  | 57 => ⟨S256x64, .f32⟩
  | 58 => ⟨S100000x1, .i32⟩
  | 59 => ⟨S256x64, .f32⟩
  | 60 => ⟨S_, .f32⟩
  | 61 => ⟨S100000, .f32⟩
  | 62 => ⟨S_, .f32⟩
  | 63 => ⟨S256, .f32⟩
  | 64 => ⟨S100000x1, .i32⟩
  | 65 => ⟨S256, .f32⟩
  | 66 => ⟨S_, .f32⟩
  | 67 => ⟨S256, .f32⟩
  | 68 => ⟨S256, .f32⟩
  | 69 => ⟨S256x1, .f32⟩
  | 70 => ⟨S256x64, .f32⟩
  | 71 => ⟨S256x64, .f32⟩
  | 72 => ⟨S256x10, .f32⟩
  | 73 => ⟨S1x10, .f32⟩
  | 74 => ⟨S256x10, .f32⟩
  | 75 => ⟨S256x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_5 : Ref sig .tc := ⟨.hbm, 86, rfl⟩
abbrev main_v65 : Ref sig .tc := ⟨.hbm, 87, rfl⟩
abbrev main_v66 : Ref sig .tc := ⟨.hbm, 88, rfl⟩
abbrev main_c_6 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81_0 : Ref sig .tc := ⟨.hbm, 106, rfl⟩
abbrev main_v81_1 : Ref sig .tc := ⟨.hbm, 107, rfl⟩
abbrev main_v81_2 : Ref sig .tc := ⟨.hbm, 108, rfl⟩
abbrev main_v82 : Ref sig .tc := ⟨.hbm, 109, rfl⟩
abbrev main_cst_9 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_10 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_c_12 : Ref sig .tc := ⟨.hbm, 142, rfl⟩
abbrev main_v112 : Ref sig .tc := ⟨.hbm, 143, rfl⟩
abbrev main_v113 : Ref sig .tc := ⟨.hbm, 144, rfl⟩
abbrev main_c_13 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_14 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_15 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128_0 : Ref sig .tc := ⟨.hbm, 162, rfl⟩
abbrev main_v128_1 : Ref sig .tc := ⟨.hbm, 163, rfl⟩
abbrev main_v128_2 : Ref sig .tc := ⟨.hbm, 164, rfl⟩
abbrev main_v129 : Ref sig .tc := ⟨.hbm, 165, rfl⟩
abbrev main_cst_16 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_17 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_18 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_19 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_20 : Ref sig .tc := ⟨.hbm, 188, rfl⟩
abbrev main_v148 : Ref sig .tc := ⟨.hbm, 189, rfl⟩
abbrev main_cst_21 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_22 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3_S1_0 : S3.Slices ![0] S1
  shapeCasts_S1_S_ : S1.ShapeCasts S_
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reduces_S5000x64_S64 : S5000x64.Reduces [0] S64
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_v31) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v78) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v81_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v81_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v125) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v126) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v103) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v127) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v128_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v128_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v128_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v128_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v140) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v141) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v142) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v143) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v144) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S3 : Shape := ⟨1, ![3]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 273
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S3, .f32⟩
  | 10 => ⟨S64x10, .f32⟩
  | 11 => ⟨S10, .f32⟩
  | 12 => ⟨S1x1000000, .i32⟩
  | 13 => ⟨S1000000, .i32⟩
  | 14 => ⟨S1x1000000, .i32⟩
  | 15 => ⟨S1000000, .i32⟩
  | 16 => ⟨S1x64x64, .f32⟩
  | 17 => ⟨S64x64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1, .f32⟩
  | 29 => ⟨S_, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S100000x64, .f32⟩
  | 41 => ⟨S1000000x1, .i32⟩
  | 42 => ⟨S100000x64, .f32⟩
  | 43 => ⟨S_, .f32⟩
  | 44 => ⟨S_, .f32⟩
  | 45 => ⟨S100000x64, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64x64, .f32⟩
  | 96 => ⟨S64x64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x64, .f32⟩
  | 104 => ⟨S64, .f32⟩
  | 105 => ⟨S1x64, .f32⟩
  | 106 => ⟨S64, .f32⟩
  | 107 => ⟨S1, .f32⟩
  | 108 => ⟨S_, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S_, .f32⟩
  | 119 => ⟨S100000x64, .f32⟩
  | 120 => ⟨S1000000x1, .i32⟩
  | 121 => ⟨S100000x64, .f32⟩
  | 122 => ⟨S_, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S100000x64, .f32⟩
  | 22 => ⟨S_, .f32⟩
  | 23 => ⟨S64, .f32⟩
  | 24 => ⟨S_, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S_, .f32⟩
  | 31 => ⟨S64, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1, .f32⟩
  | 59 => ⟨S_, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S_, .f32⟩
  | 70 => ⟨S100000x64, .f32⟩
  | 71 => ⟨S1000000x1, .i32⟩
  | 72 => ⟨S100000x64, .f32⟩
  | 73 => ⟨S_, .f32⟩
  | 74 => ⟨S_, .f32⟩
  | 75 => ⟨S100000x64, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S64, .f32⟩
  | 103 => ⟨S_, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S256x64, .f32⟩
  | 127 => ⟨S100000x1, .i32⟩
  | _ => ⟨S100000x64, .f32⟩

abbrev hbmTy0_2 (i : Nat) : BufTy := match i % 128 with
  | 0 => ⟨S256x64, .f32⟩
  | 1 => ⟨S_, .f32⟩
  | 2 => ⟨S100000, .f32⟩
  | 3 => ⟨S_, .f32⟩
  | 4 => ⟨S256, .f32⟩
  | 5 => ⟨S100000x1, .i32⟩
  | 6 => ⟨S256, .f32⟩
  | 7 => ⟨S_, .f32⟩
  | 8 => ⟨S256, .f32⟩
  | 9 => ⟨S256, .f32⟩
  | 10 => ⟨S256x1, .f32⟩
  | 11 => ⟨S256x64, .f32⟩
  | 12 => ⟨S256x64, .f32⟩
  | 13 => ⟨S256x10, .f32⟩
  | 14 => ⟨S1x10, .f32⟩
  | 15 => ⟨S256x10, .f32⟩
  | 16 => ⟨S256x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_cst_2 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_7 : Ref sig .tc := ⟨.hbm, 109, rfl⟩
abbrev main_v82 : Ref sig .tc := ⟨.hbm, 110, rfl⟩
abbrev main_v83 : Ref sig .tc := ⟨.hbm, 111, rfl⟩
abbrev main_c_8 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_9 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call3_cst : Ref sig .tc := ⟨.hbm, 131, rfl⟩
abbrev main_call3_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call4_cst : Ref sig .tc := ⟨.hbm, 138, rfl⟩
abbrev main_call4_v0 : Ref sig .tc := ⟨.hbm, 139, rfl⟩
abbrev main_v105 : Ref sig .tc := ⟨.hbm, 140, rfl⟩
abbrev main_cst_11 : Ref sig .tc := ⟨.hbm, 141, rfl⟩
abbrev main_v106 : Ref sig .tc := ⟨.hbm, 142, rfl⟩
abbrev main_cst_12 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_13 : Ref sig .tc := ⟨.hbm, 150, rfl⟩
abbrev main_v113 : Ref sig .tc := ⟨.hbm, 151, rfl⟩
abbrev main_cst_14 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_15 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_call5_cst : Ref sig .tc := ⟨.hbm, 171, rfl⟩
abbrev main_call5_v0 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_16 : Ref sig .tc := ⟨.hbm, 188, rfl⟩
abbrev main_v146 : Ref sig .tc := ⟨.hbm, 189, rfl⟩
abbrev main_v147 : Ref sig .tc := ⟨.hbm, 190, rfl⟩
abbrev main_c_17 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_18 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_19 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_call6_cst : Ref sig .tc := ⟨.hbm, 210, rfl⟩
abbrev main_call6_v0 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_call7_cst : Ref sig .tc := ⟨.hbm, 217, rfl⟩
abbrev main_call7_v0 : Ref sig .tc := ⟨.hbm, 218, rfl⟩
abbrev main_v169 : Ref sig .tc := ⟨.hbm, 219, rfl⟩
abbrev main_cst_20 : Ref sig .tc := ⟨.hbm, 220, rfl⟩
abbrev main_v170 : Ref sig .tc := ⟨.hbm, 221, rfl⟩
abbrev main_cst_21 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_22 : Ref sig .tc := ⟨.hbm, 229, rfl⟩
abbrev main_v177 : Ref sig .tc := ⟨.hbm, 230, rfl⟩
abbrev main_cst_23 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_24 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_call8_cst : Ref sig .tc := ⟨.hbm, 250, rfl⟩
abbrev main_call8_v0 : Ref sig .tc := ⟨.hbm, 251, rfl⟩
abbrev main_v195 : Ref sig .tc := ⟨.hbm, 252, rfl⟩
abbrev main_cst_25 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_cst_26 : Ref sig .tc := ⟨.hbm, 257, rfl⟩
abbrev main_v199 : Ref sig .tc := ⟨.hbm, 258, rfl⟩
abbrev main_cst_27 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_cst_28 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3_S1_0 : S3.Slices ![0] S1
  shapeCasts_S1_S_ : S1.ShapeCasts S_
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.MlpI0Base.lean ====
/-
  The first dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The two scratch rows (running sum, running sum of squares) as whole memrefs and as views. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer per output window, through which its contents are stated. -/
abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view

end Cert.KernelIdeal.Hand

end
-- ==== Proof.MlpI0RunA.lean ====
/-
  The dense-layer region's body run whole at the first grid point (the running sums are cleared first):
  what the body's stores leave in the three output blocks and the two running-sum rows, as written pieces.
-/
import proofs.«170985_j13606456394542_1_alg».proof.Proof.MlpI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun0_A (c : Dev nD) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond0_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI0RunB.lean ====
/-
  The dense-layer region's body run whole at a later grid point (the running sums continue from the point before):
  what the body's stores leave in the three output blocks and the two running-sum rows, as written pieces.
-/
import proofs.«170985_j13606456394542_1_alg».proof.Proof.MlpI0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun0_B (c : Dev nD) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond0_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI0.lean ====
/-
  The first dense-layer region, point by point: what the three output blocks and the two running-sum rows hold after each
  grid point (the first point starts the sums from zero, every later point continues from the one before), the region's
  proof data over these, and the body obligation at every point.
-/
import proofs.«170985_j13606456394542_1_alg».proof.Proof.MlpI0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)

/-- The first point's run at the point's memrefs and input blocks. -/
abbrev runA0 (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk0 V c 0 t) (iblk0 V c 1 t) (iblk0 V c 2 t) (iblk0 V c 3 t) (iblk0 V c 4 t)
/-- A later point's run, the running sums entering at `xs0`, `xs1`. -/
abbrev runB0 (c : Dev nD) (t : Fin cfg0.N) (h : t.val ≠ 0) (xs0 xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk0 V c 0 t) (iblk0 V c 1 t) (iblk0 V c 2 t) (iblk0 V c 3 t) (iblk0 V c 4 t) xs0 xs1

/-- What the first point leaves: the three output blocks, then the two running sums (each the run's pieces read back). -/
def outA0 (c : Dev nD) (t : Fin cfg0.N) (h : t.val = 0) : Vec F S5000x64 .f32 × Vec F S1x64 .f32 × Vec F S1x64 .f32 × Vec F S1x64 .f32 × Vec F S1x64 .f32 :=
  (VO0_5.read (Elt F) (VO0_5.writes (Elt F) VO0_5.junk (runA0 V c t h).1),
   VO0_6.read (Elt F) (VO0_6.writes (Elt F) VO0_6.junk (runA0 V c t h).2.1),
   VO0_7.read (Elt F) (VO0_7.writes (Elt F) VO0_7.junk (runA0 V c t h).2.2.1),
   VS0_0.read (Elt F) (VS0_0.writes (Elt F) VS0_0.junk (runA0 V c t h).2.2.2.1),
   VS0_1.read (Elt F) (VS0_1.writes (Elt F) VS0_1.junk (runA0 V c t h).2.2.2.2.1))
/-- What a later point leaves, from the running sums the point before left. -/
def outB0 (c : Dev nD) (t : Fin cfg0.N) (h : t.val ≠ 0) (xs0 xs1 : Vec F S1x64 .f32) : Vec F S5000x64 .f32 × Vec F S1x64 .f32 × Vec F S1x64 .f32 × Vec F S1x64 .f32 × Vec F S1x64 .f32 :=
  (VO0_5.read (Elt F) (VO0_5.writes (Elt F) VO0_5.junk (runB0 V c t h xs0 xs1).1),
   VO0_6.read (Elt F) (VO0_6.writes (Elt F) VO0_6.junk (runB0 V c t h xs0 xs1).2.1),
   VO0_7.read (Elt F) (VO0_7.writes (Elt F) VO0_7.junk (runB0 V c t h xs0 xs1).2.2.1),
   VS0_0.read (Elt F) (VS0_0.writes (Elt F) VS0_0.junk (runB0 V c t h xs0 xs1).2.2.2.1),
   VS0_1.read (Elt F) (VS0_1.writes (Elt F) VS0_1.junk (runB0 V c t h xs0 xs1).2.2.2.2.1))

/-- Every piece list the runs find tiles its buffer. -/
theorem coverA0_5 (c : Dev nD) (t : Fin cfg0.N) (h : t.val = 0) (y : S5000x64.Idx) : ∃ pc ∈ (runA0 V c t h).1, y ∈ pc.1.set :=
  View.cover_of_tiledL (runA0 V c t h).1 S5000x64.size (by sl_kernel_rfl) y
theorem coverA0_6 (c : Dev nD) (t : Fin cfg0.N) (h : t.val = 0) (y : S1x64.Idx) : ∃ pc ∈ (runA0 V c t h).2.1, y ∈ pc.1.set :=
  View.cover_of_tiledL (runA0 V c t h).2.1 S1x64.size (by sl_kernel_rfl) y
theorem coverA0_7 (c : Dev nD) (t : Fin cfg0.N) (h : t.val = 0) (y : S1x64.Idx) : ∃ pc ∈ (runA0 V c t h).2.2.1, y ∈ pc.1.set :=
  View.cover_of_tiledL (runA0 V c t h).2.2.1 S1x64.size (by sl_kernel_rfl) y
theorem coverA0_S0 (c : Dev nD) (t : Fin cfg0.N) (h : t.val = 0) (y : S1x64.Idx) : ∃ pc ∈ (runA0 V c t h).2.2.2.1, y ∈ pc.1.set :=
  View.cover_of_tiledL (runA0 V c t h).2.2.2.1 S1x64.size (by sl_kernel_rfl) y
theorem coverA0_S1 (c : Dev nD) (t : Fin cfg0.N) (h : t.val = 0) (y : S1x64.Idx) : ∃ pc ∈ (runA0 V c t h).2.2.2.2.1, y ∈ pc.1.set :=
  View.cover_of_tiledL (runA0 V c t h).2.2.2.2.1 S1x64.size (by sl_kernel_rfl) y
theorem coverB0_5 (c : Dev nD) (t : Fin cfg0.N) (h : t.val ≠ 0) (xs0 xs1 : Vec F S1x64 .f32) (y : S5000x64.Idx) : ∃ pc ∈ (runB0 V c t h xs0 xs1).1, y ∈ pc.1.set :=
  View.cover_of_tiledL (runB0 V c t h xs0 xs1).1 S5000x64.size (by sl_kernel_rfl) y
theorem coverB0_6 (c : Dev nD) (t : Fin cfg0.N) (h : t.val ≠ 0) (xs0 xs1 : Vec F S1x64 .f32) (y : S1x64.Idx) : ∃ pc ∈ (runB0 V c t h xs0 xs1).2.1, y ∈ pc.1.set :=
  View.cover_of_tiledL (runB0 V c t h xs0 xs1).2.1 S1x64.size (by sl_kernel_rfl) y
theorem coverB0_7 (c : Dev nD) (t : Fin cfg0.N) (h : t.val ≠ 0) (xs0 xs1 : Vec F S1x64 .f32) (y : S1x64.Idx) : ∃ pc ∈ (runB0 V c t h xs0 xs1).2.2.1, y ∈ pc.1.set :=
  View.cover_of_tiledL (runB0 V c t h xs0 xs1).2.2.1 S1x64.size (by sl_kernel_rfl) y
theorem coverB0_S0 (c : Dev nD) (t : Fin cfg0.N) (h : t.val ≠ 0) (xs0 xs1 : Vec F S1x64 .f32) (y : S1x64.Idx) : ∃ pc ∈ (runB0 V c t h xs0 xs1).2.2.2.1, y ∈ pc.1.set :=
  View.cover_of_tiledL (runB0 V c t h xs0 xs1).2.2.2.1 S1x64.size (by sl_kernel_rfl) y
theorem coverB0_S1 (c : Dev nD) (t : Fin cfg0.N) (h : t.val ≠ 0) (xs0 xs1 : Vec F S1x64 .f32) (y : S1x64.Idx) : ∃ pc ∈ (runB0 V c t h xs0 xs1).2.2.2.2.1, y ∈ pc.1.set :=
  View.cover_of_tiledL (runB0 V c t h xs0 xs1).2.2.2.2.1 S1x64.size (by sl_kernel_rfl) y

/-- THE ACCUMULATION: what the outputs' staging buffers and the two running sums hold after the body at position `n`. -/
def outsAt0 (c : Dev nD) : (n : ℕ) → n < cfg0.N → Vec F S5000x64 .f32 × Vec F S1x64 .f32 × Vec F S1x64 .f32 × Vec F S1x64 .f32 × Vec F S1x64 .f32
  | 0, hn => outA0 V c ⟨0, hn⟩ rfl
  | n + 1, hn => outB0 V c ⟨n + 1, hn⟩ (Nat.succ_ne_zero n) (outsAt0 c n (Nat.lt_of_succ_lt hn)).2.2.2.1 (outsAt0 c n (Nat.lt_of_succ_lt hn)).2.2.2.2

theorem outsAt0_A (c : Dev nD) (t : Fin cfg0.N) (h : t.val = 0) : outsAt0 V c t.val t.isLt = outA0 V c t h := by
  obtain ⟨n, hn⟩ := t
  cases n with
  | zero => rfl
  | succ n => exact absurd h (Nat.succ_ne_zero n)
theorem outsAt0_B (c : Dev nD) (t : Fin cfg0.N) (h : t.val ≠ 0) :
    outsAt0 V c t.val t.isLt = outB0 V c t h (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the scoped rest at anything and the generator register;
    afterwards the two running sums at what the point before left, the other scoped buffers, the generator register. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2.2.2.1) ∗ owns (c : Thread nD τ) scM0_1 fullShare ((outsAt0 V c n hn).2.2.2.2)
      ∗ restBut0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2.2.2.1) ∗ owns (c : Thread nD τ) scM0_1 fullShare ((outsAt0 V c n hn).2.2.2.2)
      ∗ restBut0 c ∗ (∃ r, prngReg c r)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2.2.2.1) ∗ owns (c : Thread nD τ) scM0_1 fullShare ((outsAt0 V c (n - 1) (by omega)).2.2.2.2)
      ∗ restBut0 c ∗ (∃ r, prngReg c r)) := by
  cases n with
  | zero => exact absurd rfl hz
  | succ n => rfl

/-- The class invariant opened at the two running sums. -/
theorem PhiA0_in (c : Dev nD) : (Pipeline.ΦA spec0 c : sProp 𝕄)
    ⊢ iprop((∃ d, owns (c : Thread nD τ) scM0_0 fullShare d) ∗ (∃ d, owns (c : Thread nD τ) scM0_1 fullShare d) ∗ restBut0 c ∗ (∃ r, prngReg c r)) := by
  unfold Pipeline.ΦA; rw [scopedRest0_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA0_out (c : Dev nD) : iprop((∃ d, owns (c : Thread nD τ) scM0_0 fullShare d) ∗ (∃ d, owns (c : Thread nD τ) scM0_1 fullShare d) ∗ restBut0 c ∗ (∃ r, prngReg c r))
    ⊢ (Pipeline.ΦA spec0 c : sProp 𝕄) := by
  unfold Pipeline.ΦA; rw [scopedRest0_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Hand

end
-- ==== Proof.MlpI0Body.lean ====
/-
  The first dense-layer region: the body obligation at every grid point (the first point from the class invariant, every
  later point from the running sums the point before left), and the invariant's way in and out.
-/
import proofs.«170985_j13606456394542_1_alg».proof.Proof.MlpI0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases hz : t.val = 0
  · rw [outsAt0_A V c t hz]
    unfold outA0; (try dsimp only)
    rw [PhiS0_castSucc V c t, PhiS0_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA0_in (F := F) c) $$ HΦ
    icases HΦ' with ⟨HS0, HS1, HR, Hg⟩
    iapply ((runA0 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA0_S0 V c t hz)
      isplitl [HS1]
      · unfold owns; iexists _; isplitr
        swap; · iexact HS1
        ipureintro; exact View.read_writes_of_cover _ _ _ _ _ (coverA0_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA0_5 V c t hz)
    isplitl [H6]
    · unfold owns; iexists _; isplitr
      swap; · iexact H6
      ipureintro; exact View.read_writes_of_cover _ _ _ _ _ (coverA0_6 V c t hz)
    unfold owns; iexists _; isplitr
    swap; · iexact H7
    ipureintro; exact View.read_writes_of_cover _ _ _ _ _ (coverA0_7 V c t hz)
  · rw [outsAt0_B V c t hz]
    unfold outB0; (try dsimp only)
    rw [PhiS0_castSucc V c t, PhiS0_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB0 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB0_S0 V c t hz _ _)
      isplitl [HS1]
      · unfold owns; iexists _; isplitr
        swap; · iexact HS1
        ipureintro; exact View.read_writes_of_cover _ _ _ _ _ (coverB0_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB0_5 V c t hz _ _)
    isplitl [H6]
    · unfold owns; iexists _; isplitr
      swap; · iexact H6
      ipureintro; exact View.read_writes_of_cover _ _ _ _ _ (coverB0_6 V c t hz _ _)
    unfold owns; iexists _; isplitr
    swap; · iexact H7
    ipureintro; exact View.read_writes_of_cover _ _ _ _ _ (coverB0_7 V c t hz _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sums' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega)]
  have h : ∀ (a b : Vec F S1x64 .f32), (iprop(owns (c : Thread nD τ) scM0_0 fullShare a ∗ owns (c : Thread nD τ) scM0_1 fullShare b ∗ restBut0 c ∗ (∃ r, prngReg c r)) : sProp 𝕄)
      ⊢ iprop((∃ d, owns (c : Thread nD τ) scM0_0 fullShare d) ∗ (∃ d, owns (c : Thread nD τ) scM0_1 fullShare d) ∗ restBut0 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA0_out (F := F) c)

end Cert.KernelIdeal.Hand

end
-- ==== Proof.MlpI2Base.lean ====
/-
  The second dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- The two scratch rows (running sum, running sum of squares) as whole memrefs and as views. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view
/-- One staging buffer per output window, through which its contents are stated. -/
abbrev VO2_5 : View sig .tc .vmem S5000x64 .f32 := (Memref.whole cc2_stg5_0 : Memref sig .tc .vmem S5000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view

end Cert.KernelIdeal.Hand

end
-- ==== Proof.MlpI2RunA.lean ====
/-
  The dense-layer region's body run whole at the first grid point (the running sums are cleared first):
  what the body's stores leave in the three output blocks and the two running-sum rows, as written pieces.
-/
import proofs.«170985_j13606456394542_1_alg».proof.Proof.MlpI2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun2_A (c : Dev nD) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond2_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI2RunB.lean ====
/-
  The dense-layer region's body run whole at a later grid point (the running sums continue from the point before):
  what the body's stores leave in the three output blocks and the two running-sum rows, as written pieces.
-/
import proofs.«170985_j13606456394542_1_alg».proof.Proof.MlpI2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun2_B (c : Dev nD) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond2_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI2.lean ====
/-
  The second dense-layer region, point by point: what the three output blocks and the two running-sum rows hold after each
  grid point (the first point starts the sums from zero, every later point continues from the one before), the region's
  proof data over these, and the body obligation at every point.
-/
import proofs.«170985_j13606456394542_1_alg».proof.Proof.MlpI2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-- The first point's run at the point's memrefs and input blocks. -/
abbrev runA2 (c : Dev nD) (t : Fin cfg2.N) (h : t.val = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h) (iblk2 V c 0 t) (iblk2 V c 1 t) (iblk2 V c 2 t) (iblk2 V c 3 t) (iblk2 V c 4 t)
/-- A later point's run, the running sums entering at `xs0`, `xs1`. -/
abbrev runB2 (c : Dev nD) (t : Fin cfg2.N) (h : t.val ≠ 0) (xs0 xs1 : Vec F S1x64 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hc => h ((hcond2_0 t).mp hc)) (iblk2 V c 0 t) (iblk2 V c 1 t) (iblk2 V c 2 t) (iblk2 V c 3 t) (iblk2 V c 4 t) xs0 xs1

/-- What the first point leaves: the three output blocks, then the two running sums (each the run's pieces read back). -/
def outA2 (c : Dev nD) (t : Fin cfg2.N) (h : t.val = 0) : Vec F S5000x64 .f32 × Vec F S1x64 .f32 × Vec F S1x64 .f32 × Vec F S1x64 .f32 × Vec F S1x64 .f32 :=
  (VO2_5.read (Elt F) (VO2_5.writes (Elt F) VO2_5.junk (runA2 V c t h).1),
   VO2_6.read (Elt F) (VO2_6.writes (Elt F) VO2_6.junk (runA2 V c t h).2.1),
   VO2_7.read (Elt F) (VO2_7.writes (Elt F) VO2_7.junk (runA2 V c t h).2.2.1),
   VS2_0.read (Elt F) (VS2_0.writes (Elt F) VS2_0.junk (runA2 V c t h).2.2.2.1),
   VS2_1.read (Elt F) (VS2_1.writes (Elt F) VS2_1.junk (runA2 V c t h).2.2.2.2.1))
/-- What a later point leaves, from the running sums the point before left. -/
def outB2 (c : Dev nD) (t : Fin cfg2.N) (h : t.val ≠ 0) (xs0 xs1 : Vec F S1x64 .f32) : Vec F S5000x64 .f32 × Vec F S1x64 .f32 × Vec F S1x64 .f32 × Vec F S1x64 .f32 × Vec F S1x64 .f32 :=
  (VO2_5.read (Elt F) (VO2_5.writes (Elt F) VO2_5.junk (runB2 V c t h xs0 xs1).1),
   VO2_6.read (Elt F) (VO2_6.writes (Elt F) VO2_6.junk (runB2 V c t h xs0 xs1).2.1),
   VO2_7.read (Elt F) (VO2_7.writes (Elt F) VO2_7.junk (runB2 V c t h xs0 xs1).2.2.1),
   VS2_0.read (Elt F) (VS2_0.writes (Elt F) VS2_0.junk (runB2 V c t h xs0 xs1).2.2.2.1),
   VS2_1.read (Elt F) (VS2_1.writes (Elt F) VS2_1.junk (runB2 V c t h xs0 xs1).2.2.2.2.1))

/-- Every piece list the runs find tiles its buffer. -/
theorem coverA2_5 (c : Dev nD) (t : Fin cfg2.N) (h : t.val = 0) (y : S5000x64.Idx) : ∃ pc ∈ (runA2 V c t h).1, y ∈ pc.1.set :=
  View.cover_of_tiledL (runA2 V c t h).1 S5000x64.size (by sl_kernel_rfl) y
theorem coverA2_6 (c : Dev nD) (t : Fin cfg2.N) (h : t.val = 0) (y : S1x64.Idx) : ∃ pc ∈ (runA2 V c t h).2.1, y ∈ pc.1.set :=
  View.cover_of_tiledL (runA2 V c t h).2.1 S1x64.size (by sl_kernel_rfl) y
theorem coverA2_7 (c : Dev nD) (t : Fin cfg2.N) (h : t.val = 0) (y : S1x64.Idx) : ∃ pc ∈ (runA2 V c t h).2.2.1, y ∈ pc.1.set :=
  View.cover_of_tiledL (runA2 V c t h).2.2.1 S1x64.size (by sl_kernel_rfl) y
theorem coverA2_S0 (c : Dev nD) (t : Fin cfg2.N) (h : t.val = 0) (y : S1x64.Idx) : ∃ pc ∈ (runA2 V c t h).2.2.2.1, y ∈ pc.1.set :=
  View.cover_of_tiledL (runA2 V c t h).2.2.2.1 S1x64.size (by sl_kernel_rfl) y
theorem coverA2_S1 (c : Dev nD) (t : Fin cfg2.N) (h : t.val = 0) (y : S1x64.Idx) : ∃ pc ∈ (runA2 V c t h).2.2.2.2.1, y ∈ pc.1.set :=
  View.cover_of_tiledL (runA2 V c t h).2.2.2.2.1 S1x64.size (by sl_kernel_rfl) y
theorem coverB2_5 (c : Dev nD) (t : Fin cfg2.N) (h : t.val ≠ 0) (xs0 xs1 : Vec F S1x64 .f32) (y : S5000x64.Idx) : ∃ pc ∈ (runB2 V c t h xs0 xs1).1, y ∈ pc.1.set :=
  View.cover_of_tiledL (runB2 V c t h xs0 xs1).1 S5000x64.size (by sl_kernel_rfl) y
theorem coverB2_6 (c : Dev nD) (t : Fin cfg2.N) (h : t.val ≠ 0) (xs0 xs1 : Vec F S1x64 .f32) (y : S1x64.Idx) : ∃ pc ∈ (runB2 V c t h xs0 xs1).2.1, y ∈ pc.1.set :=
  View.cover_of_tiledL (runB2 V c t h xs0 xs1).2.1 S1x64.size (by sl_kernel_rfl) y
theorem coverB2_7 (c : Dev nD) (t : Fin cfg2.N) (h : t.val ≠ 0) (xs0 xs1 : Vec F S1x64 .f32) (y : S1x64.Idx) : ∃ pc ∈ (runB2 V c t h xs0 xs1).2.2.1, y ∈ pc.1.set :=
  View.cover_of_tiledL (runB2 V c t h xs0 xs1).2.2.1 S1x64.size (by sl_kernel_rfl) y
theorem coverB2_S0 (c : Dev nD) (t : Fin cfg2.N) (h : t.val ≠ 0) (xs0 xs1 : Vec F S1x64 .f32) (y : S1x64.Idx) : ∃ pc ∈ (runB2 V c t h xs0 xs1).2.2.2.1, y ∈ pc.1.set :=
  View.cover_of_tiledL (runB2 V c t h xs0 xs1).2.2.2.1 S1x64.size (by sl_kernel_rfl) y
theorem coverB2_S1 (c : Dev nD) (t : Fin cfg2.N) (h : t.val ≠ 0) (xs0 xs1 : Vec F S1x64 .f32) (y : S1x64.Idx) : ∃ pc ∈ (runB2 V c t h xs0 xs1).2.2.2.2.1, y ∈ pc.1.set :=
  View.cover_of_tiledL (runB2 V c t h xs0 xs1).2.2.2.2.1 S1x64.size (by sl_kernel_rfl) y

/-- THE ACCUMULATION: what the outputs' staging buffers and the two running sums hold after the body at position `n`. -/
def outsAt2 (c : Dev nD) : (n : ℕ) → n < cfg2.N → Vec F S5000x64 .f32 × Vec F S1x64 .f32 × Vec F S1x64 .f32 × Vec F S1x64 .f32 × Vec F S1x64 .f32
  | 0, hn => outA2 V c ⟨0, hn⟩ rfl
  | n + 1, hn => outB2 V c ⟨n + 1, hn⟩ (Nat.succ_ne_zero n) (outsAt2 c n (Nat.lt_of_succ_lt hn)).2.2.2.1 (outsAt2 c n (Nat.lt_of_succ_lt hn)).2.2.2.2

theorem outsAt2_A (c : Dev nD) (t : Fin cfg2.N) (h : t.val = 0) : outsAt2 V c t.val t.isLt = outA2 V c t h := by
  obtain ⟨n, hn⟩ := t
  cases n with
  | zero => rfl
  | succ n => exact absurd h (Nat.succ_ne_zero n)
theorem outsAt2_B (c : Dev nD) (t : Fin cfg2.N) (h : t.val ≠ 0) :
    outsAt2 V c t.val t.isLt = outB2 V c t h (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the scoped rest at anything and the generator register;
    afterwards the two running sums at what the point before left, the other scoped buffers, the generator register. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2.2.2.1) ∗ owns (c : Thread nD τ) scM2_1 fullShare ((outsAt2 V c n hn).2.2.2.2)
      ∗ restBut2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2.2.2.1) ∗ owns (c : Thread nD τ) scM2_1 fullShare ((outsAt2 V c n hn).2.2.2.2)
      ∗ restBut2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2.2.2.1) ∗ owns (c : Thread nD τ) scM2_1 fullShare ((outsAt2 V c (n - 1) (by omega)).2.2.2.2)
      ∗ restBut2 c ∗ (∃ r, prngReg c r)) := by
  cases n with
  | zero => exact absurd rfl hz
  | succ n => rfl

/-- The class invariant opened at the two running sums. -/
theorem PhiA2_in (c : Dev nD) : (Pipeline.ΦA spec2 c : sProp 𝕄)
    ⊢ iprop((∃ d, owns (c : Thread nD τ) scM2_0 fullShare d) ∗ (∃ d, owns (c : Thread nD τ) scM2_1 fullShare d) ∗ restBut2 c ∗ (∃ r, prngReg c r)) := by
  unfold Pipeline.ΦA; rw [scopedRest2_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA2_out (c : Dev nD) : iprop((∃ d, owns (c : Thread nD τ) scM2_0 fullShare d) ∗ (∃ d, owns (c : Thread nD τ) scM2_1 fullShare d) ∗ restBut2 c ∗ (∃ r, prngReg c r))
    ⊢ (Pipeline.ΦA spec2 c : sProp 𝕄) := by
  unfold Pipeline.ΦA; rw [scopedRest2_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.KernelIdeal.Hand

end
-- ==== Proof.MlpI2Body.lean ====
/-
  The second dense-layer region: the body obligation at every grid point (the first point from the class invariant, every
  later point from the running sums the point before left), and the invariant's way in and out.
-/
import proofs.«170985_j13606456394542_1_alg».proof.Proof.MlpI2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases hz : t.val = 0
  · rw [outsAt2_A V c t hz]
    unfold outA2; (try dsimp only)
    rw [PhiS2_castSucc V c t, PhiS2_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA2_in (F := F) c) $$ HΦ
    icases HΦ' with ⟨HS0, HS1, HR, Hg⟩
    iapply ((runA2 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA2_S0 V c t hz)
      isplitl [HS1]
      · unfold owns; iexists _; isplitr
        swap; · iexact HS1
        ipureintro; exact View.read_writes_of_cover _ _ _ _ _ (coverA2_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA2_5 V c t hz)
    isplitl [H6]
    · unfold owns; iexists _; isplitr
      swap; · iexact H6
      ipureintro; exact View.read_writes_of_cover _ _ _ _ _ (coverA2_6 V c t hz)
    unfold owns; iexists _; isplitr
    swap; · iexact H7
    ipureintro; exact View.read_writes_of_cover _ _ _ _ _ (coverA2_7 V c t hz)
  · rw [outsAt2_B V c t hz]
    unfold outB2; (try dsimp only)
    rw [PhiS2_castSucc V c t, PhiS2_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB2 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB2_S0 V c t hz _ _)
      isplitl [HS1]
      · unfold owns; iexists _; isplitr
        swap; · iexact HS1
        ipureintro; exact View.read_writes_of_cover _ _ _ _ _ (coverB2_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB2_5 V c t hz _ _)
    isplitl [H6]
    · unfold owns; iexists _; isplitr
      swap; · iexact H6
      ipureintro; exact View.read_writes_of_cover _ _ _ _ _ (coverB2_6 V c t hz _ _)
    unfold owns; iexists _; isplitr
    swap; · iexact H7
    ipureintro; exact View.read_writes_of_cover _ _ _ _ _ (coverB2_7 V c t hz _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the running sums' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega)]
  have h : ∀ (a b : Vec F S1x64 .f32), (iprop(owns (c : Thread nD τ) scM2_0 fullShare a ∗ owns (c : Thread nD τ) scM2_1 fullShare b ∗ restBut2 c ∗ (∃ r, prngReg c r)) : sProp 𝕄)
      ⊢ iprop((∃ d, owns (c : Thread nD τ) scM2_0 fullShare d) ∗ (∃ d, owns (c : Thread nD τ) scM2_1 fullShare d) ∗ restBut2 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA2_out (F := F) c)

end Cert.KernelIdeal.Hand

end
-- ==== Proof.MlpI4Base.lean ====
/-
  The third dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The two scratch rows (running sum, running sum of squares) as whole memrefs and as views. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view
/-- One staging buffer per output window, through which its contents are stated. -/
abbrev VO4_5 : View sig .tc .vmem S5000x64 .f32 := (Memref.whole cc4_stg5_0 : Memref sig .tc .vmem S5000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view

end Cert.KernelIdeal.Hand

end
-- ==== Proof.MlpI4RunA.lean ====
/-
  The dense-layer region's body run whole at the first grid point (the running sums are cleared first):
  what the body's stores leave in the three output blocks and the two running-sum rows, as written pieces.
-/
import proofs.«170985_j13606456394542_1_alg».proof.Proof.MlpI4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun4_A (c : Dev nD) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI4RunB.lean ====
/-
  The dense-layer region's body run whole at a later grid point (the running sums continue from the point before):
  what the body's stores leave in the three output blocks and the two running-sum rows, as written pieces.
-/
import proofs.«170985_j13606456394542_1_alg».proof.Proof.MlpI4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun4_B (c : Dev nD) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.MlpI4.lean ====
/-
  The third dense-layer region, point by point: what the three output blocks and the two running-sum rows hold after each
  grid point (the first point starts the sums from zero, every later point continues from the one before), the region's
  proof data over these, and the body obligation at every point.
-/
import proofs.«170985_j13606456394542_1_alg».proof.Proof.MlpI4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-- The first point's run at the point's memrefs and input blocks. -/
abbrev runA4 (c : Dev nD) (t : Fin cfg4.N) (h : t.val = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h) (iblk4 V c 0 t) (iblk4 V c 1 t) (iblk4 V c 2 t) (iblk4 V c 3 t) (iblk4 V c 4 t)
/-- A later point's run, the running sums entering at `xs0`, `xs1`. -/
abbrev runB4 (c : Dev nD) (t : Fin cfg4.N) (h : t.val ≠ 0) (xs0 xs1 : Vec F S1x64 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun hc => h ((hcond4_0 t).mp hc)) (iblk4 V c 0 t) (iblk4 V c 1 t) (iblk4 V c 2 t) (iblk4 V c 3 t) (iblk4 V c 4 t) xs0 xs1

/-- What the first point leaves: the three output blocks, then the two running sums (each the run's pieces read back). -/
def outA4 (c : Dev nD) (t : Fin cfg4.N) (h : t.val = 0) : Vec F S5000x64 .f32 × Vec F S1x64 .f32 × Vec F S1x64 .f32 × Vec F S1x64 .f32 × Vec F S1x64 .f32 :=
  (VO4_5.read (Elt F) (VO4_5.writes (Elt F) VO4_5.junk (runA4 V c t h).1),
   VO4_6.read (Elt F) (VO4_6.writes (Elt F) VO4_6.junk (runA4 V c t h).2.1),
   VO4_7.read (Elt F) (VO4_7.writes (Elt F) VO4_7.junk (runA4 V c t h).2.2.1),
   VS4_0.read (Elt F) (VS4_0.writes (Elt F) VS4_0.junk (runA4 V c t h).2.2.2.1),
   VS4_1.read (Elt F) (VS4_1.writes (Elt F) VS4_1.junk (runA4 V c t h).2.2.2.2.1))
/-- What a later point leaves, from the running sums the point before left. -/
def outB4 (c : Dev nD) (t : Fin cfg4.N) (h : t.val ≠ 0) (xs0 xs1 : Vec F S1x64 .f32) : Vec F S5000x64 .f32 × Vec F S1x64 .f32 × Vec F S1x64 .f32 × Vec F S1x64 .f32 × Vec F S1x64 .f32 :=
  (VO4_5.read (Elt F) (VO4_5.writes (Elt F) VO4_5.junk (runB4 V c t h xs0 xs1).1),
   VO4_6.read (Elt F) (VO4_6.writes (Elt F) VO4_6.junk (runB4 V c t h xs0 xs1).2.1),
   VO4_7.read (Elt F) (VO4_7.writes (Elt F) VO4_7.junk (runB4 V c t h xs0 xs1).2.2.1),
   VS4_0.read (Elt F) (VS4_0.writes (Elt F) VS4_0.junk (runB4 V c t h xs0 xs1).2.2.2.1),
   VS4_1.read (Elt F) (VS4_1.writes (Elt F) VS4_1.junk (runB4 V c t h xs0 xs1).2.2.2.2.1))

/-- Every piece list the runs find tiles its buffer. -/
theorem coverA4_5 (c : Dev nD) (t : Fin cfg4.N) (h : t.val = 0) (y : S5000x64.Idx) : ∃ pc ∈ (runA4 V c t h).1, y ∈ pc.1.set :=
  View.cover_of_tiledL (runA4 V c t h).1 S5000x64.size (by sl_kernel_rfl) y
theorem coverA4_6 (c : Dev nD) (t : Fin cfg4.N) (h : t.val = 0) (y : S1x64.Idx) : ∃ pc ∈ (runA4 V c t h).2.1, y ∈ pc.1.set :=
  View.cover_of_tiledL (runA4 V c t h).2.1 S1x64.size (by sl_kernel_rfl) y
theorem coverA4_7 (c : Dev nD) (t : Fin cfg4.N) (h : t.val = 0) (y : S1x64.Idx) : ∃ pc ∈ (runA4 V c t h).2.2.1, y ∈ pc.1.set :=
  View.cover_of_tiledL (runA4 V c t h).2.2.1 S1x64.size (by sl_kernel_rfl) y
theorem coverA4_S0 (c : Dev nD) (t : Fin cfg4.N) (h : t.val = 0) (y : S1x64.Idx) : ∃ pc ∈ (runA4 V c t h).2.2.2.1, y ∈ pc.1.set :=
  View.cover_of_tiledL (runA4 V c t h).2.2.2.1 S1x64.size (by sl_kernel_rfl) y
theorem coverA4_S1 (c : Dev nD) (t : Fin cfg4.N) (h : t.val = 0) (y : S1x64.Idx) : ∃ pc ∈ (runA4 V c t h).2.2.2.2.1, y ∈ pc.1.set :=
  View.cover_of_tiledL (runA4 V c t h).2.2.2.2.1 S1x64.size (by sl_kernel_rfl) y
theorem coverB4_5 (c : Dev nD) (t : Fin cfg4.N) (h : t.val ≠ 0) (xs0 xs1 : Vec F S1x64 .f32) (y : S5000x64.Idx) : ∃ pc ∈ (runB4 V c t h xs0 xs1).1, y ∈ pc.1.set :=
  View.cover_of_tiledL (runB4 V c t h xs0 xs1).1 S5000x64.size (by sl_kernel_rfl) y
theorem coverB4_6 (c : Dev nD) (t : Fin cfg4.N) (h : t.val ≠ 0) (xs0 xs1 : Vec F S1x64 .f32) (y : S1x64.Idx) : ∃ pc ∈ (runB4 V c t h xs0 xs1).2.1, y ∈ pc.1.set :=
  View.cover_of_tiledL (runB4 V c t h xs0 xs1).2.1 S1x64.size (by sl_kernel_rfl) y
theorem coverB4_7 (c : Dev nD) (t : Fin cfg4.N) (h : t.val ≠ 0) (xs0 xs1 : Vec F S1x64 .f32) (y : S1x64.Idx) : ∃ pc ∈ (runB4 V c t h xs0 xs1).2.2.1, y ∈ pc.1.set :=
  View.cover_of_tiledL (runB4 V c t h xs0 xs1).2.2.1 S1x64.size (by sl_kernel_rfl) y
theorem coverB4_S0 (c : Dev nD) (t : Fin cfg4.N) (h : t.val ≠ 0) (xs0 xs1 : Vec F S1x64 .f32) (y : S1x64.Idx) : ∃ pc ∈ (runB4 V c t h xs0 xs1).2.2.2.1, y ∈ pc.1.set :=
  View.cover_of_tiledL (runB4 V c t h xs0 xs1).2.2.2.1 S1x64.size (by sl_kernel_rfl) y
theorem coverB4_S1 (c : Dev nD) (t : Fin cfg4.N) (h : t.val ≠ 0) (xs0 xs1 : Vec F S1x64 .f32) (y : S1x64.Idx) : ∃ pc ∈ (runB4 V c t h xs0 xs1).2.2.2.2.1, y ∈ pc.1.set :=
  View.cover_of_tiledL (runB4 V c t h xs0 xs1).2.2.2.2.1 S1x64.size (by sl_kernel_rfl) y

/-- THE ACCUMULATION: what the outputs' staging buffers and the two running sums hold after the body at position `n`. -/
def outsAt4 (c : Dev nD) : (n : ℕ) → n < cfg4.N → Vec F S5000x64 .f32 × Vec F S1x64 .f32 × Vec F S1x64 .f32 × Vec F S1x64 .f32 × Vec F S1x64 .f32
  | 0, hn => outA4 V c ⟨0, hn⟩ rfl
  | n + 1, hn => outB4 V c ⟨n + 1, hn⟩ (Nat.succ_ne_zero n) (outsAt4 c n (Nat.lt_of_succ_lt hn)).2.2.2.1 (outsAt4 c n (Nat.lt_of_succ_lt hn)).2.2.2.2

theorem outsAt4_A (c : Dev nD) (t : Fin cfg4.N) (h : t.val = 0) : outsAt4 V c t.val t.isLt = outA4 V c t h := by
  obtain ⟨n, hn⟩ := t
  cases n with
  | zero => rfl
  | succ n => exact absurd h (Nat.succ_ne_zero n)
theorem outsAt4_B (c : Dev nD) (t : Fin cfg4.N) (h : t.val ≠ 0) :
    outsAt4 V c t.val t.isLt = outB4 V c t h (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The region invariant before position `n`: before the first point the scoped rest at anything and the generator register;
    afterwards the two running sums at what the point before left, the other scoped buffers, the generator register. -/
def PhiS4 (c : Dev nD) : (n : ℕ) → n ≤ cfg4.N → sProp 𝕄
  | 0, _ => Pipeline.ΦA spec4 c
  | n + 1, hn => iprop(owns (c : Thread nD τ) scM4_0 fullShare ((outsAt4 V c n hn).2.2.2.1) ∗ owns (c : Thread nD τ) scM4_1 fullShare ((outsAt4 V c n hn).2.2.2.2)
      ∗ restBut4 c ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) scM4_0 fullShare ((outsAt4 V c n hn).2.2.2.1) ∗ owns (c : Thread nD τ) scM4_1 fullShare ((outsAt4 V c n hn).2.2.2.2)
      ∗ restBut4 c ∗ (∃ r, prngReg c r)) := rfl
theorem PhiS4_pos (c : Dev nD) (n : ℕ) (h : n ≤ cfg4.N) (hz : n ≠ 0) :
    PhiS4 V c n h = iprop(owns (c : Thread nD τ) scM4_0 fullShare ((outsAt4 V c (n - 1) (by omega)).2.2.2.1) ∗ owns (c : Thread nD τ) scM4_1 fullShare ((outsAt4 V c (n - 1) (by omega)).2.2.2.2)
      ∗ restBut4 c ∗ (∃ r, prngReg c r)) := by
  cases n with
  | zero => exact absurd rfl hz
  | succ n => rfl

/-- The class invariant opened at the two running sums. -/
theorem PhiA4_in (c : Dev nD) : (Pipeline.ΦA spec4 c : sProp 𝕄)
    ⊢ iprop((∃ d, owns (c : Thread nD τ) scM4_0 fullShare d) ∗ (∃ d, owns (c : Thread nD τ) scM4_1 fullShare d) ∗ restBut4 c ∗ (∃ r, prngReg c r)) := by
  unfold Pipeline.ΦA; rw [scopedRest4_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA4_out (c : Dev nD) : iprop((∃ d, owns (c : Thread nD τ) scM4_0 fullShare d) ∗ (∃ d, owns (c : Thread nD τ) scM4_1 fullShare d) ∗ restBut4 c ∗ (∃ r, prngReg c r))
    ⊢ (Pipeline.ΦA spec4 c : sProp 𝕄) := by
  unfold Pipeline.ΦA; rw [scopedRest4_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

end Cert.KernelIdeal.Hand

end
-- ==== Proof.MlpI4Body.lean ====
/-
  The third dense-layer region: the body obligation at every grid point (the first point from the class invariant, every
  later point from the running sums the point before left), and the invariant's way in and out.
-/
import proofs.«170985_j13606456394542_1_alg».proof.Proof.MlpI4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4800000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6, after4_7]
  by_cases hz : t.val = 0
  · rw [outsAt4_A V c t hz]
    unfold outA4; (try dsimp only)
    rw [PhiS4_castSucc V c t, PhiS4_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA4_in (F := F) c) $$ HΦ
    icases HΦ' with ⟨HS0, HS1, HR, Hg⟩
    iapply ((runA4 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA4_S0 V c t hz)
      isplitl [HS1]
      · unfold owns; iexists _; isplitr
        swap; · iexact HS1
        ipureintro; exact View.read_writes_of_cover _ _ _ _ _ (coverA4_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA4_5 V c t hz)
    isplitl [H6]
    · unfold owns; iexists _; isplitr
      swap; · iexact H6
      ipureintro; exact View.read_writes_of_cover _ _ _ _ _ (coverA4_6 V c t hz)
    unfold owns; iexists _; isplitr
    swap; · iexact H7
    ipureintro; exact View.read_writes_of_cover _ _ _ _ _ (coverA4_7 V c t hz)
  · rw [outsAt4_B V c t hz]
    unfold outB4; (try dsimp only)
    rw [PhiS4_castSucc V c t, PhiS4_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB4 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB4_S0 V c t hz _ _)
      isplitl [HS1]
      · unfold owns; iexists _; isplitr
        swap; · iexact HS1
        ipureintro; exact View.read_writes_of_cover _ _ _ _ _ (coverB4_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB4_5 V c t hz _ _)
    isplitl [H6]
    · unfold owns; iexists _; isplitr
      swap; · iexact H6
      ipureintro; exact View.read_writes_of_cover _ _ _ _ _ (coverB4_6 V c t hz _ _)
    unfold owns; iexists _; isplitr
    swap; · iexact H7
    ipureintro; exact View.read_writes_of_cover _ _ _ _ _ (coverB4_7 V c t hz _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the running sums' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega)]
  have h : ∀ (a b : Vec F S1x64 .f32), (iprop(owns (c : Thread nD τ) scM4_0 fullShare a ∗ owns (c : Thread nD τ) scM4_1 fullShare b ∗ restBut4 c ∗ (∃ r, prngReg c r)) : sProp 𝕄)
      ⊢ iprop((∃ d, owns (c : Thread nD τ) scM4_0 fullShare d) ∗ (∃ d, owns (c : Thread nD τ) scM4_1 fullShare d) ∗ restBut4 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA4_out (F := F) c)

end Cert.KernelIdeal.Hand

end
-- ==== Proof.BnRegionI.lean ====
/- The class-A half of the frame for the batch-norm-and-rectify regions of `KernelIdeal`'s @main (custom_call 1),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 1 of @main: custom_call 1, `cc1__bn_relu_kernel` (pipeline 1), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it at that point or not (when it did not, the block index has not moved since the last fetch), for any
    proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded and stored whole -/

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_0, k1_pay1 (View.ld x0 r1_0) (View.ld x1 r1_1) (View.ld x2 r1_1) (View.ld x3 r1_1) (View.ld x4 r1_1)⟩]

/-- The one store is the whole block, so it covers the buffer: one tile of the block's own size at offset zero. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out1_5` of the inputs:
    five whole loads, a load of the output buffer whose value is dropped, and one whole store. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer still at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.BnRegionI3.lean ====
/- The class-A half of the frame for the batch-norm-and-rectify regions of `KernelIdeal`'s @main (custom_call 3),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 3 of @main: custom_call 3, `cc3__bn_relu_kernel` (pipeline 3), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every grid point, whether the pipeline
    fetched it at that point or not (when it did not, the block index has not moved since the last fetch), for any
    proof data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is loaded and stored whole -/

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out3_5 (x0 : Vec F S5000x64 .f32) (x1 : Vec F S1x64 .f32) (x2 : Vec F S1x64 .f32) (x3 : Vec F S1x64 .f32) (x4 : Vec F S1x64 .f32) : Vec F S5000x64 .f32 :=
  View.canon [⟨r3_0, k3_pay1 (View.ld x0 r3_0) (View.ld x1 r3_1) (View.ld x2 r3_1) (View.ld x3 r3_1) (View.ld x4 r3_1)⟩]

/-- The one store is the whole block, so it covers the buffer: one tile of the block's own size at offset zero. -/
theorem cover3_5 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out3_5` of the inputs:
    five whole loads, a load of the output buffer whose value is dropped, and one whole store. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer still at its block and the output's at `out3_5` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.BnRegionI5.lean ====
/- The class-A half of the frame for the batch-norm-and-rectify regions of `KernelIdeal`'s @main (custom_call 5),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.KernelIdeal.Launch
import proofs.«170985_j13606456394542_1_alg».proof.Proof.Gen.KernelIdeal.Skeleton
import proofs.«170985_j13606456394542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 5 of @main: custom_call 5, `cc5__bn_relu_kernel` (pipeline 5), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of the array at every grid point, whether the pipeline
    fetched it at that point or not (when it did not, the block index has not moved since the last fetch), for any
    proof data whose array is `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is loaded and stored whole -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_0, k5_pay1 (View.ld x0 r5_0) (View.ld x1 r5_1) (View.ld x2 r5_1) (View.ld x3 r5_1) (View.ld x4 r5_1)⟩]

/-- The one store is the whole block, so it covers the buffer: one tile of the block's own size at offset zero. -/
theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out5_5` of the inputs:
    five whole loads, a load of the output buffer whose value is dropped, and one whole store. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer still at its block and the output's at `out5_5` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.AsmI.lean ====
/-
  The whole run of the kernel program: the six kernel regions as segments between the seven stretches of host operations,
  each region entered from every unscoped buffer at the contents the stretch before it left and left with its arrays at what
  its write-backs leave; then the launch, whose post keeps every unscoped buffer at the last contents.
-/
import proofs.«170985_j13606456394542_1_alg».proof.Proof.MlpI0Body
import proofs.«170985_j13606456394542_1_alg».proof.Proof.MlpI2Body
import proofs.«170985_j13606456394542_1_alg».proof.Proof.MlpI4Body
import proofs.«170985_j13606456394542_1_alg».proof.Proof.BnRegionI
import proofs.«170985_j13606456394542_1_alg».proof.Proof.BnRegionI3
import proofs.«170985_j13606456394542_1_alg».proof.Proof.BnRegionI5
import proofs.«170985_j13606456394542_1_alg».proof.Proof.RegionsPI
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

/-! ## What each region leaves, region by region (each from the contents the regions before it left) -/

/-- At region 0's exit: its arrays at what the pipeline leaves, every other buffer as entered. -/
def X2 (c : Dev nD) : Valuation τ sig (Elt F) := Pipeline.withArrays spec0 c (V1 m c) fun w => (dat0 (atRefs (V1 m)) c).arrAt w cfg0.N
abbrev o1 : Outs (F := F) := fun _ r c => X2 m c r
/-- At region 1's exit. -/
def X4 (c : Dev nD) : Valuation τ sig (Elt F) := Pipeline.withArrays spec1 c (V3 m (o1 m) c) fun w => (dat1 (atRefs (V3 m (o1 m))) c).arrAt w cfg1.N
abbrev o2 : Outs (F := F) := fun J r c => if J = 4 then X4 m c r else o1 m J r c
/-- At region 2's exit. -/
def X6 (c : Dev nD) : Valuation τ sig (Elt F) := Pipeline.withArrays spec2 c (V5 m (o2 m) c) fun w => (dat2 (atRefs (V5 m (o2 m))) c).arrAt w cfg2.N
abbrev o3 : Outs (F := F) := fun J r c => if J = 6 then X6 m c r else o2 m J r c
/-- At region 3's exit. -/
def X8 (c : Dev nD) : Valuation τ sig (Elt F) := Pipeline.withArrays spec3 c (V7 m (o3 m) c) fun w => (dat3 (atRefs (V7 m (o3 m))) c).arrAt w cfg3.N
abbrev o4 : Outs (F := F) := fun J r c => if J = 8 then X8 m c r else o3 m J r c
/-- At region 4's exit. -/
def X10 (c : Dev nD) : Valuation τ sig (Elt F) := Pipeline.withArrays spec4 c (V9 m (o4 m) c) fun w => (dat4 (atRefs (V9 m (o4 m))) c).arrAt w cfg4.N
abbrev o5 : Outs (F := F) := fun J r c => if J = 10 then X10 m c r else o4 m J r c
/-- At region 5's exit. -/
def X12 (c : Dev nD) : Valuation τ sig (Elt F) := Pipeline.withArrays spec5 c (V11 m (o5 m) c) fun w => (dat5 (atRefs (V11 m (o5 m))) c).arrAt w cfg5.N
abbrev o6 : Outs (F := F) := fun J r c => if J = 12 then X12 m c r else o5 m J r c
/-- What the regions leave in the buffers they may change. -/
abbrev outs : Outs (F := F) := o6 m

theorem stage1 : V3 m (outs m) = V3 m (o1 m) := rfl
theorem stage2 : V5 m (outs m) = V5 m (o2 m) := rfl
theorem stage3 : V7 m (outs m) = V7 m (o3 m) := rfl
theorem stage4 : V9 m (outs m) = V9 m (o4 m) := rfl
theorem stage5 : V11 m (outs m) = V11 m (o5 m) := rfl

/-! ## The proof data family and the thread state -/

def pdats : (p : Fin 6) → (c : Dev nD) → Dat τ (Elt F) Unit ℕ (UR sig nD τ) ℕ (cfgs p) c
  | ⟨0, _⟩ => fun c => dat0 (atRefs (V1 m)) c
  | ⟨1, _⟩ => fun c => dat1 (atRefs (V3 m (outs m))) c
  | ⟨2, _⟩ => fun c => dat2 (atRefs (V5 m (outs m))) c
  | ⟨3, _⟩ => fun c => dat3 (atRefs (V7 m (outs m))) c
  | ⟨4, _⟩ => fun c => dat4 (atRefs (V9 m (outs m))) c
  | ⟨5, _⟩ => fun c => dat5 (atRefs (V11 m (outs m))) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem X2_arr (c : Dev nD) (w : Fin cfg0.W) : X2 m c (Proc.devRef .tc (Pipeline.arrRef spec0 w)) = (dat0 (atRefs (V1 m)) c).arrAt w cfg0.N := by
  unfold X2; exact Pipeline.withArrays_arr spec0 launch0.win.arr_inj c _ _ w
set_option maxHeartbeats 4000000 in
theorem hF0 (c : Dev nD) (w : Fin cfg0.W) : (dat0 (atRefs (V1 m)) c).arrAt w cfg0.N = atRefs (V2 m (outs m)) c (Pipeline.arrRef spec0 w) := by
  fin_cases w
  · exact (((dat0 (atRefs (V1 m)) c).arrAt_in 0 rfl _).trans (A_eq0 (atRefs (V1 m)) c 0)).trans (V2_of m (outs m) c _ (by decide)).symm
  · exact (((dat0 (atRefs (V1 m)) c).arrAt_in 1 rfl _).trans (A_eq0 (atRefs (V1 m)) c 1)).trans (V2_of m (outs m) c _ (by decide)).symm
  · exact (((dat0 (atRefs (V1 m)) c).arrAt_in 2 rfl _).trans (A_eq0 (atRefs (V1 m)) c 2)).trans (V2_of m (outs m) c _ (by decide)).symm
  · exact (((dat0 (atRefs (V1 m)) c).arrAt_in 3 rfl _).trans (A_eq0 (atRefs (V1 m)) c 3)).trans (V2_of m (outs m) c _ (by decide)).symm
  · exact (((dat0 (atRefs (V1 m)) c).arrAt_in 4 rfl _).trans (A_eq0 (atRefs (V1 m)) c 4)).trans (V2_of m (outs m) c _ (by decide)).symm
  · refine (X2_arr m c 5).symm.trans ?_
    show X2 m c (Proc.devRef .tc main_v34_0) = V2 m (outs m) c (Proc.devRef .tc main_v34_0)
    simp only [V2, Function.update_of_ne (StableHlo.devRef_ne_of_ne (by decide) : (Proc.devRef .tc main_v34_0 : DevRef τ sig) ≠ Proc.devRef .tc main_v34_2), Function.update_of_ne (StableHlo.devRef_ne_of_ne (by decide) : (Proc.devRef .tc main_v34_0 : DevRef τ sig) ≠ Proc.devRef .tc main_v34_1), Function.update_self]
    rfl
  · refine (X2_arr m c 6).symm.trans ?_
    show X2 m c (Proc.devRef .tc main_v34_1) = V2 m (outs m) c (Proc.devRef .tc main_v34_1)
    simp only [V2, Function.update_of_ne (StableHlo.devRef_ne_of_ne (by decide) : (Proc.devRef .tc main_v34_1 : DevRef τ sig) ≠ Proc.devRef .tc main_v34_2), Function.update_self]
    rfl
  · refine (X2_arr m c 7).symm.trans ?_
    show X2 m c (Proc.devRef .tc main_v34_2) = V2 m (outs m) c (Proc.devRef .tc main_v34_2)
    simp only [V2, Function.update_self]
    rfl
theorem hrest0 (c : Dev nD) : ∀ b, b ∉ Finset.univ.image (Pipeline.arrRef spec0) → atRefs (V2 m (outs m)) c b = atRefs (V1 m) c b := fun b hb =>
  V2_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (atRefs (V1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V1 m) c) (atRefs (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X4_arr (c : Dev nD) (w : Fin cfg1.W) : X4 m c (Proc.devRef .tc (Pipeline.arrRef spec1 w)) = (dat1 (atRefs (V3 m (o1 m))) c).arrAt w cfg1.N := by
  unfold X4; exact Pipeline.withArrays_arr spec1 launch1.win.arr_inj c _ _ w
theorem X4_arr' (c : Dev nD) (w : Fin cfg1.W) : X4 m c (Proc.devRef .tc (Pipeline.arrRef spec1 w)) = (dat1 (atRefs (V3 m (outs m))) c).arrAt w cfg1.N := by
  rw [stage1]; exact X4_arr m c w
set_option maxHeartbeats 4000000 in
theorem hF1 (c : Dev nD) (w : Fin cfg1.W) : (dat1 (atRefs (V3 m (outs m))) c).arrAt w cfg1.N = atRefs (V4 m (outs m)) c (Pipeline.arrRef spec1 w) := by
  fin_cases w
  · exact (((dat1 (atRefs (V3 m (outs m))) c).arrAt_in 0 rfl _).trans (A_eq1 (atRefs (V3 m (outs m))) c 0)).trans (V4_of m (outs m) c _ (by decide)).symm
  · exact (((dat1 (atRefs (V3 m (outs m))) c).arrAt_in 1 rfl _).trans (A_eq1 (atRefs (V3 m (outs m))) c 1)).trans (V4_of m (outs m) c _ (by decide)).symm
  · exact (((dat1 (atRefs (V3 m (outs m))) c).arrAt_in 2 rfl _).trans (A_eq1 (atRefs (V3 m (outs m))) c 2)).trans (V4_of m (outs m) c _ (by decide)).symm
  · exact (((dat1 (atRefs (V3 m (outs m))) c).arrAt_in 3 rfl _).trans (A_eq1 (atRefs (V3 m (outs m))) c 3)).trans (V4_of m (outs m) c _ (by decide)).symm
  · exact (((dat1 (atRefs (V3 m (outs m))) c).arrAt_in 4 rfl _).trans (A_eq1 (atRefs (V3 m (outs m))) c 4)).trans (V4_of m (outs m) c _ (by decide)).symm
  · refine (X4_arr' m c 5).symm.trans ?_
    show X4 m c (Proc.devRef .tc main_v50) = V4 m (outs m) c (Proc.devRef .tc main_v50)
    simp only [V4, Function.update_self]
    rfl
theorem hrest1 (c : Dev nD) : ∀ b, b ∉ Finset.univ.image (Pipeline.arrRef spec1) → atRefs (V4 m (outs m)) c b = atRefs (V3 m (outs m)) c b := fun b hb =>
  V4_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 1 over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atRefs (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V3 m (outs m)) c) (atRefs (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X6_arr (c : Dev nD) (w : Fin cfg2.W) : X6 m c (Proc.devRef .tc (Pipeline.arrRef spec2 w)) = (dat2 (atRefs (V5 m (o2 m))) c).arrAt w cfg2.N := by
  unfold X6; exact Pipeline.withArrays_arr spec2 launch2.win.arr_inj c _ _ w
theorem X6_arr' (c : Dev nD) (w : Fin cfg2.W) : X6 m c (Proc.devRef .tc (Pipeline.arrRef spec2 w)) = (dat2 (atRefs (V5 m (outs m))) c).arrAt w cfg2.N := by
  rw [stage2]; exact X6_arr m c w
set_option maxHeartbeats 4000000 in
theorem hF2 (c : Dev nD) (w : Fin cfg2.W) : (dat2 (atRefs (V5 m (outs m))) c).arrAt w cfg2.N = atRefs (V6 m (outs m)) c (Pipeline.arrRef spec2 w) := by
  fin_cases w
  · exact (((dat2 (atRefs (V5 m (outs m))) c).arrAt_in 0 rfl _).trans (A_eq2 (atRefs (V5 m (outs m))) c 0)).trans (V6_of m (outs m) c _ (by decide)).symm
  · exact (((dat2 (atRefs (V5 m (outs m))) c).arrAt_in 1 rfl _).trans (A_eq2 (atRefs (V5 m (outs m))) c 1)).trans (V6_of m (outs m) c _ (by decide)).symm
  · exact (((dat2 (atRefs (V5 m (outs m))) c).arrAt_in 2 rfl _).trans (A_eq2 (atRefs (V5 m (outs m))) c 2)).trans (V6_of m (outs m) c _ (by decide)).symm
  · exact (((dat2 (atRefs (V5 m (outs m))) c).arrAt_in 3 rfl _).trans (A_eq2 (atRefs (V5 m (outs m))) c 3)).trans (V6_of m (outs m) c _ (by decide)).symm
  · exact (((dat2 (atRefs (V5 m (outs m))) c).arrAt_in 4 rfl _).trans (A_eq2 (atRefs (V5 m (outs m))) c 4)).trans (V6_of m (outs m) c _ (by decide)).symm
  · refine (X6_arr' m c 5).symm.trans ?_
    show X6 m c (Proc.devRef .tc main_v81_0) = V6 m (outs m) c (Proc.devRef .tc main_v81_0)
    simp only [V6, Function.update_of_ne (StableHlo.devRef_ne_of_ne (by decide) : (Proc.devRef .tc main_v81_0 : DevRef τ sig) ≠ Proc.devRef .tc main_v81_2), Function.update_of_ne (StableHlo.devRef_ne_of_ne (by decide) : (Proc.devRef .tc main_v81_0 : DevRef τ sig) ≠ Proc.devRef .tc main_v81_1), Function.update_self]
    rfl
  · refine (X6_arr' m c 6).symm.trans ?_
    show X6 m c (Proc.devRef .tc main_v81_1) = V6 m (outs m) c (Proc.devRef .tc main_v81_1)
    simp only [V6, Function.update_of_ne (StableHlo.devRef_ne_of_ne (by decide) : (Proc.devRef .tc main_v81_1 : DevRef τ sig) ≠ Proc.devRef .tc main_v81_2), Function.update_self]
    rfl
  · refine (X6_arr' m c 7).symm.trans ?_
    show X6 m c (Proc.devRef .tc main_v81_2) = V6 m (outs m) c (Proc.devRef .tc main_v81_2)
    simp only [V6, Function.update_self]
    rfl
theorem hrest2 (c : Dev nD) : ∀ b, b ∉ Finset.univ.image (Pipeline.arrRef spec2) → atRefs (V6 m (outs m)) c b = atRefs (V5 m (outs m)) c b := fun b hb =>
  V6_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (V5 m (outs m))) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atRefs (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (atRefs (V5 m (outs m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V5 m (outs m)) c) (atRefs (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X8_arr (c : Dev nD) (w : Fin cfg3.W) : X8 m c (Proc.devRef .tc (Pipeline.arrRef spec3 w)) = (dat3 (atRefs (V7 m (o3 m))) c).arrAt w cfg3.N := by
  unfold X8; exact Pipeline.withArrays_arr spec3 launch3.win.arr_inj c _ _ w
theorem X8_arr' (c : Dev nD) (w : Fin cfg3.W) : X8 m c (Proc.devRef .tc (Pipeline.arrRef spec3 w)) = (dat3 (atRefs (V7 m (outs m))) c).arrAt w cfg3.N := by
  rw [stage3]; exact X8_arr m c w
set_option maxHeartbeats 4000000 in
theorem hF3 (c : Dev nD) (w : Fin cfg3.W) : (dat3 (atRefs (V7 m (outs m))) c).arrAt w cfg3.N = atRefs (V8 m (outs m)) c (Pipeline.arrRef spec3 w) := by
  fin_cases w
  · exact (((dat3 (atRefs (V7 m (outs m))) c).arrAt_in 0 rfl _).trans (A_eq3 (atRefs (V7 m (outs m))) c 0)).trans (V8_of m (outs m) c _ (by decide)).symm
  · exact (((dat3 (atRefs (V7 m (outs m))) c).arrAt_in 1 rfl _).trans (A_eq3 (atRefs (V7 m (outs m))) c 1)).trans (V8_of m (outs m) c _ (by decide)).symm
  · exact (((dat3 (atRefs (V7 m (outs m))) c).arrAt_in 2 rfl _).trans (A_eq3 (atRefs (V7 m (outs m))) c 2)).trans (V8_of m (outs m) c _ (by decide)).symm
  · exact (((dat3 (atRefs (V7 m (outs m))) c).arrAt_in 3 rfl _).trans (A_eq3 (atRefs (V7 m (outs m))) c 3)).trans (V8_of m (outs m) c _ (by decide)).symm
  · exact (((dat3 (atRefs (V7 m (outs m))) c).arrAt_in 4 rfl _).trans (A_eq3 (atRefs (V7 m (outs m))) c 4)).trans (V8_of m (outs m) c _ (by decide)).symm
  · refine (X8_arr' m c 5).symm.trans ?_
    show X8 m c (Proc.devRef .tc main_v97) = V8 m (outs m) c (Proc.devRef .tc main_v97)
    simp only [V8, Function.update_self]
    rfl
theorem hrest3 (c : Dev nD) : ∀ b, b ∉ Finset.univ.image (Pipeline.arrRef spec3) → atRefs (V8 m (outs m)) c b = atRefs (V7 m (outs m)) c b := fun b hb =>
  V8_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (V7 m (outs m))) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atRefs (V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V7 m (outs m)) c) (atRefs (V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X10_arr (c : Dev nD) (w : Fin cfg4.W) : X10 m c (Proc.devRef .tc (Pipeline.arrRef spec4 w)) = (dat4 (atRefs (V9 m (o4 m))) c).arrAt w cfg4.N := by
  unfold X10; exact Pipeline.withArrays_arr spec4 launch4.win.arr_inj c _ _ w
theorem X10_arr' (c : Dev nD) (w : Fin cfg4.W) : X10 m c (Proc.devRef .tc (Pipeline.arrRef spec4 w)) = (dat4 (atRefs (V9 m (outs m))) c).arrAt w cfg4.N := by
  rw [stage4]; exact X10_arr m c w
set_option maxHeartbeats 4000000 in
theorem hF4 (c : Dev nD) (w : Fin cfg4.W) : (dat4 (atRefs (V9 m (outs m))) c).arrAt w cfg4.N = atRefs (V10 m (outs m)) c (Pipeline.arrRef spec4 w) := by
  fin_cases w
  · exact (((dat4 (atRefs (V9 m (outs m))) c).arrAt_in 0 rfl _).trans (A_eq4 (atRefs (V9 m (outs m))) c 0)).trans (V10_of m (outs m) c _ (by decide)).symm
  · exact (((dat4 (atRefs (V9 m (outs m))) c).arrAt_in 1 rfl _).trans (A_eq4 (atRefs (V9 m (outs m))) c 1)).trans (V10_of m (outs m) c _ (by decide)).symm
  · exact (((dat4 (atRefs (V9 m (outs m))) c).arrAt_in 2 rfl _).trans (A_eq4 (atRefs (V9 m (outs m))) c 2)).trans (V10_of m (outs m) c _ (by decide)).symm
  · exact (((dat4 (atRefs (V9 m (outs m))) c).arrAt_in 3 rfl _).trans (A_eq4 (atRefs (V9 m (outs m))) c 3)).trans (V10_of m (outs m) c _ (by decide)).symm
  · exact (((dat4 (atRefs (V9 m (outs m))) c).arrAt_in 4 rfl _).trans (A_eq4 (atRefs (V9 m (outs m))) c 4)).trans (V10_of m (outs m) c _ (by decide)).symm
  · refine (X10_arr' m c 5).symm.trans ?_
    show X10 m c (Proc.devRef .tc main_v128_0) = V10 m (outs m) c (Proc.devRef .tc main_v128_0)
    simp only [V10, Function.update_of_ne (StableHlo.devRef_ne_of_ne (by decide) : (Proc.devRef .tc main_v128_0 : DevRef τ sig) ≠ Proc.devRef .tc main_v128_2), Function.update_of_ne (StableHlo.devRef_ne_of_ne (by decide) : (Proc.devRef .tc main_v128_0 : DevRef τ sig) ≠ Proc.devRef .tc main_v128_1), Function.update_self]
    rfl
  · refine (X10_arr' m c 6).symm.trans ?_
    show X10 m c (Proc.devRef .tc main_v128_1) = V10 m (outs m) c (Proc.devRef .tc main_v128_1)
    simp only [V10, Function.update_of_ne (StableHlo.devRef_ne_of_ne (by decide) : (Proc.devRef .tc main_v128_1 : DevRef τ sig) ≠ Proc.devRef .tc main_v128_2), Function.update_self]
    rfl
  · refine (X10_arr' m c 7).symm.trans ?_
    show X10 m c (Proc.devRef .tc main_v128_2) = V10 m (outs m) c (Proc.devRef .tc main_v128_2)
    simp only [V10, Function.update_self]
    rfl
theorem hrest4 (c : Dev nD) : ∀ b, b ∉ Finset.univ.image (Pipeline.arrRef spec4) → atRefs (V10 m (outs m)) c b = atRefs (V9 m (outs m)) c b := fun b hb =>
  V10_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (V9 m (outs m))) c).loose
  hwaits := Pipeline.hwaits_of_owed_zero _ _ _ _ L lv 4 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atRefs (V9 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (atRefs (V9 m (outs m))) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (V9 m (outs m)) c) (atRefs (V10 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X12_arr (c : Dev nD) (w : Fin cfg5.W) : X12 m c (Proc.devRef .tc (Pipeline.arrRef spec5 w)) = (dat5 (atRefs (V11 m (o5 m))) c).arrAt w cfg5.N := by
  unfold X12; exact Pipeline.withArrays_arr spec5 launch5.win.arr_inj c _ _ w
theorem X12_arr' (c : Dev nD) (w : Fin cfg5.W) : X12 m c (Proc.devRef .tc (Pipeline.arrRef spec5 w)) = (dat5 (atRefs (V11 m (outs m))) c).arrAt w cfg5.N := by
  rw [stage5]; exact X12_arr m c w
set_option maxHeartbeats 4000000 in
theorem hF5 (c : Dev nD) (w : Fin cfg5.W) : (dat5 (atRefs (V11 m (outs m))) c).arrAt w cfg5.N = atRefs (V12 m (outs m)) c (Pipeline.arrRef spec5 w) := by
  fin_cases w
  · exact (((dat5 (atRefs (V11 m (outs m))) c).arrAt_in 0 rfl _).trans (A_eq5 (atRefs (V11 m (outs m))) c 0)).trans (V12_of m (outs m) c _ (by decide)).symm
  · exact (((dat5 (atRefs (V11 m (outs m))) c).arrAt_in 1 rfl _).trans (A_eq5 (atRefs (V11 m (outs m))) c 1)).trans (V12_of m (outs m) c _ (by decide)).symm
  · exact (((dat5 (atRefs (V11 m (outs m))) c).arrAt_in 2 rfl _).trans (A_eq5 (atRefs (V11 m (outs m))) c 2)).trans (V12_of m (outs m) c _ (by decide)).symm
  · exact (((dat5 (atRefs (V11 m (outs m))) c).arrAt_in 3 rfl _).trans (A_eq5 (atRefs (V11 m (outs m))) c 3)).trans (V12_of m (outs m) c _ (by decide)).symm
  · exact (((dat5 (atRefs (V11 m (outs m))) c).arrAt_in 4 rfl _).trans (A_eq5 (atRefs (V11 m (outs m))) c 4)).trans (V12_of m (outs m) c _ (by decide)).symm
  · refine (X12_arr' m c 5).symm.trans ?_
    show X12 m c (Proc.devRef .tc main_v144) = V12 m (outs m) c (Proc.devRef .tc main_v144)
    simp only [V12, Function.update_self]
    rfl
theorem hrest5 (c : Dev nD) : ∀ b, b ∉ Finset.univ.image (Pipeline.arrRef spec5) → atRefs (V12 m (outs m)) c b = atRefs (V11 m (outs m)) c b := fun b hb =>
  V12_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (V11 m (outs m))) c).loose
  hwaits := Pipeline.hwaits_of_owed_zero _ _ _ _ L lv 5 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec5 c (atRefs (V11 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (V11 m (outs m)) c) (atRefs (V12 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option maxHeartbeats 8000000 in
set_option backward.isDefEq.respectTransparency.types false in
/-- From any memory with zero counters every weakly fair execution of @main terminates, nothing faulting, and every
    unscoped buffer of every core ends at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h1 : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      iintro ⟨H, -⟩
      imodintro
      iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => R c) : sProp 𝕄) from bigSep_mono fun c _ => h1 c)
      iexact H)
    (fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)

end Cert.KernelIdeal.Hand

end
-- ==== Proof.MlpB0Base.lean ====
/-
  The first dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The two scratch rows (running sum, running sum of squares) as whole memrefs and as views. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer per output window, through which its contents are stated. -/
abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view

end Cert.Kernel.Hand

end
-- ==== Proof.MlpB0RunA.lean ====
/-
  The dense-layer region's body run whole at the first grid point (the running sums are cleared first):
  what the body's stores leave in the three output blocks and the two running-sum rows, as written pieces.
-/
import proofs.«170985_j13606456394542_1_alg».proof.Proof.MlpB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun0_A (c : Dev nD) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond0_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB0RunB.lean ====
/-
  The dense-layer region's body run whole at a later grid point (the running sums continue from the point before):
  what the body's stores leave in the three output blocks and the two running-sum rows, as written pieces.
-/
import proofs.«170985_j13606456394542_1_alg».proof.Proof.MlpB0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun0_B (c : Dev nD) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond0_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB0.lean ====
/-
  The first dense-layer region, point by point: what the three output blocks and the two running-sum rows hold after each
  grid point (the first point starts the sums from zero, every later point continues from the one before), the region's
  proof data over these, and the body obligation at every point.
-/
import proofs.«170985_j13606456394542_1_alg».proof.Proof.MlpB0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)

/-- The first point's run at the point's memrefs and input blocks. -/
abbrev runA0 (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk0 V c 0 t) (iblk0 V c 1 t) (iblk0 V c 2 t) (iblk0 V c 3 t) (iblk0 V c 4 t)
/-- A later point's run, the running sums entering at `xs0`, `xs1`. -/
abbrev runB0 (c : Dev nD) (t : Fin cfg0.N) (h : t.val ≠ 0) (xs0 xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk0 V c 0 t) (iblk0 V c 1 t) (iblk0 V c 2 t) (iblk0 V c 3 t) (iblk0 V c 4 t) xs0 xs1

/-- What the first point leaves: the three output blocks, then the two running sums (each the run's pieces read back). -/
def outA0 (c : Dev nD) (t : Fin cfg0.N) (h : t.val = 0) : Vec F S5000x64 .f32 × Vec F S1x64 .f32 × Vec F S1x64 .f32 × Vec F S1x64 .f32 × Vec F S1x64 .f32 :=
  (VO0_5.read (Elt F) (VO0_5.writes (Elt F) VO0_5.junk (runA0 V c t h).1),
   VO0_6.read (Elt F) (VO0_6.writes (Elt F) VO0_6.junk (runA0 V c t h).2.1),
   VO0_7.read (Elt F) (VO0_7.writes (Elt F) VO0_7.junk (runA0 V c t h).2.2.1),
   VS0_0.read (Elt F) (VS0_0.writes (Elt F) VS0_0.junk (runA0 V c t h).2.2.2.1),
   VS0_1.read (Elt F) (VS0_1.writes (Elt F) VS0_1.junk (runA0 V c t h).2.2.2.2.1))
/-- What a later point leaves, from the running sums the point before left. -/
def outB0 (c : Dev nD) (t : Fin cfg0.N) (h : t.val ≠ 0) (xs0 xs1 : Vec F S1x64 .f32) : Vec F S5000x64 .f32 × Vec F S1x64 .f32 × Vec F S1x64 .f32 × Vec F S1x64 .f32 × Vec F S1x64 .f32 :=
  (VO0_5.read (Elt F) (VO0_5.writes (Elt F) VO0_5.junk (runB0 V c t h xs0 xs1).1),
   VO0_6.read (Elt F) (VO0_6.writes (Elt F) VO0_6.junk (runB0 V c t h xs0 xs1).2.1),
   VO0_7.read (Elt F) (VO0_7.writes (Elt F) VO0_7.junk (runB0 V c t h xs0 xs1).2.2.1),
   VS0_0.read (Elt F) (VS0_0.writes (Elt F) VS0_0.junk (runB0 V c t h xs0 xs1).2.2.2.1),
   VS0_1.read (Elt F) (VS0_1.writes (Elt F) VS0_1.junk (runB0 V c t h xs0 xs1).2.2.2.2.1))

/-- Every piece list the runs find tiles its buffer. -/
theorem coverA0_5 (c : Dev nD) (t : Fin cfg0.N) (h : t.val = 0) (y : S5000x64.Idx) : ∃ pc ∈ (runA0 V c t h).1, y ∈ pc.1.set :=
  View.cover_of_tiledL (runA0 V c t h).1 S5000x64.size (by sl_kernel_rfl) y
theorem coverA0_6 (c : Dev nD) (t : Fin cfg0.N) (h : t.val = 0) (y : S1x64.Idx) : ∃ pc ∈ (runA0 V c t h).2.1, y ∈ pc.1.set :=
  View.cover_of_tiledL (runA0 V c t h).2.1 S1x64.size (by sl_kernel_rfl) y
theorem coverA0_7 (c : Dev nD) (t : Fin cfg0.N) (h : t.val = 0) (y : S1x64.Idx) : ∃ pc ∈ (runA0 V c t h).2.2.1, y ∈ pc.1.set :=
  View.cover_of_tiledL (runA0 V c t h).2.2.1 S1x64.size (by sl_kernel_rfl) y
theorem coverA0_S0 (c : Dev nD) (t : Fin cfg0.N) (h : t.val = 0) (y : S1x64.Idx) : ∃ pc ∈ (runA0 V c t h).2.2.2.1, y ∈ pc.1.set :=
  View.cover_of_tiledL (runA0 V c t h).2.2.2.1 S1x64.size (by sl_kernel_rfl) y
theorem coverA0_S1 (c : Dev nD) (t : Fin cfg0.N) (h : t.val = 0) (y : S1x64.Idx) : ∃ pc ∈ (runA0 V c t h).2.2.2.2.1, y ∈ pc.1.set :=
  View.cover_of_tiledL (runA0 V c t h).2.2.2.2.1 S1x64.size (by sl_kernel_rfl) y
theorem coverB0_5 (c : Dev nD) (t : Fin cfg0.N) (h : t.val ≠ 0) (xs0 xs1 : Vec F S1x64 .f32) (y : S5000x64.Idx) : ∃ pc ∈ (runB0 V c t h xs0 xs1).1, y ∈ pc.1.set :=
  View.cover_of_tiledL (runB0 V c t h xs0 xs1).1 S5000x64.size (by sl_kernel_rfl) y
theorem coverB0_6 (c : Dev nD) (t : Fin cfg0.N) (h : t.val ≠ 0) (xs0 xs1 : Vec F S1x64 .f32) (y : S1x64.Idx) : ∃ pc ∈ (runB0 V c t h xs0 xs1).2.1, y ∈ pc.1.set :=
  View.cover_of_tiledL (runB0 V c t h xs0 xs1).2.1 S1x64.size (by sl_kernel_rfl) y
theorem coverB0_7 (c : Dev nD) (t : Fin cfg0.N) (h : t.val ≠ 0) (xs0 xs1 : Vec F S1x64 .f32) (y : S1x64.Idx) : ∃ pc ∈ (runB0 V c t h xs0 xs1).2.2.1, y ∈ pc.1.set :=
  View.cover_of_tiledL (runB0 V c t h xs0 xs1).2.2.1 S1x64.size (by sl_kernel_rfl) y
theorem coverB0_S0 (c : Dev nD) (t : Fin cfg0.N) (h : t.val ≠ 0) (xs0 xs1 : Vec F S1x64 .f32) (y : S1x64.Idx) : ∃ pc ∈ (runB0 V c t h xs0 xs1).2.2.2.1, y ∈ pc.1.set :=
  View.cover_of_tiledL (runB0 V c t h xs0 xs1).2.2.2.1 S1x64.size (by sl_kernel_rfl) y
theorem coverB0_S1 (c : Dev nD) (t : Fin cfg0.N) (h : t.val ≠ 0) (xs0 xs1 : Vec F S1x64 .f32) (y : S1x64.Idx) : ∃ pc ∈ (runB0 V c t h xs0 xs1).2.2.2.2.1, y ∈ pc.1.set :=
  View.cover_of_tiledL (runB0 V c t h xs0 xs1).2.2.2.2.1 S1x64.size (by sl_kernel_rfl) y

/-- THE ACCUMULATION: what the outputs' staging buffers and the two running sums hold after the body at position `n`. -/
def outsAt0 (c : Dev nD) : (n : ℕ) → n < cfg0.N → Vec F S5000x64 .f32 × Vec F S1x64 .f32 × Vec F S1x64 .f32 × Vec F S1x64 .f32 × Vec F S1x64 .f32
  | 0, hn => outA0 V c ⟨0, hn⟩ rfl
  | n + 1, hn => outB0 V c ⟨n + 1, hn⟩ (Nat.succ_ne_zero n) (outsAt0 c n (Nat.lt_of_succ_lt hn)).2.2.2.1 (outsAt0 c n (Nat.lt_of_succ_lt hn)).2.2.2.2

theorem outsAt0_A (c : Dev nD) (t : Fin cfg0.N) (h : t.val = 0) : outsAt0 V c t.val t.isLt = outA0 V c t h := by
  obtain ⟨n, hn⟩ := t
  cases n with
  | zero => rfl
  | succ n => exact absurd h (Nat.succ_ne_zero n)
theorem outsAt0_B (c : Dev nD) (t : Fin cfg0.N) (h : t.val ≠ 0) :
    outsAt0 V c t.val t.isLt = outB0 V c t h (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the scoped rest at anything and the generator register;
    afterwards the two running sums at what the point before left, the other scoped buffers, the generator register. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2.2.2.1) ∗ owns (c : Thread nD τ) scM0_1 fullShare ((outsAt0 V c n hn).2.2.2.2)
      ∗ restBut0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2.2.2.1) ∗ owns (c : Thread nD τ) scM0_1 fullShare ((outsAt0 V c n hn).2.2.2.2)
      ∗ restBut0 c ∗ (∃ r, prngReg c r)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2.2.2.1) ∗ owns (c : Thread nD τ) scM0_1 fullShare ((outsAt0 V c (n - 1) (by omega)).2.2.2.2)
      ∗ restBut0 c ∗ (∃ r, prngReg c r)) := by
  cases n with
  | zero => exact absurd rfl hz
  | succ n => rfl

/-- The class invariant opened at the two running sums. -/
theorem PhiA0_in (c : Dev nD) : (Pipeline.ΦA spec0 c : sProp 𝕄)
    ⊢ iprop((∃ d, owns (c : Thread nD τ) scM0_0 fullShare d) ∗ (∃ d, owns (c : Thread nD τ) scM0_1 fullShare d) ∗ restBut0 c ∗ (∃ r, prngReg c r)) := by
  unfold Pipeline.ΦA; rw [scopedRest0_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA0_out (c : Dev nD) : iprop((∃ d, owns (c : Thread nD τ) scM0_0 fullShare d) ∗ (∃ d, owns (c : Thread nD τ) scM0_1 fullShare d) ∗ restBut0 c ∗ (∃ r, prngReg c r))
    ⊢ (Pipeline.ΦA spec0 c : sProp 𝕄) := by
  unfold Pipeline.ΦA; rw [scopedRest0_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Hand

end
-- ==== Proof.MlpB0Body.lean ====
/-
  The first dense-layer region: the body obligation at every grid point (the first point from the class invariant, every
  later point from the running sums the point before left), and the invariant's way in and out.
-/
import proofs.«170985_j13606456394542_1_alg».proof.Proof.MlpB0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases hz : t.val = 0
  · rw [outsAt0_A V c t hz]
    unfold outA0; (try dsimp only)
    rw [PhiS0_castSucc V c t, PhiS0_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA0_in (F := F) c) $$ HΦ
    icases HΦ' with ⟨HS0, HS1, HR, Hg⟩
    iapply ((runA0 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA0_S0 V c t hz)
      isplitl [HS1]
      · unfold owns; iexists _; isplitr
        swap; · iexact HS1
        ipureintro; exact View.read_writes_of_cover _ _ _ _ _ (coverA0_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA0_5 V c t hz)
    isplitl [H6]
    · unfold owns; iexists _; isplitr
      swap; · iexact H6
      ipureintro; exact View.read_writes_of_cover _ _ _ _ _ (coverA0_6 V c t hz)
    unfold owns; iexists _; isplitr
    swap; · iexact H7
    ipureintro; exact View.read_writes_of_cover _ _ _ _ _ (coverA0_7 V c t hz)
  · rw [outsAt0_B V c t hz]
    unfold outB0; (try dsimp only)
    rw [PhiS0_castSucc V c t, PhiS0_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB0 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB0_S0 V c t hz _ _)
      isplitl [HS1]
      · unfold owns; iexists _; isplitr
        swap; · iexact HS1
        ipureintro; exact View.read_writes_of_cover _ _ _ _ _ (coverB0_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB0_5 V c t hz _ _)
    isplitl [H6]
    · unfold owns; iexists _; isplitr
      swap; · iexact H6
      ipureintro; exact View.read_writes_of_cover _ _ _ _ _ (coverB0_6 V c t hz _ _)
    unfold owns; iexists _; isplitr
    swap; · iexact H7
    ipureintro; exact View.read_writes_of_cover _ _ _ _ _ (coverB0_7 V c t hz _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sums' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega)]
  have h : ∀ (a b : Vec F S1x64 .f32), (iprop(owns (c : Thread nD τ) scM0_0 fullShare a ∗ owns (c : Thread nD τ) scM0_1 fullShare b ∗ restBut0 c ∗ (∃ r, prngReg c r)) : sProp 𝕄)
      ⊢ iprop((∃ d, owns (c : Thread nD τ) scM0_0 fullShare d) ∗ (∃ d, owns (c : Thread nD τ) scM0_1 fullShare d) ∗ restBut0 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA0_out (F := F) c)

end Cert.Kernel.Hand

end
-- ==== Proof.MlpB2Base.lean ====
/-
  The second dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- The two scratch rows (running sum, running sum of squares) as whole memrefs and as views. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view
/-- One staging buffer per output window, through which its contents are stated. -/
abbrev VO2_5 : View sig .tc .vmem S5000x64 .f32 := (Memref.whole cc2_stg5_0 : Memref sig .tc .vmem S5000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view

end Cert.Kernel.Hand

end
-- ==== Proof.MlpB2RunA.lean ====
/-
  The dense-layer region's body run whole at the first grid point (the running sums are cleared first):
  what the body's stores leave in the three output blocks and the two running-sum rows, as written pieces.
-/
import proofs.«170985_j13606456394542_1_alg».proof.Proof.MlpB2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun2_A (c : Dev nD) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond2_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB2RunB.lean ====
/-
  The dense-layer region's body run whole at a later grid point (the running sums continue from the point before):
  what the body's stores leave in the three output blocks and the two running-sum rows, as written pieces.
-/
import proofs.«170985_j13606456394542_1_alg».proof.Proof.MlpB2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun2_B (c : Dev nD) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond2_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB2.lean ====
/-
  The second dense-layer region, point by point: what the three output blocks and the two running-sum rows hold after each
  grid point (the first point starts the sums from zero, every later point continues from the one before), the region's
  proof data over these, and the body obligation at every point.
-/
import proofs.«170985_j13606456394542_1_alg».proof.Proof.MlpB2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-- The first point's run at the point's memrefs and input blocks. -/
abbrev runA2 (c : Dev nD) (t : Fin cfg2.N) (h : t.val = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h) (iblk2 V c 0 t) (iblk2 V c 1 t) (iblk2 V c 2 t) (iblk2 V c 3 t) (iblk2 V c 4 t)
/-- A later point's run, the running sums entering at `xs0`, `xs1`. -/
abbrev runB2 (c : Dev nD) (t : Fin cfg2.N) (h : t.val ≠ 0) (xs0 xs1 : Vec F S1x64 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hc => h ((hcond2_0 t).mp hc)) (iblk2 V c 0 t) (iblk2 V c 1 t) (iblk2 V c 2 t) (iblk2 V c 3 t) (iblk2 V c 4 t) xs0 xs1

/-- What the first point leaves: the three output blocks, then the two running sums (each the run's pieces read back). -/
def outA2 (c : Dev nD) (t : Fin cfg2.N) (h : t.val = 0) : Vec F S5000x64 .f32 × Vec F S1x64 .f32 × Vec F S1x64 .f32 × Vec F S1x64 .f32 × Vec F S1x64 .f32 :=
  (VO2_5.read (Elt F) (VO2_5.writes (Elt F) VO2_5.junk (runA2 V c t h).1),
   VO2_6.read (Elt F) (VO2_6.writes (Elt F) VO2_6.junk (runA2 V c t h).2.1),
   VO2_7.read (Elt F) (VO2_7.writes (Elt F) VO2_7.junk (runA2 V c t h).2.2.1),
   VS2_0.read (Elt F) (VS2_0.writes (Elt F) VS2_0.junk (runA2 V c t h).2.2.2.1),
   VS2_1.read (Elt F) (VS2_1.writes (Elt F) VS2_1.junk (runA2 V c t h).2.2.2.2.1))
/-- What a later point leaves, from the running sums the point before left. -/
def outB2 (c : Dev nD) (t : Fin cfg2.N) (h : t.val ≠ 0) (xs0 xs1 : Vec F S1x64 .f32) : Vec F S5000x64 .f32 × Vec F S1x64 .f32 × Vec F S1x64 .f32 × Vec F S1x64 .f32 × Vec F S1x64 .f32 :=
  (VO2_5.read (Elt F) (VO2_5.writes (Elt F) VO2_5.junk (runB2 V c t h xs0 xs1).1),
   VO2_6.read (Elt F) (VO2_6.writes (Elt F) VO2_6.junk (runB2 V c t h xs0 xs1).2.1),
   VO2_7.read (Elt F) (VO2_7.writes (Elt F) VO2_7.junk (runB2 V c t h xs0 xs1).2.2.1),
   VS2_0.read (Elt F) (VS2_0.writes (Elt F) VS2_0.junk (runB2 V c t h xs0 xs1).2.2.2.1),
   VS2_1.read (Elt F) (VS2_1.writes (Elt F) VS2_1.junk (runB2 V c t h xs0 xs1).2.2.2.2.1))

/-- Every piece list the runs find tiles its buffer. -/
theorem coverA2_5 (c : Dev nD) (t : Fin cfg2.N) (h : t.val = 0) (y : S5000x64.Idx) : ∃ pc ∈ (runA2 V c t h).1, y ∈ pc.1.set :=
  View.cover_of_tiledL (runA2 V c t h).1 S5000x64.size (by sl_kernel_rfl) y
theorem coverA2_6 (c : Dev nD) (t : Fin cfg2.N) (h : t.val = 0) (y : S1x64.Idx) : ∃ pc ∈ (runA2 V c t h).2.1, y ∈ pc.1.set :=
  View.cover_of_tiledL (runA2 V c t h).2.1 S1x64.size (by sl_kernel_rfl) y
theorem coverA2_7 (c : Dev nD) (t : Fin cfg2.N) (h : t.val = 0) (y : S1x64.Idx) : ∃ pc ∈ (runA2 V c t h).2.2.1, y ∈ pc.1.set :=
  View.cover_of_tiledL (runA2 V c t h).2.2.1 S1x64.size (by sl_kernel_rfl) y
theorem coverA2_S0 (c : Dev nD) (t : Fin cfg2.N) (h : t.val = 0) (y : S1x64.Idx) : ∃ pc ∈ (runA2 V c t h).2.2.2.1, y ∈ pc.1.set :=
  View.cover_of_tiledL (runA2 V c t h).2.2.2.1 S1x64.size (by sl_kernel_rfl) y
theorem coverA2_S1 (c : Dev nD) (t : Fin cfg2.N) (h : t.val = 0) (y : S1x64.Idx) : ∃ pc ∈ (runA2 V c t h).2.2.2.2.1, y ∈ pc.1.set :=
  View.cover_of_tiledL (runA2 V c t h).2.2.2.2.1 S1x64.size (by sl_kernel_rfl) y
theorem coverB2_5 (c : Dev nD) (t : Fin cfg2.N) (h : t.val ≠ 0) (xs0 xs1 : Vec F S1x64 .f32) (y : S5000x64.Idx) : ∃ pc ∈ (runB2 V c t h xs0 xs1).1, y ∈ pc.1.set :=
  View.cover_of_tiledL (runB2 V c t h xs0 xs1).1 S5000x64.size (by sl_kernel_rfl) y
theorem coverB2_6 (c : Dev nD) (t : Fin cfg2.N) (h : t.val ≠ 0) (xs0 xs1 : Vec F S1x64 .f32) (y : S1x64.Idx) : ∃ pc ∈ (runB2 V c t h xs0 xs1).2.1, y ∈ pc.1.set :=
  View.cover_of_tiledL (runB2 V c t h xs0 xs1).2.1 S1x64.size (by sl_kernel_rfl) y
theorem coverB2_7 (c : Dev nD) (t : Fin cfg2.N) (h : t.val ≠ 0) (xs0 xs1 : Vec F S1x64 .f32) (y : S1x64.Idx) : ∃ pc ∈ (runB2 V c t h xs0 xs1).2.2.1, y ∈ pc.1.set :=
  View.cover_of_tiledL (runB2 V c t h xs0 xs1).2.2.1 S1x64.size (by sl_kernel_rfl) y
theorem coverB2_S0 (c : Dev nD) (t : Fin cfg2.N) (h : t.val ≠ 0) (xs0 xs1 : Vec F S1x64 .f32) (y : S1x64.Idx) : ∃ pc ∈ (runB2 V c t h xs0 xs1).2.2.2.1, y ∈ pc.1.set :=
  View.cover_of_tiledL (runB2 V c t h xs0 xs1).2.2.2.1 S1x64.size (by sl_kernel_rfl) y
theorem coverB2_S1 (c : Dev nD) (t : Fin cfg2.N) (h : t.val ≠ 0) (xs0 xs1 : Vec F S1x64 .f32) (y : S1x64.Idx) : ∃ pc ∈ (runB2 V c t h xs0 xs1).2.2.2.2.1, y ∈ pc.1.set :=
  View.cover_of_tiledL (runB2 V c t h xs0 xs1).2.2.2.2.1 S1x64.size (by sl_kernel_rfl) y

/-- THE ACCUMULATION: what the outputs' staging buffers and the two running sums hold after the body at position `n`. -/
def outsAt2 (c : Dev nD) : (n : ℕ) → n < cfg2.N → Vec F S5000x64 .f32 × Vec F S1x64 .f32 × Vec F S1x64 .f32 × Vec F S1x64 .f32 × Vec F S1x64 .f32
  | 0, hn => outA2 V c ⟨0, hn⟩ rfl
  | n + 1, hn => outB2 V c ⟨n + 1, hn⟩ (Nat.succ_ne_zero n) (outsAt2 c n (Nat.lt_of_succ_lt hn)).2.2.2.1 (outsAt2 c n (Nat.lt_of_succ_lt hn)).2.2.2.2

theorem outsAt2_A (c : Dev nD) (t : Fin cfg2.N) (h : t.val = 0) : outsAt2 V c t.val t.isLt = outA2 V c t h := by
  obtain ⟨n, hn⟩ := t
  cases n with
  | zero => rfl
  | succ n => exact absurd h (Nat.succ_ne_zero n)
theorem outsAt2_B (c : Dev nD) (t : Fin cfg2.N) (h : t.val ≠ 0) :
    outsAt2 V c t.val t.isLt = outB2 V c t h (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the scoped rest at anything and the generator register;
    afterwards the two running sums at what the point before left, the other scoped buffers, the generator register. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2.2.2.1) ∗ owns (c : Thread nD τ) scM2_1 fullShare ((outsAt2 V c n hn).2.2.2.2)
      ∗ restBut2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2.2.2.1) ∗ owns (c : Thread nD τ) scM2_1 fullShare ((outsAt2 V c n hn).2.2.2.2)
      ∗ restBut2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2.2.2.1) ∗ owns (c : Thread nD τ) scM2_1 fullShare ((outsAt2 V c (n - 1) (by omega)).2.2.2.2)
      ∗ restBut2 c ∗ (∃ r, prngReg c r)) := by
  cases n with
  | zero => exact absurd rfl hz
  | succ n => rfl

/-- The class invariant opened at the two running sums. -/
theorem PhiA2_in (c : Dev nD) : (Pipeline.ΦA spec2 c : sProp 𝕄)
    ⊢ iprop((∃ d, owns (c : Thread nD τ) scM2_0 fullShare d) ∗ (∃ d, owns (c : Thread nD τ) scM2_1 fullShare d) ∗ restBut2 c ∗ (∃ r, prngReg c r)) := by
  unfold Pipeline.ΦA; rw [scopedRest2_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA2_out (c : Dev nD) : iprop((∃ d, owns (c : Thread nD τ) scM2_0 fullShare d) ∗ (∃ d, owns (c : Thread nD τ) scM2_1 fullShare d) ∗ restBut2 c ∗ (∃ r, prngReg c r))
    ⊢ (Pipeline.ΦA spec2 c : sProp 𝕄) := by
  unfold Pipeline.ΦA; rw [scopedRest2_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.Kernel.Hand

end
-- ==== Proof.MlpB2Body.lean ====
/-
  The second dense-layer region: the body obligation at every grid point (the first point from the class invariant, every
  later point from the running sums the point before left), and the invariant's way in and out.
-/
import proofs.«170985_j13606456394542_1_alg».proof.Proof.MlpB2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases hz : t.val = 0
  · rw [outsAt2_A V c t hz]
    unfold outA2; (try dsimp only)
    rw [PhiS2_castSucc V c t, PhiS2_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA2_in (F := F) c) $$ HΦ
    icases HΦ' with ⟨HS0, HS1, HR, Hg⟩
    iapply ((runA2 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA2_S0 V c t hz)
      isplitl [HS1]
      · unfold owns; iexists _; isplitr
        swap; · iexact HS1
        ipureintro; exact View.read_writes_of_cover _ _ _ _ _ (coverA2_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA2_5 V c t hz)
    isplitl [H6]
    · unfold owns; iexists _; isplitr
      swap; · iexact H6
      ipureintro; exact View.read_writes_of_cover _ _ _ _ _ (coverA2_6 V c t hz)
    unfold owns; iexists _; isplitr
    swap; · iexact H7
    ipureintro; exact View.read_writes_of_cover _ _ _ _ _ (coverA2_7 V c t hz)
  · rw [outsAt2_B V c t hz]
    unfold outB2; (try dsimp only)
    rw [PhiS2_castSucc V c t, PhiS2_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB2 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB2_S0 V c t hz _ _)
      isplitl [HS1]
      · unfold owns; iexists _; isplitr
        swap; · iexact HS1
        ipureintro; exact View.read_writes_of_cover _ _ _ _ _ (coverB2_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB2_5 V c t hz _ _)
    isplitl [H6]
    · unfold owns; iexists _; isplitr
      swap; · iexact H6
      ipureintro; exact View.read_writes_of_cover _ _ _ _ _ (coverB2_6 V c t hz _ _)
    unfold owns; iexists _; isplitr
    swap; · iexact H7
    ipureintro; exact View.read_writes_of_cover _ _ _ _ _ (coverB2_7 V c t hz _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the running sums' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega)]
  have h : ∀ (a b : Vec F S1x64 .f32), (iprop(owns (c : Thread nD τ) scM2_0 fullShare a ∗ owns (c : Thread nD τ) scM2_1 fullShare b ∗ restBut2 c ∗ (∃ r, prngReg c r)) : sProp 𝕄)
      ⊢ iprop((∃ d, owns (c : Thread nD τ) scM2_0 fullShare d) ∗ (∃ d, owns (c : Thread nD τ) scM2_1 fullShare d) ∗ restBut2 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA2_out (F := F) c)

end Cert.Kernel.Hand

end
-- ==== Proof.MlpB4Base.lean ====
/-
  The third dense-layer region (two 64-wide dense layers with relu on a block of 5000 rows, and the running column sums
  of the result and of its squares kept in two one-row scratch buffers across the 20 grid points): what its runs share.
  The grid's one coordinate is zero exactly at the first point, where the kernel clears the two running sums.
-/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition from the grid coordinate: "this is the first point". -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The two scratch rows (running sum, running sum of squares) as whole memrefs and as views. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view
/-- One staging buffer per output window, through which its contents are stated. -/
abbrev VO4_5 : View sig .tc .vmem S5000x64 .f32 := (Memref.whole cc4_stg5_0 : Memref sig .tc .vmem S5000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view

end Cert.Kernel.Hand

end
-- ==== Proof.MlpB4RunA.lean ====
/-
  The dense-layer region's body run whole at the first grid point (the running sums are cleared first):
  what the body's stores leave in the three output blocks and the two running-sum rows, as written pieces.
-/
import proofs.«170985_j13606456394542_1_alg».proof.Proof.MlpB4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at anything — the body runs to the continuation holding the inputs as they were and each output and each running-sum row with its pieces written. -/
noncomputable def kernelRun4_A (c : Dev nD) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i)
    (x0 : Vec F S5000x64 .f32) (x1 : Vec F S64x64 .f32) (x2 : Vec F S1x64 .f32) (x3 : Vec F S64x64 .f32) (x4 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB4RunB.lean ====
/-
  The dense-layer region's body run whole at a later grid point (the running sums continue from the point before):
  what the body's stores leave in the three output blocks and the two running-sum rows, as written pieces.
-/
import proofs.«170985_j13606456394542_1_alg».proof.Proof.MlpB4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs at their contents, the three outputs at anything, the two running-sum rows at what the point before left — the body runs to the continuation holding the inputs as they were and each output and each running-sum row with its pieces written. -/
noncomputable def kernelRun4_B (c : Dev nD) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i)
    (x0 : Vec F S5000x64 .f32) (x1 : Vec F S64x64 .f32) (x2 : Vec F S1x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32))
       (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.MlpB4.lean ====
/-
  The third dense-layer region, point by point: what the three output blocks and the two running-sum rows hold after each
  grid point (the first point starts the sums from zero, every later point continues from the one before), the region's
  proof data over these, and the body obligation at every point.
-/
import proofs.«170985_j13606456394542_1_alg».proof.Proof.MlpB4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-- The first point's run at the point's memrefs and input blocks. -/
abbrev runA4 (c : Dev nD) (t : Fin cfg4.N) (h : t.val = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h) (iblk4 V c 0 t) (iblk4 V c 1 t) (iblk4 V c 2 t) (iblk4 V c 3 t) (iblk4 V c 4 t)
/-- A later point's run, the running sums entering at `xs0`, `xs1`. -/
abbrev runB4 (c : Dev nD) (t : Fin cfg4.N) (h : t.val ≠ 0) (xs0 xs1 : Vec F S1x64 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun hc => h ((hcond4_0 t).mp hc)) (iblk4 V c 0 t) (iblk4 V c 1 t) (iblk4 V c 2 t) (iblk4 V c 3 t) (iblk4 V c 4 t) xs0 xs1

/-- What the first point leaves: the three output blocks, then the two running sums (each the run's pieces read back). -/
def outA4 (c : Dev nD) (t : Fin cfg4.N) (h : t.val = 0) : Vec F S5000x64 .f32 × Vec F S1x64 .f32 × Vec F S1x64 .f32 × Vec F S1x64 .f32 × Vec F S1x64 .f32 :=
  (VO4_5.read (Elt F) (VO4_5.writes (Elt F) VO4_5.junk (runA4 V c t h).1),
   VO4_6.read (Elt F) (VO4_6.writes (Elt F) VO4_6.junk (runA4 V c t h).2.1),
   VO4_7.read (Elt F) (VO4_7.writes (Elt F) VO4_7.junk (runA4 V c t h).2.2.1),
   VS4_0.read (Elt F) (VS4_0.writes (Elt F) VS4_0.junk (runA4 V c t h).2.2.2.1),
   VS4_1.read (Elt F) (VS4_1.writes (Elt F) VS4_1.junk (runA4 V c t h).2.2.2.2.1))
/-- What a later point leaves, from the running sums the point before left. -/
def outB4 (c : Dev nD) (t : Fin cfg4.N) (h : t.val ≠ 0) (xs0 xs1 : Vec F S1x64 .f32) : Vec F S5000x64 .f32 × Vec F S1x64 .f32 × Vec F S1x64 .f32 × Vec F S1x64 .f32 × Vec F S1x64 .f32 :=
  (VO4_5.read (Elt F) (VO4_5.writes (Elt F) VO4_5.junk (runB4 V c t h xs0 xs1).1),
   VO4_6.read (Elt F) (VO4_6.writes (Elt F) VO4_6.junk (runB4 V c t h xs0 xs1).2.1),
   VO4_7.read (Elt F) (VO4_7.writes (Elt F) VO4_7.junk (runB4 V c t h xs0 xs1).2.2.1),
   VS4_0.read (Elt F) (VS4_0.writes (Elt F) VS4_0.junk (runB4 V c t h xs0 xs1).2.2.2.1),
   VS4_1.read (Elt F) (VS4_1.writes (Elt F) VS4_1.junk (runB4 V c t h xs0 xs1).2.2.2.2.1))

/-- Every piece list the runs find tiles its buffer. -/
theorem coverA4_5 (c : Dev nD) (t : Fin cfg4.N) (h : t.val = 0) (y : S5000x64.Idx) : ∃ pc ∈ (runA4 V c t h).1, y ∈ pc.1.set :=
  View.cover_of_tiledL (runA4 V c t h).1 S5000x64.size (by sl_kernel_rfl) y
theorem coverA4_6 (c : Dev nD) (t : Fin cfg4.N) (h : t.val = 0) (y : S1x64.Idx) : ∃ pc ∈ (runA4 V c t h).2.1, y ∈ pc.1.set :=
  View.cover_of_tiledL (runA4 V c t h).2.1 S1x64.size (by sl_kernel_rfl) y
theorem coverA4_7 (c : Dev nD) (t : Fin cfg4.N) (h : t.val = 0) (y : S1x64.Idx) : ∃ pc ∈ (runA4 V c t h).2.2.1, y ∈ pc.1.set :=
  View.cover_of_tiledL (runA4 V c t h).2.2.1 S1x64.size (by sl_kernel_rfl) y
theorem coverA4_S0 (c : Dev nD) (t : Fin cfg4.N) (h : t.val = 0) (y : S1x64.Idx) : ∃ pc ∈ (runA4 V c t h).2.2.2.1, y ∈ pc.1.set :=
  View.cover_of_tiledL (runA4 V c t h).2.2.2.1 S1x64.size (by sl_kernel_rfl) y
theorem coverA4_S1 (c : Dev nD) (t : Fin cfg4.N) (h : t.val = 0) (y : S1x64.Idx) : ∃ pc ∈ (runA4 V c t h).2.2.2.2.1, y ∈ pc.1.set :=
  View.cover_of_tiledL (runA4 V c t h).2.2.2.2.1 S1x64.size (by sl_kernel_rfl) y
theorem coverB4_5 (c : Dev nD) (t : Fin cfg4.N) (h : t.val ≠ 0) (xs0 xs1 : Vec F S1x64 .f32) (y : S5000x64.Idx) : ∃ pc ∈ (runB4 V c t h xs0 xs1).1, y ∈ pc.1.set :=
  View.cover_of_tiledL (runB4 V c t h xs0 xs1).1 S5000x64.size (by sl_kernel_rfl) y
theorem coverB4_6 (c : Dev nD) (t : Fin cfg4.N) (h : t.val ≠ 0) (xs0 xs1 : Vec F S1x64 .f32) (y : S1x64.Idx) : ∃ pc ∈ (runB4 V c t h xs0 xs1).2.1, y ∈ pc.1.set :=
  View.cover_of_tiledL (runB4 V c t h xs0 xs1).2.1 S1x64.size (by sl_kernel_rfl) y
theorem coverB4_7 (c : Dev nD) (t : Fin cfg4.N) (h : t.val ≠ 0) (xs0 xs1 : Vec F S1x64 .f32) (y : S1x64.Idx) : ∃ pc ∈ (runB4 V c t h xs0 xs1).2.2.1, y ∈ pc.1.set :=
  View.cover_of_tiledL (runB4 V c t h xs0 xs1).2.2.1 S1x64.size (by sl_kernel_rfl) y
theorem coverB4_S0 (c : Dev nD) (t : Fin cfg4.N) (h : t.val ≠ 0) (xs0 xs1 : Vec F S1x64 .f32) (y : S1x64.Idx) : ∃ pc ∈ (runB4 V c t h xs0 xs1).2.2.2.1, y ∈ pc.1.set :=
  View.cover_of_tiledL (runB4 V c t h xs0 xs1).2.2.2.1 S1x64.size (by sl_kernel_rfl) y
theorem coverB4_S1 (c : Dev nD) (t : Fin cfg4.N) (h : t.val ≠ 0) (xs0 xs1 : Vec F S1x64 .f32) (y : S1x64.Idx) : ∃ pc ∈ (runB4 V c t h xs0 xs1).2.2.2.2.1, y ∈ pc.1.set :=
  View.cover_of_tiledL (runB4 V c t h xs0 xs1).2.2.2.2.1 S1x64.size (by sl_kernel_rfl) y

/-- THE ACCUMULATION: what the outputs' staging buffers and the two running sums hold after the body at position `n`. -/
def outsAt4 (c : Dev nD) : (n : ℕ) → n < cfg4.N → Vec F S5000x64 .f32 × Vec F S1x64 .f32 × Vec F S1x64 .f32 × Vec F S1x64 .f32 × Vec F S1x64 .f32
  | 0, hn => outA4 V c ⟨0, hn⟩ rfl
  | n + 1, hn => outB4 V c ⟨n + 1, hn⟩ (Nat.succ_ne_zero n) (outsAt4 c n (Nat.lt_of_succ_lt hn)).2.2.2.1 (outsAt4 c n (Nat.lt_of_succ_lt hn)).2.2.2.2

theorem outsAt4_A (c : Dev nD) (t : Fin cfg4.N) (h : t.val = 0) : outsAt4 V c t.val t.isLt = outA4 V c t h := by
  obtain ⟨n, hn⟩ := t
  cases n with
  | zero => rfl
  | succ n => exact absurd h (Nat.succ_ne_zero n)
theorem outsAt4_B (c : Dev nD) (t : Fin cfg4.N) (h : t.val ≠ 0) :
    outsAt4 V c t.val t.isLt = outB4 V c t h (outsAt4 V c (t.val - 1) (Nat.lt_of_le_of_lt (Nat.sub_le _ _) t.isLt)).2.2.2.1 (outsAt4 V c (t.val - 1) (Nat.lt_of_le_of_lt (Nat.sub_le _ _) t.isLt)).2.2.2.2 := by
  obtain ⟨n, hn⟩ := t
  cases n with
  | zero => exact absurd rfl h
  | succ n => rfl

/-- The scoped buffers that are not this kernel's running sums. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The region invariant before position `n`: before the first point the scoped rest at anything and the generator register;
    afterwards the two running sums at what the point before left, the other scoped buffers, the generator register. -/
def PhiS4 (c : Dev nD) : (n : ℕ) → n ≤ cfg4.N → sProp 𝕄
  | 0, _ => Pipeline.ΦA spec4 c
  | n + 1, hn => iprop(owns (c : Thread nD τ) scM4_0 fullShare ((outsAt4 V c n hn).2.2.2.1) ∗ owns (c : Thread nD τ) scM4_1 fullShare ((outsAt4 V c n hn).2.2.2.2)
      ∗ restBut4 c ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(owns (c : Thread nD τ) scM4_0 fullShare ((outsAt4 V c n hn).2.2.2.1) ∗ owns (c : Thread nD τ) scM4_1 fullShare ((outsAt4 V c n hn).2.2.2.2)
      ∗ restBut4 c ∗ (∃ r, prngReg c r)) := rfl
theorem PhiS4_pos (c : Dev nD) (n : ℕ) (h : n ≤ cfg4.N) (hz : n ≠ 0) :
    PhiS4 V c n h = iprop(owns (c : Thread nD τ) scM4_0 fullShare ((outsAt4 V c (n - 1) (by omega)).2.2.2.1) ∗ owns (c : Thread nD τ) scM4_1 fullShare ((outsAt4 V c (n - 1) (by omega)).2.2.2.2)
      ∗ restBut4 c ∗ (∃ r, prngReg c r)) := by
  cases n with
  | zero => exact absurd rfl hz
  | succ n => rfl

/-- The class invariant opened at the two running sums. -/
theorem PhiA4_in (c : Dev nD) : (Pipeline.ΦA spec4 c : sProp 𝕄)
    ⊢ iprop((∃ d, owns (c : Thread nD τ) scM4_0 fullShare d) ∗ (∃ d, owns (c : Thread nD τ) scM4_1 fullShare d) ∗ restBut4 c ∗ (∃ r, prngReg c r)) := by
  unfold Pipeline.ΦA; rw [scopedRest4_split]; simp only [owns_whole]
  iintro ⟨⟨⟨⟨%f0, H0⟩, ⟨%f1, H1⟩⟩, HR⟩, Hg⟩
  isplitl [H0]; · iexists f0; iexact H0
  isplitl [H1]; · iexists f1; iexact H1
  isplitl [HR]; · iexact HR
  iexact Hg
/-- And closed again, the running sums' contents forgotten. -/
theorem PhiA4_out (c : Dev nD) : iprop((∃ d, owns (c : Thread nD τ) scM4_0 fullShare d) ∗ (∃ d, owns (c : Thread nD τ) scM4_1 fullShare d) ∗ restBut4 c ∗ (∃ r, prngReg c r))
    ⊢ (Pipeline.ΦA spec4 c : sProp 𝕄) := by
  unfold Pipeline.ΦA; rw [scopedRest4_split]; simp only [owns_whole]
  iintro ⟨⟨%f0, H0⟩, ⟨%f1, H1⟩, HR, Hg⟩
  isplitr [Hg]
  · isplitr [HR]
    · isplitl [H0]; · iexists f0; iexact H0
      iexists f1; iexact H1
    iexact HR
  iexact Hg

/-- The proof data of the region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

end Cert.Kernel.Hand

end
-- ==== Proof.MlpB4Body.lean ====
/-
  The third dense-layer region: the body obligation at every grid point (the first point from the class invariant, every
  later point from the running sums the point before left), and the invariant's way in and out.
-/
import proofs.«170985_j13606456394542_1_alg».proof.Proof.MlpB4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4800000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6, after4_7]
  by_cases hz : t.val = 0
  · rw [outsAt4_A V c t hz]
    unfold outA4; (try dsimp only)
    rw [PhiS4_castSucc V c t, PhiS4_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA4_in (F := F) c) $$ HΦ
    icases HΦ' with ⟨HS0, HS1, HR, Hg⟩
    iapply ((runA4 V c t hz).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverA4_S0 V c t hz)
      isplitl [HS1]
      · unfold owns; iexists _; isplitr
        swap; · iexact HS1
        ipureintro; exact View.read_writes_of_cover _ _ _ _ _ (coverA4_S1 V c t hz)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA4_5 V c t hz)
    isplitl [H6]
    · unfold owns; iexists _; isplitr
      swap; · iexact H6
      ipureintro; exact View.read_writes_of_cover _ _ _ _ _ (coverA4_6 V c t hz)
    unfold owns; iexists _; isplitr
    swap; · iexact H7
    ipureintro; exact View.read_writes_of_cover _ _ _ _ _ (coverA4_7 V c t hz)
  · rw [outsAt4_B V c t hz]
    unfold outB4; (try dsimp only)
    rw [PhiS4_castSucc V c t, PhiS4_pos V c _ _ hz]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB4 V c t hz _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (coverB4_S0 V c t hz _ _)
      isplitl [HS1]
      · unfold owns; iexists _; isplitr
        swap; · iexact HS1
        ipureintro; exact View.read_writes_of_cover _ _ _ _ _ (coverB4_S1 V c t hz _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB4_5 V c t hz _ _)
    isplitl [H6]
    · unfold owns; iexists _; isplitr
      swap; · iexact H6
      ipureintro; exact View.read_writes_of_cover _ _ _ _ _ (coverB4_6 V c t hz _ _)
    unfold owns; iexists _; isplitr
    swap; · iexact H7
    ipureintro; exact View.read_writes_of_cover _ _ _ _ _ (coverB4_7 V c t hz _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the running sums' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega)]
  have h : ∀ (a b : Vec F S1x64 .f32), (iprop(owns (c : Thread nD τ) scM4_0 fullShare a ∗ owns (c : Thread nD τ) scM4_1 fullShare b ∗ restBut4 c ∗ (∃ r, prngReg c r)) : sProp 𝕄)
      ⊢ iprop((∃ d, owns (c : Thread nD τ) scM4_0 fullShare d) ∗ (∃ d, owns (c : Thread nD τ) scM4_1 fullShare d) ∗ restBut4 c ∗ (∃ r, prngReg c r)) := fun a b => by
    iintro ⟨HS0, HS1, HR, Hg⟩
    isplitl [HS0]; · iexists _; iexact HS0
    isplitl [HS1]; · iexists _; iexact HS1
    isplitl [HR]; · iexact HR
    iexact Hg
  exact (h _ _).trans (PhiA4_out (F := F) c)

end Cert.Kernel.Hand

end
-- ==== Proof.BnRegionB.lean ====
/- The class-A half of the frame for the batch-norm-and-rectify regions of `Kernel`'s @main (custom_call 1),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 1 of @main: custom_call 1, `cc1__bn_relu_kernel` (pipeline 1), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it at that point or not (when it did not, the block index has not moved since the last fetch), for any
    proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded and stored whole -/

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_0, k1_pay1 (View.ld x0 r1_0) (View.ld x1 r1_1) (View.ld x2 r1_1) (View.ld x3 r1_1) (View.ld x4 r1_1)⟩]

/-- The one store is the whole block, so it covers the buffer: one tile of the block's own size at offset zero. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out1_5` of the inputs:
    five whole loads, a load of the output buffer whose value is dropped, and one whole store. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer still at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BnRegionB3.lean ====
/- The class-A half of the frame for the batch-norm-and-rectify regions of `Kernel`'s @main (custom_call 3),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 3 of @main: custom_call 3, `cc3__bn_relu_kernel` (pipeline 3), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every grid point, whether the pipeline
    fetched it at that point or not (when it did not, the block index has not moved since the last fetch), for any
    proof data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is loaded and stored whole -/

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out3_5 (x0 : Vec F S5000x64 .f32) (x1 : Vec F S1x64 .f32) (x2 : Vec F S1x64 .f32) (x3 : Vec F S1x64 .f32) (x4 : Vec F S1x64 .f32) : Vec F S5000x64 .f32 :=
  View.canon [⟨r3_0, k3_pay1 (View.ld x0 r3_0) (View.ld x1 r3_1) (View.ld x2 r3_1) (View.ld x3 r3_1) (View.ld x4 r3_1)⟩]

/-- The one store is the whole block, so it covers the buffer: one tile of the block's own size at offset zero. -/
theorem cover3_5 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out3_5` of the inputs:
    five whole loads, a load of the output buffer whose value is dropped, and one whole store. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer still at its block and the output's at `out3_5` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BnRegionB5.lean ====
/- The class-A half of the frame for the batch-norm-and-rectify regions of `Kernel`'s @main (custom_call 5),
   stated at a parameter `V` — the TensorCore's buffer contents when the region is entered — and at any float
   instance `F`: each window's block at a grid point, each input's staging buffer found at its block, the output's
   buffer after the body as the one whole-block store over the input blocks, the body's triple, the pipeline's proof
   data and the body obligation. -/
import proofs.«170985_j13606456394542_1_alg».proof.Proof.Gen.Kernel.Launch
import proofs.«170985_j13606456394542_1_alg».proof.Proof.Gen.Kernel.Skeleton
import proofs.«170985_j13606456394542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is unfolded once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 5 of @main: custom_call 5, `cc5__bn_relu_kernel` (pipeline 5), at the entry contents `V`

The body reads one block of 5000 rows of the [100000, 64] activation and the four [1, 64] rows (mean, inverse
standard deviation, scale, shift), and stores max((h - mean) * invstd * scale + shift, 0) over the whole output block. -/

/-! ## The windows' blocks -/

/-- Window `w`'s block at grid point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block of the array at every grid point, whether the pipeline
    fetched it at that point or not (when it did not, the block index has not moved since the last fetch), for any
    proof data whose array is `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block of the array at every grid point, whether the pipeline
    fetched it at that point or not (when it did not, the block index has not moved since the last fetch), for any
    proof data whose array is `V`'s (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block of the array at every grid point, whether the pipeline
    fetched it at that point or not (when it did not, the block index has not moved since the last fetch), for any
    proof data whose array is `V`'s (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block of the array at every grid point, whether the pipeline
    fetched it at that point or not (when it did not, the block index has not moved since the last fetch), for any
    proof data whose array is `V`'s (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block of the array at every grid point, whether the pipeline
    fetched it at that point or not (when it did not, the block index has not moved since the last fetch), for any
    proof data whose array is `V`'s (`hA`) and whose body leaves the block in place (`hafter`). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is loaded and stored whole -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-! ## What the body leaves in the output window's buffer -/

/-- Window 5's staging buffer after the body, as a function of the five input blocks: its one store, of the
    normalised and rectified block, laid over the whole buffer. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_0, k5_pay1 (View.ld x0 r5_0) (View.ld x1 r5_1) (View.ld x2 r5_1) (View.ld x3 r5_1) (View.ld x4 r5_1)⟩]

/-- The one store is the whole block, so it covers the buffer: one tile of the block's own size at offset zero. -/
theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the five inputs' at read contents `x0 … x4` and the output's at any
    contents, runs to the continuation holding the inputs' as they were and the output's at `out5_5` of the inputs:
    five whole loads, a load of the output buffer whose value is dropped, and one whole store. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer still at its block and the output's at `out5_5` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.AsmB.lean ====
/-
  The whole run of the kernel program: the six kernel regions as segments between the seven stretches of host operations,
  each region entered from every unscoped buffer at the contents the stretch before it left and left with its arrays at what
  its write-backs leave; then the launch, whose post keeps every unscoped buffer at the last contents.
-/
import proofs.«170985_j13606456394542_1_alg».proof.Proof.MlpB0Body
import proofs.«170985_j13606456394542_1_alg».proof.Proof.MlpB2Body
import proofs.«170985_j13606456394542_1_alg».proof.Proof.MlpB4Body
import proofs.«170985_j13606456394542_1_alg».proof.Proof.BnRegionB
import proofs.«170985_j13606456394542_1_alg».proof.Proof.BnRegionB3
import proofs.«170985_j13606456394542_1_alg».proof.Proof.BnRegionB5
import proofs.«170985_j13606456394542_1_alg».proof.Proof.RegionsPB
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

/-! ## What each region leaves, region by region (each from the contents the regions before it left) -/

/-- At region 0's exit: its arrays at what the pipeline leaves, every other buffer as entered. -/
def X2 (c : Dev nD) : Valuation τ sig (Elt F) := Pipeline.withArrays spec0 c (V1 m c) fun w => (dat0 (atRefs (V1 m)) c).arrAt w cfg0.N
abbrev o1 : Outs (F := F) := fun _ r c => X2 m c r
/-- At region 1's exit. -/
def X4 (c : Dev nD) : Valuation τ sig (Elt F) := Pipeline.withArrays spec1 c (V3 m (o1 m) c) fun w => (dat1 (atRefs (V3 m (o1 m))) c).arrAt w cfg1.N
abbrev o2 : Outs (F := F) := fun J r c => if J = 4 then X4 m c r else o1 m J r c
/-- At region 2's exit. -/
def X6 (c : Dev nD) : Valuation τ sig (Elt F) := Pipeline.withArrays spec2 c (V5 m (o2 m) c) fun w => (dat2 (atRefs (V5 m (o2 m))) c).arrAt w cfg2.N
abbrev o3 : Outs (F := F) := fun J r c => if J = 6 then X6 m c r else o2 m J r c
/-- At region 3's exit. -/
def X8 (c : Dev nD) : Valuation τ sig (Elt F) := Pipeline.withArrays spec3 c (V7 m (o3 m) c) fun w => (dat3 (atRefs (V7 m (o3 m))) c).arrAt w cfg3.N
abbrev o4 : Outs (F := F) := fun J r c => if J = 8 then X8 m c r else o3 m J r c
/-- At region 4's exit. -/
def X10 (c : Dev nD) : Valuation τ sig (Elt F) := Pipeline.withArrays spec4 c (V9 m (o4 m) c) fun w => (dat4 (atRefs (V9 m (o4 m))) c).arrAt w cfg4.N
abbrev o5 : Outs (F := F) := fun J r c => if J = 10 then X10 m c r else o4 m J r c
/-- At region 5's exit. -/
def X12 (c : Dev nD) : Valuation τ sig (Elt F) := Pipeline.withArrays spec5 c (V11 m (o5 m) c) fun w => (dat5 (atRefs (V11 m (o5 m))) c).arrAt w cfg5.N
abbrev o6 : Outs (F := F) := fun J r c => if J = 12 then X12 m c r else o5 m J r c
/-- What the regions leave in the buffers they may change. -/
abbrev outs : Outs (F := F) := o6 m

theorem stage1 : V3 m (outs m) = V3 m (o1 m) := rfl
theorem stage2 : V5 m (outs m) = V5 m (o2 m) := rfl
theorem stage3 : V7 m (outs m) = V7 m (o3 m) := rfl
theorem stage4 : V9 m (outs m) = V9 m (o4 m) := rfl
theorem stage5 : V11 m (outs m) = V11 m (o5 m) := rfl

/-! ## The proof data family and the thread state -/

def pdats : (p : Fin 6) → (c : Dev nD) → Dat τ (Elt F) Unit ℕ (UR sig nD τ) ℕ (cfgs p) c
  | ⟨0, _⟩ => fun c => dat0 (atRefs (V1 m)) c
  | ⟨1, _⟩ => fun c => dat1 (atRefs (V3 m (outs m))) c
  | ⟨2, _⟩ => fun c => dat2 (atRefs (V5 m (outs m))) c
  | ⟨3, _⟩ => fun c => dat3 (atRefs (V7 m (outs m))) c
  | ⟨4, _⟩ => fun c => dat4 (atRefs (V9 m (outs m))) c
  | ⟨5, _⟩ => fun c => dat5 (atRefs (V11 m (outs m))) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem X2_arr (c : Dev nD) (w : Fin cfg0.W) : X2 m c (Proc.devRef .tc (Pipeline.arrRef spec0 w)) = (dat0 (atRefs (V1 m)) c).arrAt w cfg0.N := by
  unfold X2; exact Pipeline.withArrays_arr spec0 launch0.win.arr_inj c _ _ w
set_option maxHeartbeats 4000000 in
theorem hF0 (c : Dev nD) (w : Fin cfg0.W) : (dat0 (atRefs (V1 m)) c).arrAt w cfg0.N = atRefs (V2 m (outs m)) c (Pipeline.arrRef spec0 w) := by
  fin_cases w
  · exact (((dat0 (atRefs (V1 m)) c).arrAt_in 0 rfl _).trans (A_eq0 (atRefs (V1 m)) c 0)).trans (V2_of m (outs m) c _ (by decide)).symm
  · exact (((dat0 (atRefs (V1 m)) c).arrAt_in 1 rfl _).trans (A_eq0 (atRefs (V1 m)) c 1)).trans (V2_of m (outs m) c _ (by decide)).symm
  · exact (((dat0 (atRefs (V1 m)) c).arrAt_in 2 rfl _).trans (A_eq0 (atRefs (V1 m)) c 2)).trans (V2_of m (outs m) c _ (by decide)).symm
  · exact (((dat0 (atRefs (V1 m)) c).arrAt_in 3 rfl _).trans (A_eq0 (atRefs (V1 m)) c 3)).trans (V2_of m (outs m) c _ (by decide)).symm
  · exact (((dat0 (atRefs (V1 m)) c).arrAt_in 4 rfl _).trans (A_eq0 (atRefs (V1 m)) c 4)).trans (V2_of m (outs m) c _ (by decide)).symm
  · refine (X2_arr m c 5).symm.trans ?_
    show X2 m c (Proc.devRef .tc main_v34_0) = V2 m (outs m) c (Proc.devRef .tc main_v34_0)
    simp only [V2, Function.update_of_ne (StableHlo.devRef_ne_of_ne (by decide) : (Proc.devRef .tc main_v34_0 : DevRef τ sig) ≠ Proc.devRef .tc main_v34_2), Function.update_of_ne (StableHlo.devRef_ne_of_ne (by decide) : (Proc.devRef .tc main_v34_0 : DevRef τ sig) ≠ Proc.devRef .tc main_v34_1), Function.update_self]
    rfl
  · refine (X2_arr m c 6).symm.trans ?_
    show X2 m c (Proc.devRef .tc main_v34_1) = V2 m (outs m) c (Proc.devRef .tc main_v34_1)
    simp only [V2, Function.update_of_ne (StableHlo.devRef_ne_of_ne (by decide) : (Proc.devRef .tc main_v34_1 : DevRef τ sig) ≠ Proc.devRef .tc main_v34_2), Function.update_self]
    rfl
  · refine (X2_arr m c 7).symm.trans ?_
    show X2 m c (Proc.devRef .tc main_v34_2) = V2 m (outs m) c (Proc.devRef .tc main_v34_2)
    simp only [V2, Function.update_self]
    rfl
theorem hrest0 (c : Dev nD) : ∀ b, b ∉ Finset.univ.image (Pipeline.arrRef spec0) → atRefs (V2 m (outs m)) c b = atRefs (V1 m) c b := fun b hb =>
  V2_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (atRefs (V1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V1 m) c) (atRefs (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X4_arr (c : Dev nD) (w : Fin cfg1.W) : X4 m c (Proc.devRef .tc (Pipeline.arrRef spec1 w)) = (dat1 (atRefs (V3 m (o1 m))) c).arrAt w cfg1.N := by
  unfold X4; exact Pipeline.withArrays_arr spec1 launch1.win.arr_inj c _ _ w
theorem X4_arr' (c : Dev nD) (w : Fin cfg1.W) : X4 m c (Proc.devRef .tc (Pipeline.arrRef spec1 w)) = (dat1 (atRefs (V3 m (outs m))) c).arrAt w cfg1.N := by
  rw [stage1]; exact X4_arr m c w
set_option maxHeartbeats 4000000 in
theorem hF1 (c : Dev nD) (w : Fin cfg1.W) : (dat1 (atRefs (V3 m (outs m))) c).arrAt w cfg1.N = atRefs (V4 m (outs m)) c (Pipeline.arrRef spec1 w) := by
  fin_cases w
  · exact (((dat1 (atRefs (V3 m (outs m))) c).arrAt_in 0 rfl _).trans (A_eq1 (atRefs (V3 m (outs m))) c 0)).trans (V4_of m (outs m) c _ (by decide)).symm
  · exact (((dat1 (atRefs (V3 m (outs m))) c).arrAt_in 1 rfl _).trans (A_eq1 (atRefs (V3 m (outs m))) c 1)).trans (V4_of m (outs m) c _ (by decide)).symm
  · exact (((dat1 (atRefs (V3 m (outs m))) c).arrAt_in 2 rfl _).trans (A_eq1 (atRefs (V3 m (outs m))) c 2)).trans (V4_of m (outs m) c _ (by decide)).symm
  · exact (((dat1 (atRefs (V3 m (outs m))) c).arrAt_in 3 rfl _).trans (A_eq1 (atRefs (V3 m (outs m))) c 3)).trans (V4_of m (outs m) c _ (by decide)).symm
  · exact (((dat1 (atRefs (V3 m (outs m))) c).arrAt_in 4 rfl _).trans (A_eq1 (atRefs (V3 m (outs m))) c 4)).trans (V4_of m (outs m) c _ (by decide)).symm
  · refine (X4_arr' m c 5).symm.trans ?_
    show X4 m c (Proc.devRef .tc main_v50) = V4 m (outs m) c (Proc.devRef .tc main_v50)
    simp only [V4, Function.update_self]
    rfl
theorem hrest1 (c : Dev nD) : ∀ b, b ∉ Finset.univ.image (Pipeline.arrRef spec1) → atRefs (V4 m (outs m)) c b = atRefs (V3 m (outs m)) c b := fun b hb =>
  V4_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 1 over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atRefs (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V3 m (outs m)) c) (atRefs (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X6_arr (c : Dev nD) (w : Fin cfg2.W) : X6 m c (Proc.devRef .tc (Pipeline.arrRef spec2 w)) = (dat2 (atRefs (V5 m (o2 m))) c).arrAt w cfg2.N := by
  unfold X6; exact Pipeline.withArrays_arr spec2 launch2.win.arr_inj c _ _ w
theorem X6_arr' (c : Dev nD) (w : Fin cfg2.W) : X6 m c (Proc.devRef .tc (Pipeline.arrRef spec2 w)) = (dat2 (atRefs (V5 m (outs m))) c).arrAt w cfg2.N := by
  rw [stage2]; exact X6_arr m c w
set_option maxHeartbeats 4000000 in
theorem hF2 (c : Dev nD) (w : Fin cfg2.W) : (dat2 (atRefs (V5 m (outs m))) c).arrAt w cfg2.N = atRefs (V6 m (outs m)) c (Pipeline.arrRef spec2 w) := by
  fin_cases w
  · exact (((dat2 (atRefs (V5 m (outs m))) c).arrAt_in 0 rfl _).trans (A_eq2 (atRefs (V5 m (outs m))) c 0)).trans (V6_of m (outs m) c _ (by decide)).symm
  · exact (((dat2 (atRefs (V5 m (outs m))) c).arrAt_in 1 rfl _).trans (A_eq2 (atRefs (V5 m (outs m))) c 1)).trans (V6_of m (outs m) c _ (by decide)).symm
  · exact (((dat2 (atRefs (V5 m (outs m))) c).arrAt_in 2 rfl _).trans (A_eq2 (atRefs (V5 m (outs m))) c 2)).trans (V6_of m (outs m) c _ (by decide)).symm
  · exact (((dat2 (atRefs (V5 m (outs m))) c).arrAt_in 3 rfl _).trans (A_eq2 (atRefs (V5 m (outs m))) c 3)).trans (V6_of m (outs m) c _ (by decide)).symm
  · exact (((dat2 (atRefs (V5 m (outs m))) c).arrAt_in 4 rfl _).trans (A_eq2 (atRefs (V5 m (outs m))) c 4)).trans (V6_of m (outs m) c _ (by decide)).symm
  · refine (X6_arr' m c 5).symm.trans ?_
    show X6 m c (Proc.devRef .tc main_v81_0) = V6 m (outs m) c (Proc.devRef .tc main_v81_0)
    simp only [V6, Function.update_of_ne (StableHlo.devRef_ne_of_ne (by decide) : (Proc.devRef .tc main_v81_0 : DevRef τ sig) ≠ Proc.devRef .tc main_v81_2), Function.update_of_ne (StableHlo.devRef_ne_of_ne (by decide) : (Proc.devRef .tc main_v81_0 : DevRef τ sig) ≠ Proc.devRef .tc main_v81_1), Function.update_self]
    rfl
  · refine (X6_arr' m c 6).symm.trans ?_
    show X6 m c (Proc.devRef .tc main_v81_1) = V6 m (outs m) c (Proc.devRef .tc main_v81_1)
    simp only [V6, Function.update_of_ne (StableHlo.devRef_ne_of_ne (by decide) : (Proc.devRef .tc main_v81_1 : DevRef τ sig) ≠ Proc.devRef .tc main_v81_2), Function.update_self]
    rfl
  · refine (X6_arr' m c 7).symm.trans ?_
    show X6 m c (Proc.devRef .tc main_v81_2) = V6 m (outs m) c (Proc.devRef .tc main_v81_2)
    simp only [V6, Function.update_self]
    rfl
theorem hrest2 (c : Dev nD) : ∀ b, b ∉ Finset.univ.image (Pipeline.arrRef spec2) → atRefs (V6 m (outs m)) c b = atRefs (V5 m (outs m)) c b := fun b hb =>
  V6_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (V5 m (outs m))) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atRefs (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (atRefs (V5 m (outs m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V5 m (outs m)) c) (atRefs (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X8_arr (c : Dev nD) (w : Fin cfg3.W) : X8 m c (Proc.devRef .tc (Pipeline.arrRef spec3 w)) = (dat3 (atRefs (V7 m (o3 m))) c).arrAt w cfg3.N := by
  unfold X8; exact Pipeline.withArrays_arr spec3 launch3.win.arr_inj c _ _ w
theorem X8_arr' (c : Dev nD) (w : Fin cfg3.W) : X8 m c (Proc.devRef .tc (Pipeline.arrRef spec3 w)) = (dat3 (atRefs (V7 m (outs m))) c).arrAt w cfg3.N := by
  rw [stage3]; exact X8_arr m c w
set_option maxHeartbeats 4000000 in
theorem hF3 (c : Dev nD) (w : Fin cfg3.W) : (dat3 (atRefs (V7 m (outs m))) c).arrAt w cfg3.N = atRefs (V8 m (outs m)) c (Pipeline.arrRef spec3 w) := by
  fin_cases w
  · exact (((dat3 (atRefs (V7 m (outs m))) c).arrAt_in 0 rfl _).trans (A_eq3 (atRefs (V7 m (outs m))) c 0)).trans (V8_of m (outs m) c _ (by decide)).symm
  · exact (((dat3 (atRefs (V7 m (outs m))) c).arrAt_in 1 rfl _).trans (A_eq3 (atRefs (V7 m (outs m))) c 1)).trans (V8_of m (outs m) c _ (by decide)).symm
  · exact (((dat3 (atRefs (V7 m (outs m))) c).arrAt_in 2 rfl _).trans (A_eq3 (atRefs (V7 m (outs m))) c 2)).trans (V8_of m (outs m) c _ (by decide)).symm
  · exact (((dat3 (atRefs (V7 m (outs m))) c).arrAt_in 3 rfl _).trans (A_eq3 (atRefs (V7 m (outs m))) c 3)).trans (V8_of m (outs m) c _ (by decide)).symm
  · exact (((dat3 (atRefs (V7 m (outs m))) c).arrAt_in 4 rfl _).trans (A_eq3 (atRefs (V7 m (outs m))) c 4)).trans (V8_of m (outs m) c _ (by decide)).symm
  · refine (X8_arr' m c 5).symm.trans ?_
    show X8 m c (Proc.devRef .tc main_v97) = V8 m (outs m) c (Proc.devRef .tc main_v97)
    simp only [V8, Function.update_self]
    rfl
theorem hrest3 (c : Dev nD) : ∀ b, b ∉ Finset.univ.image (Pipeline.arrRef spec3) → atRefs (V8 m (outs m)) c b = atRefs (V7 m (outs m)) c b := fun b hb =>
  V8_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (V7 m (outs m))) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atRefs (V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V7 m (outs m)) c) (atRefs (V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X10_arr (c : Dev nD) (w : Fin cfg4.W) : X10 m c (Proc.devRef .tc (Pipeline.arrRef spec4 w)) = (dat4 (atRefs (V9 m (o4 m))) c).arrAt w cfg4.N := by
  unfold X10; exact Pipeline.withArrays_arr spec4 launch4.win.arr_inj c _ _ w
theorem X10_arr' (c : Dev nD) (w : Fin cfg4.W) : X10 m c (Proc.devRef .tc (Pipeline.arrRef spec4 w)) = (dat4 (atRefs (V9 m (outs m))) c).arrAt w cfg4.N := by
  rw [stage4]; exact X10_arr m c w
set_option maxHeartbeats 4000000 in
theorem hF4 (c : Dev nD) (w : Fin cfg4.W) : (dat4 (atRefs (V9 m (outs m))) c).arrAt w cfg4.N = atRefs (V10 m (outs m)) c (Pipeline.arrRef spec4 w) := by
  fin_cases w
  · exact (((dat4 (atRefs (V9 m (outs m))) c).arrAt_in 0 rfl _).trans (A_eq4 (atRefs (V9 m (outs m))) c 0)).trans (V10_of m (outs m) c _ (by decide)).symm
  · exact (((dat4 (atRefs (V9 m (outs m))) c).arrAt_in 1 rfl _).trans (A_eq4 (atRefs (V9 m (outs m))) c 1)).trans (V10_of m (outs m) c _ (by decide)).symm
  · exact (((dat4 (atRefs (V9 m (outs m))) c).arrAt_in 2 rfl _).trans (A_eq4 (atRefs (V9 m (outs m))) c 2)).trans (V10_of m (outs m) c _ (by decide)).symm
  · exact (((dat4 (atRefs (V9 m (outs m))) c).arrAt_in 3 rfl _).trans (A_eq4 (atRefs (V9 m (outs m))) c 3)).trans (V10_of m (outs m) c _ (by decide)).symm
  · exact (((dat4 (atRefs (V9 m (outs m))) c).arrAt_in 4 rfl _).trans (A_eq4 (atRefs (V9 m (outs m))) c 4)).trans (V10_of m (outs m) c _ (by decide)).symm
  · refine (X10_arr' m c 5).symm.trans ?_
    show X10 m c (Proc.devRef .tc main_v128_0) = V10 m (outs m) c (Proc.devRef .tc main_v128_0)
    simp only [V10, Function.update_of_ne (StableHlo.devRef_ne_of_ne (by decide) : (Proc.devRef .tc main_v128_0 : DevRef τ sig) ≠ Proc.devRef .tc main_v128_2), Function.update_of_ne (StableHlo.devRef_ne_of_ne (by decide) : (Proc.devRef .tc main_v128_0 : DevRef τ sig) ≠ Proc.devRef .tc main_v128_1), Function.update_self]
    rfl
  · refine (X10_arr' m c 6).symm.trans ?_
    show X10 m c (Proc.devRef .tc main_v128_1) = V10 m (outs m) c (Proc.devRef .tc main_v128_1)
    simp only [V10, Function.update_of_ne (StableHlo.devRef_ne_of_ne (by decide) : (Proc.devRef .tc main_v128_1 : DevRef τ sig) ≠ Proc.devRef .tc main_v128_2), Function.update_self]
    rfl
  · refine (X10_arr' m c 7).symm.trans ?_
    show X10 m c (Proc.devRef .tc main_v128_2) = V10 m (outs m) c (Proc.devRef .tc main_v128_2)
    simp only [V10, Function.update_self]
    rfl
theorem hrest4 (c : Dev nD) : ∀ b, b ∉ Finset.univ.image (Pipeline.arrRef spec4) → atRefs (V10 m (outs m)) c b = atRefs (V9 m (outs m)) c b := fun b hb =>
  V10_of m (outs m) c b (by
    intro hmem
    simp only [List.mem_cons, List.mem_nil_iff, or_false, List.not_mem_nil] at hmem
    rcases hmem with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩))

set_option maxHeartbeats 4000000 in
set_option backward.isDefEq.respectTransparency.types false in
/-- Region 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (V9 m (outs m))) c).loose
  hwaits := Pipeline.hwaits_of_owed_zero _ _ _ _ L lv 4 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atRefs (V9 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (atRefs (V9 m (outs m))) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (V9 m (outs m)) c) (atRefs (V10 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X12_arr (c : Dev nD) (w : Fin cfg5.W) : X12 m c (Proc.devRef .tc (Pipeline.arrRef spec5 w)) = (dat5 (atRefs (V11 m (o5 m))) c).arrAt w cfg5.N := by
  unfold X12; exact Pipeline.withArrays_arr spec5 launch5.win.arr_inj c _ _ w
theorem X12_arr' (c : Dev nD) (w : Fin cfg5.W) : X12 m c (Proc.devRef .tc (Pipeline.arrRef spec5 w)) = (dat5 (atRefs (V11 m (outs m))) c).arrAt w cfg5.N := by
  rw [stage5]; exact X12_arr m c w
set_option maxHeartbeats 4000000 in
theorem hF5 (c : Dev nD) (w : Fin cfg5.W) : (dat5 (atRefs (V11 m (outs m))) c).arrAt w cfg5.N = atRefs (V12 m (outs m)) c (Pipeline.arrRef spec5 w) := by
  fin_cases w
  · exact (((dat5 (atRefs (V11 m (outs m))) c).arrAt_in 0 rfl _).trans (A_eq5 (atRefs (V11 m (outs m))) c 0)).trans (V12_of m (outs m) c _ (by decide)).symm
  · exact (((dat5 (atRefs (V11 m (outs m))) c).arrAt_in 1 rfl _).trans (A_eq5 (atRefs (V11 m (outs m))) c 1)).trans (V12_of m (outs m) c _ (by decide)).symm
  · exact (((dat5 (atRefs (V11 m (outs m))) c).arrAt_in 2 rfl _).trans (A_eq5 (atRefs (V11 m (outs m))) c 2)).trans (V12_of m (outs m) c _ (by decide)).symm
  · exact (((dat5 (atRefs (V11 m (outs m))) c).arrAt_in 3 rfl _).trans (A_eq5 (atRefs (V11 m (outs m))) c 3)).trans (V12_of m (outs m) c _ (by decide)).symm
  · exact (((dat5 (atRefs (V11 m (outs m))) c).arrAt_in 4 rfl _).trans (A_eq5 (atRefs (V11 m (outs m))) c 4)).trans (V12_of m (outs m) c _ (by decide)).symm
  · refine (X12_arr' m c 5).symm.trans ?_
    show X12 m c (Proc.devRef .tc main_v144) = V12 m (outs m) c (Proc.devRef .tc main_v144)
    simp only [V12, Function.update_self]
    rfl
theorem hrest5 (c : Dev nD) : ∀ b, b ∉ Finset.univ.image (Pipeline.arrRef spec5) → atRefs (V12 m (outs m)) c b = atRefs (V11 m (outs m)) c b := fun b hb =>
  V12_of m (outs m) c b (by
    intro hmem
    simp only [List.mem_cons, List.mem_nil_iff, or_false, List.not_mem_nil] at hmem
    rcases hmem with rfl
    · exact hb (Finset.mem_image.mpr ⟨(5 : Fin 6), Finset.mem_univ _, rfl⟩))

set_option maxHeartbeats 4000000 in
set_option backward.isDefEq.respectTransparency.types false in
/-- Region 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (V11 m (outs m))) c).loose
  hwaits := Pipeline.hwaits_of_owed_zero _ _ _ _ L lv 5 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec5 c (atRefs (V11 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (V11 m (outs m)) c) (atRefs (V12 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option maxHeartbeats 8000000 in
set_option backward.isDefEq.respectTransparency.types false in
/-- From any memory with zero counters every weakly fair execution of @main terminates, nothing faulting, and every
    unscoped buffer of every core ends at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h1 : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      iintro ⟨H, -⟩
      imodintro
      iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => R c) : sProp 𝕄) from bigSep_mono fun c _ => h1 c)
      iexact H)
    (fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)

end Cert.Kernel.Hand

end
-- ==== Proof.MlpI0Val.lean ====
/-
  The first dense-layer region, read as values: the pieces each grid point's run leaves are the body's arithmetic of the
  point's input blocks (the dense layers' block; the running column sums continued from the point before, from zero at
  the first point), so the contents after each point are a recursion on the point.
-/
import proofs.«170985_j13606456394542_1_alg».proof.Proof.MlpI0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- The dense layers' block at point `t`. -/
abbrev blk0_5 (c : Dev nD) (t : Fin cfg0.N) : Vec F S5000x64 .f32 := k0_pay5 (iblk0 V c 0 t) (iblk0 V c 1 t) (iblk0 V c 2 t) (iblk0 V c 3 t) (iblk0 V c 4 t)

theorem outA0_5 (c : Dev nD) (t : Fin cfg0.N) (h : t.val = 0) :
    (outA0 V c t h).1 = blk0_5 V c t := by
  unfold outA0; dsimp only
  rw [View.read_writes_eq_canon _ _ _ (coverA0_5 V c t h)]
  unfold runA0 kernelRun0_A; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outA0_S0 (c : Dev nD) (t : Fin cfg0.N) (h : t.val = 0) :
    (outA0 V c t h).2.2.2.1 = k0_pay1 (k0_pay6 (iblk0 V c 0 t) (iblk0 V c 1 t) (iblk0 V c 2 t) (iblk0 V c 3 t) (iblk0 V c 4 t) k0_pay3) := by
  unfold outA0; dsimp only
  rw [View.read_writes_eq_canon _ _ _ (coverA0_S0 V c t h)]
  unfold runA0 kernelRun0_A; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outA0_6 (c : Dev nD) (t : Fin cfg0.N) (h : t.val = 0) :
    (outA0 V c t h).2.1 = k0_pay1 (k0_pay6 (iblk0 V c 0 t) (iblk0 V c 1 t) (iblk0 V c 2 t) (iblk0 V c 3 t) (iblk0 V c 4 t) k0_pay3) := by
  unfold outA0; dsimp only
  rw [View.read_writes_eq_canon _ _ _ (coverA0_6 V c t h)]
  unfold runA0 kernelRun0_A; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outA0_S1 (c : Dev nD) (t : Fin cfg0.N) (h : t.val = 0) :
    (outA0 V c t h).2.2.2.2 = k0_pay2 (blk0_5 V c t) k0_pay4 := by
  unfold outA0; dsimp only
  rw [View.read_writes_eq_canon _ _ _ (coverA0_S1 V c t h)]
  unfold runA0 kernelRun0_A; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outA0_7 (c : Dev nD) (t : Fin cfg0.N) (h : t.val = 0) :
    (outA0 V c t h).2.2.1 = k0_pay2 (blk0_5 V c t) k0_pay4 := by
  unfold outA0; dsimp only
  rw [View.read_writes_eq_canon _ _ _ (coverA0_7 V c t h)]
  unfold runA0 kernelRun0_A; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outB0_5 (c : Dev nD) (t : Fin cfg0.N) (h : t.val ≠ 0) (xs0 xs1 : Vec F S1x64 .f32) :
    (outB0 V c t h xs0 xs1).1 = blk0_5 V c t := by
  unfold outB0; dsimp only
  rw [View.read_writes_eq_canon _ _ _ (coverB0_5 V c t h xs0 xs1)]
  unfold runB0 kernelRun0_B; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]

theorem outB0_S0 (c : Dev nD) (t : Fin cfg0.N) (h : t.val ≠ 0) (xs0 xs1 : Vec F S1x64 .f32) :
    (outB0 V c t h xs0 xs1).2.2.2.1 = k0_pay1 (k0_pay6 (iblk0 V c 0 t) (iblk0 V c 1 t) (iblk0 V c 2 t) (iblk0 V c 3 t) (iblk0 V c 4 t) xs0) := by
  unfold outB0; dsimp only
  rw [View.read_writes_eq_canon _ _ _ (coverB0_S0 V c t h xs0 xs1)]
  unfold runB0 kernelRun0_B; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]
  exact congrArg (fun z => k0_pay1 (k0_pay6 (iblk0 V c 0 t) (iblk0 V c 1 t) (iblk0 V c 2 t) (iblk0 V c 3 t) (iblk0 V c 4 t) z)) (Memref.IsWhole.read_unread (Val := Elt F) (Memref.isWhole_whole cc0_scratch0) xs0)

theorem outB0_6 (c : Dev nD) (t : Fin cfg0.N) (h : t.val ≠ 0) (xs0 xs1 : Vec F S1x64 .f32) :
    (outB0 V c t h xs0 xs1).2.1 = k0_pay1 (k0_pay6 (iblk0 V c 0 t) (iblk0 V c 1 t) (iblk0 V c 2 t) (iblk0 V c 3 t) (iblk0 V c 4 t) xs0) := by
  unfold outB0; dsimp only
  rw [View.read_writes_eq_canon _ _ _ (coverB0_6 V c t h xs0 xs1)]
  unfold runB0 kernelRun0_B; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]
  exact congrArg (fun z => k0_pay1 (k0_pay6 (iblk0 V c 0 t) (iblk0 V c 1 t) (iblk0 V c 2 t) (iblk0 V c 3 t) (iblk0 V c 4 t) z)) (Memref.IsWhole.read_unread (Val := Elt F) (Memref.isWhole_whole cc0_scratch0) xs0)

theorem outB0_S1 (c : Dev nD) (t : Fin cfg0.N) (h : t.val ≠ 0) (xs0 xs1 : Vec F S1x64 .f32) :
    (outB0 V c t h xs0 xs1).2.2.2.2 = k0_pay2 (blk0_5 V c t) xs1 := by
  unfold outB0; dsimp only
  rw [View.read_writes_eq_canon _ _ _ (coverB0_S1 V c t h xs0 xs1)]
  unfold runB0 kernelRun0_B; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]
  exact congrArg (fun z => k0_pay2 (blk0_5 V c t) z) (Memref.IsWhole.read_unread (Val := Elt F) (Memref.isWhole_whole cc0_scratch1) xs1)

theorem outB0_7 (c : Dev nD) (t : Fin cfg0.N) (h : t.val ≠ 0) (xs0 xs1 : Vec F S1x64 .f32) :
    (outB0 V c t h xs0 xs1).2.2.1 = k0_pay2 (blk0_5 V c t) xs1 := by
  unfold outB0; dsimp only
  rw [View.read_writes_eq_canon _ _ _ (coverB0_7 V c t h xs0 xs1)]
  unfold runB0 kernelRun0_B; dsimp only
  sl_unfold_words
  simp only [View.canon_unit_zero (S := S5000x64) hz0, View.canon_unit_zero (S := S1x64) hz0, View.canon_cons_unit_zero (S := S1x64) hz0,
    View.readCov_unit_zero (S := S1x64) _ hz0, View.readCov_cons_toLoadRect, View.readAt_eq_ld, Memref.IsWhole.read_unread,
    View.ld_unit_zero (S := S5000x64) hz0, View.ld_unit_zero (S := S64x64) hz0, View.ld_unit_zero (S := S1x64) hz0]
  exact congrArg (fun z => k0_pay2 (blk0_5 V c t) z) (Memref.IsWhole.read_unread (Val := Elt F) (Memref.isWhole_whole cc0_scratch1) xs1)

/-- The running column sum after point `n`: from the zero row at the first point, then continued. -/
def accS0 (c : Dev nD) : (n : ℕ) → n < cfg0.N → Vec F S1x64 .f32
  | 0, h => k0_pay1 (k0_pay6 (iblk0 V c 0 ⟨0, h⟩) (iblk0 V c 1 ⟨0, h⟩) (iblk0 V c 2 ⟨0, h⟩) (iblk0 V c 3 ⟨0, h⟩) (iblk0 V c 4 ⟨0, h⟩) k0_pay3)
  | n + 1, h => k0_pay1 (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accS0 c n (Nat.lt_of_succ_lt h)))
/-- The running column sum of squares after point `n`. -/
def accQ0 (c : Dev nD) : (n : ℕ) → n < cfg0.N → Vec F S1x64 .f32
  | 0, h => k0_pay2 (blk0_5 V c ⟨0, h⟩) k0_pay4
  | n + 1, h => k0_pay2 (blk0_5 V c ⟨n + 1, h⟩) (accQ0 c n (Nat.lt_of_succ_lt h))

/-- What the buffers hold after point `n` IS the dense block and the running sums — by induction on the point. -/
theorem outsAt0_eq (c : Dev nD) : ∀ (n : ℕ) (h : n < cfg0.N),
    outsAt0 V c n h = (blk0_5 V c ⟨n, h⟩, accS0 V c n h, accQ0 V c n h, accS0 V c n h, accQ0 V c n h)
  | 0, h => by
    rw [outsAt0_A V c ⟨0, h⟩ rfl]
    refine Prod.ext (outA0_5 V c _ rfl) (Prod.ext (outA0_6 V c _ rfl) (Prod.ext (outA0_7 V c _ rfl) (Prod.ext (outA0_S0 V c _ rfl) (outA0_S1 V c _ rfl))))
  | n + 1, h => by
    have hB : (⟨n + 1, h⟩ : Fin cfg0.N).val ≠ 0 := Nat.succ_ne_zero n
    rw [outsAt0_B V c ⟨n + 1, h⟩ hB]
    have ih := outsAt0_eq c n (Nat.lt_of_succ_lt h)
    have e0 : (outsAt0 V c ((⟨n + 1, h⟩ : Fin cfg0.N).val - 1) (Nat.lt_of_le_of_lt (Nat.sub_le _ _) h)).2.2.2.1 = accS0 V c n (Nat.lt_of_succ_lt h) := by
      show (outsAt0 V c n _).2.2.2.1 = _; rw [ih]
    have e1 : (outsAt0 V c ((⟨n + 1, h⟩ : Fin cfg0.N).val - 1) (Nat.lt_of_le_of_lt (Nat.sub_le _ _) h)).2.2.2.2 = accQ0 V c n (Nat.lt_of_succ_lt h) := by
      show (outsAt0 V c n _).2.2.2.2 = _; rw [ih]
    rw [e0, e1]
    refine Prod.ext (outB0_5 V c _ hB _ _) (Prod.ext (outB0_6 V c _ hB _ _) (Prod.ext (outB0_7 V c _ hB _ _) (Prod.ext (outB0_S0 V c _ hB _ _) (outB0_S1 V c _ hB _ _))))

end Cert.KernelIdeal.Hand

end
-- ==== Proof.MlpPayI.lean ====
/-
  The dense-layer kernel's arithmetic, read at an index over the extended reals.

  On a block of 5000 rows the kernel applies two dense layers with relu: the block times a 64 × 64
  matrix plus a bias row, clamped below at zero, twice. Over the extended reals a narrowing of the
  format is the identity and a matrix product accumulated from zero is the sum of the products over
  the 64 contracted coordinates, so element (p, q) of the result is
      max (∑ k, max (∑ l, x[p,l] · w₁[l,k] + b₁[k]) 0 · w₂[k,q] + b₂[q]) 0.
  The kernel also keeps two running rows: the column sums of the result and of its squares, each the
  previous row plus the sum over the block's 5000 rows. A reshape to the same shape is the identity and
  the row of zeros is zero at every element.
-/
import proofs.«170985_j13606456394542_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx
open scoped BigOperators

/-! ### The product of a block with a 64 × 64 matrix -/

/-- On the row axis the left operand's index is the result's row. -/
theorem blockDot_lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- On the column axis the right operand's index is the result's column. -/
theorem blockDot_rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product accumulated from zero, read at (p, q): the sum over the 64 contracted
    coordinates of the products. -/
theorem blockMatmul_apply {φ₁ φ₂ : FTy} (a : FVec Ideal S5000x64 φ₁) (b : FVec Ideal S64x64 φ₂)
    (p : Fin 5000) (q : Fin 64) :
    matmul (F := Ideal) dot_S5000x64_S64x64_S5000x64_1_0_0_1_n_n none a b (constant S5000x64 .f32 0x00000000#32) (ix2 p q)
      = ∑ l : Fin 64, a (ix2 p l) * b (ix2 l q) := by
  show FloatOps.matmul dot_S5000x64_S64x64_S5000x64_1_0_0_1_n_n none a b (constant (F := Ideal) S5000x64 .f32 0x00000000#32) (ix2 p q) = _
  rw [Ideal.matmul_constant_zero_apply,
    ← Equiv.sum_comp (contrEquiv1 dot_S5000x64_S64x64_S5000x64_1_0_0_1_n_n 64 rfl rfl).symm]
  refine Finset.sum_congr rfl fun l _ => ?_
  have hl := contrEquiv1_symm_val dot_S5000x64_S64x64_S5000x64_1_0_0_1_n_n 64 rfl rfl l
  have el : dot_S5000x64_S64x64_S5000x64_1_0_0_1_n_n.lhsIdx (ix2 p q) ((contrEquiv1 dot_S5000x64_S64x64_S5000x64_1_0_0_1_n_n 64 rfl rfl).symm l) = ix2 p l :=
    funext fun c => Fin.ext (by
      match c with
      | ⟨0, _⟩ => exact blockDot_lhs_row _ _
      | ⟨1, _⟩ => exact (dot_S5000x64_S64x64_S5000x64_1_0_0_1_n_n.lhsIdx_val_of_single rfl _ _).trans hl)
  have er : dot_S5000x64_S64x64_S5000x64_1_0_0_1_n_n.rhsIdx (ix2 p q) ((contrEquiv1 dot_S5000x64_S64x64_S5000x64_1_0_0_1_n_n 64 rfl rfl).symm l) = ix2 l q :=
    funext fun c => Fin.ext (by
      match c with
      | ⟨0, _⟩ => exact (dot_S5000x64_S64x64_S5000x64_1_0_0_1_n_n.rhsIdx_val_of_single rfl _ _).trans hl
      | ⟨1, _⟩ => exact blockDot_rhs_col _ _)
  rw [el, er]

/-! ### One dense layer with relu on a block -/

/-- One dense layer with relu as the kernel spells it: the block narrowed, times the weights reshaped
    and narrowed, accumulated from zero, plus the bias row reshaped and repeated down the block, and the
    maximum with the zero block. -/
def blockDenseRelu (x : FVec Ideal S5000x64 .f32) (w : FVec Ideal S64x64 .f32) (b : FVec Ideal S1x64 .f32) :
    FVec Ideal S5000x64 .f32 :=
  maximumf
    (addf
      (matmul dot_S5000x64_S64x64_S5000x64_1_0_0_1_n_n none (truncf .bf16 x bitsLt_bf16_f32)
        (truncf .bf16 (shapeCast S64x64 w shapeCasts_S64x64_S64x64 : FVec Ideal S64x64 .f32) bitsLt_bf16_f32)
        (constant S5000x64 .f32 0x00000000#32))
      (broadcastTo S5000x64 (shapeCast S1x64 b shapeCasts_S1x64_S1x64 : FVec Ideal S1x64 .f32)
        broadcasts_S1x64_S5000x64))
    (broadcast S5000x64 (Scalar.ofBits (F := Ideal) .f32 0x00000000#32))

/-- One dense layer with relu read at (p, q). -/
theorem blockDenseRelu_apply (x : FVec Ideal S5000x64 .f32) (w : FVec Ideal S64x64 .f32)
    (b : FVec Ideal S1x64 .f32) (p : Fin 5000) (q : Fin 64) :
    blockDenseRelu x w b (ix2 p q) = max ((∑ l : Fin 64, x (ix2 p l) * w (ix2 l q)) + b (ix2 0 q)) 0 := by
  unfold blockDenseRelu
  rw [maximumf_apply, addf_apply, broadcast_apply, shapeCast_self, shapeCast_self]
  have hm := blockMatmul_apply (truncf .bf16 x bitsLt_bf16_f32) (truncf .bf16 w bitsLt_bf16_f32) p q
  have hb := broadcastTo_1b_ab_apply b broadcasts_S1x64_S5000x64 p q
  have hz : (Scalar.ofBits (F := Ideal) .f32 0x00000000#32 : EReal) = 0 := Ideal.ofBits_zero_f32
  rw [hm, hb, hz]
  rfl

/-! ### The column sums of a block, as a row -/

/-- The column sums of a block as the kernel spells them: the sum over the row axis, reshaped to one row. -/
def blockColSum (y : FVec Ideal S5000x64 .f32) : FVec Ideal S1x64 .f32 :=
  shapeCast S1x64 (multiReduction .add [0] S64 y 0x00000000#32 reduces_S5000x64_S64 (.inl rfl) rfl)
    shapeCasts_S64_S1x64

/-- The column sums read at column q: the sum over the block's 5000 rows. -/
theorem blockColSum_apply (y : FVec Ideal S5000x64 .f32) (q : Fin 64) :
    blockColSum y (ix2 0 q) = ∑ p : Fin 5000, y (ix2 p q) := by
  unfold blockColSum
  refine (shapeCast_a_1a_apply _ shapeCasts_S64_S1x64 0 q).trans ?_
  refine (Ideal.multiReduction_add_single y 0x00000000#32 reduces_S5000x64_S64 (.inl rfl) rfl (ix1 q)).trans ?_
  exact Finset.sum_congr rfl fun p _ => congrArg y (funext fun c => Fin.ext (by
    match c with
    | ⟨0, _⟩ => rfl
    | ⟨1, _⟩ => rfl))

/-! ### The payloads of the first dense-layer region -/

/-- The block's result is two dense layers with relu. -/
theorem k0_pay5_eq (x0 : Vec Ideal S5000x64 .f32) (x1 x3 : Vec Ideal S64x64 .f32)
    (x2 x4 : Vec Ideal S1x64 .f32) :
    k0_pay5 (F := Ideal) x0 x1 x2 x3 x4
      = blockDenseRelu (blockDenseRelu (shapeCast S5000x64 x0 shapeCasts_S5000x64_S5000x64) x1 x2) x3 x4 := rfl

/-- The block's result read at (p, q). -/
theorem k0_pay5_apply (x0 : Vec Ideal S5000x64 .f32) (x1 x3 : Vec Ideal S64x64 .f32)
    (x2 x4 : Vec Ideal S1x64 .f32) (p : Fin 5000) (q : Fin 64) :
    k0_pay5 (F := Ideal) x0 x1 x2 x3 x4 (ix2 p q)
      = max ((∑ k : Fin 64, max ((∑ l : Fin 64, x0 (ix2 p l) * x1 (ix2 l k)) + x2 (ix2 0 k)) 0
          * x3 (ix2 k q)) + x4 (ix2 0 q)) 0 := by
  rw [k0_pay5_eq, shapeCast_self, blockDenseRelu_apply]
  simp only [blockDenseRelu_apply]

/-- The running column sums of the result: the previous row plus the block's column sums. -/
theorem k0_pay6_eq (x0 : Vec Ideal S5000x64 .f32) (x1 x3 : Vec Ideal S64x64 .f32)
    (x2 x4 v28 : Vec Ideal S1x64 .f32) :
    k0_pay6 (F := Ideal) x0 x1 x2 x3 x4 v28
      = addf (F := Ideal) (φ := .f32) v28 (blockColSum (k0_pay5 (F := Ideal) x0 x1 x2 x3 x4)) := rfl

/-- The running column sums of the result read at column q. -/
theorem k0_pay6_apply (x0 : Vec Ideal S5000x64 .f32) (x1 x3 : Vec Ideal S64x64 .f32)
    (x2 x4 v28 : Vec Ideal S1x64 .f32) (q : Fin 64) :
    k0_pay6 (F := Ideal) x0 x1 x2 x3 x4 v28 (ix2 0 q)
      = v28 (ix2 0 q) + ∑ p : Fin 5000, k0_pay5 (F := Ideal) x0 x1 x2 x3 x4 (ix2 p q) := by
  rw [k0_pay6_eq, addf_apply, blockColSum_apply]

/-- The running column sums of the squares: the previous row plus the column sums of the squares. -/
theorem k0_pay2_eq (v26 : FVec Ideal S5000x64 .f32) (v35 : Vec Ideal S1x64 .f32) :
    k0_pay2 (F := Ideal) v26 v35
      = shapeCast S1x64 (addf (F := Ideal) (φ := .f32) v35 (blockColSum (mulf v26 v26))) shapeCasts_S1x64_S1x64 :=
  rfl

/-- The running column sums of the squares read at column q. -/
theorem k0_pay2_apply (v26 : FVec Ideal S5000x64 .f32) (v35 : Vec Ideal S1x64 .f32) (q : Fin 64) :
    k0_pay2 (F := Ideal) v26 v35 (ix2 0 q)
      = v35 (ix2 0 q) + ∑ p : Fin 5000, v26 (ix2 p q) * v26 (ix2 p q) := by
  rw [k0_pay2_eq, shapeCast_self, addf_apply, blockColSum_apply]
  rfl

/-- The stored row of column sums is the row itself. -/
theorem k0_pay1_eq (v31 : FVec Ideal S1x64 .f32) : k0_pay1 (F := Ideal) v31 = v31 := by
  unfold k0_pay1
  exact shapeCast_self v31 _

/-- The first cleared row is zero at every element. -/
theorem k0_pay3_apply (q : Fin 64) : k0_pay3 (F := Ideal) (ix2 0 q) = 0 := by
  have e : k0_pay3 (F := Ideal)
      = shapeCast S1x64 (broadcast S1x64 (Scalar.ofBits (F := Ideal) .f32 0x00000000#32))
          shapeCasts_S1x64_S1x64 := rfl
  rw [e, shapeCast_self]
  exact Ideal.ofBits_zero_f32

/-- The second cleared row is zero at every element. -/
theorem k0_pay4_apply (q : Fin 64) : k0_pay4 (F := Ideal) (ix2 0 q) = 0 := by
  have e : k0_pay4 (F := Ideal)
      = shapeCast S1x64 (broadcast S1x64 (Scalar.ofBits (F := Ideal) .f32 0x00000000#32))
          shapeCasts_S1x64_S1x64 := rfl
  rw [e, shapeCast_self]
  exact Ideal.ofBits_zero_f32

/-! ### The payloads of the second dense-layer region -/

/-- The block's result is two dense layers with relu. -/
theorem k2_pay5_eq (x0 : Vec Ideal S5000x64 .f32) (x1 x3 : Vec Ideal S64x64 .f32)
    (x2 x4 : Vec Ideal S1x64 .f32) :
    k2_pay5 (F := Ideal) x0 x1 x2 x3 x4
      = blockDenseRelu (blockDenseRelu (shapeCast S5000x64 x0 shapeCasts_S5000x64_S5000x64) x1 x2) x3 x4 := rfl

/-- The block's result read at (p, q). -/
theorem k2_pay5_apply (x0 : Vec Ideal S5000x64 .f32) (x1 x3 : Vec Ideal S64x64 .f32)
    (x2 x4 : Vec Ideal S1x64 .f32) (p : Fin 5000) (q : Fin 64) :
    k2_pay5 (F := Ideal) x0 x1 x2 x3 x4 (ix2 p q)
      = max ((∑ k : Fin 64, max ((∑ l : Fin 64, x0 (ix2 p l) * x1 (ix2 l k)) + x2 (ix2 0 k)) 0
          * x3 (ix2 k q)) + x4 (ix2 0 q)) 0 := by
  rw [k2_pay5_eq, shapeCast_self, blockDenseRelu_apply]
  simp only [blockDenseRelu_apply]

/-- The running column sums of the result: the previous row plus the block's column sums. -/
theorem k2_pay6_eq (x0 : Vec Ideal S5000x64 .f32) (x1 x3 : Vec Ideal S64x64 .f32)
    (x2 x4 v28 : Vec Ideal S1x64 .f32) :
    k2_pay6 (F := Ideal) x0 x1 x2 x3 x4 v28
      = addf (F := Ideal) (φ := .f32) v28 (blockColSum (k2_pay5 (F := Ideal) x0 x1 x2 x3 x4)) := rfl

/-- The running column sums of the result read at column q. -/
theorem k2_pay6_apply (x0 : Vec Ideal S5000x64 .f32) (x1 x3 : Vec Ideal S64x64 .f32)
    (x2 x4 v28 : Vec Ideal S1x64 .f32) (q : Fin 64) :
    k2_pay6 (F := Ideal) x0 x1 x2 x3 x4 v28 (ix2 0 q)
      = v28 (ix2 0 q) + ∑ p : Fin 5000, k2_pay5 (F := Ideal) x0 x1 x2 x3 x4 (ix2 p q) := by
  rw [k2_pay6_eq, addf_apply, blockColSum_apply]

/-- The running column sums of the squares: the previous row plus the column sums of the squares. -/
theorem k2_pay2_eq (v26 : FVec Ideal S5000x64 .f32) (v35 : Vec Ideal S1x64 .f32) :
    k2_pay2 (F := Ideal) v26 v35
      = shapeCast S1x64 (addf (F := Ideal) (φ := .f32) v35 (blockColSum (mulf v26 v26))) shapeCasts_S1x64_S1x64 :=
  rfl

/-- The running column sums of the squares read at column q. -/
theorem k2_pay2_apply (v26 : FVec Ideal S5000x64 .f32) (v35 : Vec Ideal S1x64 .f32) (q : Fin 64) :
    k2_pay2 (F := Ideal) v26 v35 (ix2 0 q)
      = v35 (ix2 0 q) + ∑ p : Fin 5000, v26 (ix2 p q) * v26 (ix2 p q) := by
  rw [k2_pay2_eq, shapeCast_self, addf_apply, blockColSum_apply]
  rfl

/-- The stored row of column sums is the row itself. -/
theorem k2_pay1_eq (v31 : FVec Ideal S1x64 .f32) : k2_pay1 (F := Ideal) v31 = v31 := by
  unfold k2_pay1
  exact shapeCast_self v31 _

/-- The first cleared row is zero at every element. -/
theorem k2_pay3_apply (q : Fin 64) : k2_pay3 (F := Ideal) (ix2 0 q) = 0 := by
  have e : k2_pay3 (F := Ideal)
      = shapeCast S1x64 (broadcast S1x64 (Scalar.ofBits (F := Ideal) .f32 0x00000000#32))
          shapeCasts_S1x64_S1x64 := rfl
  rw [e, shapeCast_self]
  exact Ideal.ofBits_zero_f32

/-- The second cleared row is zero at every element. -/
theorem k2_pay4_apply (q : Fin 64) : k2_pay4 (F := Ideal) (ix2 0 q) = 0 := by
  have e : k2_pay4 (F := Ideal)
      = shapeCast S1x64 (broadcast S1x64 (Scalar.ofBits (F := Ideal) .f32 0x00000000#32))
          shapeCasts_S1x64_S1x64 := rfl
  rw [e, shapeCast_self]
  exact Ideal.ofBits_zero_f32

/-! ### The payloads of the third dense-layer region -/

/-- The block's result is two dense layers with relu. -/
theorem k4_pay5_eq (x0 : Vec Ideal S5000x64 .f32) (x1 x3 : Vec Ideal S64x64 .f32)
    (x2 x4 : Vec Ideal S1x64 .f32) :
    k4_pay5 (F := Ideal) x0 x1 x2 x3 x4
      = blockDenseRelu (blockDenseRelu (shapeCast S5000x64 x0 shapeCasts_S5000x64_S5000x64) x1 x2) x3 x4 := rfl

/-- The block's result read at (p, q). -/
theorem k4_pay5_apply (x0 : Vec Ideal S5000x64 .f32) (x1 x3 : Vec Ideal S64x64 .f32)
    (x2 x4 : Vec Ideal S1x64 .f32) (p : Fin 5000) (q : Fin 64) :
    k4_pay5 (F := Ideal) x0 x1 x2 x3 x4 (ix2 p q)
      = max ((∑ k : Fin 64, max ((∑ l : Fin 64, x0 (ix2 p l) * x1 (ix2 l k)) + x2 (ix2 0 k)) 0
          * x3 (ix2 k q)) + x4 (ix2 0 q)) 0 := by
  rw [k4_pay5_eq, shapeCast_self, blockDenseRelu_apply]
  simp only [blockDenseRelu_apply]

/-- The running column sums of the result: the previous row plus the block's column sums. -/
theorem k4_pay6_eq (x0 : Vec Ideal S5000x64 .f32) (x1 x3 : Vec Ideal S64x64 .f32)
    (x2 x4 v28 : Vec Ideal S1x64 .f32) :
    k4_pay6 (F := Ideal) x0 x1 x2 x3 x4 v28
      = addf (F := Ideal) (φ := .f32) v28 (blockColSum (k4_pay5 (F := Ideal) x0 x1 x2 x3 x4)) := rfl

/-- The running column sums of the result read at column q. -/
theorem k4_pay6_apply (x0 : Vec Ideal S5000x64 .f32) (x1 x3 : Vec Ideal S64x64 .f32)
    (x2 x4 v28 : Vec Ideal S1x64 .f32) (q : Fin 64) :
    k4_pay6 (F := Ideal) x0 x1 x2 x3 x4 v28 (ix2 0 q)
      = v28 (ix2 0 q) + ∑ p : Fin 5000, k4_pay5 (F := Ideal) x0 x1 x2 x3 x4 (ix2 p q) := by
  rw [k4_pay6_eq, addf_apply, blockColSum_apply]

/-- The running column sums of the squares: the previous row plus the column sums of the squares. -/
theorem k4_pay2_eq (v26 : FVec Ideal S5000x64 .f32) (v35 : Vec Ideal S1x64 .f32) :
    k4_pay2 (F := Ideal) v26 v35
      = shapeCast S1x64 (addf (F := Ideal) (φ := .f32) v35 (blockColSum (mulf v26 v26))) shapeCasts_S1x64_S1x64 :=
  rfl

/-- The running column sums of the squares read at column q. -/
theorem k4_pay2_apply (v26 : FVec Ideal S5000x64 .f32) (v35 : Vec Ideal S1x64 .f32) (q : Fin 64) :
    k4_pay2 (F := Ideal) v26 v35 (ix2 0 q)
      = v35 (ix2 0 q) + ∑ p : Fin 5000, v26 (ix2 p q) * v26 (ix2 p q) := by
  rw [k4_pay2_eq, shapeCast_self, addf_apply, blockColSum_apply]
  rfl

/-- The stored row of column sums is the row itself. -/
theorem k4_pay1_eq (v31 : FVec Ideal S1x64 .f32) : k4_pay1 (F := Ideal) v31 = v31 := by
  unfold k4_pay1
  exact shapeCast_self v31 _

/-- The first cleared row is zero at every element. -/
theorem k4_pay3_apply (q : Fin 64) : k4_pay3 (F := Ideal) (ix2 0 q) = 0 := by
  have e : k4_pay3 (F := Ideal)
      = shapeCast S1x64 (broadcast S1x64 (Scalar.ofBits (F := Ideal) .f32 0x00000000#32))
          shapeCasts_S1x64_S1x64 := rfl
  rw [e, shapeCast_self]
  exact Ideal.ofBits_zero_f32

/-- The second cleared row is zero at every element. -/
theorem k4_pay4_apply (q : Fin 64) : k4_pay4 (F := Ideal) (ix2 0 q) = 0 := by
  have e : k4_pay4 (F := Ideal)
      = shapeCast S1x64 (broadcast S1x64 (Scalar.ofBits (F := Ideal) .f32 0x00000000#32))
          shapeCasts_S1x64_S1x64 := rfl
  rw [e, shapeCast_self]
  exact Ideal.ofBits_zero_f32

end Cert.KernelIdeal.Hand

end
-- ==== Proof.LibRealStats.lean ====
/-
  Finite extended reals and the statistics of a finite family of them.

  An extended real is FINITE when it is the image of a real number. The finite
  extended reals are closed under sum, difference, product, maximum, negation,
  finite sums, division by a nonzero real and, for a positive argument, the
  reciprocal square root. On finite families the two textbook expressions of
  the variance agree: the mean of the squares minus the square of the mean is
  the mean of the squared deviations from the mean. The latter is a nonnegative
  real, so adding a positive real and taking the reciprocal square root stays
  finite. Last, a sum over `Fin (A * B)` is the sum over `A` blocks of the sums
  over the `B` members of each block, and a sequence built by adding one term
  at a time is the sum of the terms.
-/
import Idealize.ShloMosaic.PureOps.Ideal
import Mathlib.Algebra.BigOperators.Fin
import Mathlib.Algebra.BigOperators.Intervals
import Mathlib.Data.Fintype.BigOperators
import Mathlib.Logic.Equiv.Fin.Basic
import Mathlib.Tactic.FieldSimp
import Mathlib.Tactic.Ring
import Mathlib.Tactic.Linarith
import Mathlib.Tactic.Positivity

noncomputable section

namespace RealStats

open Idealize.ShloMosaic
open scoped BigOperators

/-! ### Finite extended reals -/

/-- An extended real is finite: it is the image of a real number. -/
def IsReal (x : EReal) : Prop := ∃ r : ℝ, x = (r : EReal)

/-- The image of a real number is finite. -/
theorem isReal_coe (r : ℝ) : IsReal (r : EReal) := ⟨r, rfl⟩

/-- Zero is finite. -/
theorem isReal_zero : IsReal 0 := ⟨0, EReal.coe_zero.symm⟩

/-- One is finite. -/
theorem isReal_one : IsReal 1 := ⟨1, EReal.coe_one.symm⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two finite extended reals is finite. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- The negation of a finite extended real is finite. -/
theorem IsReal.neg {x : EReal} (hx : IsReal x) : IsReal (-x) := by
  obtain ⟨a, rfl⟩ := hx; exact ⟨-a, (EReal.coe_neg a).symm⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem isReal_sum {ι : Type*} (s : Finset ι) (f : ι → EReal) (h : ∀ i ∈ s, IsReal (f i)) :
    IsReal (∑ i ∈ s, f i) :=
  Finset.sum_induction f IsReal (fun _ _ hx hy => hx.add hy) isReal_zero h

/-- A sum over a whole finite type of finite extended reals is finite. -/
theorem isReal_sum_univ {ι : Type*} [Fintype ι] (f : ι → EReal) (h : ∀ i, IsReal (f i)) :
    IsReal (∑ i, f i) :=
  isReal_sum Finset.univ f fun i _ => h i

/-- A finite extended real divided by a nonzero real is finite. -/
theorem IsReal.div_coe {x : EReal} (hx : IsReal x) {c : ℝ} (hc : c ≠ 0) :
    IsReal (Ideal.div x (c : EReal)) := by
  rw [Ideal.div_coe hc]; exact hx.mul (isReal_coe _)

/-- The reciprocal square root of a positive real, as a real. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real is finite. -/
theorem isReal_rsqrt_coe {r : ℝ} (hr : 0 < r) : IsReal (Ideal.rsqrt (r : EReal)) := by
  rw [rsqrt_coe_pos hr]; exact isReal_coe _

/-- The reciprocal square root of an extended real that is a positive real is finite. -/
theorem isReal_rsqrt {x : EReal} {r : ℝ} (hx : x = (r : EReal)) (hr : 0 < r) :
    IsReal (Ideal.rsqrt x) := by
  rw [hx]; exact isReal_rsqrt_coe hr

/-! ### The variance of a finite family -/

/-- On reals: the mean of the squares minus the square of the mean is the mean of the
    squared deviations from the mean (division written as a product with `1 / n`). -/
theorem real_variance_identity {ι : Type*} [Fintype ι] (b : ι → ℝ) (n : ℝ)
    (hn : n = Fintype.card ι) (hn0 : n ≠ 0) :
    (∑ i, b i * b i) * (1 / n) - (∑ i, b i) * (1 / n) * ((∑ i, b i) * (1 / n))
      = (∑ i, (b i - (∑ i, b i) * (1 / n)) * (b i - (∑ i, b i) * (1 / n))) * (1 / n) := by
  have key : ∀ m : ℝ, ∑ i, (b i - m) * (b i - m)
      = (∑ i, b i * b i) - 2 * m * (∑ i, b i) + n * (m * m) := by
    intro m
    have h : ∀ i, (b i - m) * (b i - m) = b i * b i - 2 * m * b i + m * m := fun i => by ring
    simp only [h, Finset.sum_add_distrib, Finset.sum_sub_distrib, ← Finset.mul_sum,
      Finset.sum_const, Finset.card_univ, nsmul_eq_mul, hn]
    ring
  rw [key]
  field_simp
  ring

/-- The variance identity on finite extended reals: for a nonempty finite family `a` of
    finite extended reals, `n` its size and `μ = (∑ a) / n` its mean,
    `(∑ a²) / n - μ² = (∑ (a - μ)²) / n`. -/
theorem variance_identity {ι : Type*} [Fintype ι] [Nonempty ι] (a : ι → EReal)
    (ha : ∀ i, IsReal (a i)) (n : ℝ) (hn : n = Fintype.card ι) :
    Ideal.div (∑ i, a i * a i) (n : EReal)
        - Ideal.div (∑ i, a i) (n : EReal) * Ideal.div (∑ i, a i) (n : EReal)
      = Ideal.div (∑ i, (a i - Ideal.div (∑ i, a i) (n : EReal))
          * (a i - Ideal.div (∑ i, a i) (n : EReal))) (n : EReal) := by
  have hn0 : n ≠ 0 := by
    rw [hn]; exact_mod_cast Fintype.card_ne_zero
  choose b hb using ha
  obtain rfl : a = fun i => (b i : EReal) := funext hb
  simp only [Ideal.div_coe hn0, ← EReal.coe_mul, ← coe_finset_sum, ← EReal.coe_sub]
  exact congrArg _ (real_variance_identity b n hn hn0)

/-- The mean of the squares of a finite family of finite extended reals, over a positive real
    count, is a nonnegative real. -/
theorem sum_sq_div_eq_coe_nonneg {ι : Type*} [Fintype ι] (c : ι → EReal)
    (hc : ∀ i, IsReal (c i)) {n : ℝ} (hn : 0 < n) :
    ∃ v : ℝ, 0 ≤ v ∧ Ideal.div (∑ i, c i * c i) (n : EReal) = (v : EReal) := by
  choose d hd using hc
  obtain rfl : c = fun i => (d i : EReal) := funext hd
  refine ⟨(∑ i, d i * d i) * (1 / n), ?_, ?_⟩
  · exact mul_nonneg (Finset.sum_nonneg fun i _ => mul_self_nonneg (d i)) (by positivity)
  · simp only [Ideal.div_coe hn.ne', ← EReal.coe_mul, ← coe_finset_sum]

/-- The mean of the squared deviations from the mean (the right-hand side of
    `variance_identity`) is a nonnegative real. -/
theorem variance_eq_coe_nonneg {ι : Type*} [Fintype ι] [Nonempty ι] (a : ι → EReal)
    (ha : ∀ i, IsReal (a i)) (n : ℝ) (hn : n = Fintype.card ι) :
    ∃ v : ℝ, 0 ≤ v ∧
      Ideal.div (∑ i, (a i - Ideal.div (∑ i, a i) (n : EReal))
          * (a i - Ideal.div (∑ i, a i) (n : EReal))) (n : EReal) = (v : EReal) := by
  have hpos : 0 < n := by
    rw [hn]; exact_mod_cast Fintype.card_pos
  exact sum_sq_div_eq_coe_nonneg _
    (fun i => (ha i).sub ((isReal_sum_univ a ha).div_coe hpos.ne')) hpos

/-- The mean of the squared deviations from the mean is finite. -/
theorem isReal_variance {ι : Type*} [Fintype ι] [Nonempty ι] (a : ι → EReal)
    (ha : ∀ i, IsReal (a i)) (n : ℝ) (hn : n = Fintype.card ι) :
    IsReal (Ideal.div (∑ i, (a i - Ideal.div (∑ i, a i) (n : EReal))
          * (a i - Ideal.div (∑ i, a i) (n : EReal))) (n : EReal)) := by
  obtain ⟨v, _, hv⟩ := variance_eq_coe_nonneg a ha n hn
  exact ⟨v, hv⟩

/-- A nonnegative real plus a positive real has a finite reciprocal square root, namely the
    reciprocal of the real square root of the real sum. -/
theorem rsqrt_add_eq_coe {x : EReal} {v : ℝ} (hx : x = (v : EReal)) (hv : 0 ≤ v) {ε : ℝ}
    (hε : 0 < ε) :
    Ideal.rsqrt (x + (ε : EReal)) = (((Real.sqrt (v + ε))⁻¹ : ℝ) : EReal) := by
  rw [hx, ← EReal.coe_add, rsqrt_coe_pos (by linarith)]

/-- A nonnegative real plus a positive real has a finite reciprocal square root. -/
theorem isReal_rsqrt_add {x : EReal} {v : ℝ} (hx : x = (v : EReal)) (hv : 0 ≤ v) {ε : ℝ}
    (hε : 0 < ε) : IsReal (Ideal.rsqrt (x + (ε : EReal))) := by
  rw [rsqrt_add_eq_coe hx hv hε]; exact isReal_coe _

/-- The reciprocal square root of the variance (as the mean of the squared deviations) plus a
    positive real is finite. -/
theorem isReal_rsqrt_variance_add {ι : Type*} [Fintype ι] [Nonempty ι] (a : ι → EReal)
    (ha : ∀ i, IsReal (a i)) (n : ℝ) (hn : n = Fintype.card ι) {ε : ℝ} (hε : 0 < ε) :
    IsReal (Ideal.rsqrt (Ideal.div (∑ i, (a i - Ideal.div (∑ i, a i) (n : EReal))
          * (a i - Ideal.div (∑ i, a i) (n : EReal))) (n : EReal) + (ε : EReal))) := by
  obtain ⟨v, hv0, hv⟩ := variance_eq_coe_nonneg a ha n hn
  exact isReal_rsqrt_add hv hv0 hε

/-- The same for the other expression of the variance: the mean of the squares minus the square
    of the mean, plus a positive real, has a finite reciprocal square root. -/
theorem isReal_rsqrt_variance_add' {ι : Type*} [Fintype ι] [Nonempty ι] (a : ι → EReal)
    (ha : ∀ i, IsReal (a i)) (n : ℝ) (hn : n = Fintype.card ι) {ε : ℝ} (hε : 0 < ε) :
    IsReal (Ideal.rsqrt (Ideal.div (∑ i, a i * a i) (n : EReal)
        - Ideal.div (∑ i, a i) (n : EReal) * Ideal.div (∑ i, a i) (n : EReal) + (ε : EReal))) := by
  rw [variance_identity a ha n hn]; exact isReal_rsqrt_variance_add a ha n hn hε

/-! ### Regrouping sums -/

/-- Member `r` of block `t`, among `A` blocks of `B` members, is below `A * B`. -/
theorem mul_add_lt {A B t r : ℕ} (ht : t < A) (hr : r < B) : t * B + r < A * B :=
  calc t * B + r < t * B + B := by omega
    _ = (t + 1) * B := by ring
    _ ≤ A * B := Nat.mul_le_mul_right B ht

/-- A sum over `Fin (A * B)` is the sum over the `A` blocks of the sums over the `B` members
    of each block, member `r` of block `t` being `t * B + r`. -/
theorem sum_fin_mul {M : Type*} [AddCommMonoid M] (A B : ℕ) (f : Fin (A * B) → M) :
    ∑ i : Fin (A * B), f i
      = ∑ t : Fin A, ∑ r : Fin B, f ⟨t.val * B + r.val, mul_add_lt t.isLt r.isLt⟩ := by
  rw [← finProdFinEquiv.sum_comp, Fintype.sum_prod_type]
  refine Finset.sum_congr rfl fun t _ => Finset.sum_congr rfl fun r _ => ?_
  congr 1
  ext
  simp only [finProdFinEquiv_apply_val]
  ring

/-- The same over `Fin N` for any `N` that is the product `A * B`. -/
theorem sum_fin_eq_sum_blocks {M : Type*} [AddCommMonoid M] {N : ℕ} (A B : ℕ) (h : N = A * B)
    (f : Fin N → M) :
    ∑ i : Fin N, f i
      = ∑ t : Fin A, ∑ r : Fin B, f ⟨t.val * B + r.val, h ▸ mul_add_lt t.isLt r.isLt⟩ := by
  subst h; exact sum_fin_mul A B f

/-- The running sum of a sequence: nothing, then one more term at each step. -/
def runningSum {M : Type*} [AddCommMonoid M] (g : ℕ → M) : ℕ → M
  | 0 => 0
  | t + 1 => runningSum g t + g t

/-- A sequence that starts at `c` and adds the term `g t` at step `t`, for the first `A`
    steps, has reached `c` plus the sum of the first `A` terms. -/
theorem rec_eq_add_sum {M : Type*} [AddCommMonoid M] (S g : ℕ → M) (c : M) (A : ℕ) (h0 : S 0 = c)
    (hs : ∀ t, t < A → S (t + 1) = S t + g t) : S A = c + ∑ t : Fin A, g t.val := by
  induction A with
  | zero => simp [h0]
  | succ k ih =>
    rw [hs k (Nat.lt_succ_self k), ih fun t ht => hs t (Nat.lt_succ_of_lt ht),
      Fin.sum_univ_castSucc, add_assoc]
    rfl

/-- A sequence that starts at zero and adds the term `g t` at step `t`, for the first `A`
    steps, has reached the sum of the first `A` terms. -/
theorem rec_eq_sum {M : Type*} [AddCommMonoid M] (S g : ℕ → M) (A : ℕ) (h0 : S 0 = 0)
    (hs : ∀ t, t < A → S (t + 1) = S t + g t) : S A = ∑ t : Fin A, g t.val := by
  rw [rec_eq_add_sum S g 0 A h0 hs, zero_add]

/-- The running sum after `A` steps is the sum of the first `A` terms. -/
theorem runningSum_eq_sum {M : Type*} [AddCommMonoid M] (g : ℕ → M) (A : ℕ) :
    runningSum g A = ∑ t : Fin A, g t.val :=
  rec_eq_sum (runningSum g) g A rfl fun _ _ => rfl

end RealStats
-- ==== Proof.Spec.lean ====
/-
  The mathematics of one layer of the network, stated once over extended reals and literal index types, for both programs
  to be compared with: a dense layer with relu; the column statistics over the 100000 rows; the two spellings of the
  column variance (the mean of squares less the squared mean, and the mean of squared deviations), equal wherever every
  entry is a real number; and the normalisation with relu.
-/
import Idealize.ShloMosaic.PureOps.Ideal
import Idealize.ShloMosaic.Lib.ValueIdx
import proofs.«170985_j13606456394542_1_alg».proof.Proof.LibRealStats

noncomputable section

open scoped BigOperators

namespace GinSpec

open Idealize.ShloMosaic Idealize.ShloMosaic.ValueIdx RealStats

abbrev SND : Shape := ⟨2, ![100000, 64]⟩
abbrev SDD : Shape := ⟨2, ![64, 64]⟩

/-- One dense layer with relu: entry (i, j) is max (∑ₖ h(i,k)·w(k,j) + b j, 0). -/
def dense (h : SND.Idx → EReal) (w : SDD.Idx → EReal) (b : Fin 64 → EReal) : SND.Idx → EReal :=
  fun i => max ((∑ k : Fin 64, h (ix2 (i 0) k) * w (ix2 k (i 1))) + b (i 1)) 0

/-- Two dense layers. -/
def mlp (h : SND.Idx → EReal) (w1 : SDD.Idx → EReal) (b1 : Fin 64 → EReal) (w2 : SDD.Idx → EReal) (b2 : Fin 64 → EReal) : SND.Idx → EReal :=
  dense (dense h w1 b1) w2 b2

/-- Column sums of the entries and of their squares. -/
def colSum (a : SND.Idx → EReal) (j : Fin 64) : EReal := ∑ i : Fin 100000, a (ix2 i j)
def colSumSq (a : SND.Idx → EReal) (j : Fin 64) : EReal := ∑ i : Fin 100000, a (ix2 i j) * a (ix2 i j)

/-- The column mean (the divisor `nl` is the programs' literal for 100000). -/
def mean (nl : EReal) (a : SND.Idx → EReal) (j : Fin 64) : EReal := Ideal.div (colSum a j) nl
/-- The column variance as the mean of squares less the squared mean, -/
def varK (nl : EReal) (a : SND.Idx → EReal) (j : Fin 64) : EReal := Ideal.div (colSumSq a j) nl - mean nl a j * mean nl a j
/-- and as the mean of the squared deviations. -/
def varR (nl : EReal) (a : SND.Idx → EReal) (j : Fin 64) : EReal :=
  Ideal.div (∑ i : Fin 100000, (a (ix2 i j) - mean nl a j) * (a (ix2 i j) - mean nl a j)) nl

/-- Normalisation, scale, shift and relu. -/
def norm (a : SND.Idx → EReal) (mu istd g be : Fin 64 → EReal) : SND.Idx → EReal :=
  fun i => max ((a i - mu (i 1)) * istd (i 1) * g (i 1) + be (i 1)) 0

def bnK (nl el : EReal) (a : SND.Idx → EReal) (g be : Fin 64 → EReal) : SND.Idx → EReal :=
  norm a (mean nl a) (fun j => Ideal.rsqrt (varK nl a j + el)) g be
def bnR (nl el : EReal) (a : SND.Idx → EReal) (g be : Fin 64 → EReal) : SND.Idx → EReal :=
  norm a (mean nl a) (fun j => Ideal.rsqrt (varR nl a j + el)) g be

theorem card_rows : ((100000 : ℝ)) = (Fintype.card (Fin 100000) : ℝ) := by simp

/-- Where every entry is a real number the two variances agree (the sums are finite, so the square of a difference expands). -/
theorem varK_eq_varR {nl : EReal} (hn : nl = ((100000 : ℝ) : EReal)) (a : SND.Idx → EReal) (ha : ∀ i, IsReal (a i)) (j : Fin 64) :
    varK nl a j = varR nl a j := by
  subst hn
  unfold varK varR mean colSum colSumSq
  exact variance_identity (fun i : Fin 100000 => a (ix2 i j)) (fun i => ha _) 100000 card_rows

theorem bnK_eq_bnR {nl : EReal} (hn : nl = ((100000 : ℝ) : EReal)) (el : EReal) (a : SND.Idx → EReal) (ha : ∀ i, IsReal (a i)) (g be : Fin 64 → EReal) :
    bnK nl el a g be = bnR nl el a g be := by
  unfold bnK bnR
  congr 1
  funext j
  rw [varK_eq_varR hn a ha j]

theorem dense_isReal {h : SND.Idx → EReal} {w : SDD.Idx → EReal} {b : Fin 64 → EReal}
    (hh : ∀ i, IsReal (h i)) (hw : ∀ i, IsReal (w i)) (hb : ∀ j, IsReal (b j)) (i : SND.Idx) : IsReal (dense h w b i) := by
  unfold dense
  exact IsReal.max (IsReal.add (isReal_sum_univ _ fun k => IsReal.mul (hh _) (hw _)) (hb _)) isReal_zero

theorem mlp_isReal {h : SND.Idx → EReal} {w1 w2 : SDD.Idx → EReal} {b1 b2 : Fin 64 → EReal}
    (hh : ∀ i, IsReal (h i)) (hw1 : ∀ i, IsReal (w1 i)) (hb1 : ∀ j, IsReal (b1 j)) (hw2 : ∀ i, IsReal (w2 i)) (hb2 : ∀ j, IsReal (b2 j))
    (i : SND.Idx) : IsReal (mlp h w1 b1 w2 b2 i) :=
  dense_isReal (fun i => dense_isReal hh hw1 hb1 i) hw2 hb2 i

theorem bnR_isReal {nl el : EReal} (hn : nl = ((100000 : ℝ) : EReal)) {e : ℝ} (he : 0 < e) (hel : el = (e : EReal))
    {a : SND.Idx → EReal} (ha : ∀ i, IsReal (a i)) {g be : Fin 64 → EReal} (hg : ∀ j, IsReal (g j)) (hbe : ∀ j, IsReal (be j))
    (i : SND.Idx) : IsReal (bnR nl el a g be i) := by
  subst hn; subst hel
  unfold bnR norm
  refine IsReal.max (IsReal.add (IsReal.mul (IsReal.mul (IsReal.sub (ha _) ?_) ?_) (hg _)) (hbe _)) isReal_zero
  · unfold mean colSum
    exact IsReal.div_coe (isReal_sum_univ _ fun i => ha _) (by norm_num)
  · unfold varR mean colSum
    exact isReal_rsqrt_variance_add (fun r : Fin 100000 => a (ix2 r (i 1))) (fun r => ha _) 100000 card_rows he

end GinSpec

end
-- ==== Proof.MlpI0Fin.lean ====
/-
  The first dense-layer region's three result arrays as whole-array functions, at the exact instance: the block a grid point
  writes back is rows 5000·t … 5000·t + 4999 of the two dense layers applied to the region's input arrays, and the running
  sums after the last point are the column sums over all 100000 rows (the 20 blocks of 5000 rows regrouped).
-/
import proofs.«170985_j13606456394542_1_alg».proof.Proof.MlpI0Val
import proofs.«170985_j13606456394542_1_alg».proof.Proof.MlpPayI
import proofs.«170985_j13606456394542_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The printed index maps, decided over the grid: the row-blocked windows move with the point, the others stay at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N0 : cfg0.N = 20 := N_0

/-- The region's input arrays as it finds them. -/
abbrev arrX0 (c : Dev nD) : GinSpec.SND.Idx → EReal := V c (Pipeline.arrRef spec0 0)
abbrev arrW10 (c : Dev nD) : GinSpec.SDD.Idx → EReal := V c (Pipeline.arrRef spec0 1)
abbrev rowB10 (c : Dev nD) : Fin 64 → EReal := fun k => (V c (Pipeline.arrRef spec0 2) : S1x64.Idx → EReal) (ix2 0 k)
abbrev arrW20 (c : Dev nD) : GinSpec.SDD.Idx → EReal := V c (Pipeline.arrRef spec0 3)
abbrev rowB20 (c : Dev nD) : Fin 64 → EReal := fun k => (V c (Pipeline.arrRef spec0 4) : S1x64.Idx → EReal) (ix2 0 k)
/-- The two dense layers of the whole input array. -/
abbrev H20 (c : Dev nD) : GinSpec.SND.Idx → EReal := GinSpec.mlp (arrX0 V c) (arrW10 V c) (rowB10 V c) (arrW20 V c) (rowB20 V c)

theorem rowOfBlock0 (t : Fin cfg0.N) (p : Fin 5000) : t.val * 5000 + p.val < 100000 := by
  have h := t.isLt; have hN : cfg0.N = 20 := N0; have hp := p.isLt; omega

/-- The row block read at an index: row `p` of point `t`'s block is row 5000·t + p of the array. -/
theorem iblk0_0_apply (c : Dev nD) (t : Fin cfg0.N) (p : Fin 5000) (l : Fin 64) :
    (iblk0 V c 0 t : Vec Ideal S5000x64 .f32) (ix2 p l) = arrX0 V c (ix2 ⟨t.val * 5000 + p.val, rowOfBlock0 t p⟩ l) := by
  unfold iblk0; rw [View.read_apply]
  show V c _ _ = V c _ _
  congr 1; funext a; apply Fin.ext
  obtain ⟨e0, e1, -⟩ := idx0 t
  match a with
  | ⟨0, _⟩ => show win0_0.index t (0 : Fin 2) * 5000 + 1 * p.val = t.val * 5000 + p.val; rw [e0]; omega
  | ⟨1, _⟩ => show win0_0.index t (1 : Fin 2) * 64 + 1 * l.val = l.val; rw [e1]; omega
theorem iblk0_1_apply (c : Dev nD) (t : Fin cfg0.N) (l k : Fin 64) : (iblk0 V c 1 t : Vec Ideal S64x64 .f32) (ix2 l k) = arrW10 V c (ix2 l k) := by
  unfold iblk0; rw [View.read_apply]
  show V c _ _ = V c _ _
  congr 1; funext a; apply Fin.ext
  obtain ⟨e0, e1, e2, e3, e4, e5, e6, e7, e8, e9, -⟩ := idx0 t
  match a with
  | ⟨0, _⟩ => show win0_1.index t (0 : Fin 2) * 64 + 1 * l.val = l.val; rw [e2]; omega
  | ⟨1, _⟩ => show win0_1.index t (1 : Fin 2) * 64 + 1 * k.val = k.val; rw [e3]; omega
theorem iblk0_3_apply (c : Dev nD) (t : Fin cfg0.N) (l k : Fin 64) : (iblk0 V c 3 t : Vec Ideal S64x64 .f32) (ix2 l k) = arrW20 V c (ix2 l k) := by
  unfold iblk0; rw [View.read_apply]
  show V c _ _ = V c _ _
  congr 1; funext a; apply Fin.ext
  obtain ⟨e0, e1, e2, e3, e4, e5, e6, e7, e8, e9, -⟩ := idx0 t
  match a with
  | ⟨0, _⟩ => show win0_3.index t (0 : Fin 2) * 64 + 1 * l.val = l.val; rw [e6]; omega
  | ⟨1, _⟩ => show win0_3.index t (1 : Fin 2) * 64 + 1 * k.val = k.val; rw [e7]; omega
theorem iblk0_2_apply (c : Dev nD) (t : Fin cfg0.N) (k : Fin 64) : (iblk0 V c 2 t : Vec Ideal S1x64 .f32) (ix2 0 k) = rowB10 V c k := by
  unfold iblk0; rw [View.read_apply]
  show V c _ _ = V c _ _
  congr 1; funext a; apply Fin.ext
  obtain ⟨e0, e1, e2, e3, e4, e5, e6, e7, e8, e9, -⟩ := idx0 t
  match a with
  | ⟨0, _⟩ => show win0_2.index t (0 : Fin 2) * 1 + 1 * 0 = 0; rw [e4]
  | ⟨1, _⟩ => show win0_2.index t (1 : Fin 2) * 64 + 1 * k.val = k.val; rw [e5]; omega
theorem iblk0_4_apply (c : Dev nD) (t : Fin cfg0.N) (k : Fin 64) : (iblk0 V c 4 t : Vec Ideal S1x64 .f32) (ix2 0 k) = rowB20 V c k := by
  unfold iblk0; rw [View.read_apply]
  show V c _ _ = V c _ _
  congr 1; funext a; apply Fin.ext
  obtain ⟨e0, e1, e2, e3, e4, e5, e6, e7, e8, e9, -⟩ := idx0 t
  match a with
  | ⟨0, _⟩ => show win0_4.index t (0 : Fin 2) * 1 + 1 * 0 = 0; rw [e8]
  | ⟨1, _⟩ => show win0_4.index t (1 : Fin 2) * 64 + 1 * k.val = k.val; rw [e9]; omega

/-- The dense block at an index is the two dense layers of the whole array at the block's row. -/
theorem blk0_5_apply (c : Dev nD) (t : Fin cfg0.N) (p : Fin 5000) (q : Fin 64) :
    blk0_5 V c t (ix2 p q) = H20 V c (ix2 ⟨t.val * 5000 + p.val, rowOfBlock0 t p⟩ q) := by
  unfold blk0_5; rw [k0_pay5_apply]
  simp only [iblk0_0_apply, iblk0_1_apply, iblk0_3_apply, iblk0_2_apply, iblk0_4_apply]
  rfl

/-- What point `t` writes back into the first result is block `t` of the two dense layers of the input array. -/
theorem flushed0_5 (c : Dev nD) (t : Fin cfg0.N) :
    (dat0 V c).flushed 5 t = ((cfg0.win 5).blk t).view.read (Elt Ideal) (H20 V c) := by
  show (cfg0.win 5).cut (grid0.coords t) ((dat0 V c).after 5 t) = _
  rw [after0_5, outsAt0_eq]; dsimp only
  funext y
  obtain ⟨p, q, rfl⟩ : ∃ (p : Fin 5000) (q : Fin 64), y = ix2 p q := ⟨y 0, y 1, eq_ix2 y⟩
  rw [View.read_apply]
  refine (blk0_5_apply V c t p q).trans ?_
  show H20 V c _ = H20 V c _
  congr 1; funext a; apply Fin.ext
  obtain ⟨e0, e1, e2, e3, e4, e5, e6, e7, e8, e9, e10, e11, -⟩ := idx0 t
  match a with
  | ⟨0, _⟩ => show t.val * 5000 + p.val = win0_5.index t (0 : Fin 2) * 5000 + 1 * p.val; rw [e10]; omega
  | ⟨1, _⟩ => show q.val = win0_5.index t (1 : Fin 2) * 64 + 1 * q.val; rw [e11]; omega

/-- The first result array after the run: the two dense layers of the region's input array. -/
theorem final0_5 (c : Dev nD) : (dat0 V c).arrAt 5 cfg0.N = H20 V c :=
  (dat0 V c).arrAt_eq_of_cover 5 (H20 V c) (fun t _ => flushed0_5 V c t) fun i => by
    have h0 : (i 0 : Nat) < 100000 := (i 0).isLt
    have h1 : (i 1 : Nat) < 64 := (i 1).isLt
    have hN : cfg0.N = 20 := N0
    have ht : (i 0 : Nat) / 5000 < cfg0.N := by omega
    refine ⟨⟨(i 0 : Nat) / 5000, ht⟩, flush0_5 _, ?_⟩
    show i ∈ ((View.whole main_v34_0).slice (win0_5.rect ⟨(i 0 : Nat) / 5000, ht⟩)).set
    rw [View.set_slice_whole, Rect.mem_set_unit]
    intro a
    obtain ⟨e0, e1, e2, e3, e4, e5, e6, e7, e8, e9, e10, e11, -⟩ := idx0 ⟨(i 0 : Nat) / 5000, ht⟩
    match a with
    | ⟨0, _⟩ => show win0_5.index ⟨(i 0 : Nat) / 5000, ht⟩ (0 : Fin 2) * 5000 ≤ (i 0 : Nat) ∧ (i 0 : Nat) < win0_5.index ⟨(i 0 : Nat) / 5000, ht⟩ (0 : Fin 2) * 5000 + 5000
                rw [e10]; dsimp only; omega
    | ⟨1, _⟩ => show win0_5.index ⟨(i 0 : Nat) / 5000, ht⟩ (1 : Fin 2) * 64 ≤ (i 1 : Nat) ∧ (i 1 : Nat) < win0_5.index ⟨(i 0 : Nat) / 5000, ht⟩ (1 : Fin 2) * 64 + 64
                rw [e11]; omega

/-! ## The running sums -/

theorem last0 : 19 < cfg0.N := by rw [N0]; decide

/-- The running column sum after point `n` at column `q`: the rows of the first `n + 1` blocks. -/
theorem accS0_apply (c : Dev nD) (q : Fin 64) : ∀ (n : ℕ) (h : n < cfg0.N),
    accS0 V c n h (ix2 0 q) = ∑ s : Fin (n + 1), ∑ p : Fin 5000, blk0_5 V c ⟨s.val, lt_of_lt_of_le s.isLt h⟩ (ix2 p q)
  | 0, h => by
    show k0_pay1 (k0_pay6 _ _ _ _ _ k0_pay3) (ix2 0 q) = _
    rw [k0_pay1_eq, k0_pay6_apply, k0_pay3_apply, zero_add, Fin.sum_univ_one]
    rfl
  | n + 1, h => by
    show k0_pay1 (k0_pay6 _ _ _ _ _ (accS0 V c n _)) (ix2 0 q) = _
    rw [Fin.sum_univ_castSucc (n := n + 1), k0_pay1_eq, k0_pay6_apply, accS0_apply c q n (Nat.lt_of_succ_lt h)]
    rfl
theorem accQ0_apply (c : Dev nD) (q : Fin 64) : ∀ (n : ℕ) (h : n < cfg0.N),
    accQ0 V c n h (ix2 0 q) = ∑ s : Fin (n + 1), ∑ p : Fin 5000, blk0_5 V c ⟨s.val, lt_of_lt_of_le s.isLt h⟩ (ix2 p q) * blk0_5 V c ⟨s.val, lt_of_lt_of_le s.isLt h⟩ (ix2 p q)
  | 0, h => by
    show k0_pay2 _ k0_pay4 (ix2 0 q) = _
    rw [k0_pay2_apply, k0_pay4_apply, zero_add, Fin.sum_univ_one]
    rfl
  | n + 1, h => by
    show k0_pay2 _ (accQ0 V c n _) (ix2 0 q) = _
    rw [Fin.sum_univ_castSucc (n := n + 1), k0_pay2_apply, accQ0_apply c q n (Nat.lt_of_succ_lt h)]
    rfl

/-- After the last point the running sums are the column sums over all the rows. -/
theorem accS0_last (c : Dev nD) (q : Fin 64) : accS0 V c 19 last0 (ix2 0 q) = GinSpec.colSum (H20 V c) q := by
  rw [accS0_apply]
  unfold GinSpec.colSum
  rw [RealStats.sum_fin_eq_sum_blocks 20 5000 (by norm_num) (fun i : Fin 100000 => H20 V c (ix2 i q))]
  refine Finset.sum_congr rfl fun s _ => Finset.sum_congr rfl fun p _ => ?_
  exact blk0_5_apply V c ⟨s.val, _⟩ p q
theorem accQ0_last (c : Dev nD) (q : Fin 64) : accQ0 V c 19 last0 (ix2 0 q) = GinSpec.colSumSq (H20 V c) q := by
  rw [accQ0_apply]
  unfold GinSpec.colSumSq
  rw [RealStats.sum_fin_eq_sum_blocks 20 5000 (by norm_num) (fun i : Fin 100000 => H20 V c (ix2 i q) * H20 V c (ix2 i q))]
  refine Finset.sum_congr rfl fun s _ => Finset.sum_congr rfl fun p _ => ?_
  rw [blk0_5_apply V c ⟨s.val, _⟩ p q]

/-- The one write-back of result 1, at the last point, writes the running sum (the block is the whole one-row array). -/
theorem flushed0_6 (c : Dev nD) (t : Fin cfg0.N) (hf : (cfg0.win 6).flush t = true) :
    (dat0 V c).flushed 6 t = ((cfg0.win 6).blk t).view.read (Elt Ideal) (accS0 V c 19 last0) := by
  have h19 : t.val = 19 := by have h1 := (flush0_6 t).mp hf; have h2 := t.isLt; have hN : cfg0.N = 20 := N0; omega
  obtain rfl : t = ⟨19, last0⟩ := Fin.ext h19
  show (cfg0.win 6).cut (grid0.coords _) ((dat0 V c).after 6 _) = _
  rw [after0_6, outsAt0_eq]; dsimp only
  funext y
  rw [View.read_apply]
  show accS0 V c 19 _ y = accS0 V c 19 _ _
  congr 1; funext a; apply Fin.ext
  obtain ⟨e0, e1, e2, e3, e4, e5, e6, e7, e8, e9, e10, e11, e12, e13, e14, e15⟩ := idx0 ⟨19, last0⟩
  match a with
  | ⟨0, _⟩ => show (y 0).val = win0_6.index _ (0 : Fin 2) * 1 + 1 * (y 0).val; rw [e12]; omega
  | ⟨1, _⟩ => show (y 1).val = win0_6.index _ (1 : Fin 2) * 64 + 1 * (y 1).val; rw [e13]; omega
theorem arr0_6 (c : Dev nD) : (dat0 V c).arrAt 6 cfg0.N = accS0 V c 19 last0 :=
  (dat0 V c).arrAt_eq_of_cover 6 (accS0 V c 19 last0) (flushed0_6 V c) fun i =>
    ⟨⟨19, last0⟩, (flush0_6 _).mpr rfl, by
      show i ∈ ((View.whole main_v34_1).slice (win0_6.rect ⟨19, last0⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx0 ⟨19, last0⟩
      match a with
      | ⟨0, _⟩ => show win0_6.index _ (0 : Fin 2) * 1 ≤ (i 0 : Nat) ∧ (i 0 : Nat) < win0_6.index _ (0 : Fin 2) * 1 + 1
                  rw [e12]; omega
      | ⟨1, _⟩ => show win0_6.index _ (1 : Fin 2) * 64 ≤ (i 1 : Nat) ∧ (i 1 : Nat) < win0_6.index _ (1 : Fin 2) * 64 + 64
                  rw [e13]; omega⟩
/-- The one write-back of result 2, at the last point, writes the running sum (the block is the whole one-row array). -/
theorem flushed0_7 (c : Dev nD) (t : Fin cfg0.N) (hf : (cfg0.win 7).flush t = true) :
    (dat0 V c).flushed 7 t = ((cfg0.win 7).blk t).view.read (Elt Ideal) (accQ0 V c 19 last0) := by
  have h19 : t.val = 19 := by have h1 := (flush0_7 t).mp hf; have h2 := t.isLt; have hN : cfg0.N = 20 := N0; omega
  obtain rfl : t = ⟨19, last0⟩ := Fin.ext h19
  show (cfg0.win 7).cut (grid0.coords _) ((dat0 V c).after 7 _) = _
  rw [after0_7, outsAt0_eq]; dsimp only
  funext y
  rw [View.read_apply]
  show accQ0 V c 19 _ y = accQ0 V c 19 _ _
  congr 1; funext a; apply Fin.ext
  obtain ⟨e0, e1, e2, e3, e4, e5, e6, e7, e8, e9, e10, e11, e12, e13, e14, e15⟩ := idx0 ⟨19, last0⟩
  match a with
  | ⟨0, _⟩ => show (y 0).val = win0_7.index _ (0 : Fin 2) * 1 + 1 * (y 0).val; rw [e14]; omega
  | ⟨1, _⟩ => show (y 1).val = win0_7.index _ (1 : Fin 2) * 64 + 1 * (y 1).val; rw [e15]; omega
theorem arr0_7 (c : Dev nD) : (dat0 V c).arrAt 7 cfg0.N = accQ0 V c 19 last0 :=
  (dat0 V c).arrAt_eq_of_cover 7 (accQ0 V c 19 last0) (flushed0_7 V c) fun i =>
    ⟨⟨19, last0⟩, (flush0_7 _).mpr rfl, by
      show i ∈ ((View.whole main_v34_2).slice (win0_7.rect ⟨19, last0⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx0 ⟨19, last0⟩
      match a with
      | ⟨0, _⟩ => show win0_7.index _ (0 : Fin 2) * 1 ≤ (i 0 : Nat) ∧ (i 0 : Nat) < win0_7.index _ (0 : Fin 2) * 1 + 1
                  rw [e14]; omega
      | ⟨1, _⟩ => show win0_7.index _ (1 : Fin 2) * 64 ≤ (i 1 : Nat) ∧ (i 1 : Nat) < win0_7.index _ (1 : Fin 2) * 64 + 64
                  rw [e15]; omega⟩

/-- The second and third result arrays after the run: the column sums of the two dense layers' array and of its squares. -/
theorem final0_6 (c : Dev nD) (q : Fin 64) : ((dat0 V c).arrAt 6 cfg0.N : S1x64.Idx → EReal) (ix2 0 q) = GinSpec.colSum (H20 V c) q := by
  rw [arr0_6]; exact accS0_last V c q
theorem final0_7 (c : Dev nD) (q : Fin 64) : ((dat0 V c).arrAt 7 cfg0.N : S1x64.Idx → EReal) (ix2 0 q) = GinSpec.colSumSq (H20 V c) q := by
  rw [arr0_7]; exact accQ0_last V c q

end Cert.KernelIdeal.Hand

end
-- ==== Proof.MlpI2Val.lean ====
/-
  The second dense-layer region, read as values: the pieces each grid point's run leaves are the body's arithmetic of the
  point's input blocks (the dense layers' block; the running column sums continued from the point before, from zero at
  the first point), so the contents after each point are a recursion on the point.
-/
import proofs.«170985_j13606456394542_1_alg».proof.Proof.MlpI2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The dense layers' block at point `t`. -/
abbrev blk2_5 (c : Dev nD) (t : Fin cfg2.N) : Vec F S5000x64 .f32 := k2_pay5 (iblk2 V c 0 t) (iblk2 V c 1 t) (iblk2 V c 2 t) (iblk2 V c 3 t) (iblk2 V c 4 t)

theorem outA2_5 (c : Dev nD) (t : Fin cfg2.N) (h : t.val = 0) :
    (outA2 V c t h).1 = blk2_5 V c t := by
  unfold outA2; dsimp only
  rw [View.read_writes_eq_canon _ _ _ (coverA2_5 V c t h)]
  unfold runA2 kernelRun2_A; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outA2_S0 (c : Dev nD) (t : Fin cfg2.N) (h : t.val = 0) :
    (outA2 V c t h).2.2.2.1 = k2_pay1 (k2_pay6 (iblk2 V c 0 t) (iblk2 V c 1 t) (iblk2 V c 2 t) (iblk2 V c 3 t) (iblk2 V c 4 t) k2_pay3) := by
  unfold outA2; dsimp only
  rw [View.read_writes_eq_canon _ _ _ (coverA2_S0 V c t h)]
  unfold runA2 kernelRun2_A; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outA2_6 (c : Dev nD) (t : Fin cfg2.N) (h : t.val = 0) :
    (outA2 V c t h).2.1 = k2_pay1 (k2_pay6 (iblk2 V c 0 t) (iblk2 V c 1 t) (iblk2 V c 2 t) (iblk2 V c 3 t) (iblk2 V c 4 t) k2_pay3) := by
  unfold outA2; dsimp only
  rw [View.read_writes_eq_canon _ _ _ (coverA2_6 V c t h)]
  unfold runA2 kernelRun2_A; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outA2_S1 (c : Dev nD) (t : Fin cfg2.N) (h : t.val = 0) :
    (outA2 V c t h).2.2.2.2 = k2_pay2 (blk2_5 V c t) k2_pay4 := by
  unfold outA2; dsimp only
  rw [View.read_writes_eq_canon _ _ _ (coverA2_S1 V c t h)]
  unfold runA2 kernelRun2_A; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outA2_7 (c : Dev nD) (t : Fin cfg2.N) (h : t.val = 0) :
    (outA2 V c t h).2.2.1 = k2_pay2 (blk2_5 V c t) k2_pay4 := by
  unfold outA2; dsimp only
  rw [View.read_writes_eq_canon _ _ _ (coverA2_7 V c t h)]
  unfold runA2 kernelRun2_A; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outB2_5 (c : Dev nD) (t : Fin cfg2.N) (h : t.val ≠ 0) (xs0 xs1 : Vec F S1x64 .f32) :
    (outB2 V c t h xs0 xs1).1 = blk2_5 V c t := by
  unfold outB2; dsimp only
  rw [View.read_writes_eq_canon _ _ _ (coverB2_5 V c t h xs0 xs1)]
  unfold runB2 kernelRun2_B; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]

theorem outB2_S0 (c : Dev nD) (t : Fin cfg2.N) (h : t.val ≠ 0) (xs0 xs1 : Vec F S1x64 .f32) :
    (outB2 V c t h xs0 xs1).2.2.2.1 = k2_pay1 (k2_pay6 (iblk2 V c 0 t) (iblk2 V c 1 t) (iblk2 V c 2 t) (iblk2 V c 3 t) (iblk2 V c 4 t) xs0) := by
  unfold outB2; dsimp only
  rw [View.read_writes_eq_canon _ _ _ (coverB2_S0 V c t h xs0 xs1)]
  unfold runB2 kernelRun2_B; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]
  exact congrArg (fun z => k2_pay1 (k2_pay6 (iblk2 V c 0 t) (iblk2 V c 1 t) (iblk2 V c 2 t) (iblk2 V c 3 t) (iblk2 V c 4 t) z)) (Memref.IsWhole.read_unread (Val := Elt F) (Memref.isWhole_whole cc2_scratch0) xs0)

theorem outB2_6 (c : Dev nD) (t : Fin cfg2.N) (h : t.val ≠ 0) (xs0 xs1 : Vec F S1x64 .f32) :
    (outB2 V c t h xs0 xs1).2.1 = k2_pay1 (k2_pay6 (iblk2 V c 0 t) (iblk2 V c 1 t) (iblk2 V c 2 t) (iblk2 V c 3 t) (iblk2 V c 4 t) xs0) := by
  unfold outB2; dsimp only
  rw [View.read_writes_eq_canon _ _ _ (coverB2_6 V c t h xs0 xs1)]
  unfold runB2 kernelRun2_B; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]
  exact congrArg (fun z => k2_pay1 (k2_pay6 (iblk2 V c 0 t) (iblk2 V c 1 t) (iblk2 V c 2 t) (iblk2 V c 3 t) (iblk2 V c 4 t) z)) (Memref.IsWhole.read_unread (Val := Elt F) (Memref.isWhole_whole cc2_scratch0) xs0)

theorem outB2_S1 (c : Dev nD) (t : Fin cfg2.N) (h : t.val ≠ 0) (xs0 xs1 : Vec F S1x64 .f32) :
    (outB2 V c t h xs0 xs1).2.2.2.2 = k2_pay2 (blk2_5 V c t) xs1 := by
  unfold outB2; dsimp only
  rw [View.read_writes_eq_canon _ _ _ (coverB2_S1 V c t h xs0 xs1)]
  unfold runB2 kernelRun2_B; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]
  exact congrArg (fun z => k2_pay2 (blk2_5 V c t) z) (Memref.IsWhole.read_unread (Val := Elt F) (Memref.isWhole_whole cc2_scratch1) xs1)

theorem outB2_7 (c : Dev nD) (t : Fin cfg2.N) (h : t.val ≠ 0) (xs0 xs1 : Vec F S1x64 .f32) :
    (outB2 V c t h xs0 xs1).2.2.1 = k2_pay2 (blk2_5 V c t) xs1 := by
  unfold outB2; dsimp only
  rw [View.read_writes_eq_canon _ _ _ (coverB2_7 V c t h xs0 xs1)]
  unfold runB2 kernelRun2_B; dsimp only
  sl_unfold_words
  simp only [View.canon_unit_zero (S := S5000x64) hz2, View.canon_unit_zero (S := S1x64) hz2, View.canon_cons_unit_zero (S := S1x64) hz2,
    View.readCov_unit_zero (S := S1x64) _ hz2, View.readCov_cons_toLoadRect, View.readAt_eq_ld, Memref.IsWhole.read_unread,
    View.ld_unit_zero (S := S5000x64) hz2, View.ld_unit_zero (S := S64x64) hz2, View.ld_unit_zero (S := S1x64) hz2]
  exact congrArg (fun z => k2_pay2 (blk2_5 V c t) z) (Memref.IsWhole.read_unread (Val := Elt F) (Memref.isWhole_whole cc2_scratch1) xs1)

/-- The running column sum after point `n`: from the zero row at the first point, then continued. -/
def accS2 (c : Dev nD) : (n : ℕ) → n < cfg2.N → Vec F S1x64 .f32
  | 0, h => k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) k2_pay3)
  | n + 1, h => k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accS2 c n (Nat.lt_of_succ_lt h)))
/-- The running column sum of squares after point `n`. -/
def accQ2 (c : Dev nD) : (n : ℕ) → n < cfg2.N → Vec F S1x64 .f32
  | 0, h => k2_pay2 (blk2_5 V c ⟨0, h⟩) k2_pay4
  | n + 1, h => k2_pay2 (blk2_5 V c ⟨n + 1, h⟩) (accQ2 c n (Nat.lt_of_succ_lt h))

/-- What the buffers hold after point `n` IS the dense block and the running sums — by induction on the point. -/
theorem outsAt2_eq (c : Dev nD) : ∀ (n : ℕ) (h : n < cfg2.N),
    outsAt2 V c n h = (blk2_5 V c ⟨n, h⟩, accS2 V c n h, accQ2 V c n h, accS2 V c n h, accQ2 V c n h)
  | 0, h => by
    rw [outsAt2_A V c ⟨0, h⟩ rfl]
    refine Prod.ext (outA2_5 V c _ rfl) (Prod.ext (outA2_6 V c _ rfl) (Prod.ext (outA2_7 V c _ rfl) (Prod.ext (outA2_S0 V c _ rfl) (outA2_S1 V c _ rfl))))
  | n + 1, h => by
    have hB : (⟨n + 1, h⟩ : Fin cfg2.N).val ≠ 0 := Nat.succ_ne_zero n
    rw [outsAt2_B V c ⟨n + 1, h⟩ hB]
    have ih := outsAt2_eq c n (Nat.lt_of_succ_lt h)
    have e0 : (outsAt2 V c ((⟨n + 1, h⟩ : Fin cfg2.N).val - 1) (Nat.lt_of_le_of_lt (Nat.sub_le _ _) h)).2.2.2.1 = accS2 V c n (Nat.lt_of_succ_lt h) := by
      show (outsAt2 V c n _).2.2.2.1 = _; rw [ih]
    have e1 : (outsAt2 V c ((⟨n + 1, h⟩ : Fin cfg2.N).val - 1) (Nat.lt_of_le_of_lt (Nat.sub_le _ _) h)).2.2.2.2 = accQ2 V c n (Nat.lt_of_succ_lt h) := by
      show (outsAt2 V c n _).2.2.2.2 = _; rw [ih]
    rw [e0, e1]
    refine Prod.ext (outB2_5 V c _ hB _ _) (Prod.ext (outB2_6 V c _ hB _ _) (Prod.ext (outB2_7 V c _ hB _ _) (Prod.ext (outB2_S0 V c _ hB _ _) (outB2_S1 V c _ hB _ _))))

end Cert.KernelIdeal.Hand

end
-- ==== Proof.MlpI2Fin.lean ====
/-
  The second dense-layer region's three result arrays as whole-array functions, at the exact instance: the block a grid point
  writes back is rows 5000·t … 5000·t + 4999 of the two dense layers applied to the region's input arrays, and the running
  sums after the last point are the column sums over all 100000 rows (the 20 blocks of 5000 rows regrouped).
-/
import proofs.«170985_j13606456394542_1_alg».proof.Proof.MlpI2Val
import proofs.«170985_j13606456394542_1_alg».proof.Proof.MlpPayI
import proofs.«170985_j13606456394542_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The printed index maps, decided over the grid: the row-blocked windows move with the point, the others stay at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem N2 : cfg2.N = 20 := N_2

/-- The region's input arrays as it finds them. -/
abbrev arrX2 (c : Dev nD) : GinSpec.SND.Idx → EReal := V c (Pipeline.arrRef spec2 0)
abbrev arrW12 (c : Dev nD) : GinSpec.SDD.Idx → EReal := V c (Pipeline.arrRef spec2 1)
abbrev rowB12 (c : Dev nD) : Fin 64 → EReal := fun k => (V c (Pipeline.arrRef spec2 2) : S1x64.Idx → EReal) (ix2 0 k)
abbrev arrW22 (c : Dev nD) : GinSpec.SDD.Idx → EReal := V c (Pipeline.arrRef spec2 3)
abbrev rowB22 (c : Dev nD) : Fin 64 → EReal := fun k => (V c (Pipeline.arrRef spec2 4) : S1x64.Idx → EReal) (ix2 0 k)
/-- The two dense layers of the whole input array. -/
abbrev H22 (c : Dev nD) : GinSpec.SND.Idx → EReal := GinSpec.mlp (arrX2 V c) (arrW12 V c) (rowB12 V c) (arrW22 V c) (rowB22 V c)

theorem rowOfBlock2 (t : Fin cfg2.N) (p : Fin 5000) : t.val * 5000 + p.val < 100000 := by
  have h := t.isLt; have hN : cfg2.N = 20 := N2; have hp := p.isLt; omega

/-- The row block read at an index: row `p` of point `t`'s block is row 5000·t + p of the array. -/
theorem iblk2_0_apply (c : Dev nD) (t : Fin cfg2.N) (p : Fin 5000) (l : Fin 64) :
    (iblk2 V c 0 t : Vec Ideal S5000x64 .f32) (ix2 p l) = arrX2 V c (ix2 ⟨t.val * 5000 + p.val, rowOfBlock2 t p⟩ l) := by
  unfold iblk2; rw [View.read_apply]
  show V c _ _ = V c _ _
  congr 1; funext a; apply Fin.ext
  obtain ⟨e0, e1, -⟩ := idx2 t
  match a with
  | ⟨0, _⟩ => show win2_0.index t (0 : Fin 2) * 5000 + 1 * p.val = t.val * 5000 + p.val; rw [e0]; omega
  | ⟨1, _⟩ => show win2_0.index t (1 : Fin 2) * 64 + 1 * l.val = l.val; rw [e1]; omega
theorem iblk2_1_apply (c : Dev nD) (t : Fin cfg2.N) (l k : Fin 64) : (iblk2 V c 1 t : Vec Ideal S64x64 .f32) (ix2 l k) = arrW12 V c (ix2 l k) := by
  unfold iblk2; rw [View.read_apply]
  show V c _ _ = V c _ _
  congr 1; funext a; apply Fin.ext
  obtain ⟨e0, e1, e2, e3, e4, e5, e6, e7, e8, e9, -⟩ := idx2 t
  match a with
  | ⟨0, _⟩ => show win2_1.index t (0 : Fin 2) * 64 + 1 * l.val = l.val; rw [e2]; omega
  | ⟨1, _⟩ => show win2_1.index t (1 : Fin 2) * 64 + 1 * k.val = k.val; rw [e3]; omega
theorem iblk2_3_apply (c : Dev nD) (t : Fin cfg2.N) (l k : Fin 64) : (iblk2 V c 3 t : Vec Ideal S64x64 .f32) (ix2 l k) = arrW22 V c (ix2 l k) := by
  unfold iblk2; rw [View.read_apply]
  show V c _ _ = V c _ _
  congr 1; funext a; apply Fin.ext
  obtain ⟨e0, e1, e2, e3, e4, e5, e6, e7, e8, e9, -⟩ := idx2 t
  match a with
  | ⟨0, _⟩ => show win2_3.index t (0 : Fin 2) * 64 + 1 * l.val = l.val; rw [e6]; omega
  | ⟨1, _⟩ => show win2_3.index t (1 : Fin 2) * 64 + 1 * k.val = k.val; rw [e7]; omega
theorem iblk2_2_apply (c : Dev nD) (t : Fin cfg2.N) (k : Fin 64) : (iblk2 V c 2 t : Vec Ideal S1x64 .f32) (ix2 0 k) = rowB12 V c k := by
  unfold iblk2; rw [View.read_apply]
  show V c _ _ = V c _ _
  congr 1; funext a; apply Fin.ext
  obtain ⟨e0, e1, e2, e3, e4, e5, e6, e7, e8, e9, -⟩ := idx2 t
  match a with
  | ⟨0, _⟩ => show win2_2.index t (0 : Fin 2) * 1 + 1 * 0 = 0; rw [e4]
  | ⟨1, _⟩ => show win2_2.index t (1 : Fin 2) * 64 + 1 * k.val = k.val; rw [e5]; omega
theorem iblk2_4_apply (c : Dev nD) (t : Fin cfg2.N) (k : Fin 64) : (iblk2 V c 4 t : Vec Ideal S1x64 .f32) (ix2 0 k) = rowB22 V c k := by
  unfold iblk2; rw [View.read_apply]
  show V c _ _ = V c _ _
  congr 1; funext a; apply Fin.ext
  obtain ⟨e0, e1, e2, e3, e4, e5, e6, e7, e8, e9, -⟩ := idx2 t
  match a with
  | ⟨0, _⟩ => show win2_4.index t (0 : Fin 2) * 1 + 1 * 0 = 0; rw [e8]
  | ⟨1, _⟩ => show win2_4.index t (1 : Fin 2) * 64 + 1 * k.val = k.val; rw [e9]; omega

/-- The dense block at an index is the two dense layers of the whole array at the block's row. -/
theorem blk2_5_apply (c : Dev nD) (t : Fin cfg2.N) (p : Fin 5000) (q : Fin 64) :
    blk2_5 V c t (ix2 p q) = H22 V c (ix2 ⟨t.val * 5000 + p.val, rowOfBlock2 t p⟩ q) := by
  unfold blk2_5; rw [k2_pay5_apply]
  simp only [iblk2_0_apply, iblk2_1_apply, iblk2_3_apply, iblk2_2_apply, iblk2_4_apply]
  rfl

/-- What point `t` writes back into the first result is block `t` of the two dense layers of the input array. -/
theorem flushed2_5 (c : Dev nD) (t : Fin cfg2.N) :
    (dat2 V c).flushed 5 t = ((cfg2.win 5).blk t).view.read (Elt Ideal) (H22 V c) := by
  show (cfg2.win 5).cut (grid2.coords t) ((dat2 V c).after 5 t) = _
  rw [after2_5, outsAt2_eq]; dsimp only
  funext y
  obtain ⟨p, q, rfl⟩ : ∃ (p : Fin 5000) (q : Fin 64), y = ix2 p q := ⟨y 0, y 1, eq_ix2 y⟩
  rw [View.read_apply]
  refine (blk2_5_apply V c t p q).trans ?_
  show H22 V c _ = H22 V c _
  congr 1; funext a; apply Fin.ext
  obtain ⟨e0, e1, e2, e3, e4, e5, e6, e7, e8, e9, e10, e11, -⟩ := idx2 t
  match a with
  | ⟨0, _⟩ => show t.val * 5000 + p.val = win2_5.index t (0 : Fin 2) * 5000 + 1 * p.val; rw [e10]; omega
  | ⟨1, _⟩ => show q.val = win2_5.index t (1 : Fin 2) * 64 + 1 * q.val; rw [e11]; omega

/-- The first result array after the run: the two dense layers of the region's input array. -/
theorem final2_5 (c : Dev nD) : (dat2 V c).arrAt 5 cfg2.N = H22 V c :=
  (dat2 V c).arrAt_eq_of_cover 5 (H22 V c) (fun t _ => flushed2_5 V c t) fun i => by
    have h0 : (i 0 : Nat) < 100000 := (i 0).isLt
    have h1 : (i 1 : Nat) < 64 := (i 1).isLt
    have hN : cfg2.N = 20 := N2
    have ht : (i 0 : Nat) / 5000 < cfg2.N := by omega
    refine ⟨⟨(i 0 : Nat) / 5000, ht⟩, flush0_5 _, ?_⟩
    show i ∈ ((View.whole main_v81_0).slice (win2_5.rect ⟨(i 0 : Nat) / 5000, ht⟩)).set
    rw [View.set_slice_whole, Rect.mem_set_unit]
    intro a
    obtain ⟨e0, e1, e2, e3, e4, e5, e6, e7, e8, e9, e10, e11, -⟩ := idx2 ⟨(i 0 : Nat) / 5000, ht⟩
    match a with
    | ⟨0, _⟩ => show win2_5.index ⟨(i 0 : Nat) / 5000, ht⟩ (0 : Fin 2) * 5000 ≤ (i 0 : Nat) ∧ (i 0 : Nat) < win2_5.index ⟨(i 0 : Nat) / 5000, ht⟩ (0 : Fin 2) * 5000 + 5000
                rw [e10]; dsimp only; omega
    | ⟨1, _⟩ => show win2_5.index ⟨(i 0 : Nat) / 5000, ht⟩ (1 : Fin 2) * 64 ≤ (i 1 : Nat) ∧ (i 1 : Nat) < win2_5.index ⟨(i 0 : Nat) / 5000, ht⟩ (1 : Fin 2) * 64 + 64
                rw [e11]; omega

/-! ## The running sums -/

theorem last2 : 19 < cfg2.N := by rw [N2]; decide

/-- The running column sum after point `n` at column `q`: the rows of the first `n + 1` blocks. -/
theorem accS2_apply (c : Dev nD) (q : Fin 64) : ∀ (n : ℕ) (h : n < cfg2.N),
    accS2 V c n h (ix2 0 q) = ∑ s : Fin (n + 1), ∑ p : Fin 5000, blk2_5 V c ⟨s.val, lt_of_lt_of_le s.isLt h⟩ (ix2 p q)
  | 0, h => by
    show k2_pay1 (k2_pay6 _ _ _ _ _ k2_pay3) (ix2 0 q) = _
    rw [k2_pay1_eq, k2_pay6_apply, k2_pay3_apply, zero_add, Fin.sum_univ_one]
    rfl
  | n + 1, h => by
    show k2_pay1 (k2_pay6 _ _ _ _ _ (accS2 V c n _)) (ix2 0 q) = _
    rw [Fin.sum_univ_castSucc (n := n + 1), k2_pay1_eq, k2_pay6_apply, accS2_apply c q n (Nat.lt_of_succ_lt h)]
    rfl
theorem accQ2_apply (c : Dev nD) (q : Fin 64) : ∀ (n : ℕ) (h : n < cfg2.N),
    accQ2 V c n h (ix2 0 q) = ∑ s : Fin (n + 1), ∑ p : Fin 5000, blk2_5 V c ⟨s.val, lt_of_lt_of_le s.isLt h⟩ (ix2 p q) * blk2_5 V c ⟨s.val, lt_of_lt_of_le s.isLt h⟩ (ix2 p q)
  | 0, h => by
    show k2_pay2 _ k2_pay4 (ix2 0 q) = _
    rw [k2_pay2_apply, k2_pay4_apply, zero_add, Fin.sum_univ_one]
    rfl
  | n + 1, h => by
    show k2_pay2 _ (accQ2 V c n _) (ix2 0 q) = _
    rw [Fin.sum_univ_castSucc (n := n + 1), k2_pay2_apply, accQ2_apply c q n (Nat.lt_of_succ_lt h)]
    rfl

/-- After the last point the running sums are the column sums over all the rows. -/
theorem accS2_last (c : Dev nD) (q : Fin 64) : accS2 V c 19 last2 (ix2 0 q) = GinSpec.colSum (H22 V c) q := by
  rw [accS2_apply]
  unfold GinSpec.colSum
  rw [RealStats.sum_fin_eq_sum_blocks 20 5000 (by norm_num) (fun i : Fin 100000 => H22 V c (ix2 i q))]
  refine Finset.sum_congr rfl fun s _ => Finset.sum_congr rfl fun p _ => ?_
  exact blk2_5_apply V c ⟨s.val, _⟩ p q
theorem accQ2_last (c : Dev nD) (q : Fin 64) : accQ2 V c 19 last2 (ix2 0 q) = GinSpec.colSumSq (H22 V c) q := by
  rw [accQ2_apply]
  unfold GinSpec.colSumSq
  rw [RealStats.sum_fin_eq_sum_blocks 20 5000 (by norm_num) (fun i : Fin 100000 => H22 V c (ix2 i q) * H22 V c (ix2 i q))]
  refine Finset.sum_congr rfl fun s _ => Finset.sum_congr rfl fun p _ => ?_
  rw [blk2_5_apply V c ⟨s.val, _⟩ p q]

/-- The one write-back of result 1, at the last point, writes the running sum (the block is the whole one-row array). -/
theorem flushed2_6 (c : Dev nD) (t : Fin cfg2.N) (hf : (cfg2.win 6).flush t = true) :
    (dat2 V c).flushed 6 t = ((cfg2.win 6).blk t).view.read (Elt Ideal) (accS2 V c 19 last2) := by
  have h19 : t.val = 19 := by have h1 := (flush0_6 t).mp hf; have h2 := t.isLt; have hN : cfg2.N = 20 := N2; omega
  obtain rfl : t = ⟨19, last2⟩ := Fin.ext h19
  show (cfg2.win 6).cut (grid2.coords _) ((dat2 V c).after 6 _) = _
  rw [after2_6, outsAt2_eq]; dsimp only
  funext y
  rw [View.read_apply]
  show accS2 V c 19 _ y = accS2 V c 19 _ _
  congr 1; funext a; apply Fin.ext
  obtain ⟨e0, e1, e2, e3, e4, e5, e6, e7, e8, e9, e10, e11, e12, e13, e14, e15⟩ := idx2 ⟨19, last2⟩
  match a with
  | ⟨0, _⟩ => show (y 0).val = win2_6.index _ (0 : Fin 2) * 1 + 1 * (y 0).val; rw [e12]; omega
  | ⟨1, _⟩ => show (y 1).val = win2_6.index _ (1 : Fin 2) * 64 + 1 * (y 1).val; rw [e13]; omega
theorem arr2_6 (c : Dev nD) : (dat2 V c).arrAt 6 cfg2.N = accS2 V c 19 last2 :=
  (dat2 V c).arrAt_eq_of_cover 6 (accS2 V c 19 last2) (flushed2_6 V c) fun i =>
    ⟨⟨19, last2⟩, (flush0_6 _).mpr rfl, by
      show i ∈ ((View.whole main_v81_1).slice (win2_6.rect ⟨19, last2⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx2 ⟨19, last2⟩
      match a with
      | ⟨0, _⟩ => show win2_6.index _ (0 : Fin 2) * 1 ≤ (i 0 : Nat) ∧ (i 0 : Nat) < win2_6.index _ (0 : Fin 2) * 1 + 1
                  rw [e12]; omega
      | ⟨1, _⟩ => show win2_6.index _ (1 : Fin 2) * 64 ≤ (i 1 : Nat) ∧ (i 1 : Nat) < win2_6.index _ (1 : Fin 2) * 64 + 64
                  rw [e13]; omega⟩
/-- The one write-back of result 2, at the last point, writes the running sum (the block is the whole one-row array). -/
theorem flushed2_7 (c : Dev nD) (t : Fin cfg2.N) (hf : (cfg2.win 7).flush t = true) :
    (dat2 V c).flushed 7 t = ((cfg2.win 7).blk t).view.read (Elt Ideal) (accQ2 V c 19 last2) := by
  have h19 : t.val = 19 := by have h1 := (flush0_7 t).mp hf; have h2 := t.isLt; have hN : cfg2.N = 20 := N2; omega
  obtain rfl : t = ⟨19, last2⟩ := Fin.ext h19
  show (cfg2.win 7).cut (grid2.coords _) ((dat2 V c).after 7 _) = _
  rw [after2_7, outsAt2_eq]; dsimp only
  funext y
  rw [View.read_apply]
  show accQ2 V c 19 _ y = accQ2 V c 19 _ _
  congr 1; funext a; apply Fin.ext
  obtain ⟨e0, e1, e2, e3, e4, e5, e6, e7, e8, e9, e10, e11, e12, e13, e14, e15⟩ := idx2 ⟨19, last2⟩
  match a with
  | ⟨0, _⟩ => show (y 0).val = win2_7.index _ (0 : Fin 2) * 1 + 1 * (y 0).val; rw [e14]; omega
  | ⟨1, _⟩ => show (y 1).val = win2_7.index _ (1 : Fin 2) * 64 + 1 * (y 1).val; rw [e15]; omega
theorem arr2_7 (c : Dev nD) : (dat2 V c).arrAt 7 cfg2.N = accQ2 V c 19 last2 :=
  (dat2 V c).arrAt_eq_of_cover 7 (accQ2 V c 19 last2) (flushed2_7 V c) fun i =>
    ⟨⟨19, last2⟩, (flush0_7 _).mpr rfl, by
      show i ∈ ((View.whole main_v81_2).slice (win2_7.rect ⟨19, last2⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx2 ⟨19, last2⟩
      match a with
      | ⟨0, _⟩ => show win2_7.index _ (0 : Fin 2) * 1 ≤ (i 0 : Nat) ∧ (i 0 : Nat) < win2_7.index _ (0 : Fin 2) * 1 + 1
                  rw [e14]; omega
      | ⟨1, _⟩ => show win2_7.index _ (1 : Fin 2) * 64 ≤ (i 1 : Nat) ∧ (i 1 : Nat) < win2_7.index _ (1 : Fin 2) * 64 + 64
                  rw [e15]; omega⟩

/-- The second and third result arrays after the run: the column sums of the two dense layers' array and of its squares. -/
theorem final2_6 (c : Dev nD) (q : Fin 64) : ((dat2 V c).arrAt 6 cfg2.N : S1x64.Idx → EReal) (ix2 0 q) = GinSpec.colSum (H22 V c) q := by
  rw [arr2_6]; exact accS2_last V c q
theorem final2_7 (c : Dev nD) (q : Fin 64) : ((dat2 V c).arrAt 7 cfg2.N : S1x64.Idx → EReal) (ix2 0 q) = GinSpec.colSumSq (H22 V c) q := by
  rw [arr2_7]; exact accQ2_last V c q

end Cert.KernelIdeal.Hand

end
-- ==== Proof.MlpI4Val.lean ====
/-
  The third dense-layer region, read as values: the pieces each grid point's run leaves are the body's arithmetic of the
  point's input blocks (the dense layers' block; the running column sums continued from the point before, from zero at
  the first point), so the contents after each point are a recursion on the point.
-/
import proofs.«170985_j13606456394542_1_alg».proof.Proof.MlpI4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz4 : (![0, 0] : Fin 2 → Nat) = fun _ => 0 := funext fun a => by fin_cases a <;> rfl

/-- The dense layers' block at point `t`. -/
abbrev blk4_5 (c : Dev nD) (t : Fin cfg4.N) : Vec F S5000x64 .f32 := k4_pay5 (iblk4 V c 0 t) (iblk4 V c 1 t) (iblk4 V c 2 t) (iblk4 V c 3 t) (iblk4 V c 4 t)

theorem outA4_5 (c : Dev nD) (t : Fin cfg4.N) (h : t.val = 0) :
    (outA4 V c t h).1 = blk4_5 V c t := by
  unfold outA4; dsimp only
  rw [View.read_writes_eq_canon _ _ _ (coverA4_5 V c t h)]
  unfold runA4 kernelRun4_A; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outA4_S0 (c : Dev nD) (t : Fin cfg4.N) (h : t.val = 0) :
    (outA4 V c t h).2.2.2.1 = k4_pay1 (k4_pay6 (iblk4 V c 0 t) (iblk4 V c 1 t) (iblk4 V c 2 t) (iblk4 V c 3 t) (iblk4 V c 4 t) k4_pay3) := by
  unfold outA4; dsimp only
  rw [View.read_writes_eq_canon _ _ _ (coverA4_S0 V c t h)]
  unfold runA4 kernelRun4_A; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outA4_6 (c : Dev nD) (t : Fin cfg4.N) (h : t.val = 0) :
    (outA4 V c t h).2.1 = k4_pay1 (k4_pay6 (iblk4 V c 0 t) (iblk4 V c 1 t) (iblk4 V c 2 t) (iblk4 V c 3 t) (iblk4 V c 4 t) k4_pay3) := by
  unfold outA4; dsimp only
  rw [View.read_writes_eq_canon _ _ _ (coverA4_6 V c t h)]
  unfold runA4 kernelRun4_A; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outA4_S1 (c : Dev nD) (t : Fin cfg4.N) (h : t.val = 0) :
    (outA4 V c t h).2.2.2.2 = k4_pay2 (blk4_5 V c t) k4_pay4 := by
  unfold outA4; dsimp only
  rw [View.read_writes_eq_canon _ _ _ (coverA4_S1 V c t h)]
  unfold runA4 kernelRun4_A; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outA4_7 (c : Dev nD) (t : Fin cfg4.N) (h : t.val = 0) :
    (outA4 V c t h).2.2.1 = k4_pay2 (blk4_5 V c t) k4_pay4 := by
  unfold outA4; dsimp only
  rw [View.read_writes_eq_canon _ _ _ (coverA4_7 V c t h)]
  unfold runA4 kernelRun4_A; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outB4_5 (c : Dev nD) (t : Fin cfg4.N) (h : t.val ≠ 0) (xs0 xs1 : Vec F S1x64 .f32) :
    (outB4 V c t h xs0 xs1).1 = blk4_5 V c t := by
  unfold outB4; dsimp only
  rw [View.read_writes_eq_canon _ _ _ (coverB4_5 V c t h xs0 xs1)]
  unfold runB4 kernelRun4_B; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]

theorem outB4_S0 (c : Dev nD) (t : Fin cfg4.N) (h : t.val ≠ 0) (xs0 xs1 : Vec F S1x64 .f32) :
    (outB4 V c t h xs0 xs1).2.2.2.1 = k4_pay1 (k4_pay6 (iblk4 V c 0 t) (iblk4 V c 1 t) (iblk4 V c 2 t) (iblk4 V c 3 t) (iblk4 V c 4 t) xs0) := by
  unfold outB4; dsimp only
  rw [View.read_writes_eq_canon _ _ _ (coverB4_S0 V c t h xs0 xs1)]
  unfold runB4 kernelRun4_B; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]
  exact congrArg (fun z => k4_pay1 (k4_pay6 (iblk4 V c 0 t) (iblk4 V c 1 t) (iblk4 V c 2 t) (iblk4 V c 3 t) (iblk4 V c 4 t) z)) (Memref.IsWhole.read_unread (Val := Elt F) (Memref.isWhole_whole cc4_scratch0) xs0)

theorem outB4_6 (c : Dev nD) (t : Fin cfg4.N) (h : t.val ≠ 0) (xs0 xs1 : Vec F S1x64 .f32) :
    (outB4 V c t h xs0 xs1).2.1 = k4_pay1 (k4_pay6 (iblk4 V c 0 t) (iblk4 V c 1 t) (iblk4 V c 2 t) (iblk4 V c 3 t) (iblk4 V c 4 t) xs0) := by
  unfold outB4; dsimp only
  rw [View.read_writes_eq_canon _ _ _ (coverB4_6 V c t h xs0 xs1)]
  unfold runB4 kernelRun4_B; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]
  exact congrArg (fun z => k4_pay1 (k4_pay6 (iblk4 V c 0 t) (iblk4 V c 1 t) (iblk4 V c 2 t) (iblk4 V c 3 t) (iblk4 V c 4 t) z)) (Memref.IsWhole.read_unread (Val := Elt F) (Memref.isWhole_whole cc4_scratch0) xs0)

theorem outB4_S1 (c : Dev nD) (t : Fin cfg4.N) (h : t.val ≠ 0) (xs0 xs1 : Vec F S1x64 .f32) :
    (outB4 V c t h xs0 xs1).2.2.2.2 = k4_pay2 (blk4_5 V c t) xs1 := by
  unfold outB4; dsimp only
  rw [View.read_writes_eq_canon _ _ _ (coverB4_S1 V c t h xs0 xs1)]
  unfold runB4 kernelRun4_B; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]
  exact congrArg (fun z => k4_pay2 (blk4_5 V c t) z) (Memref.IsWhole.read_unread (Val := Elt F) (Memref.isWhole_whole cc4_scratch1) xs1)

theorem outB4_7 (c : Dev nD) (t : Fin cfg4.N) (h : t.val ≠ 0) (xs0 xs1 : Vec F S1x64 .f32) :
    (outB4 V c t h xs0 xs1).2.2.1 = k4_pay2 (blk4_5 V c t) xs1 := by
  unfold outB4; dsimp only
  rw [View.read_writes_eq_canon _ _ _ (coverB4_7 V c t h xs0 xs1)]
  unfold runB4 kernelRun4_B; dsimp only
  sl_unfold_words
  simp only [View.canon_unit_zero (S := S5000x64) hz4, View.canon_unit_zero (S := S1x64) hz4, View.canon_cons_unit_zero (S := S1x64) hz4,
    View.readCov_unit_zero (S := S1x64) _ hz4, View.readCov_cons_toLoadRect, View.readAt_eq_ld, Memref.IsWhole.read_unread,
    View.ld_unit_zero (S := S5000x64) hz4, View.ld_unit_zero (S := S64x64) hz4, View.ld_unit_zero (S := S1x64) hz4]
  exact congrArg (fun z => k4_pay2 (blk4_5 V c t) z) (Memref.IsWhole.read_unread (Val := Elt F) (Memref.isWhole_whole cc4_scratch1) xs1)

/-- The running column sum after point `n`: from the zero row at the first point, then continued. -/
def accS4 (c : Dev nD) : (n : ℕ) → n < cfg4.N → Vec F S1x64 .f32
  | 0, h => k4_pay1 (k4_pay6 (iblk4 V c 0 ⟨0, h⟩) (iblk4 V c 1 ⟨0, h⟩) (iblk4 V c 2 ⟨0, h⟩) (iblk4 V c 3 ⟨0, h⟩) (iblk4 V c 4 ⟨0, h⟩) k4_pay3)
  | n + 1, h => k4_pay1 (k4_pay6 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accS4 c n (Nat.lt_of_succ_lt h)))
/-- The running column sum of squares after point `n`. -/
def accQ4 (c : Dev nD) : (n : ℕ) → n < cfg4.N → Vec F S1x64 .f32
  | 0, h => k4_pay2 (blk4_5 V c ⟨0, h⟩) k4_pay4
  | n + 1, h => k4_pay2 (blk4_5 V c ⟨n + 1, h⟩) (accQ4 c n (Nat.lt_of_succ_lt h))

/-- What the buffers hold after point `n` IS the dense block and the running sums — by induction on the point. -/
theorem outsAt4_eq (c : Dev nD) : ∀ (n : ℕ) (h : n < cfg4.N),
    outsAt4 V c n h = (blk4_5 V c ⟨n, h⟩, accS4 V c n h, accQ4 V c n h, accS4 V c n h, accQ4 V c n h)
  | 0, h => by
    rw [outsAt4_A V c ⟨0, h⟩ rfl]
    refine Prod.ext (outA4_5 V c _ rfl) (Prod.ext (outA4_6 V c _ rfl) (Prod.ext (outA4_7 V c _ rfl) (Prod.ext (outA4_S0 V c _ rfl) (outA4_S1 V c _ rfl))))
  | n + 1, h => by
    have hB : (⟨n + 1, h⟩ : Fin cfg4.N).val ≠ 0 := Nat.succ_ne_zero n
    rw [outsAt4_B V c ⟨n + 1, h⟩ hB]
    have ih := outsAt4_eq c n (Nat.lt_of_succ_lt h)
    have e0 : (outsAt4 V c ((⟨n + 1, h⟩ : Fin cfg4.N).val - 1) (Nat.lt_of_le_of_lt (Nat.sub_le _ _) h)).2.2.2.1 = accS4 V c n (Nat.lt_of_succ_lt h) := by
      show (outsAt4 V c n _).2.2.2.1 = _; rw [ih]
    have e1 : (outsAt4 V c ((⟨n + 1, h⟩ : Fin cfg4.N).val - 1) (Nat.lt_of_le_of_lt (Nat.sub_le _ _) h)).2.2.2.2 = accQ4 V c n (Nat.lt_of_succ_lt h) := by
      show (outsAt4 V c n _).2.2.2.2 = _; rw [ih]
    rw [e0, e1]
    refine Prod.ext (outB4_5 V c _ hB _ _) (Prod.ext (outB4_6 V c _ hB _ _) (Prod.ext (outB4_7 V c _ hB _ _) (Prod.ext (outB4_S0 V c _ hB _ _) (outB4_S1 V c _ hB _ _))))

end Cert.KernelIdeal.Hand

end
-- ==== Proof.MlpI4Fin.lean ====
/-
  The third dense-layer region's three result arrays as whole-array functions, at the exact instance: the block a grid point
  writes back is rows 5000·t … 5000·t + 4999 of the two dense layers applied to the region's input arrays, and the running
  sums after the last point are the column sums over all 100000 rows (the 20 blocks of 5000 rows regrouped).
-/
import proofs.«170985_j13606456394542_1_alg».proof.Proof.MlpI4Val
import proofs.«170985_j13606456394542_1_alg».proof.Proof.MlpPayI
import proofs.«170985_j13606456394542_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The printed index maps, decided over the grid: the row-blocked windows move with the point, the others stay at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem N4 : cfg4.N = 20 := N_4

/-- The region's input arrays as it finds them. -/
abbrev arrX4 (c : Dev nD) : GinSpec.SND.Idx → EReal := V c (Pipeline.arrRef spec4 0)
abbrev arrW14 (c : Dev nD) : GinSpec.SDD.Idx → EReal := V c (Pipeline.arrRef spec4 1)
abbrev rowB14 (c : Dev nD) : Fin 64 → EReal := fun k => (V c (Pipeline.arrRef spec4 2) : S1x64.Idx → EReal) (ix2 0 k)
abbrev arrW24 (c : Dev nD) : GinSpec.SDD.Idx → EReal := V c (Pipeline.arrRef spec4 3)
abbrev rowB24 (c : Dev nD) : Fin 64 → EReal := fun k => (V c (Pipeline.arrRef spec4 4) : S1x64.Idx → EReal) (ix2 0 k)
/-- The two dense layers of the whole input array. -/
abbrev H24 (c : Dev nD) : GinSpec.SND.Idx → EReal := GinSpec.mlp (arrX4 V c) (arrW14 V c) (rowB14 V c) (arrW24 V c) (rowB24 V c)

theorem rowOfBlock4 (t : Fin cfg4.N) (p : Fin 5000) : t.val * 5000 + p.val < 100000 := by
  have h := t.isLt; have hN : cfg4.N = 20 := N4; have hp := p.isLt; omega

/-- The row block read at an index: row `p` of point `t`'s block is row 5000·t + p of the array. -/
theorem iblk4_0_apply (c : Dev nD) (t : Fin cfg4.N) (p : Fin 5000) (l : Fin 64) :
    (iblk4 V c 0 t : Vec Ideal S5000x64 .f32) (ix2 p l) = arrX4 V c (ix2 ⟨t.val * 5000 + p.val, rowOfBlock4 t p⟩ l) := by
  unfold iblk4; rw [View.read_apply]
  show V c _ _ = V c _ _
  congr 1; funext a; apply Fin.ext
  obtain ⟨e0, e1, -⟩ := idx4 t
  match a with
  | ⟨0, _⟩ => show win4_0.index t (0 : Fin 2) * 5000 + 1 * p.val = t.val * 5000 + p.val; rw [e0]; omega
  | ⟨1, _⟩ => show win4_0.index t (1 : Fin 2) * 64 + 1 * l.val = l.val; rw [e1]; omega
theorem iblk4_1_apply (c : Dev nD) (t : Fin cfg4.N) (l k : Fin 64) : (iblk4 V c 1 t : Vec Ideal S64x64 .f32) (ix2 l k) = arrW14 V c (ix2 l k) := by
  unfold iblk4; rw [View.read_apply]
  show V c _ _ = V c _ _
  congr 1; funext a; apply Fin.ext
  obtain ⟨e0, e1, e2, e3, e4, e5, e6, e7, e8, e9, -⟩ := idx4 t
  match a with
  | ⟨0, _⟩ => show win4_1.index t (0 : Fin 2) * 64 + 1 * l.val = l.val; rw [e2]; omega
  | ⟨1, _⟩ => show win4_1.index t (1 : Fin 2) * 64 + 1 * k.val = k.val; rw [e3]; omega
theorem iblk4_3_apply (c : Dev nD) (t : Fin cfg4.N) (l k : Fin 64) : (iblk4 V c 3 t : Vec Ideal S64x64 .f32) (ix2 l k) = arrW24 V c (ix2 l k) := by
  unfold iblk4; rw [View.read_apply]
  show V c _ _ = V c _ _
  congr 1; funext a; apply Fin.ext
  obtain ⟨e0, e1, e2, e3, e4, e5, e6, e7, e8, e9, -⟩ := idx4 t
  match a with
  | ⟨0, _⟩ => show win4_3.index t (0 : Fin 2) * 64 + 1 * l.val = l.val; rw [e6]; omega
  | ⟨1, _⟩ => show win4_3.index t (1 : Fin 2) * 64 + 1 * k.val = k.val; rw [e7]; omega
theorem iblk4_2_apply (c : Dev nD) (t : Fin cfg4.N) (k : Fin 64) : (iblk4 V c 2 t : Vec Ideal S1x64 .f32) (ix2 0 k) = rowB14 V c k := by
  unfold iblk4; rw [View.read_apply]
  show V c _ _ = V c _ _
  congr 1; funext a; apply Fin.ext
  obtain ⟨e0, e1, e2, e3, e4, e5, e6, e7, e8, e9, -⟩ := idx4 t
  match a with
  | ⟨0, _⟩ => show win4_2.index t (0 : Fin 2) * 1 + 1 * 0 = 0; rw [e4]
  | ⟨1, _⟩ => show win4_2.index t (1 : Fin 2) * 64 + 1 * k.val = k.val; rw [e5]; omega
theorem iblk4_4_apply (c : Dev nD) (t : Fin cfg4.N) (k : Fin 64) : (iblk4 V c 4 t : Vec Ideal S1x64 .f32) (ix2 0 k) = rowB24 V c k := by
  unfold iblk4; rw [View.read_apply]
  show V c _ _ = V c _ _
  congr 1; funext a; apply Fin.ext
  obtain ⟨e0, e1, e2, e3, e4, e5, e6, e7, e8, e9, -⟩ := idx4 t
  match a with
  | ⟨0, _⟩ => show win4_4.index t (0 : Fin 2) * 1 + 1 * 0 = 0; rw [e8]
  | ⟨1, _⟩ => show win4_4.index t (1 : Fin 2) * 64 + 1 * k.val = k.val; rw [e9]; omega

/-- The dense block at an index is the two dense layers of the whole array at the block's row. -/
theorem blk4_5_apply (c : Dev nD) (t : Fin cfg4.N) (p : Fin 5000) (q : Fin 64) :
    blk4_5 V c t (ix2 p q) = H24 V c (ix2 ⟨t.val * 5000 + p.val, rowOfBlock4 t p⟩ q) := by
  unfold blk4_5; rw [k4_pay5_apply]
  simp only [iblk4_0_apply, iblk4_1_apply, iblk4_3_apply, iblk4_2_apply, iblk4_4_apply]
  rfl

/-- What point `t` writes back into the first result is block `t` of the two dense layers of the input array. -/
theorem flushed4_5 (c : Dev nD) (t : Fin cfg4.N) :
    (dat4 V c).flushed 5 t = ((cfg4.win 5).blk t).view.read (Elt Ideal) (H24 V c) := by
  show (cfg4.win 5).cut (grid4.coords t) ((dat4 V c).after 5 t) = _
  rw [after4_5, outsAt4_eq]; dsimp only
  funext y
  obtain ⟨p, q, rfl⟩ : ∃ (p : Fin 5000) (q : Fin 64), y = ix2 p q := ⟨y 0, y 1, eq_ix2 y⟩
  rw [View.read_apply]
  refine (blk4_5_apply V c t p q).trans ?_
  show H24 V c _ = H24 V c _
  congr 1; funext a; apply Fin.ext
  obtain ⟨e0, e1, e2, e3, e4, e5, e6, e7, e8, e9, e10, e11, -⟩ := idx4 t
  match a with
  | ⟨0, _⟩ => show t.val * 5000 + p.val = win4_5.index t (0 : Fin 2) * 5000 + 1 * p.val; rw [e10]; omega
  | ⟨1, _⟩ => show q.val = win4_5.index t (1 : Fin 2) * 64 + 1 * q.val; rw [e11]; omega

/-- The first result array after the run: the two dense layers of the region's input array. -/
theorem final4_5 (c : Dev nD) : (dat4 V c).arrAt 5 cfg4.N = H24 V c :=
  (dat4 V c).arrAt_eq_of_cover 5 (H24 V c) (fun t _ => flushed4_5 V c t) fun i => by
    have h0 : (i 0 : Nat) < 100000 := (i 0).isLt
    have h1 : (i 1 : Nat) < 64 := (i 1).isLt
    have hN : cfg4.N = 20 := N4
    have ht : (i 0 : Nat) / 5000 < cfg4.N := by omega
    refine ⟨⟨(i 0 : Nat) / 5000, ht⟩, flush0_5 _, ?_⟩
    show i ∈ ((View.whole main_v128_0).slice (win4_5.rect ⟨(i 0 : Nat) / 5000, ht⟩)).set
    rw [View.set_slice_whole, Rect.mem_set_unit]
    intro a
    obtain ⟨e0, e1, e2, e3, e4, e5, e6, e7, e8, e9, e10, e11, -⟩ := idx4 ⟨(i 0 : Nat) / 5000, ht⟩
    match a with
    | ⟨0, _⟩ => show win4_5.index ⟨(i 0 : Nat) / 5000, ht⟩ (0 : Fin 2) * 5000 ≤ (i 0 : Nat) ∧ (i 0 : Nat) < win4_5.index ⟨(i 0 : Nat) / 5000, ht⟩ (0 : Fin 2) * 5000 + 5000
                rw [e10]; dsimp only; omega
    | ⟨1, _⟩ => show win4_5.index ⟨(i 0 : Nat) / 5000, ht⟩ (1 : Fin 2) * 64 ≤ (i 1 : Nat) ∧ (i 1 : Nat) < win4_5.index ⟨(i 0 : Nat) / 5000, ht⟩ (1 : Fin 2) * 64 + 64
                rw [e11]; omega

/-! ## The running sums -/

theorem last4 : 19 < cfg4.N := by rw [N4]; decide

/-- The running column sum after point `n` at column `q`: the rows of the first `n + 1` blocks. -/
theorem accS4_apply (c : Dev nD) (q : Fin 64) : ∀ (n : ℕ) (h : n < cfg4.N),
    accS4 V c n h (ix2 0 q) = ∑ s : Fin (n + 1), ∑ p : Fin 5000, blk4_5 V c ⟨s.val, lt_of_lt_of_le s.isLt h⟩ (ix2 p q)
  | 0, h => by
    show k4_pay1 (k4_pay6 _ _ _ _ _ k4_pay3) (ix2 0 q) = _
    rw [k4_pay1_eq, k4_pay6_apply, k4_pay3_apply, zero_add, Fin.sum_univ_one]
    rfl
  | n + 1, h => by
    show k4_pay1 (k4_pay6 _ _ _ _ _ (accS4 V c n _)) (ix2 0 q) = _
    rw [Fin.sum_univ_castSucc (n := n + 1), k4_pay1_eq, k4_pay6_apply, accS4_apply c q n (Nat.lt_of_succ_lt h)]
    rfl
theorem accQ4_apply (c : Dev nD) (q : Fin 64) : ∀ (n : ℕ) (h : n < cfg4.N),
    accQ4 V c n h (ix2 0 q) = ∑ s : Fin (n + 1), ∑ p : Fin 5000, blk4_5 V c ⟨s.val, lt_of_lt_of_le s.isLt h⟩ (ix2 p q) * blk4_5 V c ⟨s.val, lt_of_lt_of_le s.isLt h⟩ (ix2 p q)
  | 0, h => by
    show k4_pay2 _ k4_pay4 (ix2 0 q) = _
    rw [k4_pay2_apply, k4_pay4_apply, zero_add, Fin.sum_univ_one]
    rfl
  | n + 1, h => by
    show k4_pay2 _ (accQ4 V c n _) (ix2 0 q) = _
    rw [Fin.sum_univ_castSucc (n := n + 1), k4_pay2_apply, accQ4_apply c q n (Nat.lt_of_succ_lt h)]
    rfl

/-- After the last point the running sums are the column sums over all the rows. -/
theorem accS4_last (c : Dev nD) (q : Fin 64) : accS4 V c 19 last4 (ix2 0 q) = GinSpec.colSum (H24 V c) q := by
  rw [accS4_apply]
  unfold GinSpec.colSum
  rw [RealStats.sum_fin_eq_sum_blocks 20 5000 (by norm_num) (fun i : Fin 100000 => H24 V c (ix2 i q))]
  refine Finset.sum_congr rfl fun s _ => Finset.sum_congr rfl fun p _ => ?_
  exact blk4_5_apply V c ⟨s.val, _⟩ p q
theorem accQ4_last (c : Dev nD) (q : Fin 64) : accQ4 V c 19 last4 (ix2 0 q) = GinSpec.colSumSq (H24 V c) q := by
  rw [accQ4_apply]
  unfold GinSpec.colSumSq
  rw [RealStats.sum_fin_eq_sum_blocks 20 5000 (by norm_num) (fun i : Fin 100000 => H24 V c (ix2 i q) * H24 V c (ix2 i q))]
  refine Finset.sum_congr rfl fun s _ => Finset.sum_congr rfl fun p _ => ?_
  rw [blk4_5_apply V c ⟨s.val, _⟩ p q]

/-- The one write-back of result 1, at the last point, writes the running sum (the block is the whole one-row array). -/
theorem flushed4_6 (c : Dev nD) (t : Fin cfg4.N) (hf : (cfg4.win 6).flush t = true) :
    (dat4 V c).flushed 6 t = ((cfg4.win 6).blk t).view.read (Elt Ideal) (accS4 V c 19 last4) := by
  have h19 : t.val = 19 := by have h1 := (flush0_6 t).mp hf; have h2 := t.isLt; have hN : cfg4.N = 20 := N4; omega
  obtain rfl : t = ⟨19, last4⟩ := Fin.ext h19
  show (cfg4.win 6).cut (grid4.coords _) ((dat4 V c).after 6 _) = _
  rw [after4_6, outsAt4_eq]; dsimp only
  funext y
  rw [View.read_apply]
  show accS4 V c 19 _ y = accS4 V c 19 _ _
  congr 1; funext a; apply Fin.ext
  obtain ⟨e0, e1, e2, e3, e4, e5, e6, e7, e8, e9, e10, e11, e12, e13, e14, e15⟩ := idx4 ⟨19, last4⟩
  match a with
  | ⟨0, _⟩ => show (y 0).val = win4_6.index _ (0 : Fin 2) * 1 + 1 * (y 0).val; rw [e12]; omega
  | ⟨1, _⟩ => show (y 1).val = win4_6.index _ (1 : Fin 2) * 64 + 1 * (y 1).val; rw [e13]; omega
theorem arr4_6 (c : Dev nD) : (dat4 V c).arrAt 6 cfg4.N = accS4 V c 19 last4 :=
  (dat4 V c).arrAt_eq_of_cover 6 (accS4 V c 19 last4) (flushed4_6 V c) fun i =>
    ⟨⟨19, last4⟩, (flush0_6 _).mpr rfl, by
      show i ∈ ((View.whole main_v128_1).slice (win4_6.rect ⟨19, last4⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx4 ⟨19, last4⟩
      match a with
      | ⟨0, _⟩ => show win4_6.index _ (0 : Fin 2) * 1 ≤ (i 0 : Nat) ∧ (i 0 : Nat) < win4_6.index _ (0 : Fin 2) * 1 + 1
                  rw [e12]; omega
      | ⟨1, _⟩ => show win4_6.index _ (1 : Fin 2) * 64 ≤ (i 1 : Nat) ∧ (i 1 : Nat) < win4_6.index _ (1 : Fin 2) * 64 + 64
                  rw [e13]; omega⟩
/-- The one write-back of result 2, at the last point, writes the running sum (the block is the whole one-row array). -/
theorem flushed4_7 (c : Dev nD) (t : Fin cfg4.N) (hf : (cfg4.win 7).flush t = true) :
    (dat4 V c).flushed 7 t = ((cfg4.win 7).blk t).view.read (Elt Ideal) (accQ4 V c 19 last4) := by
  have h19 : t.val = 19 := by have h1 := (flush0_7 t).mp hf; have h2 := t.isLt; have hN : cfg4.N = 20 := N4; omega
  obtain rfl : t = ⟨19, last4⟩ := Fin.ext h19
  show (cfg4.win 7).cut (grid4.coords _) ((dat4 V c).after 7 _) = _
  rw [after4_7, outsAt4_eq]; dsimp only
  funext y
  rw [View.read_apply]
  show accQ4 V c 19 _ y = accQ4 V c 19 _ _
  congr 1; funext a; apply Fin.ext
  obtain ⟨e0, e1, e2, e3, e4, e5, e6, e7, e8, e9, e10, e11, e12, e13, e14, e15⟩ := idx4 ⟨19, last4⟩
  match a with
  | ⟨0, _⟩ => show (y 0).val = win4_7.index _ (0 : Fin 2) * 1 + 1 * (y 0).val; rw [e14]; omega
  | ⟨1, _⟩ => show (y 1).val = win4_7.index _ (1 : Fin 2) * 64 + 1 * (y 1).val; rw [e15]; omega
theorem arr4_7 (c : Dev nD) : (dat4 V c).arrAt 7 cfg4.N = accQ4 V c 19 last4 :=
  (dat4 V c).arrAt_eq_of_cover 7 (accQ4 V c 19 last4) (flushed4_7 V c) fun i =>
    ⟨⟨19, last4⟩, (flush0_7 _).mpr rfl, by
      show i ∈ ((View.whole main_v128_2).slice (win4_7.rect ⟨19, last4⟩)).set
      rw [View.set_slice_whole, Rect.mem_set_unit]
      intro a
      have h0 : (i 0 : Nat) < 1 := (i 0).isLt
      have h1 : (i 1 : Nat) < 64 := (i 1).isLt
      obtain ⟨e0, e1, e2, e3, e4, e5, e6, e7, e8, e9, e10, e11, e12, e13, e14, e15⟩ := idx4 ⟨19, last4⟩
      match a with
      | ⟨0, _⟩ => show win4_7.index _ (0 : Fin 2) * 1 ≤ (i 0 : Nat) ∧ (i 0 : Nat) < win4_7.index _ (0 : Fin 2) * 1 + 1
                  rw [e14]; omega
      | ⟨1, _⟩ => show win4_7.index _ (1 : Fin 2) * 64 ≤ (i 1 : Nat) ∧ (i 1 : Nat) < win4_7.index _ (1 : Fin 2) * 64 + 64
                  rw [e15]; omega⟩

/-- The second and third result arrays after the run: the column sums of the two dense layers' array and of its squares. -/
theorem final4_6 (c : Dev nD) (q : Fin 64) : ((dat4 V c).arrAt 6 cfg4.N : S1x64.Idx → EReal) (ix2 0 q) = GinSpec.colSum (H24 V c) q := by
  rw [arr4_6]; exact accS4_last V c q
theorem final4_7 (c : Dev nD) (q : Fin 64) : ((dat4 V c).arrAt 7 cfg4.N : S1x64.Idx → EReal) (ix2 0 q) = GinSpec.colSumSq (H24 V c) q := by
  rw [arr4_7]; exact accQ4_last V c q

end Cert.KernelIdeal.Hand

end
-- ==== Proof.BnValueI.lean ====
/- Region 1's output array in closed form, at the exact-real reading of the floats: after the twenty grid points
   the [100000, 64] result holds, at row r and column q, max((a(r,q) − mean q)·invstd q·scale q + shift q, 0) of the
   region's five input arrays as it found them. Point t writes rows 5000·t … 5000·t + 4999, so the blocks tile the array. -/
import proofs.«170985_j13606456394542_1_alg».proof.Proof.BnRegionI
import proofs.«170985_j13606456394542_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## The body's arithmetic at one entry -/

/-- The stored value at entry (p, q) of the block: the loaded entry less the mean's column q, times the inverse standard
    deviation's, times the scale's, plus the shift's, and the maximum of that with zero. -/
theorem pay1_apply (x0 : Vec Ideal S5000x64 .f32) (x1 x2 x3 x4 : Vec Ideal S1x64 .f32) (j : S5000x64.Idx) :
    k1_pay1 x0 x1 x2 x3 x4 j
      = max ((x0 j - x1 (ix2 0 (j 1 : Fin 64))) * x2 (ix2 0 (j 1 : Fin 64)) * x3 (ix2 0 (j 1 : Fin 64)) + x4 (ix2 0 (j 1 : Fin 64))) 0 := by
  obtain ⟨p, q, rfl⟩ : ∃ (p : Fin 5000) (q : Fin 64), j = ix2 p q := ⟨j 0, j 1, eq_ix2 j⟩
  show k1_pay1 x0 x1 x2 x3 x4 (ix2 p q) = max ((x0 (ix2 p q) - x1 (ix2 0 q)) * x2 (ix2 0 q) * x3 (ix2 0 q) + x4 (ix2 0 q)) 0
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  exact congrArg _ Ideal.ofBits_zero_f32

/-- The same against the specification: when the loaded block's entry is the array's entry `i` in the same column and
    the four loaded rows are the four row arrays, the stored value is the normalised entry `i`. -/
theorem norm_entry1 (a : S100000x64.Idx → EReal) (mu istd g be : S1x64.Idx → EReal)
    (x0 : Vec Ideal S5000x64 .f32) (x1 x2 x3 x4 : Vec Ideal S1x64 .f32) (j : S5000x64.Idx) (i : S100000x64.Idx)
    (h0 : x0 j = a i) (hcol : (i 1).val = (j 1).val) (h1 : x1 = mu) (h2 : x2 = istd) (h3 : x3 = g) (h4 : x4 = be) :
    k1_pay1 x0 x1 x2 x3 x4 j
      = GinSpec.norm a (fun q => mu (ix2 0 q)) (fun q => istd (ix2 0 q)) (fun q => g (ix2 0 q)) (fun q => be (ix2 0 q)) i := by
  subst h1 h2 h3 h4
  rw [pay1_apply, h0]
  have e : (j 1 : Fin 64) = (i 1 : Fin 64) := Fin.ext hcol.symm
  rw [e]
  rfl

/-! ## The windows' block indices -/

/-- The printed index maps over the grid: the activation's and the result's block index is (t, 0) at point t, the four
    rows' is (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The activation's block at point `t` is rows 5000·t … of the array. -/
theorem iblk1_0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c (Pipeline.arrRef spec1 0) : S100000x64.Idx → EReal) k := by
  obtain ⟨e0, e1, -⟩ := idx1 t
  unfold iblk1
  rw [View.read_apply]
  refine congrArg (V c (Pipeline.arrRef spec1 0) : S100000x64.Idx → EReal) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- Window 1's block at any point is the whole [1, 64] row array: its block index is (0, 0) throughout. -/
theorem iblk1_1_apply (c : Dev nD) (t : Fin cfg1.N) (x : S1x64.Idx) :
    (iblk1 V c 1 t : Vec Ideal S1x64 .f32) x = (V c (Pipeline.arrRef spec1 1) : S1x64.Idx → EReal) x := by
  obtain ⟨-, -, e0, e1, -, -, -, -, -, -, -, -⟩ := idx1 t
  unfold iblk1
  rw [View.read_apply]
  refine congrArg (V c (Pipeline.arrRef spec1 1) : S1x64.Idx → EReal) (funext fun a => Fin.ext ?_)
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

/-- Window 2's block at any point is the whole [1, 64] row array: its block index is (0, 0) throughout. -/
theorem iblk1_2_apply (c : Dev nD) (t : Fin cfg1.N) (x : S1x64.Idx) :
    (iblk1 V c 2 t : Vec Ideal S1x64 .f32) x = (V c (Pipeline.arrRef spec1 2) : S1x64.Idx → EReal) x := by
  obtain ⟨-, -, -, -, e0, e1, -, -, -, -, -, -⟩ := idx1 t
  unfold iblk1
  rw [View.read_apply]
  refine congrArg (V c (Pipeline.arrRef spec1 2) : S1x64.Idx → EReal) (funext fun a => Fin.ext ?_)
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- Window 3's block at any point is the whole [1, 64] row array: its block index is (0, 0) throughout. -/
theorem iblk1_3_apply (c : Dev nD) (t : Fin cfg1.N) (x : S1x64.Idx) :
    (iblk1 V c 3 t : Vec Ideal S1x64 .f32) x = (V c (Pipeline.arrRef spec1 3) : S1x64.Idx → EReal) x := by
  obtain ⟨-, -, -, -, -, -, e0, e1, -, -, -, -⟩ := idx1 t
  unfold iblk1
  rw [View.read_apply]
  refine congrArg (V c (Pipeline.arrRef spec1 3) : S1x64.Idx → EReal) (funext fun a => Fin.ext ?_)
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- Window 4's block at any point is the whole [1, 64] row array: its block index is (0, 0) throughout. -/
theorem iblk1_4_apply (c : Dev nD) (t : Fin cfg1.N) (x : S1x64.Idx) :
    (iblk1 V c 4 t : Vec Ideal S1x64 .f32) x = (V c (Pipeline.arrRef spec1 4) : S1x64.Idx → EReal) x := by
  obtain ⟨-, -, -, -, -, -, -, -, e0, e1, -, -⟩ := idx1 t
  unfold iblk1
  rw [View.read_apply]
  refine congrArg (V c (Pipeline.arrRef spec1 4) : S1x64.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-! ## What a point writes back, and the array after the last point -/

/-- The region's result as one function of its input arrays. -/
abbrev G1 (c : Dev nD) : S100000x64.Idx → EReal :=
  GinSpec.norm (V c (Pipeline.arrRef spec1 0) : S100000x64.Idx → EReal)
      (fun j => (V c (Pipeline.arrRef spec1 1) : S1x64.Idx → EReal) (ix2 0 j))
      (fun j => (V c (Pipeline.arrRef spec1 2) : S1x64.Idx → EReal) (ix2 0 j))
      (fun j => (V c (Pipeline.arrRef spec1 3) : S1x64.Idx → EReal) (ix2 0 j))
      (fun j => (V c (Pipeline.arrRef spec1 4) : S1x64.Idx → EReal) (ix2 0 j))

/-- Point `t` writes back block `t` of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S1x64) hz1]
  obtain ⟨-, -, -, -, -, -, -, -, -, -, e0, e1⟩ := idx1 t
  funext j
  show k1_pay1 (iblk1 V c 0 t) (iblk1 V c 1 t) (iblk1 V c 2 t) (iblk1 V c 3 t) (iblk1 V c 4 t) j
    = G1 V c (((cfg1.win 5).blk t).view.emb j)
  have hk0 : ((((cfg1.win 5).blk t).view.emb j : S100000x64.Idx) 0).val = 5000 * t.val + (j 0).val := by
    show win1_5.index t (0 : Fin 2) * 5000 + 1 * (j 0).val = _; rw [e0]; omega
  have hk1 : ((((cfg1.win 5).blk t).view.emb j : S100000x64.Idx) 1).val = (j 1).val := by
    show win1_5.index t (1 : Fin 2) * 64 + 1 * (j 1).val = _; rw [e1]; omega
  exact norm_entry1 _ _ _ _ _ _ _ _ _ _ j _ (iblk1_0_apply V c t j _ hk0 hk1) hk1
    (funext fun x => iblk1_1_apply V c t x) (funext fun x => iblk1_2_apply V c t x)
    (funext fun x => iblk1_3_apply V c t x) (funext fun x => iblk1_4_apply V c t x)

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v50).slice (win1_5.rect t)).set ↔ _
  rw [View.set_slice_whole, Rect.mem_set_unit]
  exact Iff.rfl

/-- Every index of the result array is in some point's block: row r is in block r / 5000. -/
theorem cover1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

/-- THE RESULT ARRAY after the region: the normalised, scaled, shifted and rectified activation, entry by entry. -/
theorem bn_final1 (c : Dev nD) : (dat1 (F := Ideal) V c).arrAt 5 cfg1.N =
    GinSpec.norm (V c (Pipeline.arrRef spec1 0) : S100000x64.Idx → EReal)
      (fun j => (V c (Pipeline.arrRef spec1 1) : S1x64.Idx → EReal) (ix2 0 j))
      (fun j => (V c (Pipeline.arrRef spec1 2) : S1x64.Idx → EReal) (ix2 0 j))
      (fun j => (V c (Pipeline.arrRef spec1 3) : S1x64.Idx → EReal) (ix2 0 j))
      (fun j => (V c (Pipeline.arrRef spec1 4) : S1x64.Idx → EReal) (ix2 0 j)) :=
  (dat1 (F := Ideal) V c).arrAt_eq_of_cover 5 (G1 V c) (fun t _ => flushed1_eq V c t) cover1

end Cert.KernelIdeal.Hand

end
-- ==== Proof.BnValueI3.lean ====
/- Region 3's output array in closed form, at the exact-real reading of the floats: after the twenty grid points
   the [100000, 64] result holds, at row r and column q, max((a(r,q) − mean q)·invstd q·scale q + shift q, 0) of the
   region's five input arrays as it found them. Point t writes rows 5000·t … 5000·t + 4999, so the blocks tile the array. -/
import proofs.«170985_j13606456394542_1_alg».proof.Proof.BnRegionI3
import proofs.«170985_j13606456394542_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-! ## The body's arithmetic at one entry -/

/-- The stored value at entry (p, q) of the block: the loaded entry less the mean's column q, times the inverse standard
    deviation's, times the scale's, plus the shift's, and the maximum of that with zero. -/
theorem pay3_apply (x0 : Vec Ideal S5000x64 .f32) (x1 x2 x3 x4 : Vec Ideal S1x64 .f32) (j : S5000x64.Idx) :
    k3_pay1 x0 x1 x2 x3 x4 j
      = max ((x0 j - x1 (ix2 0 (j 1 : Fin 64))) * x2 (ix2 0 (j 1 : Fin 64)) * x3 (ix2 0 (j 1 : Fin 64)) + x4 (ix2 0 (j 1 : Fin 64))) 0 := by
  obtain ⟨p, q, rfl⟩ : ∃ (p : Fin 5000) (q : Fin 64), j = ix2 p q := ⟨j 0, j 1, eq_ix2 j⟩
  show k3_pay1 x0 x1 x2 x3 x4 (ix2 p q) = max ((x0 (ix2 p q) - x1 (ix2 0 q)) * x2 (ix2 0 q) * x3 (ix2 0 q) + x4 (ix2 0 q)) 0
  unfold k3_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  exact congrArg _ Ideal.ofBits_zero_f32

/-- The same against the specification: when the loaded block's entry is the array's entry `i` in the same column and
    the four loaded rows are the four row arrays, the stored value is the normalised entry `i`. -/
theorem norm_entry3 (a : S100000x64.Idx → EReal) (mu istd g be : S1x64.Idx → EReal)
    (x0 : Vec Ideal S5000x64 .f32) (x1 x2 x3 x4 : Vec Ideal S1x64 .f32) (j : S5000x64.Idx) (i : S100000x64.Idx)
    (h0 : x0 j = a i) (hcol : (i 1).val = (j 1).val) (h1 : x1 = mu) (h2 : x2 = istd) (h3 : x3 = g) (h4 : x4 = be) :
    k3_pay1 x0 x1 x2 x3 x4 j
      = GinSpec.norm a (fun q => mu (ix2 0 q)) (fun q => istd (ix2 0 q)) (fun q => g (ix2 0 q)) (fun q => be (ix2 0 q)) i := by
  subst h1 h2 h3 h4
  rw [pay3_apply, h0]
  have e : (j 1 : Fin 64) = (i 1 : Fin 64) := Fin.ext hcol.symm
  rw [e]
  rfl

/-! ## The windows' block indices -/

/-- The printed index maps over the grid: the activation's and the result's block index is (t, 0) at point t, the four
    rows' is (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation's block at point `t` is rows 5000·t … of the array. -/
theorem iblk3_0_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c (Pipeline.arrRef spec3 0) : S100000x64.Idx → EReal) k := by
  obtain ⟨e0, e1, -⟩ := idx3 t
  unfold iblk3
  rw [View.read_apply]
  refine congrArg (V c (Pipeline.arrRef spec3 0) : S100000x64.Idx → EReal) (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- Window 1's block at any point is the whole [1, 64] row array: its block index is (0, 0) throughout. -/
theorem iblk3_1_apply (c : Dev nD) (t : Fin cfg3.N) (x : S1x64.Idx) :
    (iblk3 V c 1 t : Vec Ideal S1x64 .f32) x = (V c (Pipeline.arrRef spec3 1) : S1x64.Idx → EReal) x := by
  obtain ⟨-, -, e0, e1, -, -, -, -, -, -, -, -⟩ := idx3 t
  unfold iblk3
  rw [View.read_apply]
  refine congrArg (V c (Pipeline.arrRef spec3 1) : S1x64.Idx → EReal) (funext fun a => Fin.ext ?_)
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

/-- Window 2's block at any point is the whole [1, 64] row array: its block index is (0, 0) throughout. -/
theorem iblk3_2_apply (c : Dev nD) (t : Fin cfg3.N) (x : S1x64.Idx) :
    (iblk3 V c 2 t : Vec Ideal S1x64 .f32) x = (V c (Pipeline.arrRef spec3 2) : S1x64.Idx → EReal) x := by
  obtain ⟨-, -, -, -, e0, e1, -, -, -, -, -, -⟩ := idx3 t
  unfold iblk3
  rw [View.read_apply]
  refine congrArg (V c (Pipeline.arrRef spec3 2) : S1x64.Idx → EReal) (funext fun a => Fin.ext ?_)
  match a with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

/-- Window 3's block at any point is the whole [1, 64] row array: its block index is (0, 0) throughout. -/
theorem iblk3_3_apply (c : Dev nD) (t : Fin cfg3.N) (x : S1x64.Idx) :
    (iblk3 V c 3 t : Vec Ideal S1x64 .f32) x = (V c (Pipeline.arrRef spec3 3) : S1x64.Idx → EReal) x := by
  obtain ⟨-, -, -, -, -, -, e0, e1, -, -, -, -⟩ := idx3 t
  unfold iblk3
  rw [View.read_apply]
  refine congrArg (V c (Pipeline.arrRef spec3 3) : S1x64.Idx → EReal) (funext fun a => Fin.ext ?_)
  match a with
  | ⟨0, _⟩ => show win3_3.index t (0 : Fin 2) * 1 + 1 * (x 0).val = (x 0).val; rw [e0]; omega
  | ⟨1, _⟩ => show win3_3.index t (1 : Fin 2) * 64 + 1 * (x 1).val = (x 1).val; rw [e1]; omega

/-- Window 4's block at any point is the whole [1, 64] row array: its block index is (0, 0) throughout. -/
theorem iblk3_4_apply (c : Dev nD) (t : Fin cfg3.N) (x : S1x64.Idx) :
    (iblk3 V c 4 t : Vec Ideal S1x64 .f32) x = (V c (Pipeline.arrRef spec3 4) : S1x64.Idx → EReal) x := by
  obtain ⟨-, -, -, -, -, -, -, -, e0, e1, -, -⟩ := idx3 t
  unfold iblk3
  rw [View.read_apply]
  refine congrArg (V c (Pipeline.arrRef spec3 4) : S1x64.Idx → EReal) (funext fun a => Fin.ext ?_)
  match a with
  | ⟨0, _⟩ => show win3_4.index t (0 : Fin 2) * 1 + 1 * (x 0).val = (x 0).val; rw [e0]; omega
  | ⟨1, _⟩ => show win3_4.index t (1 : Fin 2) * 64 + 1 * (x 1).val = (x 1).val; rw [e1]; omega

/-! ## What a point writes back, and the array after the last point -/

/-- The region's result as one function of its input arrays. -/
abbrev G3 (c : Dev nD) : S100000x64.Idx → EReal :=
  GinSpec.norm (V c (Pipeline.arrRef spec3 0) : S100000x64.Idx → EReal)
      (fun j => (V c (Pipeline.arrRef spec3 1) : S1x64.Idx → EReal) (ix2 0 j))
      (fun j => (V c (Pipeline.arrRef spec3 2) : S1x64.Idx → EReal) (ix2 0 j))
      (fun j => (V c (Pipeline.arrRef spec3 3) : S1x64.Idx → EReal) (ix2 0 j))
      (fun j => (V c (Pipeline.arrRef spec3 4) : S1x64.Idx → EReal) (ix2 0 j))

/-- Point `t` writes back block `t` of `G3`. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S1x64) hz3]
  obtain ⟨-, -, -, -, -, -, -, -, -, -, e0, e1⟩ := idx3 t
  funext j
  show k3_pay1 (iblk3 V c 0 t) (iblk3 V c 1 t) (iblk3 V c 2 t) (iblk3 V c 3 t) (iblk3 V c 4 t) j
    = G3 V c (((cfg3.win 5).blk t).view.emb j)
  have hk0 : ((((cfg3.win 5).blk t).view.emb j : S100000x64.Idx) 0).val = 5000 * t.val + (j 0).val := by
    show win3_5.index t (0 : Fin 2) * 5000 + 1 * (j 0).val = _; rw [e0]; omega
  have hk1 : ((((cfg3.win 5).blk t).view.emb j : S100000x64.Idx) 1).val = (j 1).val := by
    show win3_5.index t (1 : Fin 2) * 64 + 1 * (j 1).val = _; rw [e1]; omega
  exact norm_entry3 _ _ _ _ _ _ _ _ _ _ j _ (iblk3_0_apply V c t j _ hk0 hk1) hk1
    (funext fun x => iblk3_1_apply V c t x) (funext fun x => iblk3_2_apply V c t x)
    (funext fun x => iblk3_3_apply V c t x) (funext fun x => iblk3_4_apply V c t x)

/-- An index of the result array is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v97).slice (win3_5.rect t)).set ↔ _
  rw [View.set_slice_whole, Rect.mem_set_unit]
  exact Iff.rfl

/-- Every index of the result array is in some point's block: row r is in block r / 5000. -/
theorem cover3 (i : S100000x64.Idx) :
    ∃ t : Fin cfg3.N, (cfg3.win 5).flush t = true ∧ i ∈ ((cfg3.win 5).blk t).view.set := by
  have hi0 : (i 0).val < 100000 := idx2_lt0 i
  have hi1 : (i 1).val < 64 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 64 ≤ (i 1).val ∧ (i 1).val < win3_5.index t (1 : Fin 2) * 64 + 64; rw [e1]; omega

/-- THE RESULT ARRAY after the region: the normalised, scaled, shifted and rectified activation, entry by entry. -/
theorem bn_final3 (c : Dev nD) : (dat3 (F := Ideal) V c).arrAt 5 cfg3.N =
    GinSpec.norm (V c (Pipeline.arrRef spec3 0) : S100000x64.Idx → EReal)
      (fun j => (V c (Pipeline.arrRef spec3 1) : S1x64.Idx → EReal) (ix2 0 j))
      (fun j => (V c (Pipeline.arrRef spec3 2) : S1x64.Idx → EReal) (ix2 0 j))
      (fun j => (V c (Pipeline.arrRef spec3 3) : S1x64.Idx → EReal) (ix2 0 j))
      (fun j => (V c (Pipeline.arrRef spec3 4) : S1x64.Idx → EReal) (ix2 0 j)) :=
  (dat3 (F := Ideal) V c).arrAt_eq_of_cover 5 (G3 V c) (fun t _ => flushed3_eq V c t) cover3

end Cert.KernelIdeal.Hand

end
-- ==== Proof.BnValueI5.lean ====
/- Region 5's output array in closed form, at the exact-real reading of the floats: after the twenty grid points
   the [100000, 64] result holds, at row r and column q, max((a(r,q) − mean q)·invstd q·scale q + shift q, 0) of the
   region's five input arrays as it found them. Point t writes rows 5000·t … 5000·t + 4999, so the blocks tile the array. -/
import proofs.«170985_j13606456394542_1_alg».proof.Proof.BnRegionI5
import proofs.«170985_j13606456394542_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-! ## The body's arithmetic at one entry -/

/-- The stored value at entry (p, q) of the block: the loaded entry less the mean's column q, times the inverse standard
    deviation's, times the scale's, plus the shift's, and the maximum of that with zero. -/
theorem pay5_apply (x0 : Vec Ideal S5000x64 .f32) (x1 x2 x3 x4 : Vec Ideal S1x64 .f32) (j : S5000x64.Idx) :
    k5_pay1 x0 x1 x2 x3 x4 j
      = max ((x0 j - x1 (ix2 0 (j 1 : Fin 64))) * x2 (ix2 0 (j 1 : Fin 64)) * x3 (ix2 0 (j 1 : Fin 64)) + x4 (ix2 0 (j 1 : Fin 64))) 0 := by
  obtain ⟨p, q, rfl⟩ : ∃ (p : Fin 5000) (q : Fin 64), j = ix2 p q := ⟨j 0, j 1, eq_ix2 j⟩
  show k5_pay1 x0 x1 x2 x3 x4 (ix2 p q) = max ((x0 (ix2 p q) - x1 (ix2 0 q)) * x2 (ix2 0 q) * x3 (ix2 0 q) + x4 (ix2 0 q)) 0
  unfold k5_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  exact congrArg _ Ideal.ofBits_zero_f32

/-- The same against the specification: when the loaded block's entry is the array's entry `i` in the same column and
    the four loaded rows are the four row arrays, the stored value is the normalised entry `i`. -/
theorem norm_entry5 (a : S100000x64.Idx → EReal) (mu istd g be : S1x64.Idx → EReal)
    (x0 : Vec Ideal S5000x64 .f32) (x1 x2 x3 x4 : Vec Ideal S1x64 .f32) (j : S5000x64.Idx) (i : S100000x64.Idx)
    (h0 : x0 j = a i) (hcol : (i 1).val = (j 1).val) (h1 : x1 = mu) (h2 : x2 = istd) (h3 : x3 = g) (h4 : x4 = be) :
    k5_pay1 x0 x1 x2 x3 x4 j
      = GinSpec.norm a (fun q => mu (ix2 0 q)) (fun q => istd (ix2 0 q)) (fun q => g (ix2 0 q)) (fun q => be (ix2 0 q)) i := by
  subst h1 h2 h3 h4
  rw [pay5_apply, h0]
  have e : (j 1 : Fin 64) = (i 1 : Fin 64) := Fin.ext hcol.symm
  rw [e]
  rfl

/-! ## The windows' block indices -/

/-- The printed index maps over the grid: the activation's and the result's block index is (t, 0) at point t, the four
    rows' is (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The activation's block at point `t` is rows 5000·t … of the array. -/
theorem iblk5_0_apply (c : Dev nD) (t : Fin cfg5.N) (x : S5000x64.Idx) (k : S100000x64.Idx)
    (hk0 : (k 0).val = 5000 * t.val + (x 0).val) (hk1 : (k 1).val = (x 1).val) :
    (iblk5 V c 0 t : Vec Ideal S5000x64 .f32) x = (V c (Pipeline.arrRef spec5 0) : S100000x64.Idx → EReal) k := by
  obtain ⟨e0, e1, -⟩ := idx5 t
  unfold iblk5
  rw [View.read_apply]
  refine congrArg (V c (Pipeline.arrRef spec5 0) : S100000x64.Idx → EReal) (funext fun a => Fin.ext ?_)
  match a with
  | ⟨0, _⟩ => show win5_0.index t (0 : Fin 2) * 5000 + 1 * (x 0).val = (k 0).val; rw [e0, hk0]; omega
  | ⟨1, _⟩ => show win5_0.index t (1 : Fin 2) * 64 + 1 * (x 1).val = (k 1).val; rw [e1, hk1]; omega

/-- Window 1's block at any point is the whole [1, 64] row array: its block index is (0, 0) throughout. -/
theorem iblk5_1_apply (c : Dev nD) (t : Fin cfg5.N) (x : S1x64.Idx) :
    (iblk5 V c 1 t : Vec Ideal S1x64 .f32) x = (V c (Pipeline.arrRef spec5 1) : S1x64.Idx → EReal) x := by
  obtain ⟨-, -, e0, e1, -, -, -, -, -, -, -, -⟩ := idx5 t
  unfold iblk5
  rw [View.read_apply]
  refine congrArg (V c (Pipeline.arrRef spec5 1) : S1x64.Idx → EReal) (funext fun a => Fin.ext ?_)
  match a with
  | ⟨0, _⟩ => show win5_1.index t (0 : Fin 2) * 1 + 1 * (x 0).val = (x 0).val; rw [e0]; omega
  | ⟨1, _⟩ => show win5_1.index t (1 : Fin 2) * 64 + 1 * (x 1).val = (x 1).val; rw [e1]; omega

/-- Window 2's block at any point is the whole [1, 64] row array: its block index is (0, 0) throughout. -/
theorem iblk5_2_apply (c : Dev nD) (t : Fin cfg5.N) (x : S1x64.Idx) :
    (iblk5 V c 2 t : Vec Ideal S1x64 .f32) x = (V c (Pipeline.arrRef spec5 2) : S1x64.Idx → EReal) x := by
  obtain ⟨-, -, -, -, e0, e1, -, -, -, -, -, -⟩ := idx5 t
  unfold iblk5
  rw [View.read_apply]
  refine congrArg (V c (Pipeline.arrRef spec5 2) : S1x64.Idx → EReal) (funext fun a => Fin.ext ?_)
  match a with
  | ⟨0, _⟩ => show win5_2.index t (0 : Fin 2) * 1 + 1 * (x 0).val = (x 0).val; rw [e0]; omega
  | ⟨1, _⟩ => show win5_2.index t (1 : Fin 2) * 64 + 1 * (x 1).val = (x 1).val; rw [e1]; omega

/-- Window 3's block at any point is the whole [1, 64] row array: its block index is (0, 0) throughout. -/
theorem iblk5_3_apply (c : Dev nD) (t : Fin cfg5.N) (x : S1x64.Idx) :
    (iblk5 V c 3 t : Vec Ideal S1x64 .f32) x = (V c (Pipeline.arrRef spec5 3) : S1x64.Idx → EReal) x := by
  obtain ⟨-, -, -, -, -, -, e0, e1, -, -, -, -⟩ := idx5 t
  unfold iblk5
  rw [View.read_apply]
  refine congrArg (V c (Pipeline.arrRef spec5 3) : S1x64.Idx → EReal) (funext fun a => Fin.ext ?_)
  match a with
  | ⟨0, _⟩ => show win5_3.index t (0 : Fin 2) * 1 + 1 * (x 0).val = (x 0).val; rw [e0]; omega
  | ⟨1, _⟩ => show win5_3.index t (1 : Fin 2) * 64 + 1 * (x 1).val = (x 1).val; rw [e1]; omega

/-- Window 4's block at any point is the whole [1, 64] row array: its block index is (0, 0) throughout. -/
theorem iblk5_4_apply (c : Dev nD) (t : Fin cfg5.N) (x : S1x64.Idx) :
    (iblk5 V c 4 t : Vec Ideal S1x64 .f32) x = (V c (Pipeline.arrRef spec5 4) : S1x64.Idx → EReal) x := by
  obtain ⟨-, -, -, -, -, -, -, -, e0, e1, -, -⟩ := idx5 t
  unfold iblk5
  rw [View.read_apply]
  refine congrArg (V c (Pipeline.arrRef spec5 4) : S1x64.Idx → EReal) (funext fun a => Fin.ext ?_)
  match a with
  | ⟨0, _⟩ => show win5_4.index t (0 : Fin 2) * 1 + 1 * (x 0).val = (x 0).val; rw [e0]; omega
  | ⟨1, _⟩ => show win5_4.index t (1 : Fin 2) * 64 + 1 * (x 1).val = (x 1).val; rw [e1]; omega

/-! ## What a point writes back, and the array after the last point -/

/-- The region's result as one function of its input arrays. -/
abbrev G5 (c : Dev nD) : S100000x64.Idx → EReal :=
  GinSpec.norm (V c (Pipeline.arrRef spec5 0) : S100000x64.Idx → EReal)
      (fun j => (V c (Pipeline.arrRef spec5 1) : S1x64.Idx → EReal) (ix2 0 j))
      (fun j => (V c (Pipeline.arrRef spec5 2) : S1x64.Idx → EReal) (ix2 0 j))
      (fun j => (V c (Pipeline.arrRef spec5 3) : S1x64.Idx → EReal) (ix2 0 j))
      (fun j => (V c (Pipeline.arrRef spec5 4) : S1x64.Idx → EReal) (ix2 0 j))

/-- Point `t` writes back block `t` of `G5`. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S5000x64) hz5, View.ld_unit_zero (S := S1x64) hz5]
  obtain ⟨-, -, -, -, -, -, -, -, -, -, e0, e1⟩ := idx5 t
  funext j
  show k5_pay1 (iblk5 V c 0 t) (iblk5 V c 1 t) (iblk5 V c 2 t) (iblk5 V c 3 t) (iblk5 V c 4 t) j
    = G5 V c (((cfg5.win 5).blk t).view.emb j)
  have hk0 : ((((cfg5.win 5).blk t).view.emb j : S100000x64.Idx) 0).val = 5000 * t.val + (j 0).val := by
    show win5_5.index t (0 : Fin 2) * 5000 + 1 * (j 0).val = _; rw [e0]; omega
  have hk1 : ((((cfg5.win 5).blk t).view.emb j : S100000x64.Idx) 1).val = (j 1).val := by
    show win5_5.index t (1 : Fin 2) * 64 + 1 * (j 1).val = _; rw [e1]; omega
  exact norm_entry5 _ _ _ _ _ _ _ _ _ _ j _ (iblk5_0_apply V c t j _ hk0 hk1) hk1
    (funext fun x => iblk5_1_apply V c t x) (funext fun x => iblk5_2_apply V c t x)
    (funext fun x => iblk5_3_apply V c t x) (funext fun x => iblk5_4_apply V c t x)

/-- An index of the result array is in point `t`'s block iff each coordinate is in the block's range on its axis. -/
theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v144).slice (win5_5.rect t)).set ↔ _
  rw [View.set_slice_whole, Rect.mem_set_unit]
  exact Iff.rfl

/-- Every index of the result array is in some point's block: row r is in block r / 5000. -/
theorem cover5 (i : S100000x64.Idx) :
    ∃ t : Fin cfg5.N, (cfg5.win 5).flush t = true ∧ i ∈ ((cfg5.win 5).blk t).view.set := by
  have hi0 : (i 0).val < 100000 := idx2_lt0 i
  have hi1 : (i 1).val < 64 := idx2_lt1 i
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, -, -, -, e0, e1⟩ := idx5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 64 ≤ (i 1).val ∧ (i 1).val < win5_5.index t (1 : Fin 2) * 64 + 64; rw [e1]; omega

/-- THE RESULT ARRAY after the region: the normalised, scaled, shifted and rectified activation, entry by entry. -/
theorem bn_final5 (c : Dev nD) : (dat5 (F := Ideal) V c).arrAt 5 cfg5.N =
    GinSpec.norm (V c (Pipeline.arrRef spec5 0) : S100000x64.Idx → EReal)
      (fun j => (V c (Pipeline.arrRef spec5 1) : S1x64.Idx → EReal) (ix2 0 j))
      (fun j => (V c (Pipeline.arrRef spec5 2) : S1x64.Idx → EReal) (ix2 0 j))
      (fun j => (V c (Pipeline.arrRef spec5 3) : S1x64.Idx → EReal) (ix2 0 j))
      (fun j => (V c (Pipeline.arrRef spec5 4) : S1x64.Idx → EReal) (ix2 0 j)) :=
  (dat5 (F := Ideal) V c).arrAt_eq_of_cover 5 (G5 V c) (fun t _ => flushed5_eq V c t) cover5

end Cert.KernelIdeal.Hand

end
-- ==== Proof.KCrossI.lean ====
/- Which buffers cross which items of @main unchanged, and which hold a region's result: between two items the
   core's buffers are a valuation built from the launch memory by the host stretches and by unknown region results;
   a buffer that no item in between writes reads the same before and after, and a region's output array reads the
   region's unknown result. -/
import proofs.«170985_j13606456394542_1_alg».proof.Proof.Gen.KernelIdeal.Regions

-- a reference is compared in turn with each of the thirty-odd references a host stretch writes
set_option maxRecDepth 1568

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (outs : Outs (F := F))

/-! ## What each region leaves in its output arrays: the unknowns, by name -/

theorem out_V2_v34_0 (c : Dev nD) : V2 m outs c main_v34_0 = outs 2 main_v34_0 c := by
  simp only [V2, Function.update_of_ne (StableHlo.devRef_ne_of_ne (by decide) : (Proc.devRef .tc main_v34_0 : DevRef τ sig) ≠ Proc.devRef .tc main_v34_2), Function.update_of_ne (StableHlo.devRef_ne_of_ne (by decide) : (Proc.devRef .tc main_v34_0 : DevRef τ sig) ≠ Proc.devRef .tc main_v34_1), Function.update_self]

theorem out_V2_v34_1 (c : Dev nD) : V2 m outs c main_v34_1 = outs 2 main_v34_1 c := by
  simp only [V2, Function.update_of_ne (StableHlo.devRef_ne_of_ne (by decide) : (Proc.devRef .tc main_v34_1 : DevRef τ sig) ≠ Proc.devRef .tc main_v34_2), Function.update_self]

theorem out_V2_v34_2 (c : Dev nD) : V2 m outs c main_v34_2 = outs 2 main_v34_2 c := by
  simp only [V2, Function.update_self]

theorem out_V4_v50 (c : Dev nD) : V4 m outs c main_v50 = outs 4 main_v50 c := by
  simp only [V4, Function.update_self]

theorem out_V6_v81_0 (c : Dev nD) : V6 m outs c main_v81_0 = outs 6 main_v81_0 c := by
  simp only [V6, Function.update_of_ne (StableHlo.devRef_ne_of_ne (by decide) : (Proc.devRef .tc main_v81_0 : DevRef τ sig) ≠ Proc.devRef .tc main_v81_2), Function.update_of_ne (StableHlo.devRef_ne_of_ne (by decide) : (Proc.devRef .tc main_v81_0 : DevRef τ sig) ≠ Proc.devRef .tc main_v81_1), Function.update_self]

theorem out_V6_v81_1 (c : Dev nD) : V6 m outs c main_v81_1 = outs 6 main_v81_1 c := by
  simp only [V6, Function.update_of_ne (StableHlo.devRef_ne_of_ne (by decide) : (Proc.devRef .tc main_v81_1 : DevRef τ sig) ≠ Proc.devRef .tc main_v81_2), Function.update_self]

theorem out_V6_v81_2 (c : Dev nD) : V6 m outs c main_v81_2 = outs 6 main_v81_2 c := by
  simp only [V6, Function.update_self]

theorem out_V8_v97 (c : Dev nD) : V8 m outs c main_v97 = outs 8 main_v97 c := by
  simp only [V8, Function.update_self]

theorem out_V10_v128_0 (c : Dev nD) : V10 m outs c main_v128_0 = outs 10 main_v128_0 c := by
  simp only [V10, Function.update_of_ne (StableHlo.devRef_ne_of_ne (by decide) : (Proc.devRef .tc main_v128_0 : DevRef τ sig) ≠ Proc.devRef .tc main_v128_2), Function.update_of_ne (StableHlo.devRef_ne_of_ne (by decide) : (Proc.devRef .tc main_v128_0 : DevRef τ sig) ≠ Proc.devRef .tc main_v128_1), Function.update_self]

theorem out_V10_v128_1 (c : Dev nD) : V10 m outs c main_v128_1 = outs 10 main_v128_1 c := by
  simp only [V10, Function.update_of_ne (StableHlo.devRef_ne_of_ne (by decide) : (Proc.devRef .tc main_v128_1 : DevRef τ sig) ≠ Proc.devRef .tc main_v128_2), Function.update_self]

theorem out_V10_v128_2 (c : Dev nD) : V10 m outs c main_v128_2 = outs 10 main_v128_2 c := by
  simp only [V10, Function.update_self]

theorem out_V12_v144 (c : Dev nD) : V12 m outs c main_v144 = outs 12 main_v144 c := by
  simp only [V12, Function.update_self]

/-! ## What crosses items unchanged: a buffer read at a later item that no item in between writes -/

theorem keep_V2_v13 (c : Dev nD) : V2 m outs c main_v13 = V1 m c main_v13 :=
  V2_of m outs c main_v13 (by decide)

theorem keep_V2_v15 (c : Dev nD) : V2 m outs c main_v15 = V1 m c main_v15 :=
  V2_of m outs c main_v15 (by decide)

theorem keep_V3_v34_0 (c : Dev nD) : V3 m outs c main_v34_0 = V2 m outs c main_v34_0 :=
  V3_of m outs c main_v34_0 (by decide)

theorem keep_V4_v1 (c : Dev nD) : V4 m outs c main_v1 = V1 m c main_v1 :=
  (V4_of m outs c main_v1 (by decide)).trans <| (V3_of m outs c main_v1 (by decide)).trans <| V2_of m outs c main_v1 (by decide)

theorem keep_V4_v3 (c : Dev nD) : V4 m outs c main_v3 = V1 m c main_v3 :=
  (V4_of m outs c main_v3 (by decide)).trans <| (V3_of m outs c main_v3 (by decide)).trans <| V2_of m outs c main_v3 (by decide)

theorem keep_V4_arg3 (c : Dev nD) : V4 m outs c main_arg3 = V0 m c main_arg3 :=
  (V4_of m outs c main_arg3 (by decide)).trans <| (V3_of m outs c main_arg3 (by decide)).trans <| (V2_of m outs c main_arg3 (by decide)).trans <| V1_of m c main_arg3 (by decide)

theorem keep_V4_arg4 (c : Dev nD) : V4 m outs c main_arg4 = V0 m c main_arg4 :=
  (V4_of m outs c main_arg4 (by decide)).trans <| (V3_of m outs c main_arg4 (by decide)).trans <| (V2_of m outs c main_arg4 (by decide)).trans <| V1_of m c main_arg4 (by decide)

theorem keep_V4_arg5 (c : Dev nD) : V4 m outs c main_arg5 = V0 m c main_arg5 :=
  (V4_of m outs c main_arg5 (by decide)).trans <| (V3_of m outs c main_arg5 (by decide)).trans <| (V2_of m outs c main_arg5 (by decide)).trans <| V1_of m c main_arg5 (by decide)

theorem keep_V4_arg6 (c : Dev nD) : V4 m outs c main_arg6 = V0 m c main_arg6 :=
  (V4_of m outs c main_arg6 (by decide)).trans <| (V3_of m outs c main_arg6 (by decide)).trans <| (V2_of m outs c main_arg6 (by decide)).trans <| V1_of m c main_arg6 (by decide)

theorem keep_V4_arg7 (c : Dev nD) : V4 m outs c main_arg7 = V0 m c main_arg7 :=
  (V4_of m outs c main_arg7 (by decide)).trans <| (V3_of m outs c main_arg7 (by decide)).trans <| (V2_of m outs c main_arg7 (by decide)).trans <| V1_of m c main_arg7 (by decide)

theorem keep_V4_arg8 (c : Dev nD) : V4 m outs c main_arg8 = V0 m c main_arg8 :=
  (V4_of m outs c main_arg8 (by decide)).trans <| (V3_of m outs c main_arg8 (by decide)).trans <| (V2_of m outs c main_arg8 (by decide)).trans <| V1_of m c main_arg8 (by decide)

theorem keep_V4_arg9 (c : Dev nD) : V4 m outs c main_arg9 = V0 m c main_arg9 :=
  (V4_of m outs c main_arg9 (by decide)).trans <| (V3_of m outs c main_arg9 (by decide)).trans <| (V2_of m outs c main_arg9 (by decide)).trans <| V1_of m c main_arg9 (by decide)

theorem keep_V6_v60 (c : Dev nD) : V6 m outs c main_v60 = V5 m outs c main_v60 :=
  V6_of m outs c main_v60 (by decide)

theorem keep_V6_v62 (c : Dev nD) : V6 m outs c main_v62 = V5 m outs c main_v62 :=
  V6_of m outs c main_v62 (by decide)

theorem keep_V7_v81_0 (c : Dev nD) : V7 m outs c main_v81_0 = V6 m outs c main_v81_0 :=
  V7_of m outs c main_v81_0 (by decide)

theorem keep_V8_v1 (c : Dev nD) : V8 m outs c main_v1 = V1 m c main_v1 :=
  (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| V2_of m outs c main_v1 (by decide)

theorem keep_V8_v3 (c : Dev nD) : V8 m outs c main_v3 = V1 m c main_v3 :=
  (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| V2_of m outs c main_v3 (by decide)

theorem keep_V8_arg3 (c : Dev nD) : V8 m outs c main_arg3 = V0 m c main_arg3 :=
  (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| V1_of m c main_arg3 (by decide)

theorem keep_V8_arg4 (c : Dev nD) : V8 m outs c main_arg4 = V0 m c main_arg4 :=
  (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| V1_of m c main_arg4 (by decide)

theorem keep_V8_arg5 (c : Dev nD) : V8 m outs c main_arg5 = V0 m c main_arg5 :=
  (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| V1_of m c main_arg5 (by decide)

theorem keep_V8_arg6 (c : Dev nD) : V8 m outs c main_arg6 = V0 m c main_arg6 :=
  (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| V1_of m c main_arg6 (by decide)

theorem keep_V8_arg7 (c : Dev nD) : V8 m outs c main_arg7 = V0 m c main_arg7 :=
  (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| V1_of m c main_arg7 (by decide)

theorem keep_V8_arg8 (c : Dev nD) : V8 m outs c main_arg8 = V0 m c main_arg8 :=
  (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| V1_of m c main_arg8 (by decide)

theorem keep_V8_arg9 (c : Dev nD) : V8 m outs c main_arg9 = V0 m c main_arg9 :=
  (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| V1_of m c main_arg9 (by decide)

theorem keep_V10_v107 (c : Dev nD) : V10 m outs c main_v107 = V9 m outs c main_v107 :=
  V10_of m outs c main_v107 (by decide)

theorem keep_V10_v109 (c : Dev nD) : V10 m outs c main_v109 = V9 m outs c main_v109 :=
  V10_of m outs c main_v109 (by decide)

theorem keep_V11_v128_0 (c : Dev nD) : V11 m outs c main_v128_0 = V10 m outs c main_v128_0 :=
  V11_of m outs c main_v128_0 (by decide)

theorem keep_V12_arg2 (c : Dev nD) : V12 m outs c main_arg2 = V0 m c main_arg2 :=
  (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| V1_of m c main_arg2 (by decide)

theorem keep_V12_arg10 (c : Dev nD) : V12 m outs c main_arg10 = V0 m c main_arg10 :=
  (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| V1_of m c main_arg10 (by decide)

theorem keep_V12_arg11 (c : Dev nD) : V12 m outs c main_arg11 = V0 m c main_arg11 :=
  (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| V1_of m c main_arg11 (by decide)

end Cert.KernelIdeal.Hand

end
-- ==== Proof.RefValue.lean ====
/- The reference side of the value claim: the stages of the network as named functions of their argument arrays,
   and the reference's run ending at their composition.

   One layer of the network is three stages. `prepG x src dst e` is `(1 + e) · x + A x`, where `A x` adds row `src k` of `x`
   (a negative `src k` counted from the end) into row `dst k`, over the edges `k`. `mlpG h W₁ b₁ W₂ b₂` is two dense layers,
   each `max (h · W + b) 0` with `b` repeated down the rows. `bnG h γ β` normalizes each column of `h` by its mean and its
   mean squared deviation over the 100000 rows, `max ((h − mean) · rsqrt (var + 1e-5) · γ + β) 0`. `tail y batch W b` adds
   the rows of `y` into the 256 graphs `batch` names, divides by `max count 1`, and applies the last dense layer.
   Layer `i`'s stages `prep_i`, `mlp_i`, `bn_i` are these at slice `i` of the stacked parameters (the slices are the
   read module's `val_main_vN`, so its index lemmas apply to them); `refOut` is the whole composition.

   The run: the operations are read one stage at a time over a variable valuation `V` (the stage's result buffer holds
   the stage function of what `V` holds at the buffers it reads; every buffer the stage does not write keeps its
   contents), and the stages are chained in program order. -/
import proofs.«170985_j13606456394542_1_alg».proof.Proof.RefRunP
import proofs.«170985_j13606456394542_1_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-! ## The stages -/

/-- The 100000 × 64 array of zeros. -/
def zeros : (⟨S100000x64, .f32⟩ : BufTy).Contents (Elt F) := broadcastInDim S100000x64 ![] bcast_S_S100000x64 (constant S_ .f32 0x00000000#32)

/-- `max h 0`, element by element. -/
def relu (h : (⟨S100000x64, .f32⟩ : BufTy).Contents (Elt F)) : (⟨S100000x64, .f32⟩ : BufTy).Contents (Elt F) := maximumf h zeros

/-- A vector of 64 entries repeated down the 100000 rows. -/
def rows (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- One dense layer: `max (h · W + b) 0`. -/
def dense (h : (⟨S100000x64, .f32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  relu (addf (Host.dotGeneral dot_S100000x64_S64x64_S100000x64_1_0_0_1_n_n none h W) (rows b))

/-- The two dense layers of one network layer. -/
def mlpG (h : (⟨S100000x64, .f32⟩ : BufTy).Contents (Elt F)) (W₁ : (⟨S64x64, .f32⟩ : BufTy).Contents (Elt F)) (b₁ : (⟨S64, .f32⟩ : BufTy).Contents (Elt F)) (W₂ : (⟨S64x64, .f32⟩ : BufTy).Contents (Elt F)) (b₂ : (⟨S64, .f32⟩ : BufTy).Contents (Elt F)) : (⟨S100000x64, .f32⟩ : BufTy).Contents (Elt F) :=
  dense (dense h W₁ b₁) W₂ b₂

/-- The mean of each column over the 100000 rows: the column's sum divided by 100000. -/
def colMean (h : (⟨S100000x64, .f32⟩ : BufTy).Contents (Elt F)) : (⟨S64, .f32⟩ : BufTy).Contents (Elt F) :=
  Host.divf (Host.reduceAdd h (constant S_ .f32 0x00000000#32) reducesTo_S100000x64_S64_d0 h_S_)
    (broadcastInDim S64 ![] bcast_S_S64 (constant S_ .f32 0x47C35000#32))

/-- Each entry less its column's mean. -/
def centered (h : (⟨S100000x64, .f32⟩ : BufTy).Contents (Elt F)) : (⟨S100000x64, .f32⟩ : BufTy).Contents (Elt F) := subf h (rows (colMean h))

/-- The mean squared deviation of each column. -/
def colVar (h : (⟨S100000x64, .f32⟩ : BufTy).Contents (Elt F)) : (⟨S64, .f32⟩ : BufTy).Contents (Elt F) := colMean (mulf (centered h) (centered h))

/-- Each column normalized by its mean and mean squared deviation, scaled by `γ`, shifted by `β`, then `max · 0`. -/
def bnG (h : (⟨S100000x64, .f32⟩ : BufTy).Contents (Elt F)) (γ β : (⟨S64, .f32⟩ : BufTy).Contents (Elt F)) : (⟨S100000x64, .f32⟩ : BufTy).Contents (Elt F) :=
  relu (addf (mulf (mulf (centered h)
    (rows (Host.rsqrt (addf (colVar h) (broadcastInDim S64 ![] bcast_S_S64 (constant S_ .f32 0x3727C5AC#32))))))
    (rows γ)) (rows β))

/-- A row index counted from the end when negative: `s k + 100000` where `s k < 0`, else `s k`. -/
def wrapIdx (s : (⟨S1000000, .i32⟩ : BufTy).Contents (Elt F)) : (⟨S1000000, .i32⟩ : BufTy).Contents (Elt F) :=
  select (cmpi .slt s (broadcastInDim S1000000 ![] bcast_S_S1000000 (constantI S_ 32 0#32)))
    (addi s (broadcastInDim S1000000 ![] bcast_S_S1000000 (constantI S_ 32 100000#32))) s

/-- A list of row indices as a column of index vectors of length one. -/
def colIdx (s : (⟨S1000000, .i32⟩ : BufTy).Contents (Elt F)) : (⟨S1000000x1, .i32⟩ : BufTy).Contents (Elt F) := broadcastInDim S1000000x1 ![0] bcast_S1000000_S1000000x1_0 s

/-- The neighbour sum: row `src k` of `x` added into row `dst k`, over the edges `k`, from zeros. -/
def aggr (x : (⟨S100000x64, .f32⟩ : BufTy).Contents (Elt F)) (src dst : (⟨S1000000, .i32⟩ : BufTy).Contents (Elt F)) : (⟨S100000x64, .f32⟩ : BufTy).Contents (Elt F) :=
  Host.scatterAdd scatter_S100000x64_S1000000x1_S1000000x64_1_0_0_1 zeros (colIdx dst)
    (Host.gather gather_S100000x64_S1000000x1_S1000000x64_1_0_n_n_0_1_164 x (colIdx (wrapIdx src)))

/-- `(1 + e) · x + aggr x src dst`. -/
def prepG (x : (⟨S100000x64, .f32⟩ : BufTy).Contents (Elt F)) (src dst : (⟨S1000000, .i32⟩ : BufTy).Contents (Elt F)) (e : (⟨S_, .f32⟩ : BufTy).Contents (Elt F)) : (⟨S100000x64, .f32⟩ : BufTy).Contents (Elt F) :=
  addf (mulf (broadcastInDim S100000x64 ![] bcast_S_S100000x64 (addf (constant S_ .f32 0x3F800000#32) e)) x) (aggr x src dst)

/-- The mean of the rows of `y` in each of the 256 graphs `batch` names (the sum divided by `max count 1`), then the
    last dense layer `· W + b`. -/
def tail (y : (⟨S100000x64, .f32⟩ : BufTy).Contents (Elt F)) (batch : (⟨S100000, .i32⟩ : BufTy).Contents (Elt F)) (W : (⟨S64x10, .f32⟩ : BufTy).Contents (Elt F)) (b : (⟨S10, .f32⟩ : BufTy).Contents (Elt F)) : (⟨S256x10, .f32⟩ : BufTy).Contents (Elt F) :=
  addf (Host.dotGeneral dot_S256x64_S64x10_S256x10_1_0_0_1_n_n none
    (Host.divf (Host.scatterAdd scatter_S256x64_S100000x1_S100000x64_1_0_0_1 (val_main_v196 (F := F)) (val_main_v197 (F := F) batch) y)
      (val_main_v206 (F := F) batch)) W) (val_main_v210 (F := F) b)

/-- Layer 0: `(1 + eps 0) · x` plus the neighbour sum over the edges `ei` (row 0 the sources, row 1 the targets). -/
def prep_0 (x : (⟨S100000x64, .f32⟩ : BufTy).Contents (Elt F)) (ei : (⟨S2x1000000, .i32⟩ : BufTy).Contents (Elt F)) (eps : (⟨S3, .f32⟩ : BufTy).Contents (Elt F)) : (⟨S100000x64, .f32⟩ : BufTy).Contents (Elt F) :=
  prepG x (val_main_v1 (F := F) ei) (val_main_v3 (F := F) ei) (val_main_v17 (F := F) eps)
/-- Layer 0's two dense layers, at slice 0 of the stacked weights and biases. -/
def mlp_0 (h : (⟨S100000x64, .f32⟩ : BufTy).Contents (Elt F)) (w1 : (⟨S3x64x64, .f32⟩ : BufTy).Contents (Elt F)) (b1 : (⟨S3x64, .f32⟩ : BufTy).Contents (Elt F)) (w2 : (⟨S3x64x64, .f32⟩ : BufTy).Contents (Elt F)) (b2 : (⟨S3x64, .f32⟩ : BufTy).Contents (Elt F)) : (⟨S100000x64, .f32⟩ : BufTy).Contents (Elt F) :=
  mlpG h (val_main_v5 (F := F) w1) (val_main_v7 (F := F) b1) (val_main_v9 (F := F) w2) (val_main_v11 (F := F) b2)
/-- Layer 0's normalization, at slice 0 of the stacked scales and shifts. -/
def bn_0 (h : (⟨S100000x64, .f32⟩ : BufTy).Contents (Elt F)) (gamma beta : (⟨S3x64, .f32⟩ : BufTy).Contents (Elt F)) : (⟨S100000x64, .f32⟩ : BufTy).Contents (Elt F) :=
  bnG h (val_main_v13 (F := F) gamma) (val_main_v15 (F := F) beta)

/-- Layer 1: `(1 + eps 1) · x` plus the neighbour sum over the edges `ei` (row 0 the sources, row 1 the targets). -/
def prep_1 (x : (⟨S100000x64, .f32⟩ : BufTy).Contents (Elt F)) (ei : (⟨S2x1000000, .i32⟩ : BufTy).Contents (Elt F)) (eps : (⟨S3, .f32⟩ : BufTy).Contents (Elt F)) : (⟨S100000x64, .f32⟩ : BufTy).Contents (Elt F) :=
  prepG x (val_main_v1 (F := F) ei) (val_main_v3 (F := F) ei) (val_main_v81 (F := F) eps)
/-- Layer 1's two dense layers, at slice 1 of the stacked weights and biases. -/
def mlp_1 (h : (⟨S100000x64, .f32⟩ : BufTy).Contents (Elt F)) (w1 : (⟨S3x64x64, .f32⟩ : BufTy).Contents (Elt F)) (b1 : (⟨S3x64, .f32⟩ : BufTy).Contents (Elt F)) (w2 : (⟨S3x64x64, .f32⟩ : BufTy).Contents (Elt F)) (b2 : (⟨S3x64, .f32⟩ : BufTy).Contents (Elt F)) : (⟨S100000x64, .f32⟩ : BufTy).Contents (Elt F) :=
  mlpG h (val_main_v69 (F := F) w1) (val_main_v71 (F := F) b1) (val_main_v73 (F := F) w2) (val_main_v75 (F := F) b2)
/-- Layer 1's normalization, at slice 1 of the stacked scales and shifts. -/
def bn_1 (h : (⟨S100000x64, .f32⟩ : BufTy).Contents (Elt F)) (gamma beta : (⟨S3x64, .f32⟩ : BufTy).Contents (Elt F)) : (⟨S100000x64, .f32⟩ : BufTy).Contents (Elt F) :=
  bnG h (val_main_v77 (F := F) gamma) (val_main_v79 (F := F) beta)

/-- Layer 2: `(1 + eps 2) · x` plus the neighbour sum over the edges `ei` (row 0 the sources, row 1 the targets). -/
def prep_2 (x : (⟨S100000x64, .f32⟩ : BufTy).Contents (Elt F)) (ei : (⟨S2x1000000, .i32⟩ : BufTy).Contents (Elt F)) (eps : (⟨S3, .f32⟩ : BufTy).Contents (Elt F)) : (⟨S100000x64, .f32⟩ : BufTy).Contents (Elt F) :=
  prepG x (val_main_v1 (F := F) ei) (val_main_v3 (F := F) ei) (val_main_v145 (F := F) eps)
/-- Layer 2's two dense layers, at slice 2 of the stacked weights and biases. -/
def mlp_2 (h : (⟨S100000x64, .f32⟩ : BufTy).Contents (Elt F)) (w1 : (⟨S3x64x64, .f32⟩ : BufTy).Contents (Elt F)) (b1 : (⟨S3x64, .f32⟩ : BufTy).Contents (Elt F)) (w2 : (⟨S3x64x64, .f32⟩ : BufTy).Contents (Elt F)) (b2 : (⟨S3x64, .f32⟩ : BufTy).Contents (Elt F)) : (⟨S100000x64, .f32⟩ : BufTy).Contents (Elt F) :=
  mlpG h (val_main_v133 (F := F) w1) (val_main_v135 (F := F) b1) (val_main_v137 (F := F) w2) (val_main_v139 (F := F) b2)
/-- Layer 2's normalization, at slice 2 of the stacked scales and shifts. -/
def bn_2 (h : (⟨S100000x64, .f32⟩ : BufTy).Contents (Elt F)) (gamma beta : (⟨S3x64, .f32⟩ : BufTy).Contents (Elt F)) : (⟨S100000x64, .f32⟩ : BufTy).Contents (Elt F) :=
  bnG h (val_main_v141 (F := F) gamma) (val_main_v143 (F := F) beta)

/-- The whole network: three layers, the pooling and the last dense layer. -/
def refOut (x : (⟨S100000x64, .f32⟩ : BufTy).Contents (Elt F)) (ei : (⟨S2x1000000, .i32⟩ : BufTy).Contents (Elt F)) (batch : (⟨S100000, .i32⟩ : BufTy).Contents (Elt F)) (w1 : (⟨S3x64x64, .f32⟩ : BufTy).Contents (Elt F)) (b1 : (⟨S3x64, .f32⟩ : BufTy).Contents (Elt F)) (w2 : (⟨S3x64x64, .f32⟩ : BufTy).Contents (Elt F))
    (b2 gamma beta : (⟨S3x64, .f32⟩ : BufTy).Contents (Elt F)) (eps : (⟨S3, .f32⟩ : BufTy).Contents (Elt F)) (lin_w : (⟨S64x10, .f32⟩ : BufTy).Contents (Elt F)) (lin_b : (⟨S10, .f32⟩ : BufTy).Contents (Elt F)) : (⟨S256x10, .f32⟩ : BufTy).Contents (Elt F) :=
  tail (bn_2 (mlp_2 (prep_2 (bn_1 (mlp_1 (prep_1 (bn_0 (mlp_0 (prep_0 x ei eps) w1 b1 w2 b2) gamma beta) ei eps)
    w1 b1 w2 b2) gamma beta) ei eps) w1 b1 w2 b2) gamma beta) batch lin_w lin_b

/-! ## The operations, a piece at a time -/

/-- The contents after two lists of operations in turn are those after their append. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents after piece 0 of the operations (operations 1 … 18) from contents `V`. -/
def p00 (V : Valuation τ sig (Elt F)) : Valuation τ sig (Elt F) := after q00 V
/-- The buffers piece 0 writes. -/
abbrev p00_W : List (Ref sig .tc) := [main_v0, main_v1, main_v2, main_v3, main_v4, main_v5, main_v6, main_v7, main_v8, main_v9, main_v10, main_v11, main_v12, main_v13, main_v14, main_v15, main_v16, main_v17]
set_option maxRecDepth 8192 in
theorem p00_writes : (q00 : List (HloOp τ sig (Elt F))).Forall fun op => op.writes ⊆ (p00_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 0 does not write keeps its contents through it. -/
theorem p00_keep (V : Valuation τ sig (Elt F)) {r : Ref sig .tc} (h : r ∉ p00_W) :
    p00 V (no_index (Proc.devRef .tc r)) = V (Proc.devRef .tc r) :=
  after_of_writes_sub q00 V p00_writes h

/-- The contents after piece 1 of the operations (operations 19 … 36) from contents `V`. -/
def p01 (V : Valuation τ sig (Elt F)) : Valuation τ sig (Elt F) := after q01 V
/-- The buffers piece 1 writes. -/
abbrev p01_W : List (Ref sig .tc) := [main_c, main_v18, main_v19, main_c_0, main_v20, main_v21, main_v22, main_v23, main_v24, main_cst, main_v25, main_v26, main_v27, main_cst_1, main_v28, main_v29, main_v30, main_v31]
set_option maxRecDepth 8192 in
theorem p01_writes : (q01 : List (HloOp τ sig (Elt F))).Forall fun op => op.writes ⊆ (p01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 1 does not write keeps its contents through it. -/
theorem p01_keep (V : Valuation τ sig (Elt F)) {r : Ref sig .tc} (h : r ∉ p01_W) :
    p01 V (no_index (Proc.devRef .tc r)) = V (Proc.devRef .tc r) :=
  after_of_writes_sub q01 V p01_writes h

/-- The contents after piece 2 of the operations (operations 37 … 50) from contents `V`. -/
def p02 (V : Valuation τ sig (Elt F)) : Valuation τ sig (Elt F) := after q02 V
/-- The buffers piece 2 writes. -/
abbrev p02_W : List (Ref sig .tc) := [main_v32, main_v33, main_v34, main_v35, main_call0_cst, main_call0_v0, main_v36, main_v37, main_v38, main_v39, main_v40, main_call1_cst, main_call1_v0, main_v41]
set_option maxRecDepth 8192 in
theorem p02_writes : (q02 : List (HloOp τ sig (Elt F))).Forall fun op => op.writes ⊆ (p02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 2 does not write keeps its contents through it. -/
theorem p02_keep (V : Valuation τ sig (Elt F)) {r : Ref sig .tc} (h : r ∉ p02_W) :
    p02 V (no_index (Proc.devRef .tc r)) = V (Proc.devRef .tc r) :=
  after_of_writes_sub q02 V p02_writes h

/-- The contents after piece 3 of the operations (operations 51 … 64) from contents `V`. -/
def p03 (V : Valuation τ sig (Elt F)) : Valuation τ sig (Elt F) := after q03 V
/-- The buffers piece 3 writes. -/
abbrev p03_W : List (Ref sig .tc) := [main_cst_2, main_v42, main_cst_3, main_v43, main_v44, main_v45, main_v46, main_v47, main_v48, main_cst_4, main_v49, main_cst_5, main_v50, main_v51]
set_option maxRecDepth 8192 in
theorem p03_writes : (q03 : List (HloOp τ sig (Elt F))).Forall fun op => op.writes ⊆ (p03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 3 does not write keeps its contents through it. -/
theorem p03_keep (V : Valuation τ sig (Elt F)) {r : Ref sig .tc} (h : r ∉ p03_W) :
    p03 V (no_index (Proc.devRef .tc r)) = V (Proc.devRef .tc r) :=
  after_of_writes_sub q03 V p03_writes h

/-- The contents after piece 4 of the operations (operations 65 … 83) from contents `V`. -/
def p04 (V : Valuation τ sig (Elt F)) : Valuation τ sig (Elt F) := after q04 V
/-- The buffers piece 4 writes. -/
abbrev p04_W : List (Ref sig .tc) := [main_v52, main_v53, main_v54, main_cst_6, main_v55, main_v56, main_v57, main_v58, main_v59, main_v60, main_v61, main_v62, main_v63, main_v64, main_v65, main_v66, main_call2_cst, main_call2_v0, main_v67]
set_option maxRecDepth 8192 in
theorem p04_writes : (q04 : List (HloOp τ sig (Elt F))).Forall fun op => op.writes ⊆ (p04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 4 does not write keeps its contents through it. -/
theorem p04_keep (V : Valuation τ sig (Elt F)) {r : Ref sig .tc} (h : r ∉ p04_W) :
    p04 V (no_index (Proc.devRef .tc r)) = V (Proc.devRef .tc r) :=
  after_of_writes_sub q04 V p04_writes h

/-- The contents after piece 5 of the operations (operations 84 … 97) from contents `V`. -/
def p05 (V : Valuation τ sig (Elt F)) : Valuation τ sig (Elt F) := after q05 V
/-- The buffers piece 5 writes. -/
abbrev p05_W : List (Ref sig .tc) := [main_v68, main_v69, main_v70, main_v71, main_v72, main_v73, main_v74, main_v75, main_v76, main_v77, main_v78, main_v79, main_v80, main_v81]
set_option maxRecDepth 8192 in
theorem p05_writes : (q05 : List (HloOp τ sig (Elt F))).Forall fun op => op.writes ⊆ (p05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 5 does not write keeps its contents through it. -/
theorem p05_keep (V : Valuation τ sig (Elt F)) {r : Ref sig .tc} (h : r ∉ p05_W) :
    p05 V (no_index (Proc.devRef .tc r)) = V (Proc.devRef .tc r) :=
  after_of_writes_sub q05 V p05_writes h

/-- The contents after piece 6 of the operations (operations 98 … 115) from contents `V`. -/
def p06 (V : Valuation τ sig (Elt F)) : Valuation τ sig (Elt F) := after q06 V
/-- The buffers piece 6 writes. -/
abbrev p06_W : List (Ref sig .tc) := [main_c_7, main_v82, main_v83, main_c_8, main_v84, main_v85, main_v86, main_v87, main_v88, main_cst_9, main_v89, main_v90, main_v91, main_cst_10, main_v92, main_v93, main_v94, main_v95]
set_option maxRecDepth 8192 in
theorem p06_writes : (q06 : List (HloOp τ sig (Elt F))).Forall fun op => op.writes ⊆ (p06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 6 does not write keeps its contents through it. -/
theorem p06_keep (V : Valuation τ sig (Elt F)) {r : Ref sig .tc} (h : r ∉ p06_W) :
    p06 V (no_index (Proc.devRef .tc r)) = V (Proc.devRef .tc r) :=
  after_of_writes_sub q06 V p06_writes h

/-- The contents after piece 7 of the operations (operations 116 … 129) from contents `V`. -/
def p07 (V : Valuation τ sig (Elt F)) : Valuation τ sig (Elt F) := after q07 V
/-- The buffers piece 7 writes. -/
abbrev p07_W : List (Ref sig .tc) := [main_v96, main_v97, main_v98, main_v99, main_call3_cst, main_call3_v0, main_v100, main_v101, main_v102, main_v103, main_v104, main_call4_cst, main_call4_v0, main_v105]
set_option maxRecDepth 8192 in
theorem p07_writes : (q07 : List (HloOp τ sig (Elt F))).Forall fun op => op.writes ⊆ (p07_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 7 does not write keeps its contents through it. -/
theorem p07_keep (V : Valuation τ sig (Elt F)) {r : Ref sig .tc} (h : r ∉ p07_W) :
    p07 V (no_index (Proc.devRef .tc r)) = V (Proc.devRef .tc r) :=
  after_of_writes_sub q07 V p07_writes h

/-- The contents after piece 8 of the operations (operations 130 … 130) from contents `V`. -/
def p08 (V : Valuation τ sig (Elt F)) : Valuation τ sig (Elt F) := after q08 V
/-- The buffers piece 8 writes. -/
abbrev p08_W : List (Ref sig .tc) := [main_cst_11]
set_option maxRecDepth 8192 in
theorem p08_writes : (q08 : List (HloOp τ sig (Elt F))).Forall fun op => op.writes ⊆ (p08_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer piece 8 does not write keeps its contents through it. -/
theorem p08_keep (V : Valuation τ sig (Elt F)) {r : Ref sig .tc} (h : r ∉ p08_W) :
    p08 V (no_index (Proc.devRef .tc r)) = V (Proc.devRef .tc r) :=
  after_of_writes_sub q08 V p08_writes h

/-- The contents after piece 9 of the operations (operations 131 … 162) from contents `V`. -/
def p09 (V : Valuation τ sig (Elt F)) : Valuation τ sig (Elt F) := after q09 V
/-- The buffers piece 9 writes. -/
abbrev p09_W : List (Ref sig .tc) := [main_v106, main_cst_12, main_v107, main_v108, main_v109, main_v110, main_v111, main_v112, main_cst_13, main_v113, main_cst_14, main_v114, main_v115, main_v116, main_v117, main_v118, main_cst_15, main_v119, main_v120, main_v121, main_v122, main_v123, main_v124, main_v125, main_v126, main_v127, main_v128, main_v129, main_v130, main_call5_cst, main_call5_v0, main_v131]
set_option maxRecDepth 8192 in
theorem p09_writes : (q09 : List (HloOp τ sig (Elt F))).Forall fun op => op.writes ⊆ (p09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 9 does not write keeps its contents through it. -/
theorem p09_keep (V : Valuation τ sig (Elt F)) {r : Ref sig .tc} (h : r ∉ p09_W) :
    p09 V (no_index (Proc.devRef .tc r)) = V (Proc.devRef .tc r) :=
  after_of_writes_sub q09 V p09_writes h

/-- The contents after piece 10 of the operations (operations 163 … 176) from contents `V`. -/
def p10 (V : Valuation τ sig (Elt F)) : Valuation τ sig (Elt F) := after q10 V
/-- The buffers piece 10 writes. -/
abbrev p10_W : List (Ref sig .tc) := [main_v132, main_v133, main_v134, main_v135, main_v136, main_v137, main_v138, main_v139, main_v140, main_v141, main_v142, main_v143, main_v144, main_v145]
set_option maxRecDepth 8192 in
theorem p10_writes : (q10 : List (HloOp τ sig (Elt F))).Forall fun op => op.writes ⊆ (p10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 10 does not write keeps its contents through it. -/
theorem p10_keep (V : Valuation τ sig (Elt F)) {r : Ref sig .tc} (h : r ∉ p10_W) :
    p10 V (no_index (Proc.devRef .tc r)) = V (Proc.devRef .tc r) :=
  after_of_writes_sub q10 V p10_writes h

/-- The contents after piece 11 of the operations (operations 177 … 192) from contents `V`. -/
def p11 (V : Valuation τ sig (Elt F)) : Valuation τ sig (Elt F) := after q11 V
/-- The buffers piece 11 writes. -/
abbrev p11_W : List (Ref sig .tc) := [main_c_16, main_v146, main_v147, main_c_17, main_v148, main_v149, main_v150, main_v151, main_v152, main_cst_18, main_v153, main_v154, main_v155, main_cst_19, main_v156, main_v157]
set_option maxRecDepth 8192 in
theorem p11_writes : (q11 : List (HloOp τ sig (Elt F))).Forall fun op => op.writes ⊆ (p11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 11 does not write keeps its contents through it. -/
theorem p11_keep (V : Valuation τ sig (Elt F)) {r : Ref sig .tc} (h : r ∉ p11_W) :
    p11 V (no_index (Proc.devRef .tc r)) = V (Proc.devRef .tc r) :=
  after_of_writes_sub q11 V p11_writes h

/-- The contents after piece 12 of the operations (operations 193 … 194) from contents `V`. -/
def p12 (V : Valuation τ sig (Elt F)) : Valuation τ sig (Elt F) := after q12 V
/-- The buffers piece 12 writes. -/
abbrev p12_W : List (Ref sig .tc) := [main_v158, main_v159]
set_option maxRecDepth 8192 in
theorem p12_writes : (q12 : List (HloOp τ sig (Elt F))).Forall fun op => op.writes ⊆ (p12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 12 does not write keeps its contents through it. -/
theorem p12_keep (V : Valuation τ sig (Elt F)) {r : Ref sig .tc} (h : r ∉ p12_W) :
    p12 V (no_index (Proc.devRef .tc r)) = V (Proc.devRef .tc r) :=
  after_of_writes_sub q12 V p12_writes h

/-- The contents after piece 13 of the operations (operations 195 … 208) from contents `V`. -/
def p13 (V : Valuation τ sig (Elt F)) : Valuation τ sig (Elt F) := after q13 V
/-- The buffers piece 13 writes. -/
abbrev p13_W : List (Ref sig .tc) := [main_v160, main_v161, main_v162, main_v163, main_call6_cst, main_call6_v0, main_v164, main_v165, main_v166, main_v167, main_v168, main_call7_cst, main_call7_v0, main_v169]
set_option maxRecDepth 8192 in
theorem p13_writes : (q13 : List (HloOp τ sig (Elt F))).Forall fun op => op.writes ⊆ (p13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 13 does not write keeps its contents through it. -/
theorem p13_keep (V : Valuation τ sig (Elt F)) {r : Ref sig .tc} (h : r ∉ p13_W) :
    p13 V (no_index (Proc.devRef .tc r)) = V (Proc.devRef .tc r) :=
  after_of_writes_sub q13 V p13_writes h

/-- The contents after piece 14 of the operations (operations 209 … 241) from contents `V`. -/
def p14 (V : Valuation τ sig (Elt F)) : Valuation τ sig (Elt F) := after q14 V
/-- The buffers piece 14 writes. -/
abbrev p14_W : List (Ref sig .tc) := [main_cst_20, main_v170, main_cst_21, main_v171, main_v172, main_v173, main_v174, main_v175, main_v176, main_cst_22, main_v177, main_cst_23, main_v178, main_v179, main_v180, main_v181, main_v182, main_cst_24, main_v183, main_v184, main_v185, main_v186, main_v187, main_v188, main_v189, main_v190, main_v191, main_v192, main_v193, main_v194, main_call8_cst, main_call8_v0, main_v195]
set_option maxRecDepth 8192 in
theorem p14_writes : (q14 : List (HloOp τ sig (Elt F))).Forall fun op => op.writes ⊆ (p14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 14 does not write keeps its contents through it. -/
theorem p14_keep (V : Valuation τ sig (Elt F)) {r : Ref sig .tc} (h : r ∉ p14_W) :
    p14 V (no_index (Proc.devRef .tc r)) = V (Proc.devRef .tc r) :=
  after_of_writes_sub q14 V p14_writes h

/-- The contents after piece 15 of the operations (operations 242 … 258) from contents `V`. -/
def p15 (V : Valuation τ sig (Elt F)) : Valuation τ sig (Elt F) := after q15 V
/-- The buffers piece 15 writes. -/
abbrev p15_W : List (Ref sig .tc) := [main_cst_25, main_v196, main_v197, main_v198, main_cst_26, main_v199, main_cst_27, main_v200, main_v201, main_v202, main_cst_28, main_v203, main_v204, main_v205, main_v206, main_v207, main_v208]
set_option maxRecDepth 8192 in
theorem p15_writes : (q15 : List (HloOp τ sig (Elt F))).Forall fun op => op.writes ⊆ (p15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 15 does not write keeps its contents through it. -/
theorem p15_keep (V : Valuation τ sig (Elt F)) {r : Ref sig .tc} (h : r ∉ p15_W) :
    p15 V (no_index (Proc.devRef .tc r)) = V (Proc.devRef .tc r) :=
  after_of_writes_sub q15 V p15_writes h

/-- The contents after piece 16 of the operations (operations 259 … 261) from contents `V`. -/
def p16 (V : Valuation τ sig (Elt F)) : Valuation τ sig (Elt F) := after q16 V
/-- The buffers piece 16 writes. -/
abbrev p16_W : List (Ref sig .tc) := [main_v209, main_v210, main_v211]
set_option maxRecDepth 8192 in
theorem p16_writes : (q16 : List (HloOp τ sig (Elt F))).Forall fun op => op.writes ⊆ (p16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 16 does not write keeps its contents through it. -/
theorem p16_keep (V : Valuation τ sig (Elt F)) {r : Ref sig .tc} (h : r ∉ p16_W) :
    p16 V (no_index (Proc.devRef .tc r)) = V (Proc.devRef .tc r) :=
  after_of_writes_sub q16 V p16_writes h

/-- The operations' fold is the pieces' in turn. -/
theorem after_ops (V : Valuation τ sig (Elt F)) :
    after ops V = p16 (p15 (p14 (p13 (p12 (p11 (p10 (p09 (p08 (p07 (p06 (p05 (p04 (p03 (p02 (p01 (p00 (V))))))))))))))))) := by
  unfold ops w0 w1 w2 w3 w4 p00 p01 p02 p03 p04 p05 p06 p07 p08 p09 p10 p11 p12 p13 p14 p15 p16
  simp only [after_append]

/-! ## Each stage read off its operations -/

set_option maxRecDepth 8192 in
set_option maxHeartbeats 1000000 in
theorem p00_v1 (V : Valuation τ sig (Elt F)) :
    p00 V (no_index (Proc.devRef .tc main_v1)) = val_main_v1 (F := F) (V (Proc.devRef .tc main_arg1)) := by
  unfold p00
  after_results_simp <;> rfl

set_option maxRecDepth 8192 in
set_option maxHeartbeats 1000000 in
theorem p00_v3 (V : Valuation τ sig (Elt F)) :
    p00 V (no_index (Proc.devRef .tc main_v3)) = val_main_v3 (F := F) (V (Proc.devRef .tc main_arg1)) := by
  unfold p00
  after_results_simp <;> rfl

set_option maxRecDepth 8192 in
set_option maxHeartbeats 1000000 in
theorem p00_v5 (V : Valuation τ sig (Elt F)) :
    p00 V (no_index (Proc.devRef .tc main_v5)) = val_main_v5 (F := F) (V (Proc.devRef .tc main_arg3)) := by
  unfold p00
  after_results_simp <;> rfl

set_option maxRecDepth 8192 in
set_option maxHeartbeats 1000000 in
theorem p00_v7 (V : Valuation τ sig (Elt F)) :
    p00 V (no_index (Proc.devRef .tc main_v7)) = val_main_v7 (F := F) (V (Proc.devRef .tc main_arg4)) := by
  unfold p00
  after_results_simp <;> rfl

set_option maxRecDepth 8192 in
set_option maxHeartbeats 1000000 in
theorem p00_v9 (V : Valuation τ sig (Elt F)) :
    p00 V (no_index (Proc.devRef .tc main_v9)) = val_main_v9 (F := F) (V (Proc.devRef .tc main_arg5)) := by
  unfold p00
  after_results_simp <;> rfl

set_option maxRecDepth 8192 in
set_option maxHeartbeats 1000000 in
theorem p00_v11 (V : Valuation τ sig (Elt F)) :
    p00 V (no_index (Proc.devRef .tc main_v11)) = val_main_v11 (F := F) (V (Proc.devRef .tc main_arg6)) := by
  unfold p00
  after_results_simp <;> rfl

set_option maxRecDepth 8192 in
set_option maxHeartbeats 1000000 in
theorem p00_v13 (V : Valuation τ sig (Elt F)) :
    p00 V (no_index (Proc.devRef .tc main_v13)) = val_main_v13 (F := F) (V (Proc.devRef .tc main_arg7)) := by
  unfold p00
  after_results_simp <;> rfl

set_option maxRecDepth 8192 in
set_option maxHeartbeats 1000000 in
theorem p00_v15 (V : Valuation τ sig (Elt F)) :
    p00 V (no_index (Proc.devRef .tc main_v15)) = val_main_v15 (F := F) (V (Proc.devRef .tc main_arg8)) := by
  unfold p00
  after_results_simp <;> rfl

set_option maxRecDepth 8192 in
set_option maxHeartbeats 1000000 in
theorem p00_v17 (V : Valuation τ sig (Elt F)) :
    p00 V (no_index (Proc.devRef .tc main_v17)) = val_main_v17 (F := F) (V (Proc.devRef .tc main_arg9)) := by
  unfold p00
  after_results_simp <;> rfl

set_option maxRecDepth 8192 in
set_option maxHeartbeats 1000000 in
theorem p01_v31 (V : Valuation τ sig (Elt F)) :
    p01 V (no_index (Proc.devRef .tc main_v31)) = prepG (V (Proc.devRef .tc main_arg0)) (V (Proc.devRef .tc main_v1)) (V (Proc.devRef .tc main_v3)) (V (Proc.devRef .tc main_v17)) := by
  unfold p01
  after_results_simp <;> rfl

set_option maxRecDepth 8192 in
set_option maxHeartbeats 1000000 in
theorem p02_v41 (V : Valuation τ sig (Elt F)) :
    p02 V (no_index (Proc.devRef .tc main_v41)) = mlpG (V (Proc.devRef .tc main_v31)) (V (Proc.devRef .tc main_v5)) (V (Proc.devRef .tc main_v7)) (V (Proc.devRef .tc main_v9)) (V (Proc.devRef .tc main_v11)) := by
  unfold p02
  after_results_simp <;> rfl

set_option maxRecDepth 8192 in
set_option maxHeartbeats 2000000 in
theorem p04_v67 (V : Valuation τ sig (Elt F)) :
    p04 (p03 V) (no_index (Proc.devRef .tc main_v67)) = bnG (V (Proc.devRef .tc main_v41)) (V (Proc.devRef .tc main_v13)) (V (Proc.devRef .tc main_v15)) := by
  unfold p03 p04
  after_results_simp <;> rfl

set_option maxRecDepth 8192 in
set_option maxHeartbeats 1000000 in
theorem p05_v69 (V : Valuation τ sig (Elt F)) :
    p05 V (no_index (Proc.devRef .tc main_v69)) = val_main_v69 (F := F) (V (Proc.devRef .tc main_arg3)) := by
  unfold p05
  after_results_simp <;> rfl

set_option maxRecDepth 8192 in
set_option maxHeartbeats 1000000 in
theorem p05_v71 (V : Valuation τ sig (Elt F)) :
    p05 V (no_index (Proc.devRef .tc main_v71)) = val_main_v71 (F := F) (V (Proc.devRef .tc main_arg4)) := by
  unfold p05
  after_results_simp <;> rfl

set_option maxRecDepth 8192 in
set_option maxHeartbeats 1000000 in
theorem p05_v73 (V : Valuation τ sig (Elt F)) :
    p05 V (no_index (Proc.devRef .tc main_v73)) = val_main_v73 (F := F) (V (Proc.devRef .tc main_arg5)) := by
  unfold p05
  after_results_simp <;> rfl

set_option maxRecDepth 8192 in
set_option maxHeartbeats 1000000 in
theorem p05_v75 (V : Valuation τ sig (Elt F)) :
    p05 V (no_index (Proc.devRef .tc main_v75)) = val_main_v75 (F := F) (V (Proc.devRef .tc main_arg6)) := by
  unfold p05
  after_results_simp <;> rfl

set_option maxRecDepth 8192 in
set_option maxHeartbeats 1000000 in
theorem p05_v77 (V : Valuation τ sig (Elt F)) :
    p05 V (no_index (Proc.devRef .tc main_v77)) = val_main_v77 (F := F) (V (Proc.devRef .tc main_arg7)) := by
  unfold p05
  after_results_simp <;> rfl

set_option maxRecDepth 8192 in
set_option maxHeartbeats 1000000 in
theorem p05_v79 (V : Valuation τ sig (Elt F)) :
    p05 V (no_index (Proc.devRef .tc main_v79)) = val_main_v79 (F := F) (V (Proc.devRef .tc main_arg8)) := by
  unfold p05
  after_results_simp <;> rfl

set_option maxRecDepth 8192 in
set_option maxHeartbeats 1000000 in
theorem p05_v81 (V : Valuation τ sig (Elt F)) :
    p05 V (no_index (Proc.devRef .tc main_v81)) = val_main_v81 (F := F) (V (Proc.devRef .tc main_arg9)) := by
  unfold p05
  after_results_simp <;> rfl

set_option maxRecDepth 8192 in
set_option maxHeartbeats 1000000 in
theorem p06_v95 (V : Valuation τ sig (Elt F)) :
    p06 V (no_index (Proc.devRef .tc main_v95)) = prepG (V (Proc.devRef .tc main_v67)) (V (Proc.devRef .tc main_v1)) (V (Proc.devRef .tc main_v3)) (V (Proc.devRef .tc main_v81)) := by
  unfold p06
  after_results_simp <;> rfl

set_option maxRecDepth 8192 in
set_option maxHeartbeats 1000000 in
theorem p07_v105 (V : Valuation τ sig (Elt F)) :
    p07 V (no_index (Proc.devRef .tc main_v105)) = mlpG (V (Proc.devRef .tc main_v95)) (V (Proc.devRef .tc main_v69)) (V (Proc.devRef .tc main_v71)) (V (Proc.devRef .tc main_v73)) (V (Proc.devRef .tc main_v75)) := by
  unfold p07
  after_results_simp <;> rfl

set_option maxRecDepth 8192 in
set_option maxHeartbeats 2000000 in
theorem p09_v131 (V : Valuation τ sig (Elt F)) :
    p09 (p08 V) (no_index (Proc.devRef .tc main_v131)) = bnG (V (Proc.devRef .tc main_v105)) (V (Proc.devRef .tc main_v77)) (V (Proc.devRef .tc main_v79)) := by
  unfold p08 p09
  after_results_simp <;> rfl

set_option maxRecDepth 8192 in
set_option maxHeartbeats 1000000 in
theorem p10_v133 (V : Valuation τ sig (Elt F)) :
    p10 V (no_index (Proc.devRef .tc main_v133)) = val_main_v133 (F := F) (V (Proc.devRef .tc main_arg3)) := by
  unfold p10
  after_results_simp <;> rfl

set_option maxRecDepth 8192 in
set_option maxHeartbeats 1000000 in
theorem p10_v135 (V : Valuation τ sig (Elt F)) :
    p10 V (no_index (Proc.devRef .tc main_v135)) = val_main_v135 (F := F) (V (Proc.devRef .tc main_arg4)) := by
  unfold p10
  after_results_simp <;> rfl

set_option maxRecDepth 8192 in
set_option maxHeartbeats 1000000 in
theorem p10_v137 (V : Valuation τ sig (Elt F)) :
    p10 V (no_index (Proc.devRef .tc main_v137)) = val_main_v137 (F := F) (V (Proc.devRef .tc main_arg5)) := by
  unfold p10
  after_results_simp <;> rfl

set_option maxRecDepth 8192 in
set_option maxHeartbeats 1000000 in
theorem p10_v139 (V : Valuation τ sig (Elt F)) :
    p10 V (no_index (Proc.devRef .tc main_v139)) = val_main_v139 (F := F) (V (Proc.devRef .tc main_arg6)) := by
  unfold p10
  after_results_simp <;> rfl

set_option maxRecDepth 8192 in
set_option maxHeartbeats 1000000 in
theorem p10_v141 (V : Valuation τ sig (Elt F)) :
    p10 V (no_index (Proc.devRef .tc main_v141)) = val_main_v141 (F := F) (V (Proc.devRef .tc main_arg7)) := by
  unfold p10
  after_results_simp <;> rfl

set_option maxRecDepth 8192 in
set_option maxHeartbeats 1000000 in
theorem p10_v143 (V : Valuation τ sig (Elt F)) :
    p10 V (no_index (Proc.devRef .tc main_v143)) = val_main_v143 (F := F) (V (Proc.devRef .tc main_arg8)) := by
  unfold p10
  after_results_simp <;> rfl

set_option maxRecDepth 8192 in
set_option maxHeartbeats 1000000 in
theorem p10_v145 (V : Valuation τ sig (Elt F)) :
    p10 V (no_index (Proc.devRef .tc main_v145)) = val_main_v145 (F := F) (V (Proc.devRef .tc main_arg9)) := by
  unfold p10
  after_results_simp <;> rfl

set_option maxRecDepth 8192 in
set_option maxHeartbeats 1000000 in
theorem p12_v159 (V : Valuation τ sig (Elt F)) :
    p12 (p11 V) (no_index (Proc.devRef .tc main_v159)) = prepG (V (Proc.devRef .tc main_v131)) (V (Proc.devRef .tc main_v1)) (V (Proc.devRef .tc main_v3)) (V (Proc.devRef .tc main_v145)) := by
  unfold p11 p12
  after_results_simp <;> rfl

set_option maxRecDepth 8192 in
set_option maxHeartbeats 1000000 in
theorem p13_v169 (V : Valuation τ sig (Elt F)) :
    p13 V (no_index (Proc.devRef .tc main_v169)) = mlpG (V (Proc.devRef .tc main_v159)) (V (Proc.devRef .tc main_v133)) (V (Proc.devRef .tc main_v135)) (V (Proc.devRef .tc main_v137)) (V (Proc.devRef .tc main_v139)) := by
  unfold p13
  after_results_simp <;> rfl

set_option maxRecDepth 8192 in
set_option maxHeartbeats 2000000 in
theorem p14_v195 (V : Valuation τ sig (Elt F)) :
    p14 V (no_index (Proc.devRef .tc main_v195)) = bnG (V (Proc.devRef .tc main_v169)) (V (Proc.devRef .tc main_v141)) (V (Proc.devRef .tc main_v143)) := by
  unfold p14
  after_results_simp <;> rfl

set_option maxRecDepth 8192 in
set_option maxHeartbeats 1000000 in
theorem p16_v211 (V : Valuation τ sig (Elt F)) :
    p16 (p15 V) (no_index (Proc.devRef .tc main_v211)) = tail (V (Proc.devRef .tc main_v195)) (V (Proc.devRef .tc main_arg2)) (V (Proc.devRef .tc main_arg10)) (V (Proc.devRef .tc main_arg11)) := by
  unfold p15 p16
  after_results_simp <;> rfl

/-! ## The chain -/

set_option maxRecDepth 8192 in
set_option maxHeartbeats 4000000 in
/-- After all the operations the result buffer holds the network of the arguments' contents. -/
theorem after_ops_out (V : Valuation τ sig (Elt F)) :
    after ops V (Proc.devRef .tc main_v211) = refOut (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9)) (V (Proc.devRef .tc main_arg10)) (V (Proc.devRef .tc main_arg11)) := by
  rw [after_ops]
  simp (disch := decide) only [p00_v1, p00_v3, p00_v5, p00_v7, p00_v9, p00_v11, p00_v13, p00_v15, p00_v17, p01_v31, p02_v41, p04_v67, p05_v69, p05_v71, p05_v73, p05_v75, p05_v77, p05_v79, p05_v81, p06_v95, p07_v105, p09_v131, p10_v133, p10_v135, p10_v137, p10_v139, p10_v141, p10_v143, p10_v145, p12_v159, p13_v169, p14_v195, p16_v211,
    p00_keep, p01_keep, p02_keep, p03_keep, p04_keep, p05_keep, p06_keep, p07_keep, p08_keep, p09_keep, p10_keep, p11_keep, p12_keep, p13_keep, p14_keep, p15_keep, p16_keep]
  rfl

set_option maxRecDepth 8192 in
set_option maxHeartbeats 4000000 in
/-- No operation writes an argument. -/
theorem after_ops_arg (V : Valuation τ sig (Elt F)) {r : Ref sig .tc}
    (h : r ∈ ([main_arg0, main_arg1, main_arg2, main_arg3, main_arg4, main_arg5, main_arg6, main_arg7, main_arg8, main_arg9, main_arg10, main_arg11] : List (Ref sig .tc))) :
    after ops V (Proc.devRef .tc r) = V (Proc.devRef .tc r) := by
  rw [after_ops]
  simp only [List.mem_cons, List.not_mem_nil, or_false] at h
  rcases h with rfl | rfl | rfl | rfl | rfl | rfl | rfl | rfl | rfl | rfl | rfl | rfl <;>
    simp (disch := decide) only [p00_keep, p01_keep, p02_keep, p03_keep, p04_keep, p05_keep, p06_keep, p07_keep, p08_keep, p09_keep, p10_keep, p11_keep, p12_keep, p13_keep, p14_keep, p15_keep, p16_keep]

/-- On every device, for any float values, from any memory with zero counters: every weakly fair execution of the
    reference terminates with its result at the network of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v211) = refOut (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v211).trans ((after_ops_out (launchContents m c)).trans rfl),
      (h c main_arg0).trans ((after_ops_arg (launchContents m c) (by decide)).trans rfl),
      (h c main_arg1).trans ((after_ops_arg (launchContents m c) (by decide)).trans rfl),
      (h c main_arg2).trans ((after_ops_arg (launchContents m c) (by decide)).trans rfl),
      (h c main_arg3).trans ((after_ops_arg (launchContents m c) (by decide)).trans rfl),
      (h c main_arg4).trans ((after_ops_arg (launchContents m c) (by decide)).trans rfl),
      (h c main_arg5).trans ((after_ops_arg (launchContents m c) (by decide)).trans rfl),
      (h c main_arg6).trans ((after_ops_arg (launchContents m c) (by decide)).trans rfl),
      (h c main_arg7).trans ((after_ops_arg (launchContents m c) (by decide)).trans rfl),
      (h c main_arg8).trans ((after_ops_arg (launchContents m c) (by decide)).trans rfl),
      (h c main_arg9).trans ((after_ops_arg (launchContents m c) (by decide)).trans rfl),
      (h c main_arg10).trans ((after_ops_arg (launchContents m c) (by decide)).trans rfl),
      (h c main_arg11).trans ((after_ops_arg (launchContents m c) (by decide)).trans rfl)⟩)
    (RunP.run m ρ)

end Cert.ReferenceIdeal.RefValue

end
-- ==== Proof.KHostI.lean ====
/-
  What each of the seven stretches of host operations of the kernel program leaves in the buffers a later item reads,
  over a variable valuation of the buffers the stretch reads. The right-hand sides are the reference's own stage
  functions wherever the operations are the same sequence: the parameter slices, the edge lists, the aggregation
  input (1 + eps) · x + (sum of the neighbours' rows), and the tail (mean pooling and the last dense layer). The rows
  of the normalisation (mean, inverse standard deviation, scale, shift) from the two column sums are named here and
  read at an index.
-/
import proofs.«170985_j13606456394542_1_alg».proof.Proof.Gen.KernelIdeal.Launch
import proofs.«170985_j13606456394542_1_alg».proof.Proof.RefValue
import Idealize.ShloMosaic.Lib.StableHlo.Run
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## The dimension records of the two programs are the same literals -/

theorem gather_eq : (gather_S100000x64_S1000000x1_S1000000x64_1_0_n_n_0_1_164 : GatherDims S100000x64 S1000000x1 S1000000x64)
    = Cert.ReferenceIdeal.gather_S100000x64_S1000000x1_S1000000x64_1_0_n_n_0_1_164 := rfl
theorem scatter_eq : (scatter_S100000x64_S1000000x1_S1000000x64_1_0_0_1 : ScatterDims S100000x64 S1000000x1 S1000000x64)
    = Cert.ReferenceIdeal.scatter_S100000x64_S1000000x1_S1000000x64_1_0_0_1 := rfl

/-- A vector of 64 entries as a 1 × 64 row. -/
def rowOf {α : Type} (v : S64.Idx → α) : S1x64.Idx → α := shapeCast S1x64 v shapeCasts_S64_S1x64

theorem rowOf_apply {α : Type} (v : S64.Idx → α) (j : Fin 64) : rowOf v (ix2 (0 : Fin 1) j) = v (ix1 j) :=
  shapeCast_a_1a_apply v shapeCasts_S64_S1x64 0 j

/-! ## The rows of the normalisation from the two column sums -/

/-- Each of the 64 column sums `s` (a 1 × 64 row) divided by the row count 100000. -/
def meanVec (s : (⟨S1x64, .f32⟩ : BufTy).Contents (Elt F)) : (⟨S64, .f32⟩ : BufTy).Contents (Elt F) :=
  Host.divf (shapeCast S64 s shapeCasts_S1x64_S64) (broadcastInDim S64 ![] bcast_S_S64 (constant S_ .f32 0x47C35000#32))

/-- The column means as a 1 × 64 row. -/
def meanRow (s : (⟨S1x64, .f32⟩ : BufTy).Contents (Elt F)) : (⟨S1x64, .f32⟩ : BufTy).Contents (Elt F) := rowOf (meanVec s)

/-- From the column sums `s` and the column sums of squares `q`: `rsqrt (q / n − (s / n)² + 1e-5)`, column by column. -/
def invstdVec (s q : (⟨S1x64, .f32⟩ : BufTy).Contents (Elt F)) : (⟨S64, .f32⟩ : BufTy).Contents (Elt F) :=
  Host.rsqrt (addf (subf (meanVec q) (mulf (meanVec s) (meanVec s)))
    (broadcastInDim S64 ![] bcast_S_S64 (constant S_ .f32 0x3727C5AC#32)))

/-- The inverse standard deviations as a 1 × 64 row. -/
def invstdRow (s q : (⟨S1x64, .f32⟩ : BufTy).Contents (Elt F)) : (⟨S1x64, .f32⟩ : BufTy).Contents (Elt F) := rowOf (invstdVec s q)

theorem meanVec_apply (s : (⟨S1x64, .f32⟩ : BufTy).Contents (Elt Ideal)) (j : Fin 64) :
    meanVec (F := Ideal) s (ix1 j) = Ideal.div (s (ix2 (0 : Fin 1) j)) (Ideal.ofBits .f32 0x47C35000#32) := by
  unfold meanVec
  rw [hostDivf_apply, shapeCast_1a_a_apply, broadcastInDim_scalar_apply, constant_apply]

/-- The mean row at column `j` is the column's sum divided by the row count. -/
theorem meanRow_apply (s : (⟨S1x64, .f32⟩ : BufTy).Contents (Elt Ideal)) (j : Fin 64) :
    meanRow (F := Ideal) s (ix2 (0 : Fin 1) j) = Ideal.div (s (ix2 (0 : Fin 1) j)) (Ideal.ofBits .f32 0x47C35000#32) := by
  unfold meanRow
  rw [rowOf_apply, meanVec_apply]

/-- The inverse-standard-deviation row at column `j`. -/
theorem invstdRow_apply (s q : (⟨S1x64, .f32⟩ : BufTy).Contents (Elt Ideal)) (j : Fin 64) :
    invstdRow (F := Ideal) s q (ix2 (0 : Fin 1) j)
      = Ideal.rsqrt (Ideal.div (q (ix2 (0 : Fin 1) j)) (Ideal.ofBits .f32 0x47C35000#32)
          - Ideal.div (s (ix2 (0 : Fin 1) j)) (Ideal.ofBits .f32 0x47C35000#32) * Ideal.div (s (ix2 (0 : Fin 1) j)) (Ideal.ofBits .f32 0x47C35000#32)
          + Ideal.ofBits .f32 0x3727C5AC#32) := by
  unfold invstdRow
  rw [rowOf_apply]
  unfold invstdVec
  show Ideal.rsqrt (addf (subf (meanVec q) (mulf (meanVec s) (meanVec s)))
    (broadcastInDim S64 ![] bcast_S_S64 (constant (F := Ideal) S_ .f32 0x3727C5AC#32)) (ix1 j)) = _
  rw [addf_apply, subf_apply, mulf_apply, meanVec_apply, meanVec_apply, broadcastInDim_scalar_apply, constant_apply]

/-! ## Stretch 0 -/

section S0
variable (W : Valuation τ sig (Elt F))

theorem h0_v1 : StableHlo.after hostOps0 W (Proc.devRef .tc main_v1) = Cert.ReferenceIdeal.ReadP.val_main_v1 (F := F) (W (Proc.devRef .tc main_arg1)) := by
  show StableHlo.after hostOps0 W (Proc.devRef .tc main_v1) = _
  after_results_simp
  rfl

theorem h0_v3 : StableHlo.after hostOps0 W (Proc.devRef .tc main_v3) = Cert.ReferenceIdeal.ReadP.val_main_v3 (F := F) (W (Proc.devRef .tc main_arg1)) := by
  show StableHlo.after hostOps0 W (Proc.devRef .tc main_v3) = _
  after_results_simp
  rfl

theorem h0_v5 : StableHlo.after hostOps0 W (Proc.devRef .tc main_v5) = Cert.ReferenceIdeal.ReadP.val_main_v5 (F := F) (W (Proc.devRef .tc main_arg3)) := by
  show StableHlo.after hostOps0 W (Proc.devRef .tc main_v5) = _
  after_results_simp
  rfl

theorem h0_v9 : StableHlo.after hostOps0 W (Proc.devRef .tc main_v9) = Cert.ReferenceIdeal.ReadP.val_main_v9 (F := F) (W (Proc.devRef .tc main_arg5)) := by
  show StableHlo.after hostOps0 W (Proc.devRef .tc main_v9) = _
  after_results_simp
  rfl

theorem h0_v13 : StableHlo.after hostOps0 W (Proc.devRef .tc main_v13) = Cert.ReferenceIdeal.ReadP.val_main_v13 (F := F) (W (Proc.devRef .tc main_arg7)) := by
  show StableHlo.after hostOps0 W (Proc.devRef .tc main_v13) = _
  after_results_simp
  rfl

theorem h0_v15 : StableHlo.after hostOps0 W (Proc.devRef .tc main_v15) = Cert.ReferenceIdeal.ReadP.val_main_v15 (F := F) (W (Proc.devRef .tc main_arg8)) := by
  show StableHlo.after hostOps0 W (Proc.devRef .tc main_v15) = _
  after_results_simp
  rfl

theorem h0_v32 : StableHlo.after hostOps0 W (Proc.devRef .tc main_v32) = rowOf (Cert.ReferenceIdeal.ReadP.val_main_v7 (F := F) (W (Proc.devRef .tc main_arg4))) := by
  show StableHlo.after hostOps0 W (Proc.devRef .tc main_v32) = _
  after_results_simp
  rfl

theorem h0_v33 : StableHlo.after hostOps0 W (Proc.devRef .tc main_v33) = rowOf (Cert.ReferenceIdeal.ReadP.val_main_v11 (F := F) (W (Proc.devRef .tc main_arg6))) := by
  show StableHlo.after hostOps0 W (Proc.devRef .tc main_v33) = _
  after_results_simp
  rfl

theorem h0_v31 : StableHlo.after hostOps0 W (Proc.devRef .tc main_v31) = Cert.ReferenceIdeal.RefValue.prep_0 (F := F) (W (Proc.devRef .tc main_arg0)) (W (Proc.devRef .tc main_arg1)) (W (Proc.devRef .tc main_arg9)) := by
  show StableHlo.after hostOps0 W (Proc.devRef .tc main_v31) = _
  after_results_simp
  rfl

end S0

/-! ## Stretch 1 -/

section S1
variable (W : Valuation τ sig (Elt F))

theorem h1_v46 : StableHlo.after hostOps1 W (Proc.devRef .tc main_v46) = meanRow (F := F) (W (Proc.devRef .tc main_v34_1)) := by
  show StableHlo.after hostOps1 W (Proc.devRef .tc main_v46) = _
  after_results_simp
  rfl

theorem h1_v47 : StableHlo.after hostOps1 W (Proc.devRef .tc main_v47) = invstdRow (F := F) (W (Proc.devRef .tc main_v34_1)) (W (Proc.devRef .tc main_v34_2)) := by
  show StableHlo.after hostOps1 W (Proc.devRef .tc main_v47) = _
  after_results_simp
  rfl

theorem h1_v48 : StableHlo.after hostOps1 W (Proc.devRef .tc main_v48) = rowOf (W (Proc.devRef .tc main_v13)) := by
  show StableHlo.after hostOps1 W (Proc.devRef .tc main_v48) = _
  after_results_simp
  rfl

theorem h1_v49 : StableHlo.after hostOps1 W (Proc.devRef .tc main_v49) = rowOf (W (Proc.devRef .tc main_v15)) := by
  show StableHlo.after hostOps1 W (Proc.devRef .tc main_v49) = _
  after_results_simp
  rfl

end S1

/-! ## Stretch 2 -/

section S2
variable (W : Valuation τ sig (Elt F))

theorem h2_v52 : StableHlo.after hostOps2 W (Proc.devRef .tc main_v52) = Cert.ReferenceIdeal.ReadP.val_main_v69 (F := F) (W (Proc.devRef .tc main_arg3)) := by
  show StableHlo.after hostOps2 W (Proc.devRef .tc main_v52) = _
  after_results_simp
  rfl

theorem h2_v56 : StableHlo.after hostOps2 W (Proc.devRef .tc main_v56) = Cert.ReferenceIdeal.ReadP.val_main_v73 (F := F) (W (Proc.devRef .tc main_arg5)) := by
  show StableHlo.after hostOps2 W (Proc.devRef .tc main_v56) = _
  after_results_simp
  rfl

theorem h2_v60 : StableHlo.after hostOps2 W (Proc.devRef .tc main_v60) = Cert.ReferenceIdeal.ReadP.val_main_v77 (F := F) (W (Proc.devRef .tc main_arg7)) := by
  show StableHlo.after hostOps2 W (Proc.devRef .tc main_v60) = _
  after_results_simp
  rfl

theorem h2_v62 : StableHlo.after hostOps2 W (Proc.devRef .tc main_v62) = Cert.ReferenceIdeal.ReadP.val_main_v79 (F := F) (W (Proc.devRef .tc main_arg8)) := by
  show StableHlo.after hostOps2 W (Proc.devRef .tc main_v62) = _
  after_results_simp
  rfl

theorem h2_v79 : StableHlo.after hostOps2 W (Proc.devRef .tc main_v79) = rowOf (Cert.ReferenceIdeal.ReadP.val_main_v71 (F := F) (W (Proc.devRef .tc main_arg4))) := by
  show StableHlo.after hostOps2 W (Proc.devRef .tc main_v79) = _
  after_results_simp
  rfl

theorem h2_v80 : StableHlo.after hostOps2 W (Proc.devRef .tc main_v80) = rowOf (Cert.ReferenceIdeal.ReadP.val_main_v75 (F := F) (W (Proc.devRef .tc main_arg6))) := by
  show StableHlo.after hostOps2 W (Proc.devRef .tc main_v80) = _
  after_results_simp
  rfl

theorem h2_v78 : StableHlo.after hostOps2 W (Proc.devRef .tc main_v78) = Cert.ReferenceIdeal.RefValue.prepG (F := F) (W (Proc.devRef .tc main_v50)) (W (Proc.devRef .tc main_v1)) (W (Proc.devRef .tc main_v3)) (Cert.ReferenceIdeal.ReadP.val_main_v81 (F := F) (W (Proc.devRef .tc main_arg9))) := by
  show StableHlo.after hostOps2 W (Proc.devRef .tc main_v78) = _
  after_results_simp
  rfl

end S2

/-! ## Stretch 3 -/

section S3
variable (W : Valuation τ sig (Elt F))

theorem h3_v93 : StableHlo.after hostOps3 W (Proc.devRef .tc main_v93) = meanRow (F := F) (W (Proc.devRef .tc main_v81_1)) := by
  show StableHlo.after hostOps3 W (Proc.devRef .tc main_v93) = _
  after_results_simp
  rfl

theorem h3_v94 : StableHlo.after hostOps3 W (Proc.devRef .tc main_v94) = invstdRow (F := F) (W (Proc.devRef .tc main_v81_1)) (W (Proc.devRef .tc main_v81_2)) := by
  show StableHlo.after hostOps3 W (Proc.devRef .tc main_v94) = _
  after_results_simp
  rfl

theorem h3_v95 : StableHlo.after hostOps3 W (Proc.devRef .tc main_v95) = rowOf (W (Proc.devRef .tc main_v60)) := by
  show StableHlo.after hostOps3 W (Proc.devRef .tc main_v95) = _
  after_results_simp
  rfl

theorem h3_v96 : StableHlo.after hostOps3 W (Proc.devRef .tc main_v96) = rowOf (W (Proc.devRef .tc main_v62)) := by
  show StableHlo.after hostOps3 W (Proc.devRef .tc main_v96) = _
  after_results_simp
  rfl

end S3

/-! ## Stretch 4 -/

section S4
variable (W : Valuation τ sig (Elt F))

theorem h4_v99 : StableHlo.after hostOps4 W (Proc.devRef .tc main_v99) = Cert.ReferenceIdeal.ReadP.val_main_v133 (F := F) (W (Proc.devRef .tc main_arg3)) := by
  show StableHlo.after hostOps4 W (Proc.devRef .tc main_v99) = _
  after_results_simp
  rfl

theorem h4_v103 : StableHlo.after hostOps4 W (Proc.devRef .tc main_v103) = Cert.ReferenceIdeal.ReadP.val_main_v137 (F := F) (W (Proc.devRef .tc main_arg5)) := by
  show StableHlo.after hostOps4 W (Proc.devRef .tc main_v103) = _
  after_results_simp
  rfl

theorem h4_v107 : StableHlo.after hostOps4 W (Proc.devRef .tc main_v107) = Cert.ReferenceIdeal.ReadP.val_main_v141 (F := F) (W (Proc.devRef .tc main_arg7)) := by
  show StableHlo.after hostOps4 W (Proc.devRef .tc main_v107) = _
  after_results_simp
  rfl

theorem h4_v109 : StableHlo.after hostOps4 W (Proc.devRef .tc main_v109) = Cert.ReferenceIdeal.ReadP.val_main_v143 (F := F) (W (Proc.devRef .tc main_arg8)) := by
  show StableHlo.after hostOps4 W (Proc.devRef .tc main_v109) = _
  after_results_simp
  rfl

theorem h4_v126 : StableHlo.after hostOps4 W (Proc.devRef .tc main_v126) = rowOf (Cert.ReferenceIdeal.ReadP.val_main_v135 (F := F) (W (Proc.devRef .tc main_arg4))) := by
  show StableHlo.after hostOps4 W (Proc.devRef .tc main_v126) = _
  after_results_simp
  rfl

theorem h4_v127 : StableHlo.after hostOps4 W (Proc.devRef .tc main_v127) = rowOf (Cert.ReferenceIdeal.ReadP.val_main_v139 (F := F) (W (Proc.devRef .tc main_arg6))) := by
  show StableHlo.after hostOps4 W (Proc.devRef .tc main_v127) = _
  after_results_simp
  rfl

theorem h4_v125 : StableHlo.after hostOps4 W (Proc.devRef .tc main_v125) = Cert.ReferenceIdeal.RefValue.prepG (F := F) (W (Proc.devRef .tc main_v97)) (W (Proc.devRef .tc main_v1)) (W (Proc.devRef .tc main_v3)) (Cert.ReferenceIdeal.ReadP.val_main_v145 (F := F) (W (Proc.devRef .tc main_arg9))) := by
  show StableHlo.after hostOps4 W (Proc.devRef .tc main_v125) = _
  after_results_simp
  rfl

end S4

/-! ## Stretch 5 -/

section S5
variable (W : Valuation τ sig (Elt F))

theorem h5_v140 : StableHlo.after hostOps5 W (Proc.devRef .tc main_v140) = meanRow (F := F) (W (Proc.devRef .tc main_v128_1)) := by
  show StableHlo.after hostOps5 W (Proc.devRef .tc main_v140) = _
  after_results_simp
  rfl

theorem h5_v141 : StableHlo.after hostOps5 W (Proc.devRef .tc main_v141) = invstdRow (F := F) (W (Proc.devRef .tc main_v128_1)) (W (Proc.devRef .tc main_v128_2)) := by
  show StableHlo.after hostOps5 W (Proc.devRef .tc main_v141) = _
  after_results_simp
  rfl

theorem h5_v142 : StableHlo.after hostOps5 W (Proc.devRef .tc main_v142) = rowOf (W (Proc.devRef .tc main_v107)) := by
  show StableHlo.after hostOps5 W (Proc.devRef .tc main_v142) = _
  after_results_simp
  rfl

theorem h5_v143 : StableHlo.after hostOps5 W (Proc.devRef .tc main_v143) = rowOf (W (Proc.devRef .tc main_v109)) := by
  show StableHlo.after hostOps5 W (Proc.devRef .tc main_v143) = _
  after_results_simp
  rfl

end S5

/-! ## Stretch 6 -/

section S6
variable (W : Valuation τ sig (Elt F))

theorem h6_v160 : StableHlo.after hostOps6 W (Proc.devRef .tc main_v160) = Cert.ReferenceIdeal.RefValue.tail (F := F) (W (Proc.devRef .tc main_v144)) (W (Proc.devRef .tc main_arg2)) (W (Proc.devRef .tc main_arg10)) (W (Proc.devRef .tc main_arg11)) := by
  show StableHlo.after hostOps6 W (Proc.devRef .tc main_v160) = _
  after_results_simp
  rfl

end S6

end Cert.KernelIdeal.Hand
-- ==== Proof.RefSpec.lean ====
/- The stages of the reference's network at the ideal instance, entry by entry: a dense layer is the sum over the 64
   columns of the products plus the bias, then `max · 0`; the column mean is the sum over the 100000 rows divided by the
   literal 100000; the column variance is the mean of the squared deviations from that mean; the normalization is
   `max ((h − mean) · rsqrt (var + ε) · γ + β) 0`. Hence each layer's dense and normalization stages are the
   specification's `GinSpec.mlp` and `GinSpec.bnR` at the layer's slices of the stacked parameters, and the reference's
   run ends at their composition with the neighbour sums and the pooling. -/
import proofs.«170985_j13606456394542_1_alg».proof.Proof.RefValue
import proofs.«170985_j13606456394542_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Idealize.ShloMosaic.ValueIdx

/-- The reference's literal for the number of rows, 100000. -/
def nl : EReal := Ideal.ofBits .f32 0x47C35000#32
/-- The reference's literal for the variance offset, the f32 nearest 1e-5. -/
def el : EReal := Ideal.ofBits .f32 0x3727C5AC#32

/-! ## The building blocks at an index -/

/-- A vector repeated down the rows, at (r, j), is the vector at j. -/
theorem rows_apply (v : (⟨S64, .f32⟩ : BufTy).Contents (Elt Ideal)) (i : S100000x64.Idx) : rows (F := Ideal) v i = v (ix1 (i 1)) := by
  unfold rows
  exact (broadcastInDim_apply _ bcast_S1x64_S100000x64_0_1 _ i (idx_main_v46 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])).trans
    ((broadcastInDim_apply _ bcast_S64_S1x64_1 v (idx_main_v46 i) (idx_main_v45 (idx_main_v46 i)) (fun a => match a with
      | ⟨0, _⟩ => by show (i 1).val = if (64 : Nat) = 1 then 0 else (i 1).val; rw [if_neg (by decide)])).trans
      (congrArg v (funext fun a => match a with | ⟨0, _⟩ => rfl)))

theorem zeros_apply (i : S100000x64.Idx) : zeros (F := Ideal) i = 0 := by
  unfold zeros
  exact (broadcastInDim_apply _ bcast_S_S100000x64 (constant (F := Ideal) S_ .f32 0x00000000#32) i (fun a => a.elim0) (fun a => a.elim0)).trans Ideal.ofBits_zero_f32

theorem relu_apply (h : (⟨S100000x64, .f32⟩ : BufTy).Contents (Elt Ideal)) (i : S100000x64.Idx) : relu (F := Ideal) h i = max (h i) 0 := by
  unfold relu
  show max (h i) (zeros (F := Ideal) i) = max (h i) 0
  rw [zeros_apply]

/-- The product of a 100000 × 64 array and a 64 × 64 matrix at (r, j): the sum over k of the products. -/
theorem dot_apply (h : (⟨S100000x64, .f32⟩ : BufTy).Contents (Elt Ideal)) (W : (⟨S64x64, .f32⟩ : BufTy).Contents (Elt Ideal)) (i : S100000x64.Idx) :
    Host.dotGeneral (F := Ideal) (φ₁ := .f32) (φ₂ := .f32) dot_S100000x64_S64x64_S100000x64_1_0_0_1_n_n none h W i = ∑ k : Fin 64, h (ix2 (i 0) k) * W (ix2 k (i 1)) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k := funext fun a => Fin.ext (by
    match a with
    | ⟨0, _⟩ => exact lhs_main_v32_0 _ _
    | ⟨1, _⟩ => exact (lhs_main_v32_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) := funext fun a => Fin.ext (by
    match a with
    | ⟨0, _⟩ => exact (rhs_main_v32_0 _ _).trans hk
    | ⟨1, _⟩ => exact rhs_main_v32_1 _ _)
  rw [el, er]
  rfl

/-- The column sums over the 100000 rows, from the initial value zero. -/
theorem sumRows_apply (h : (⟨S100000x64, .f32⟩ : BufTy).Contents (Elt Ideal)) (j : S64.Idx) :
    Host.reduceAdd h (constant (F := Ideal) S_ .f32 0x00000000#32) reducesTo_S100000x64_S64_d0 h_S_ j
      = Ideal.ofBits .f32 0x00000000#32 + ∑ k : Fin 100000, h (ix2 k (j 0)) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg h (funext fun a => Fin.ext (by match a with | ⟨0, _⟩ => rfl | ⟨1, _⟩ => rfl))

/-! ## The dense layers -/

theorem dense_eq (h : (⟨S100000x64, .f32⟩ : BufTy).Contents (Elt Ideal)) (W : (⟨S64x64, .f32⟩ : BufTy).Contents (Elt Ideal)) (b : (⟨S64, .f32⟩ : BufTy).Contents (Elt Ideal)) :
    dense (F := Ideal) h W b = GinSpec.dense h W (fun j => b (ix1 j)) := by
  funext i
  unfold dense GinSpec.dense
  rw [relu_apply]
  show max (Host.dotGeneral (F := Ideal) (φ₁ := .f32) (φ₂ := .f32) dot_S100000x64_S64x64_S100000x64_1_0_0_1_n_n none h W i + rows (F := Ideal) b i) 0 = _
  rw [dot_apply, rows_apply]

theorem mlpG_eq (h : (⟨S100000x64, .f32⟩ : BufTy).Contents (Elt Ideal)) (W₁ : (⟨S64x64, .f32⟩ : BufTy).Contents (Elt Ideal)) (b₁ : (⟨S64, .f32⟩ : BufTy).Contents (Elt Ideal)) (W₂ : (⟨S64x64, .f32⟩ : BufTy).Contents (Elt Ideal)) (b₂ : (⟨S64, .f32⟩ : BufTy).Contents (Elt Ideal)) :
    mlpG (F := Ideal) h W₁ b₁ W₂ b₂ = GinSpec.mlp h W₁ (fun j => b₁ (ix1 j)) W₂ (fun j => b₂ (ix1 j)) := by
  unfold mlpG GinSpec.mlp
  rw [dense_eq, dense_eq]

/-! ## The normalization -/

theorem colMean_apply (h : (⟨S100000x64, .f32⟩ : BufTy).Contents (Elt Ideal)) (j : S64.Idx) : colMean (F := Ideal) h j = GinSpec.mean nl h (j 0) := by
  unfold colMean GinSpec.mean GinSpec.colSum nl
  show Ideal.div (Host.reduceAdd h (constant (F := Ideal) S_ .f32 0x00000000#32) reducesTo_S100000x64_S64_d0 h_S_ j)
      (broadcastInDim S64 ![] bcast_S_S64 (constant (F := Ideal) S_ .f32 0x47C35000#32) j) = _
  rw [sumRows_apply, Ideal.ofBits_zero_f32, zero_add,
    broadcastInDim_apply _ bcast_S_S64 (constant (F := Ideal) S_ .f32 0x47C35000#32) j (fun a => a.elim0) (fun a => a.elim0)]
  rfl

theorem centered_apply (h : (⟨S100000x64, .f32⟩ : BufTy).Contents (Elt Ideal)) (i : S100000x64.Idx) :
    centered (F := Ideal) h i = h i - GinSpec.mean nl h (i 1) := by
  unfold centered
  show h i - rows (F := Ideal) (colMean (F := Ideal) h) i = _
  rw [rows_apply, colMean_apply]

theorem colVar_apply (h : (⟨S100000x64, .f32⟩ : BufTy).Contents (Elt Ideal)) (j : S64.Idx) : colVar (F := Ideal) h j = GinSpec.varR nl h (j 0) := by
  unfold colVar
  rw [colMean_apply]
  show Ideal.div (∑ i : Fin 100000, (centered (F := Ideal) h (ix2 i (j 0)) * centered (F := Ideal) h (ix2 i (j 0)))) nl
    = Ideal.div (∑ i : Fin 100000, (h (ix2 i (j 0)) - GinSpec.mean nl h (j 0)) * (h (ix2 i (j 0)) - GinSpec.mean nl h (j 0))) nl
  refine congrArg (fun s => Ideal.div s nl) (Finset.sum_congr rfl fun i _ => ?_)
  rw [centered_apply]

theorem bnG_eq (h : (⟨S100000x64, .f32⟩ : BufTy).Contents (Elt Ideal)) (γ β : (⟨S64, .f32⟩ : BufTy).Contents (Elt Ideal)) :
    bnG (F := Ideal) h γ β = GinSpec.bnR nl el h (fun j => γ (ix1 j)) (fun j => β (ix1 j)) := by
  funext i
  unfold bnG GinSpec.bnR GinSpec.norm
  rw [relu_apply]
  show max ((centered (F := Ideal) h i
      * rows (F := Ideal) (Host.rsqrt (addf (colVar (F := Ideal) h) (broadcastInDim S64 ![] bcast_S_S64 (constant (F := Ideal) S_ .f32 0x3727C5AC#32)))) i)
      * rows (F := Ideal) γ i + rows (F := Ideal) β i) 0 = _
  rw [centered_apply, rows_apply, rows_apply, rows_apply]
  show max ((h i - GinSpec.mean nl h (i 1))
      * Ideal.rsqrt (colVar (F := Ideal) h (ix1 (i 1)) + (broadcastInDim S64 ![] bcast_S_S64 (constant (F := Ideal) S_ .f32 0x3727C5AC#32)) (ix1 (i 1)))
      * γ (ix1 (i 1)) + β (ix1 (i 1))) 0 = _
  rw [colVar_apply, broadcastInDim_apply _ bcast_S_S64 (constant (F := Ideal) S_ .f32 0x3727C5AC#32) (ix1 (i 1)) (fun a => a.elim0) (fun a => a.elim0)]
  rfl

/-! ## The layers and the run -/

/-- Layer 0's dense and normalization stages, as the specification's functions at slice 0 of the stacked parameters. -/
def L_0 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnR nl el (GinSpec.mlp h (val_main_v5 (F := Ideal) w1) (fun j => val_main_v7 (F := Ideal) b1 (ix1 j))
      (val_main_v9 (F := Ideal) w2) (fun j => val_main_v11 (F := Ideal) b2 (ix1 j)))
    (fun j => val_main_v13 (F := Ideal) gamma (ix1 j)) (fun j => val_main_v15 (F := Ideal) beta (ix1 j))

theorem layer_0_eq (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) :
    bn_0 (F := Ideal) (mlp_0 (F := Ideal) h w1 b1 w2 b2) gamma beta = L_0 h w1 b1 w2 b2 gamma beta := by
  unfold bn_0 mlp_0 L_0
  rw [mlpG_eq, bnG_eq]

/-- Layer 1's dense and normalization stages, as the specification's functions at slice 1 of the stacked parameters. -/
def L_1 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnR nl el (GinSpec.mlp h (val_main_v69 (F := Ideal) w1) (fun j => val_main_v71 (F := Ideal) b1 (ix1 j))
      (val_main_v73 (F := Ideal) w2) (fun j => val_main_v75 (F := Ideal) b2 (ix1 j)))
    (fun j => val_main_v77 (F := Ideal) gamma (ix1 j)) (fun j => val_main_v79 (F := Ideal) beta (ix1 j))

theorem layer_1_eq (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) :
    bn_1 (F := Ideal) (mlp_1 (F := Ideal) h w1 b1 w2 b2) gamma beta = L_1 h w1 b1 w2 b2 gamma beta := by
  unfold bn_1 mlp_1 L_1
  rw [mlpG_eq, bnG_eq]

/-- Layer 2's dense and normalization stages, as the specification's functions at slice 2 of the stacked parameters. -/
def L_2 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnR nl el (GinSpec.mlp h (val_main_v133 (F := Ideal) w1) (fun j => val_main_v135 (F := Ideal) b1 (ix1 j))
      (val_main_v137 (F := Ideal) w2) (fun j => val_main_v139 (F := Ideal) b2 (ix1 j)))
    (fun j => val_main_v141 (F := Ideal) gamma (ix1 j)) (fun j => val_main_v143 (F := Ideal) beta (ix1 j))

theorem layer_2_eq (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) :
    bn_2 (F := Ideal) (mlp_2 (F := Ideal) h w1 b1 w2 b2) gamma beta = L_2 h w1 b1 w2 b2 gamma beta := by
  unfold bn_2 mlp_2 L_2
  rw [mlpG_eq, bnG_eq]

/-- The whole network with the dense and normalization stages as the specification's functions. -/
def refSpec (x : (⟨S100000x64, .f32⟩ : BufTy).Contents (Elt Ideal)) (ei : (⟨S2x1000000, .i32⟩ : BufTy).Contents (Elt Ideal)) (batch : (⟨S100000, .i32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal))
    (b2 gamma beta : (⟨S3x64, .f32⟩ : BufTy).Contents (Elt Ideal)) (eps : (⟨S3, .f32⟩ : BufTy).Contents (Elt Ideal)) (lin_w : (⟨S64x10, .f32⟩ : BufTy).Contents (Elt Ideal)) (lin_b : (⟨S10, .f32⟩ : BufTy).Contents (Elt Ideal)) : (⟨S256x10, .f32⟩ : BufTy).Contents (Elt Ideal) :=
  tail (F := Ideal) (L_2 (prep_2 (F := Ideal) (L_1 (prep_1 (F := Ideal) (L_0 (prep_0 (F := Ideal) x ei eps) w1 b1 w2 b2 gamma beta) ei eps)
    w1 b1 w2 b2 gamma beta) ei eps) w1 b1 w2 b2 gamma beta) batch lin_w lin_b

theorem refOut_eq (x : (⟨S100000x64, .f32⟩ : BufTy).Contents (Elt Ideal)) (ei : (⟨S2x1000000, .i32⟩ : BufTy).Contents (Elt Ideal)) (batch : (⟨S100000, .i32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal))
    (b2 gamma beta : (⟨S3x64, .f32⟩ : BufTy).Contents (Elt Ideal)) (eps : (⟨S3, .f32⟩ : BufTy).Contents (Elt Ideal)) (lin_w : (⟨S64x10, .f32⟩ : BufTy).Contents (Elt Ideal)) (lin_b : (⟨S10, .f32⟩ : BufTy).Contents (Elt Ideal)) :
    refOut (F := Ideal) x ei batch w1 b1 w2 b2 gamma beta eps lin_w lin_b = refSpec x ei batch w1 b1 w2 b2 gamma beta eps lin_w lin_b := by
  unfold refOut refSpec
  rw [layer_0_eq, layer_1_eq, layer_2_eq]

/-- At the ideal instance, from any memory with zero counters: every weakly fair execution of the reference terminates with
    its result at `refSpec` of the arguments' launch contents, and the arguments unchanged. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v211) = refSpec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).1).trans (refOut_eq _ _ _ _ _ _ _ _ _ _ _ _), (h c).2⟩) (run (F := Ideal) m ρ)

end Cert.ReferenceIdeal.RefValue

end
-- ==== Proof.PrepReal.lean ====
/-
  Finiteness through the graph aggregation.

  A node update of the network adds, to a multiple of each node's row, the sum of the rows of its
  neighbours: the rows are gathered along the edges' sources and accumulated at the edges' targets.
  Over the extended reals every one of these steps keeps a finite array finite. A gather only reads
  elements of its operand. An accumulating scatter puts at each element the operand's element plus a
  finite sum of update elements. The elementwise sum, difference, product and maximum of finite arrays
  are finite, and so is every re-indexing of a finite array (a broadcast, a reshape, a slice). A float
  constant whose exponent field is not all ones denotes a real number. The facts are stated for arrays
  of any shape and any dimension numbers, then at the dimension numbers the two programs name.
-/
import proofs.«170985_j13606456394542_1_alg».proof.Proof.LibRealStats
import proofs.«170985_j13606456394542_1_alg».proof.KernelIdeal
import proofs.«170985_j13606456394542_1_alg».proof.ReferenceIdeal
import Idealize.ShloMosaic.Lib.ValueIdx
import Idealize.ShloMosaic.Lib.IdealHost

noncomputable section

namespace PrepReal

open Idealize.ShloMosaic RealStats
open scoped BigOperators

/-! ### Arrays of any shape -/

section Generic
variable {s t u si si' : Shape} {φ : FTy} {w w' : Nat}

/-- Every element of a gather is an element of its operand: a gather of a finite array is finite. -/
theorem gather_isReal (d : GatherDims s si t) (x : FVec Ideal s φ) (idx : IVec si w)
    (hx : ∀ i, IsReal (x i)) (j : t.Idx) : IsReal (Host.gather d x idx j) := by
  unfold Host.gather
  exact hx _

/-- Every element of an accumulating scatter is the operand's element plus a finite sum of update
    elements: an accumulating scatter of finite updates into a finite array is finite. -/
theorem scatterAdd_isReal (d : ScatterDims s si u) (x : FVec Ideal s φ) (idx : IVec si w)
    (upd : FVec Ideal u φ) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (isReal_sum _ _ fun j _ => hu j)

/-- The elementwise sum of two finite arrays is finite. -/
theorem addf_isReal (a b : FVec Ideal s φ) (ha : ∀ i, IsReal (a i)) (hb : ∀ i, IsReal (b i))
    (i : s.Idx) : IsReal (addf a b i) := by
  rw [ValueIdx.addf_apply]; exact (ha i).add (hb i)

/-- The elementwise difference of two finite arrays is finite. -/
theorem subf_isReal (a b : FVec Ideal s φ) (ha : ∀ i, IsReal (a i)) (hb : ∀ i, IsReal (b i))
    (i : s.Idx) : IsReal (subf a b i) := by
  rw [ValueIdx.subf_apply]; exact (ha i).sub (hb i)

/-- The elementwise product of two finite arrays is finite. -/
theorem mulf_isReal (a b : FVec Ideal s φ) (ha : ∀ i, IsReal (a i)) (hb : ∀ i, IsReal (b i))
    (i : s.Idx) : IsReal (mulf a b i) := by
  rw [ValueIdx.mulf_apply]; exact (ha i).mul (hb i)

/-- The elementwise maximum of two finite arrays is finite. -/
theorem maximumf_isReal (a b : FVec Ideal s φ) (ha : ∀ i, IsReal (a i)) (hb : ∀ i, IsReal (b i))
    (i : s.Idx) : IsReal (maximumf a b i) := by
  rw [ValueIdx.maximumf_apply]; exact (ha i).max (hb i)

/-- The elementwise negation of a finite array is finite. -/
theorem negf_isReal (a : FVec Ideal s φ) (ha : ∀ i, IsReal (a i)) (i : s.Idx) :
    IsReal (negf a i) := by
  rw [ValueIdx.negf_apply]; exact (ha i).neg

/-- A broadcast along named axes reads elements of its operand: of a finite array it is finite. -/
theorem broadcastInDim_isReal (dims : Fin s.rank → Fin t.rank) (h : s.BroadcastsInDim t dims)
    (x : FVec Ideal s φ) (hx : ∀ i, IsReal (x i)) (j : t.Idx) :
    IsReal (broadcastInDim t dims h x j) := by
  unfold broadcastInDim
  exact hx _

/-- The splat of a finite value is finite. -/
theorem broadcast_isReal (x : Ideal φ) (hx : IsReal x) (j : t.Idx) : IsReal (broadcast t x j) := hx

/-- A reshape reads elements of its operand: of a finite array it is finite. -/
theorem shapeCast_isReal (h : s.ShapeCasts t) (x : FVec Ideal s φ) (hx : ∀ i, IsReal (x i))
    (j : t.Idx) : IsReal (shapeCast t x h j) := by
  unfold shapeCast
  exact hx _

/-- A slice reads elements of its operand: of a finite array it is finite. -/
theorem extractStridedSlice_isReal (off : Fin s.rank → Nat) (h : s.Slices off t)
    (x : FVec Ideal s φ) (hx : ∀ i, IsReal (x i)) (j : t.Idx) :
    IsReal (extractStridedSlice t off x h j) := by
  unfold extractStridedSlice
  exact hx _

/-- A single-precision pattern whose exponent field is not all ones denotes a real number. -/
theorem ofBits_f32_isReal (b : BitVec 32) (h : (b.extractLsb' 23 8).toNat ≠ 2 ^ 8 - 1) :
    IsReal (Ideal.ofBits .f32 b) := by
  show IsReal (Ideal.ieee 8 23 b)
  unfold Ideal.ieee
  dsimp only
  rw [if_neg h]
  split_ifs <;> exact isReal_coe _

/-- The splat of a single-precision constant whose exponent field is not all ones is finite. -/
theorem constant_f32_isReal (b : BitVec 32) (h : (b.extractLsb' 23 8).toNat ≠ 2 ^ 8 - 1)
    (j : t.Idx) : IsReal (constant (F := Ideal) t .f32 b j) := by
  rw [ValueIdx.constant_apply]; exact ofBits_f32_isReal b h

/-- The single-precision pattern of all zero bits denotes zero. -/
theorem ofBits_zero_f32 : Ideal.ofBits .f32 0x00000000#32 = 0 := by
  simp [Ideal.ofBits, Ideal.ieee]

/-- The splat of the single-precision zero is finite. -/
theorem constant_zero_isReal (j : t.Idx) :
    IsReal (constant (F := Ideal) t .f32 0x00000000#32 j) :=
  constant_f32_isReal _ (by decide) j

/-- The splat of the single-precision one is finite. -/
theorem constant_one_isReal (j : t.Idx) :
    IsReal (constant (F := Ideal) t .f32 0x3F800000#32 j) :=
  constant_f32_isReal _ (by decide) j

/-- The splat of the single-precision one is one. -/
theorem constant_one_apply (j : t.Idx) : constant (F := Ideal) t .f32 0x3F800000#32 j = 1 := by
  rw [ValueIdx.constant_apply]; exact Ideal.ofBits_one_f32

/-- The splat of the single-precision zero is zero. -/
theorem constant_zero_apply (j : t.Idx) : constant (F := Ideal) t .f32 0x00000000#32 j = 0 := by
  rw [ValueIdx.constant_apply]; exact ofBits_zero_f32

/-- The aggregation is finite: rows of a finite array gathered along one index array and accumulated
    into a finite array along another. -/
theorem agg_isReal (g : GatherDims s si u) (d : ScatterDims s si' u) (z x : FVec Ideal s φ)
    (src : IVec si w) (dst : IVec si' w') (hz : ∀ i, IsReal (z i)) (hx : ∀ i, IsReal (x i))
    (i : s.Idx) : IsReal (Host.scatterAdd (F := Ideal) d z dst (Host.gather g x src) i) :=
  scatterAdd_isReal d z dst _ hz (gather_isReal g x src hx) i

/-- The node update is finite: a finite multiple of a finite array plus its aggregation. -/
theorem update_isReal (g : GatherDims s si u) (d : ScatterDims s si' u) (c z x : FVec Ideal s φ)
    (src : IVec si w) (dst : IVec si' w') (hc : ∀ i, IsReal (c i)) (hz : ∀ i, IsReal (z i))
    (hx : ∀ i, IsReal (x i)) (i : s.Idx) :
    IsReal (addf (mulf c x) (Host.scatterAdd (F := Ideal) d z dst (Host.gather g x src)) i) :=
  addf_isReal _ _ (mulf_isReal c x hc hx) (agg_isReal g d z x src dst hz hx) i

end Generic

/-! ### At the dimension numbers the Kernel names -/

namespace Kernel

open Cert.KernelIdeal Cert.KernelIdeal.Facts₀

section
variable [Cert.KernelIdeal.Facts₀]

/-- The row gather of the Kernel, of a finite array of node rows, is finite. -/
theorem gather_isReal (x : (⟨S100000x64, .f32⟩ : BufTy).Contents (Elt Ideal))
    (idx : (⟨S1000000x1, .i32⟩ : BufTy).Contents (Elt Ideal)) (hx : ∀ i, IsReal (x i))
    (j : S1000000x64.Idx) :
    IsReal (Host.gather gather_S100000x64_S1000000x1_S1000000x64_1_0_n_n_0_1_164 x idx j) :=
  PrepReal.gather_isReal (φ := .f32) _ x idx hx j

/-- The accumulating row scatter of the Kernel, of finite edge rows into a finite array of node
    rows, is finite. -/
theorem scatterAdd_isReal (x : (⟨S100000x64, .f32⟩ : BufTy).Contents (Elt Ideal))
    (idx : (⟨S1000000x1, .i32⟩ : BufTy).Contents (Elt Ideal))
    (upd : (⟨S1000000x64, .f32⟩ : BufTy).Contents (Elt Ideal)) (hx : ∀ i, IsReal (x i))
    (hu : ∀ j, IsReal (upd j)) (i : S100000x64.Idx) :
    IsReal (Host.scatterAdd (F := Ideal) (φ := .f32)
      scatter_S100000x64_S1000000x1_S1000000x64_1_0_0_1 x idx upd i) :=
  PrepReal.scatterAdd_isReal (φ := .f32) _ x idx upd hx hu i

/-- The accumulating row scatter of the Kernel that pools node rows by graph is finite on finite
    arrays. -/
theorem scatterAdd_pool_isReal (x : (⟨S256x64, .f32⟩ : BufTy).Contents (Elt Ideal))
    (idx : (⟨S100000x1, .i32⟩ : BufTy).Contents (Elt Ideal))
    (upd : (⟨S100000x64, .f32⟩ : BufTy).Contents (Elt Ideal)) (hx : ∀ i, IsReal (x i))
    (hu : ∀ j, IsReal (upd j)) (i : S256x64.Idx) :
    IsReal (Host.scatterAdd (F := Ideal) (φ := .f32)
      scatter_S256x64_S100000x1_S100000x64_1_0_0_1 x idx upd i) :=
  PrepReal.scatterAdd_isReal (φ := .f32) _ x idx upd hx hu i

/-- The accumulating scatter of the Kernel that counts the nodes of each graph is finite on finite
    arrays. -/
theorem scatterAdd_count_isReal (x : (⟨S256, .f32⟩ : BufTy).Contents (Elt Ideal))
    (idx : (⟨S100000x1, .i32⟩ : BufTy).Contents (Elt Ideal))
    (upd : (⟨S100000, .f32⟩ : BufTy).Contents (Elt Ideal)) (hx : ∀ i, IsReal (x i))
    (hu : ∀ j, IsReal (upd j)) (i : S256.Idx) :
    IsReal (Host.scatterAdd (F := Ideal) (φ := .f32)
      scatter_S256_S100000x1_S100000_n_0_0_1 x idx upd i) :=
  PrepReal.scatterAdd_isReal (φ := .f32) _ x idx upd hx hu i

/-- The aggregation of the Kernel, as it spells it: the rows of a finite array gathered along the
    edges' sources and accumulated, from zero, at the edges' targets. -/
theorem agg_isReal (x : (⟨S100000x64, .f32⟩ : BufTy).Contents (Elt Ideal))
    (src dst : (⟨S1000000x1, .i32⟩ : BufTy).Contents (Elt Ideal)) (hx : ∀ i, IsReal (x i))
    (i : S100000x64.Idx) :
    IsReal (Host.scatterAdd (F := Ideal) scatter_S100000x64_S1000000x1_S1000000x64_1_0_0_1
      (broadcastInDim S100000x64 ![] bcast_S_S100000x64 (constant S_ .f32 0x00000000#32)) dst
      (Host.gather gather_S100000x64_S1000000x1_S1000000x64_1_0_n_n_0_1_164 x src) i) :=
  PrepReal.agg_isReal (φ := .f32) _ _ _ x src dst
    (broadcastInDim_isReal (φ := .f32) _ _ _ (constant_zero_isReal)) hx i

/-- The node update of the Kernel, as it spells it: one plus a finite scalar, times the finite array
    of node rows, plus its aggregation. -/
theorem update_isReal (eps : (⟨S_, .f32⟩ : BufTy).Contents (Elt Ideal))
    (x : (⟨S100000x64, .f32⟩ : BufTy).Contents (Elt Ideal))
    (src dst : (⟨S1000000x1, .i32⟩ : BufTy).Contents (Elt Ideal)) (heps : ∀ i, IsReal (eps i))
    (hx : ∀ i, IsReal (x i)) (i : S100000x64.Idx) :
    IsReal (addf
      (mulf (broadcastInDim S100000x64 ![] bcast_S_S100000x64
        (addf (constant S_ .f32 0x3F800000#32) eps)) x)
      (Host.scatterAdd (F := Ideal) scatter_S100000x64_S1000000x1_S1000000x64_1_0_0_1
        (broadcastInDim S100000x64 ![] bcast_S_S100000x64 (constant S_ .f32 0x00000000#32)) dst
        (Host.gather gather_S100000x64_S1000000x1_S1000000x64_1_0_n_n_0_1_164 x src)) i) :=
  addf_isReal (φ := .f32) _ _
    (mulf_isReal (φ := .f32) _ x
      (broadcastInDim_isReal (φ := .f32) _ _ _
        (addf_isReal (φ := .f32) _ eps constant_one_isReal heps)) hx)
    (agg_isReal x src dst hx) i

end

end Kernel

/-! ### At the dimension numbers the Reference names -/

namespace Reference

open Cert.ReferenceIdeal Cert.ReferenceIdeal.Facts₀

section
variable [Cert.ReferenceIdeal.Facts₀]

/-- The row gather of the Reference, of a finite array of node rows, is finite. -/
theorem gather_isReal (x : (⟨S100000x64, .f32⟩ : BufTy).Contents (Elt Ideal))
    (idx : (⟨S1000000x1, .i32⟩ : BufTy).Contents (Elt Ideal)) (hx : ∀ i, IsReal (x i))
    (j : S1000000x64.Idx) :
    IsReal (Host.gather gather_S100000x64_S1000000x1_S1000000x64_1_0_n_n_0_1_164 x idx j) :=
  PrepReal.gather_isReal (φ := .f32) _ x idx hx j

/-- The accumulating row scatter of the Reference, of finite edge rows into a finite array of node
    rows, is finite. -/
theorem scatterAdd_isReal (x : (⟨S100000x64, .f32⟩ : BufTy).Contents (Elt Ideal))
    (idx : (⟨S1000000x1, .i32⟩ : BufTy).Contents (Elt Ideal))
    (upd : (⟨S1000000x64, .f32⟩ : BufTy).Contents (Elt Ideal)) (hx : ∀ i, IsReal (x i))
    (hu : ∀ j, IsReal (upd j)) (i : S100000x64.Idx) :
    IsReal (Host.scatterAdd (F := Ideal) (φ := .f32)
      scatter_S100000x64_S1000000x1_S1000000x64_1_0_0_1 x idx upd i) :=
  PrepReal.scatterAdd_isReal (φ := .f32) _ x idx upd hx hu i

/-- The accumulating row scatter of the Reference that pools node rows by graph is finite on finite
    arrays. -/
theorem scatterAdd_pool_isReal (x : (⟨S256x64, .f32⟩ : BufTy).Contents (Elt Ideal))
    (idx : (⟨S100000x1, .i32⟩ : BufTy).Contents (Elt Ideal))
    (upd : (⟨S100000x64, .f32⟩ : BufTy).Contents (Elt Ideal)) (hx : ∀ i, IsReal (x i))
    (hu : ∀ j, IsReal (upd j)) (i : S256x64.Idx) :
    IsReal (Host.scatterAdd (F := Ideal) (φ := .f32)
      scatter_S256x64_S100000x1_S100000x64_1_0_0_1 x idx upd i) :=
  PrepReal.scatterAdd_isReal (φ := .f32) _ x idx upd hx hu i

/-- The accumulating scatter of the Reference that counts the nodes of each graph is finite on finite
    arrays. -/
theorem scatterAdd_count_isReal (x : (⟨S256, .f32⟩ : BufTy).Contents (Elt Ideal))
    (idx : (⟨S100000x1, .i32⟩ : BufTy).Contents (Elt Ideal))
    (upd : (⟨S100000, .f32⟩ : BufTy).Contents (Elt Ideal)) (hx : ∀ i, IsReal (x i))
    (hu : ∀ j, IsReal (upd j)) (i : S256.Idx) :
    IsReal (Host.scatterAdd (F := Ideal) (φ := .f32)
      scatter_S256_S100000x1_S100000_n_0_0_1 x idx upd i) :=
  PrepReal.scatterAdd_isReal (φ := .f32) _ x idx upd hx hu i

/-- The aggregation of the Reference, as it spells it: the rows of a finite array gathered along the
    edges' sources and accumulated, from zero, at the edges' targets. -/
theorem agg_isReal (x : (⟨S100000x64, .f32⟩ : BufTy).Contents (Elt Ideal))
    (src dst : (⟨S1000000x1, .i32⟩ : BufTy).Contents (Elt Ideal)) (hx : ∀ i, IsReal (x i))
    (i : S100000x64.Idx) :
    IsReal (Host.scatterAdd (F := Ideal) scatter_S100000x64_S1000000x1_S1000000x64_1_0_0_1
      (broadcastInDim S100000x64 ![] bcast_S_S100000x64 (constant S_ .f32 0x00000000#32)) dst
      (Host.gather gather_S100000x64_S1000000x1_S1000000x64_1_0_n_n_0_1_164 x src) i) :=
  PrepReal.agg_isReal (φ := .f32) _ _ _ x src dst
    (broadcastInDim_isReal (φ := .f32) _ _ _ (constant_zero_isReal)) hx i

/-- The node update of the Reference, as it spells it: one plus a finite scalar, times the finite array
    of node rows, plus its aggregation. -/
theorem update_isReal (eps : (⟨S_, .f32⟩ : BufTy).Contents (Elt Ideal))
    (x : (⟨S100000x64, .f32⟩ : BufTy).Contents (Elt Ideal))
    (src dst : (⟨S1000000x1, .i32⟩ : BufTy).Contents (Elt Ideal)) (heps : ∀ i, IsReal (eps i))
    (hx : ∀ i, IsReal (x i)) (i : S100000x64.Idx) :
    IsReal (addf
      (mulf (broadcastInDim S100000x64 ![] bcast_S_S100000x64
        (addf (constant S_ .f32 0x3F800000#32) eps)) x)
      (Host.scatterAdd (F := Ideal) scatter_S100000x64_S1000000x1_S1000000x64_1_0_0_1
        (broadcastInDim S100000x64 ![] bcast_S_S100000x64 (constant S_ .f32 0x00000000#32)) dst
        (Host.gather gather_S100000x64_S1000000x1_S1000000x64_1_0_n_n_0_1_164 x src)) i) :=
  addf_isReal (φ := .f32) _ _
    (mulf_isReal (φ := .f32) _ x
      (broadcastInDim_isReal (φ := .f32) _ _ _
        (addf_isReal (φ := .f32) _ eps constant_one_isReal heps)) hx)
    (agg_isReal x src dst hx) i

end

end Reference

end PrepReal
-- ==== Proof.LibLiterals.lean ====
/-
  Two single-precision constants as the real numbers their patterns denote.

  A normal single-precision pattern with sign 0, exponent field E and fraction field T denotes
  (2²³ + T) · 2^(E − 150). The pattern 0x47C35000 has E = 143 and T = 4411392, so it denotes
  12800000 · 2⁻⁷ = 100000. The pattern 0x3727C5AC has E = 110 and T = 2606508, so it denotes
  10995116 · 2⁻⁴⁰, a positive real (the single-precision number nearest to 10⁻⁵).
-/
import Idealize.ShloMosaic.PureOps.Ideal

noncomputable section

namespace Literals

open Idealize.ShloMosaic

/-- The single-precision pattern 0x47C35000 denotes the real number 100000. -/
theorem nl_eq : Ideal.ofBits .f32 0x47C35000#32 = ((100000 : ℝ) : EReal) := by
  simp [Ideal.ofBits, Ideal.ieee, -EReal.coe_mul]; norm_num

/-- The single-precision pattern 0x3727C5AC denotes a positive real number. -/
theorem el_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

end Literals

end
-- ==== Proof.RefBridge.lean ====
/- The two spellings of the column variance agree on the reference's network when the arguments are finite, and the
   precondition says they are.

   Where every entry of the node array and of the stacked parameters is a real number, every intermediate array of the
   network is real: a slice or a reshape of a real array is real; `(1 + e) · x` plus the neighbour sum of a real array is
   real (a finite sum of reals); a dense layer, and the normalization with the variance offset positive, keep entries
   real. On a real array the mean of squares less the squared mean is the mean of squared deviations, so the network with
   either spelling of the variance is the same function (`kerSpec_eq_refSpec`).
   The precondition is the conjunction, over the ten float arguments, of "every entry's absolute value is less than
   +∞"; at the ideal instance an extended real whose absolute value is below +∞ is neither +∞ nor −∞, hence a real number
   (`pre_isReal`). -/
import proofs.«170985_j13606456394542_1_alg».proof.Proof.RefSpec
import proofs.«170985_j13606456394542_1_alg».proof.Proof.PrepReal
import proofs.«170985_j13606456394542_1_alg».proof.Pre_finite_inputs
import proofs.«170985_j13606456394542_1_alg».proof.Proof.LibLiterals
import Idealize.ShloMosaic.Lib.ReduceAll

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Idealize.ShloMosaic.ValueIdx RealStats

/-! ## The slices of real arrays are real -/

theorem val_main_v5_isReal {x : (⟨S3x64x64, .f32⟩ : BufTy).Contents (Elt Ideal)} (hx : ∀ i, IsReal (x i)) (i) : IsReal (val_main_v5 (F := Ideal) x i) := by
  rw [val_main_v5_apply, val_main_v4_apply]; exact hx _
theorem val_main_v7_isReal {x : (⟨S3x64, .f32⟩ : BufTy).Contents (Elt Ideal)} (hx : ∀ i, IsReal (x i)) (i) : IsReal (val_main_v7 (F := Ideal) x i) := by
  rw [val_main_v7_apply, val_main_v6_apply]; exact hx _
theorem val_main_v9_isReal {x : (⟨S3x64x64, .f32⟩ : BufTy).Contents (Elt Ideal)} (hx : ∀ i, IsReal (x i)) (i) : IsReal (val_main_v9 (F := Ideal) x i) := by
  rw [val_main_v9_apply, val_main_v8_apply]; exact hx _
theorem val_main_v11_isReal {x : (⟨S3x64, .f32⟩ : BufTy).Contents (Elt Ideal)} (hx : ∀ i, IsReal (x i)) (i) : IsReal (val_main_v11 (F := Ideal) x i) := by
  rw [val_main_v11_apply, val_main_v10_apply]; exact hx _
theorem val_main_v13_isReal {x : (⟨S3x64, .f32⟩ : BufTy).Contents (Elt Ideal)} (hx : ∀ i, IsReal (x i)) (i) : IsReal (val_main_v13 (F := Ideal) x i) := by
  rw [val_main_v13_apply, val_main_v12_apply]; exact hx _
theorem val_main_v15_isReal {x : (⟨S3x64, .f32⟩ : BufTy).Contents (Elt Ideal)} (hx : ∀ i, IsReal (x i)) (i) : IsReal (val_main_v15 (F := Ideal) x i) := by
  rw [val_main_v15_apply, val_main_v14_apply]; exact hx _
theorem val_main_v69_isReal {x : (⟨S3x64x64, .f32⟩ : BufTy).Contents (Elt Ideal)} (hx : ∀ i, IsReal (x i)) (i) : IsReal (val_main_v69 (F := Ideal) x i) := by
  rw [val_main_v69_apply, val_main_v68_apply]; exact hx _
theorem val_main_v71_isReal {x : (⟨S3x64, .f32⟩ : BufTy).Contents (Elt Ideal)} (hx : ∀ i, IsReal (x i)) (i) : IsReal (val_main_v71 (F := Ideal) x i) := by
  rw [val_main_v71_apply, val_main_v70_apply]; exact hx _
theorem val_main_v73_isReal {x : (⟨S3x64x64, .f32⟩ : BufTy).Contents (Elt Ideal)} (hx : ∀ i, IsReal (x i)) (i) : IsReal (val_main_v73 (F := Ideal) x i) := by
  rw [val_main_v73_apply, val_main_v72_apply]; exact hx _
theorem val_main_v75_isReal {x : (⟨S3x64, .f32⟩ : BufTy).Contents (Elt Ideal)} (hx : ∀ i, IsReal (x i)) (i) : IsReal (val_main_v75 (F := Ideal) x i) := by
  rw [val_main_v75_apply, val_main_v74_apply]; exact hx _
theorem val_main_v77_isReal {x : (⟨S3x64, .f32⟩ : BufTy).Contents (Elt Ideal)} (hx : ∀ i, IsReal (x i)) (i) : IsReal (val_main_v77 (F := Ideal) x i) := by
  rw [val_main_v77_apply, val_main_v76_apply]; exact hx _
theorem val_main_v79_isReal {x : (⟨S3x64, .f32⟩ : BufTy).Contents (Elt Ideal)} (hx : ∀ i, IsReal (x i)) (i) : IsReal (val_main_v79 (F := Ideal) x i) := by
  rw [val_main_v79_apply, val_main_v78_apply]; exact hx _
theorem val_main_v133_isReal {x : (⟨S3x64x64, .f32⟩ : BufTy).Contents (Elt Ideal)} (hx : ∀ i, IsReal (x i)) (i) : IsReal (val_main_v133 (F := Ideal) x i) := by
  rw [val_main_v133_apply, val_main_v132_apply]; exact hx _
theorem val_main_v135_isReal {x : (⟨S3x64, .f32⟩ : BufTy).Contents (Elt Ideal)} (hx : ∀ i, IsReal (x i)) (i) : IsReal (val_main_v135 (F := Ideal) x i) := by
  rw [val_main_v135_apply, val_main_v134_apply]; exact hx _
theorem val_main_v137_isReal {x : (⟨S3x64x64, .f32⟩ : BufTy).Contents (Elt Ideal)} (hx : ∀ i, IsReal (x i)) (i) : IsReal (val_main_v137 (F := Ideal) x i) := by
  rw [val_main_v137_apply, val_main_v136_apply]; exact hx _
theorem val_main_v139_isReal {x : (⟨S3x64, .f32⟩ : BufTy).Contents (Elt Ideal)} (hx : ∀ i, IsReal (x i)) (i) : IsReal (val_main_v139 (F := Ideal) x i) := by
  rw [val_main_v139_apply, val_main_v138_apply]; exact hx _
theorem val_main_v141_isReal {x : (⟨S3x64, .f32⟩ : BufTy).Contents (Elt Ideal)} (hx : ∀ i, IsReal (x i)) (i) : IsReal (val_main_v141 (F := Ideal) x i) := by
  rw [val_main_v141_apply, val_main_v140_apply]; exact hx _
theorem val_main_v143_isReal {x : (⟨S3x64, .f32⟩ : BufTy).Contents (Elt Ideal)} (hx : ∀ i, IsReal (x i)) (i) : IsReal (val_main_v143 (F := Ideal) x i) := by
  rw [val_main_v143_apply, val_main_v142_apply]; exact hx _
theorem val_main_v17_isReal {x : (⟨S3, .f32⟩ : BufTy).Contents (Elt Ideal)} (hx : ∀ i, IsReal (x i)) (i) : IsReal (val_main_v17 (F := Ideal) x i) := by
  unfold val_main_v17
  exact PrepReal.shapeCast_isReal (φ := .f32) _ _ (fun j => by rw [val_main_v16_apply]; exact hx _) i
theorem val_main_v81_isReal {x : (⟨S3, .f32⟩ : BufTy).Contents (Elt Ideal)} (hx : ∀ i, IsReal (x i)) (i) : IsReal (val_main_v81 (F := Ideal) x i) := by
  unfold val_main_v81
  exact PrepReal.shapeCast_isReal (φ := .f32) _ _ (fun j => by rw [val_main_v80_apply]; exact hx _) i
theorem val_main_v145_isReal {x : (⟨S3, .f32⟩ : BufTy).Contents (Elt Ideal)} (hx : ∀ i, IsReal (x i)) (i) : IsReal (val_main_v145 (F := Ideal) x i) := by
  unfold val_main_v145
  exact PrepReal.shapeCast_isReal (φ := .f32) _ _ (fun j => by rw [val_main_v144_apply]; exact hx _) i

/-! ## The stages keep entries real -/

theorem prepG_isReal {x : (⟨S100000x64, .f32⟩ : BufTy).Contents (Elt Ideal)} (src dst : (⟨S1000000, .i32⟩ : BufTy).Contents (Elt Ideal)) {e : (⟨S_, .f32⟩ : BufTy).Contents (Elt Ideal)}
    (hx : ∀ i, IsReal (x i)) (he : ∀ i, IsReal (e i)) (i) : IsReal (prepG (F := Ideal) x src dst e i) := by
  unfold prepG aggr zeros
  exact PrepReal.Reference.update_isReal e x (colIdx (wrapIdx src)) (colIdx dst) he hx i

theorem prep_0_isReal {x : (⟨S100000x64, .f32⟩ : BufTy).Contents (Elt Ideal)} (ei : (⟨S2x1000000, .i32⟩ : BufTy).Contents (Elt Ideal)) {eps : (⟨S3, .f32⟩ : BufTy).Contents (Elt Ideal)}
    (hx : ∀ i, IsReal (x i)) (heps : ∀ i, IsReal (eps i)) (i) : IsReal (prep_0 (F := Ideal) x ei eps i) := by
  unfold prep_0
  exact prepG_isReal _ _ hx (val_main_v17_isReal heps) i

theorem prep_1_isReal {x : (⟨S100000x64, .f32⟩ : BufTy).Contents (Elt Ideal)} (ei : (⟨S2x1000000, .i32⟩ : BufTy).Contents (Elt Ideal)) {eps : (⟨S3, .f32⟩ : BufTy).Contents (Elt Ideal)}
    (hx : ∀ i, IsReal (x i)) (heps : ∀ i, IsReal (eps i)) (i) : IsReal (prep_1 (F := Ideal) x ei eps i) := by
  unfold prep_1
  exact prepG_isReal _ _ hx (val_main_v81_isReal heps) i

theorem prep_2_isReal {x : (⟨S100000x64, .f32⟩ : BufTy).Contents (Elt Ideal)} (ei : (⟨S2x1000000, .i32⟩ : BufTy).Contents (Elt Ideal)) {eps : (⟨S3, .f32⟩ : BufTy).Contents (Elt Ideal)}
    (hx : ∀ i, IsReal (x i)) (heps : ∀ i, IsReal (eps i)) (i) : IsReal (prep_2 (F := Ideal) x ei eps i) := by
  unfold prep_2
  exact prepG_isReal _ _ hx (val_main_v145_isReal heps) i

/-! ## The layers with the variance as the mean of squares less the squared mean -/

/-- Layer 0's dense and normalization stages with the variance spelt as the mean of squares less the squared mean. -/
def LK_0 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnK nl el (GinSpec.mlp h (val_main_v5 (F := Ideal) w1) (fun j => val_main_v7 (F := Ideal) b1 (ix1 j))
      (val_main_v9 (F := Ideal) w2) (fun j => val_main_v11 (F := Ideal) b2 (ix1 j)))
    (fun j => val_main_v13 (F := Ideal) gamma (ix1 j)) (fun j => val_main_v15 (F := Ideal) beta (ix1 j))

theorem LK_0_eq (hn : nl = ((100000 : ℝ) : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) :
    LK_0 h w1 b1 w2 b2 gamma beta = L_0 h w1 b1 w2 b2 gamma beta := by
  unfold LK_0 L_0
  exact GinSpec.bnK_eq_bnR hn el _ (fun i => GinSpec.mlp_isReal hh (val_main_v5_isReal hw1) (fun j => val_main_v7_isReal hb1 _)
      (val_main_v9_isReal hw2) (fun j => val_main_v11_isReal hb2 _) i) _ _

theorem L_0_isReal (hn : nl = ((100000 : ℝ) : EReal)) {e : ℝ} (he : 0 < e) (hel : el = (e : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) (i) :
    IsReal (L_0 h w1 b1 w2 b2 gamma beta i) := by
  unfold L_0
  exact GinSpec.bnR_isReal hn he hel (fun i => GinSpec.mlp_isReal hh (val_main_v5_isReal hw1) (fun j => val_main_v7_isReal hb1 _)
      (val_main_v9_isReal hw2) (fun j => val_main_v11_isReal hb2 _) i)
    (fun j => val_main_v13_isReal hg _) (fun j => val_main_v15_isReal hbt _) i

/-- Layer 1's dense and normalization stages with the variance spelt as the mean of squares less the squared mean. -/
def LK_1 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnK nl el (GinSpec.mlp h (val_main_v69 (F := Ideal) w1) (fun j => val_main_v71 (F := Ideal) b1 (ix1 j))
      (val_main_v73 (F := Ideal) w2) (fun j => val_main_v75 (F := Ideal) b2 (ix1 j)))
    (fun j => val_main_v77 (F := Ideal) gamma (ix1 j)) (fun j => val_main_v79 (F := Ideal) beta (ix1 j))

theorem LK_1_eq (hn : nl = ((100000 : ℝ) : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) :
    LK_1 h w1 b1 w2 b2 gamma beta = L_1 h w1 b1 w2 b2 gamma beta := by
  unfold LK_1 L_1
  exact GinSpec.bnK_eq_bnR hn el _ (fun i => GinSpec.mlp_isReal hh (val_main_v69_isReal hw1) (fun j => val_main_v71_isReal hb1 _)
      (val_main_v73_isReal hw2) (fun j => val_main_v75_isReal hb2 _) i) _ _

theorem L_1_isReal (hn : nl = ((100000 : ℝ) : EReal)) {e : ℝ} (he : 0 < e) (hel : el = (e : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) (i) :
    IsReal (L_1 h w1 b1 w2 b2 gamma beta i) := by
  unfold L_1
  exact GinSpec.bnR_isReal hn he hel (fun i => GinSpec.mlp_isReal hh (val_main_v69_isReal hw1) (fun j => val_main_v71_isReal hb1 _)
      (val_main_v73_isReal hw2) (fun j => val_main_v75_isReal hb2 _) i)
    (fun j => val_main_v77_isReal hg _) (fun j => val_main_v79_isReal hbt _) i

/-- Layer 2's dense and normalization stages with the variance spelt as the mean of squares less the squared mean. -/
def LK_2 (h : (⟨S100000x64, .f32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal)) (b2 gamma beta : (⟨S3x64, .f32⟩ : BufTy).Contents (Elt Ideal)) : (⟨S100000x64, .f32⟩ : BufTy).Contents (Elt Ideal) :=
  GinSpec.bnK nl el (GinSpec.mlp h (val_main_v133 (F := Ideal) w1) (fun j => val_main_v135 (F := Ideal) b1 (ix1 j))
      (val_main_v137 (F := Ideal) w2) (fun j => val_main_v139 (F := Ideal) b2 (ix1 j)))
    (fun j => val_main_v141 (F := Ideal) gamma (ix1 j)) (fun j => val_main_v143 (F := Ideal) beta (ix1 j))

theorem LK_2_eq (hn : nl = ((100000 : ℝ) : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) :
    LK_2 h w1 b1 w2 b2 gamma beta = L_2 h w1 b1 w2 b2 gamma beta := by
  unfold LK_2 L_2
  exact GinSpec.bnK_eq_bnR hn el _ (fun i => GinSpec.mlp_isReal hh (val_main_v133_isReal hw1) (fun j => val_main_v135_isReal hb1 _)
      (val_main_v137_isReal hw2) (fun j => val_main_v139_isReal hb2 _) i) _ _

theorem L_2_isReal (hn : nl = ((100000 : ℝ) : EReal)) {e : ℝ} (he : 0 < e) (hel : el = (e : EReal)) {h : (⟨S100000x64, .f32⟩ : BufTy).Contents (Elt Ideal)} {w1 : (⟨S3x64x64, .f32⟩ : BufTy).Contents (Elt Ideal)} {b1 : (⟨S3x64, .f32⟩ : BufTy).Contents (Elt Ideal)} {w2 : (⟨S3x64x64, .f32⟩ : BufTy).Contents (Elt Ideal)} {b2 gamma beta : (⟨S3x64, .f32⟩ : BufTy).Contents (Elt Ideal)}
    (hh : ∀ i, IsReal (h i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) (i) :
    IsReal (L_2 h w1 b1 w2 b2 gamma beta i) := by
  unfold L_2
  exact GinSpec.bnR_isReal hn he hel (fun i => GinSpec.mlp_isReal hh (val_main_v133_isReal hw1) (fun j => val_main_v135_isReal hb1 _)
      (val_main_v137_isReal hw2) (fun j => val_main_v139_isReal hb2 _) i)
    (fun j => val_main_v141_isReal hg _) (fun j => val_main_v143_isReal hbt _) i

/-- The whole network with the variance spelt as the mean of squares less the squared mean. -/
def kerSpec (x : (⟨S100000x64, .f32⟩ : BufTy).Contents (Elt Ideal)) (ei : (⟨S2x1000000, .i32⟩ : BufTy).Contents (Elt Ideal)) (batch : (⟨S100000, .i32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal))
    (b2 gamma beta : (⟨S3x64, .f32⟩ : BufTy).Contents (Elt Ideal)) (eps : (⟨S3, .f32⟩ : BufTy).Contents (Elt Ideal)) (lin_w : (⟨S64x10, .f32⟩ : BufTy).Contents (Elt Ideal)) (lin_b : (⟨S10, .f32⟩ : BufTy).Contents (Elt Ideal)) : (⟨S256x10, .f32⟩ : BufTy).Contents (Elt Ideal) :=
  tail (F := Ideal) (LK_2 (prep_2 (F := Ideal) (LK_1 (prep_1 (F := Ideal) (LK_0 (prep_0 (F := Ideal) x ei eps) w1 b1 w2 b2 gamma beta) ei eps)
    w1 b1 w2 b2 gamma beta) ei eps) w1 b1 w2 b2 gamma beta) batch lin_w lin_b

/-- On real arguments the two spellings of the variance give the same network. -/
theorem kerSpec_eq_refSpec (hn : nl = ((100000 : ℝ) : EReal)) (he : ∃ e : ℝ, 0 < e ∧ el = (e : EReal)) (x : (⟨S100000x64, .f32⟩ : BufTy).Contents (Elt Ideal)) (ei : (⟨S2x1000000, .i32⟩ : BufTy).Contents (Elt Ideal)) (batch : (⟨S100000, .i32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal))
    (b2 gamma beta : (⟨S3x64, .f32⟩ : BufTy).Contents (Elt Ideal)) (eps : (⟨S3, .f32⟩ : BufTy).Contents (Elt Ideal)) (lin_w : (⟨S64x10, .f32⟩ : BufTy).Contents (Elt Ideal)) (lin_b : (⟨S10, .f32⟩ : BufTy).Contents (Elt Ideal))
    (hx : ∀ i, IsReal (x i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) (heps : ∀ i, IsReal (eps i)) :
    kerSpec x ei batch w1 b1 w2 b2 gamma beta eps lin_w lin_b = refSpec x ei batch w1 b1 w2 b2 gamma beta eps lin_w lin_b := by
  obtain ⟨e, he0, hel⟩ := he
  have p0 : ∀ i, IsReal (prep_0 (F := Ideal) x ei eps i) := prep_0_isReal ei hx heps
  have e0 := LK_0_eq hn p0 hw1 hb1 hw2 hb2 hg hbt
  have r0 := L_0_isReal hn he0 hel p0 hw1 hb1 hw2 hb2 hg hbt
  have p1 : ∀ i, IsReal (prep_1 (F := Ideal) (L_0 (prep_0 (F := Ideal) x ei eps) w1 b1 w2 b2 gamma beta) ei eps i) := prep_1_isReal ei r0 heps
  have e1 := LK_1_eq hn p1 hw1 hb1 hw2 hb2 hg hbt
  have r1 := L_1_isReal hn he0 hel p1 hw1 hb1 hw2 hb2 hg hbt
  have p2 : ∀ i, IsReal (prep_2 (F := Ideal) (L_1 (prep_1 (F := Ideal) (L_0 (prep_0 (F := Ideal) x ei eps) w1 b1 w2 b2 gamma beta) ei eps) w1 b1 w2 b2 gamma beta) ei eps i) :=
    prep_2_isReal ei r1 heps
  have e2 := LK_2_eq hn p2 hw1 hb1 hw2 hb2 hg hbt
  unfold kerSpec refSpec
  rw [e0, e1, e2]

/-- The same with the two literals read: the number of rows is 100000 and the variance offset is a positive real. -/
theorem kerSpec_eq_refSpec' (x : (⟨S100000x64, .f32⟩ : BufTy).Contents (Elt Ideal)) (ei : (⟨S2x1000000, .i32⟩ : BufTy).Contents (Elt Ideal)) (batch : (⟨S100000, .i32⟩ : BufTy).Contents (Elt Ideal)) (w1 : (⟨S3x64x64, .f32⟩ : BufTy).Contents (Elt Ideal)) (b1 : (⟨S3x64, .f32⟩ : BufTy).Contents (Elt Ideal)) (w2 : (⟨S3x64x64, .f32⟩ : BufTy).Contents (Elt Ideal))
    (b2 gamma beta : (⟨S3x64, .f32⟩ : BufTy).Contents (Elt Ideal)) (eps : (⟨S3, .f32⟩ : BufTy).Contents (Elt Ideal)) (lin_w : (⟨S64x10, .f32⟩ : BufTy).Contents (Elt Ideal)) (lin_b : (⟨S10, .f32⟩ : BufTy).Contents (Elt Ideal))
    (hx : ∀ i, IsReal (x i)) (hw1 : ∀ i, IsReal (w1 i)) (hb1 : ∀ i, IsReal (b1 i)) (hw2 : ∀ i, IsReal (w2 i))
    (hb2 : ∀ i, IsReal (b2 i)) (hg : ∀ i, IsReal (gamma i)) (hbt : ∀ i, IsReal (beta i)) (heps : ∀ i, IsReal (eps i)) :
    kerSpec x ei batch w1 b1 w2 b2 gamma beta eps lin_w lin_b = refSpec x ei batch w1 b1 w2 b2 gamma beta eps lin_w lin_b :=
  kerSpec_eq_refSpec (show nl = ((100000 : ℝ) : EReal) from Literals.nl_eq)
    (show ∃ e : ℝ, 0 < e ∧ el = (e : EReal) from Literals.el_pos) x ei batch w1 b1 w2 b2 gamma beta eps lin_w lin_b
    hx hw1 hb1 hw2 hb2 hg hbt heps

/-! ## The precondition: every entry of every float argument is real -/

instance : Subsingleton Cert.Pre_finite_inputs.S_.Idx := ⟨fun a b => funext fun d => d.elim0⟩

/-- The f32 word of +∞. -/
theorem inf_word : Ideal.ofBits .f32 0x7F800000#32 = ⊤ := by simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      show BitVec.ofBool (decide (max x (-x) < ⊤)) = 0#1
      rw [decide_eq_false hc]; rfl
    rw [h0] at h
    exact absurd h (by decide)
  induction x using EReal.rec with
  | bot => simp at hlt
  | coe r => exact ⟨r, rfl⟩
  | top => simp at hlt

/-- One conjunct of the precondition: "every entry's absolute value is below +∞" reduced by `and` to one bit that is 1
    says every entry is real. -/
theorem all_lt_inf_isReal {s : Shape} {axes : List (Fin s.rank)} (x : FVec Ideal s .f32)
    (bc : Cert.Pre_finite_inputs.S_.BroadcastsInDim s (![] : Fin 0 → Fin s.rank))
    (red : s.ReducesTo axes Cert.Pre_finite_inputs.S_) (hu : 0 < Cert.Pre_finite_inputs.S_.numel) (j : Cert.Pre_finite_inputs.S_.Idx)
    (e : Host.reduce IntOp.andi (cmpf .olt (Host.absf x)
        (broadcastInDim s ![] bc (constant (F := Ideal) Cert.Pre_finite_inputs.S_ .f32 0x7F800000#32)))
      (constantI Cert.Pre_finite_inputs.S_ 1 1#1) red hu j = 1#1) (i : s.Idx) : IsReal (x i) :=
  isReal_of_abs_lt_inf (x i) (Host.reduce_andi_all _ _ red hu j e i)

/-- The precondition's function all ones says every entry of each of the ten float arguments is real. -/
theorem pre_isReal [Cert.Pre_finite_inputs.Facts]
    (a0 : FVec Ideal Cert.Pre_finite_inputs.S100000x64 .f32) (a1 : IVec Cert.Pre_finite_inputs.S2x1000000 32)
    (a2 : IVec Cert.Pre_finite_inputs.S100000 32) (a3 : FVec Ideal Cert.Pre_finite_inputs.S3x64x64 .f32)
    (a4 : FVec Ideal Cert.Pre_finite_inputs.S3x64 .f32) (a5 : FVec Ideal Cert.Pre_finite_inputs.S3x64x64 .f32)
    (a6 a7 a8 : FVec Ideal Cert.Pre_finite_inputs.S3x64 .f32) (a9 : FVec Ideal Cert.Pre_finite_inputs.S3 .f32)
    (a10 : FVec Ideal Cert.Pre_finite_inputs.S64x10 .f32) (a11 : FVec Ideal Cert.Pre_finite_inputs.S10 .f32)
    (h : Cert.Pre_finite_inputs.fn (F := Ideal) a0 a1 a2 a3 a4 a5 a6 a7 a8 a9 a10 a11 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) := by
  have key : ∀ (A B : IVec Cert.Pre_finite_inputs.S_ 1), andi A B ix0 = 1#1 → A ix0 = 1#1 ∧ B ix0 = 1#1 :=
    fun A B e => IntOp.andi_eq_one.mp e
  have h0 := congrFun h ix0
  dsimp only [Cert.Pre_finite_inputs.fn, Cert.Pre_finite_inputs.fn_part1, Cert.Pre_finite_inputs.fn_part2] at h0
  obtain ⟨h1, e11⟩ := key _ _ h0
  obtain ⟨h2, e10⟩ := key _ _ h1
  obtain ⟨h3, e9⟩ := key _ _ h2
  obtain ⟨h4, e8⟩ := key _ _ h3
  obtain ⟨h5, e7⟩ := key _ _ h4
  obtain ⟨h6, e6⟩ := key _ _ h5
  obtain ⟨h7, e5⟩ := key _ _ h6
  obtain ⟨h8, e4⟩ := key _ _ h7
  obtain ⟨e0, e3⟩ := key _ _ h8
  exact ⟨all_lt_inf_isReal a0 _ _ _ _ e0, all_lt_inf_isReal a3 _ _ _ _ e3, all_lt_inf_isReal a4 _ _ _ _ e4,
    all_lt_inf_isReal a5 _ _ _ _ e5, all_lt_inf_isReal a6 _ _ _ _ e6, all_lt_inf_isReal a7 _ _ _ _ e7,
    all_lt_inf_isReal a8 _ _ _ _ e8, all_lt_inf_isReal a9 _ _ _ _ e9, all_lt_inf_isReal a10 _ _ _ _ e10,
    all_lt_inf_isReal a11 _ _ _ _ e11⟩

/-- Under the precondition the network with either spelling of the variance is the same function of the arguments. -/
theorem bridge [Cert.Pre_finite_inputs.Facts]
    (a0 : FVec Ideal Cert.Pre_finite_inputs.S100000x64 .f32) (a1 : IVec Cert.Pre_finite_inputs.S2x1000000 32)
    (a2 : IVec Cert.Pre_finite_inputs.S100000 32) (a3 : FVec Ideal Cert.Pre_finite_inputs.S3x64x64 .f32)
    (a4 : FVec Ideal Cert.Pre_finite_inputs.S3x64 .f32) (a5 : FVec Ideal Cert.Pre_finite_inputs.S3x64x64 .f32)
    (a6 a7 a8 : FVec Ideal Cert.Pre_finite_inputs.S3x64 .f32) (a9 : FVec Ideal Cert.Pre_finite_inputs.S3 .f32)
    (a10 : FVec Ideal Cert.Pre_finite_inputs.S64x10 .f32) (a11 : FVec Ideal Cert.Pre_finite_inputs.S10 .f32)
    (h : Cert.Pre_finite_inputs.fn (F := Ideal) a0 a1 a2 a3 a4 a5 a6 a7 a8 a9 a10 a11 = fun _ => 1#1) :
    kerSpec a0 a1 a2 a3 a4 a5 a6 a7 a8 a9 a10 a11 = refSpec a0 a1 a2 a3 a4 a5 a6 a7 a8 a9 a10 a11 := by
  obtain ⟨h0, h3, h4, h5, h6, h7, h8, h9, _, _⟩ := pre_isReal a0 a1 a2 a3 a4 a5 a6 a7 a8 a9 a10 a11 h
  exact kerSpec_eq_refSpec' a0 a1 a2 a3 a4 a5 a6 a7 a8 a9 a10 a11 h0 h3 h4 h5 h6 h7 h8 h9

end Cert.ReferenceIdeal.RefValue

end
-- ==== Proof.KValI.lean ====
/-
  The kernel program's result as a function of its twelve arguments: the seven stretches of host operations and the six
  regions chained. Each region's entry arrays are what the stretch before it leaves; each region's result arrays are the
  dense layers, their column sums and sums of squares, or the normalisation, of its entry arrays; so layer by layer the
  node array is the two dense layers and the normalisation (with the variance as the mean of squares less the squared
  mean) of (1 + eps) · x plus the neighbour sum, and the result is the pooled last dense layer of the third layer.
-/
import proofs.«170985_j13606456394542_1_alg».proof.Proof.AsmI
import proofs.«170985_j13606456394542_1_alg».proof.Proof.MlpI0Fin
import proofs.«170985_j13606456394542_1_alg».proof.Proof.MlpI2Fin
import proofs.«170985_j13606456394542_1_alg».proof.Proof.MlpI4Fin
import proofs.«170985_j13606456394542_1_alg».proof.Proof.BnValueI
import proofs.«170985_j13606456394542_1_alg».proof.Proof.BnValueI3
import proofs.«170985_j13606456394542_1_alg».proof.Proof.BnValueI5
import proofs.«170985_j13606456394542_1_alg».proof.Proof.KCrossI
import proofs.«170985_j13606456394542_1_alg».proof.Proof.KHostI
import proofs.«170985_j13606456394542_1_alg».proof.Proof.RefBridge

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.RefValue (nl el prepG tail prep_0 prep_1 prep_2 LK_0 LK_1 LK_2 kerSpec)
open Cert.ReferenceIdeal.ReadP

/-! ## Congruences of the stage functions -/

theorem mlp_congr {h h' : GinSpec.SND.Idx → EReal} {w1 w1' w2 w2' : GinSpec.SDD.Idx → EReal} {b1 b1' b2 b2' : Fin 64 → EReal}
    (eh : h = h') (e1 : w1 = w1') (eb1 : b1 = b1') (e2 : w2 = w2') (eb2 : b2 = b2') :
    GinSpec.mlp h w1 b1 w2 b2 = GinSpec.mlp h' w1' b1' w2' b2' := by
  subst eh e1 eb1 e2 eb2; rfl

theorem prepG_congr {x x' : (⟨Cert.ReferenceIdeal.S100000x64, .f32⟩ : BufTy).Contents (Elt Ideal)}
    {s s' d d' : (⟨Cert.ReferenceIdeal.S1000000, .i32⟩ : BufTy).Contents (Elt Ideal)}
    {e e' : (⟨Cert.ReferenceIdeal.S_, .f32⟩ : BufTy).Contents (Elt Ideal)}
    (ex : x = x') (es : s = s') (ed : d = d') (ee : e = e') :
    prepG (F := Ideal) x s d e = prepG (F := Ideal) x' s' d' e' := by
  subst ex es ed ee; rfl

theorem tail_congr {y y' : (⟨Cert.ReferenceIdeal.S100000x64, .f32⟩ : BufTy).Contents (Elt Ideal)}
    {bt bt' : (⟨Cert.ReferenceIdeal.S100000, .i32⟩ : BufTy).Contents (Elt Ideal)}
    {w w' : (⟨Cert.ReferenceIdeal.S64x10, .f32⟩ : BufTy).Contents (Elt Ideal)}
    {b b' : (⟨Cert.ReferenceIdeal.S10, .f32⟩ : BufTy).Contents (Elt Ideal)}
    (ey : y = y') (ebt : bt = bt') (ew : w = w') (eb : b = b') :
    tail (F := Ideal) y bt w b = tail (F := Ideal) y' bt' w' b' := by
  subst ey ebt ew eb; rfl

/-! ## One normalisation region from its entry arrays -/

theorem norm_congr {a a' : GinSpec.SND.Idx → EReal} {mu mu' istd istd' g g' be be' : Fin 64 → EReal}
    (ea : a = a') (em : mu = mu') (ei : istd = istd') (eg : g = g') (eb : be = be') :
    GinSpec.norm a mu istd g be = GinSpec.norm a' mu' istd' g' be' := by
  subst ea em ei eg eb; rfl

/-- The normalisation of an array `a` by four rows, when `a` is the dense layers' array `H`, the mean and
    inverse-standard-deviation rows are computed from `H`'s column sums `s` and sums of squares `q`, and the scale and
    shift rows are the vectors `gv`, `bv`: the normalisation of `H` with the variance as the mean of squares less the
    squared mean. -/
theorem bn_layer (H : GinSpec.SND.Idx → EReal) (a : S100000x64.Idx → EReal) (mu istd g be s q : S1x64.Idx → EReal) (gv bv : S64.Idx → EReal)
    (ha : a = H) (hmu : mu = meanRow (F := Ideal) s) (histd : istd = invstdRow (F := Ideal) s q) (hg : g = rowOf gv) (hbe : be = rowOf bv)
    (hs : ∀ j : Fin 64, s (ix2 (0 : Fin 1) j) = GinSpec.colSum H j) (hq : ∀ j : Fin 64, q (ix2 (0 : Fin 1) j) = GinSpec.colSumSq H j) :
    GinSpec.norm a (fun j => mu (ix2 (0 : Fin 1) j)) (fun j => istd (ix2 (0 : Fin 1) j)) (fun j => g (ix2 (0 : Fin 1) j)) (fun j => be (ix2 (0 : Fin 1) j))
      = GinSpec.bnK nl el H (fun j => gv (ix1 j)) (fun j => bv (ix1 j)) := by
  subst ha hmu histd hg hbe
  have e1 : (fun j : Fin 64 => meanRow (F := Ideal) s (ix2 (0 : Fin 1) j)) = GinSpec.mean nl a := by
    funext j
    rw [meanRow_apply, hs]; rfl
  have e2 : (fun j : Fin 64 => invstdRow (F := Ideal) s q (ix2 (0 : Fin 1) j)) = fun j => Ideal.rsqrt (GinSpec.varK nl a j + el) := by
    funext j
    rw [invstdRow_apply, hs, hq]; rfl
  have e3 : (fun j : Fin 64 => rowOf gv (ix2 (0 : Fin 1) j)) = fun j => gv (ix1 j) := funext fun j => rowOf_apply gv j
  have e4 : (fun j : Fin 64 => rowOf bv (ix2 (0 : Fin 1) j)) = fun j => bv (ix1 j) := funext fun j => rowOf_apply bv j
  exact norm_congr rfl e1 e2 e3 e4

/-! ## The chain -/

section Chain
variable (m : (ℓ : Loc nD τ sig) → Buf (Elt Ideal) ℓ)

theorem at_ix {α : Type} {f g : S1x64.Idx → α} (h : f = g) (i : S1x64.Idx) : f i = g i := congrFun h i

/-! ## Layer 0 -/

/-- Layer 0 of the network as a function of the launch arguments. -/
def L0 (c : Dev nD) : (⟨Cert.ReferenceIdeal.S100000x64, .f32⟩ : BufTy).Contents (Elt Ideal) :=
  LK_0 (prep_0 (F := Ideal) (m ((c : Thread nD τ).loc main_arg0)) (m ((c : Thread nD τ).loc main_arg1)) (m ((c : Thread nD τ).loc main_arg9))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The aggregation input of layer 0, as the stretch before its dense-layer region leaves it. -/
theorem prep0 (c : Dev nD) : (V1 m c (Proc.devRef .tc main_v31)) = (prep_0 (F := Ideal) (m ((c : Thread nD τ).loc main_arg0)) (m ((c : Thread nD τ).loc main_arg1)) (m ((c : Thread nD τ).loc main_arg9))) :=
  (h0_v31 (V0 m c))

/-- The two dense layers of region 0's entry arrays are those of the aggregation input at slice 0 of the parameters. -/
theorem entry0 (c : Dev nD) : H20 (atRefs (V1 m)) c = GinSpec.mlp (prep_0 (F := Ideal) (m ((c : Thread nD τ).loc main_arg0)) (m ((c : Thread nD τ).loc main_arg1)) (m ((c : Thread nD τ).loc main_arg9))) (val_main_v5 (F := Ideal) (m ((c : Thread nD τ).loc main_arg3))) (fun k => val_main_v7 (F := Ideal) (m ((c : Thread nD τ).loc main_arg4)) (ix1 k)) (val_main_v9 (F := Ideal) (m ((c : Thread nD τ).loc main_arg5))) (fun k => val_main_v11 (F := Ideal) (m ((c : Thread nD τ).loc main_arg6)) (ix1 k)) :=
  mlp_congr (prep0 m c)
    (h0_v5 (V0 m c))
    (funext fun k => (at_ix (h0_v32 (V0 m c)) (ix2 (0 : Fin 1) k)).trans (rowOf_apply _ k))
    (h0_v9 (V0 m c))
    (funext fun k => (at_ix (h0_v33 (V0 m c)) (ix2 (0 : Fin 1) k)).trans (rowOf_apply _ k))

/-- The node array after layer 0's normalisation region. -/
theorem layer0 (c : Dev nD) : (V4 m (outs m) c (Proc.devRef .tc main_v50)) = L0 m c := by
  refine ((hF1 m c 5).symm.trans (bn_final1 (atRefs (V3 m (outs m))) c)).trans ?_
  refine (bn_layer (H20 (atRefs (V1 m)) c) (V3 m (outs m) c (Proc.devRef .tc main_v34_0)) (V3 m (outs m) c (Proc.devRef .tc main_v46)) (V3 m (outs m) c (Proc.devRef .tc main_v47)) (V3 m (outs m) c (Proc.devRef .tc main_v48)) (V3 m (outs m) c (Proc.devRef .tc main_v49))
      (V2 m (outs m) c (Proc.devRef .tc main_v34_1)) (V2 m (outs m) c (Proc.devRef .tc main_v34_2)) (val_main_v13 (F := Ideal) (m ((c : Thread nD τ).loc main_arg7))) (val_main_v15 (F := Ideal) (m ((c : Thread nD τ).loc main_arg8)))
      ((keep_V3_v34_0 m (outs m) c).trans ((hF0 m c 5).symm.trans (final0_5 (atRefs (V1 m)) c)))
      (h1_v46 (V2 m (outs m) c))
      (h1_v47 (V2 m (outs m) c))
      ((h1_v48 (V2 m (outs m) c)).trans (congrArg rowOf ((keep_V2_v13 m (outs m) c).trans (h0_v13 (V0 m c)))))
      ((h1_v49 (V2 m (outs m) c)).trans (congrArg rowOf ((keep_V2_v15 m (outs m) c).trans (h0_v15 (V0 m c)))))
      (fun j => (at_ix (hF0 m c 6).symm (ix2 (0 : Fin 1) j)).trans (final0_6 (atRefs (V1 m)) c j))
      (fun j => (at_ix (hF0 m c 7).symm (ix2 (0 : Fin 1) j)).trans (final0_7 (atRefs (V1 m)) c j))).trans ?_
  exact congrArg (fun H => GinSpec.bnK nl el H (fun j => val_main_v13 (F := Ideal) (m ((c : Thread nD τ).loc main_arg7)) (ix1 j)) (fun j => val_main_v15 (F := Ideal) (m ((c : Thread nD τ).loc main_arg8)) (ix1 j))) (entry0 m c)

/-! ## Layer 1 -/

/-- Layer 1 of the network as a function of the launch arguments. -/
def L1 (c : Dev nD) : (⟨Cert.ReferenceIdeal.S100000x64, .f32⟩ : BufTy).Contents (Elt Ideal) :=
  LK_1 (prep_1 (F := Ideal) (L0 m c) (m ((c : Thread nD τ).loc main_arg1)) (m ((c : Thread nD τ).loc main_arg9))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The aggregation input of layer 1, as the stretch before its dense-layer region leaves it. -/
theorem prep1 (c : Dev nD) : (V5 m (outs m) c (Proc.devRef .tc main_v78)) = (prep_1 (F := Ideal) (L0 m c) (m ((c : Thread nD τ).loc main_arg1)) (m ((c : Thread nD τ).loc main_arg9))) :=
  ((h2_v78 (V4 m (outs m) c)).trans (prepG_congr (layer0 m c) ((keep_V4_v1 m (outs m) c).trans (h0_v1 (V0 m c))) ((keep_V4_v3 m (outs m) c).trans (h0_v3 (V0 m c))) (congrArg (fun t => val_main_v81 (F := Ideal) t) (keep_V4_arg9 m (outs m) c))))

/-- The two dense layers of region 2's entry arrays are those of the aggregation input at slice 1 of the parameters. -/
theorem entry1 (c : Dev nD) : H22 (atRefs (V5 m (outs m))) c = GinSpec.mlp (prep_1 (F := Ideal) (L0 m c) (m ((c : Thread nD τ).loc main_arg1)) (m ((c : Thread nD τ).loc main_arg9))) (val_main_v69 (F := Ideal) (m ((c : Thread nD τ).loc main_arg3))) (fun k => val_main_v71 (F := Ideal) (m ((c : Thread nD τ).loc main_arg4)) (ix1 k)) (val_main_v73 (F := Ideal) (m ((c : Thread nD τ).loc main_arg5))) (fun k => val_main_v75 (F := Ideal) (m ((c : Thread nD τ).loc main_arg6)) (ix1 k)) :=
  mlp_congr (prep1 m c)
    ((h2_v52 (V4 m (outs m) c)).trans (congrArg (fun t => val_main_v69 (F := Ideal) t) (keep_V4_arg3 m (outs m) c)))
    (funext fun k => (at_ix ((h2_v79 (V4 m (outs m) c)).trans (congrArg (fun t => rowOf (val_main_v71 (F := Ideal) t)) (keep_V4_arg4 m (outs m) c))) (ix2 (0 : Fin 1) k)).trans (rowOf_apply _ k))
    ((h2_v56 (V4 m (outs m) c)).trans (congrArg (fun t => val_main_v73 (F := Ideal) t) (keep_V4_arg5 m (outs m) c)))
    (funext fun k => (at_ix ((h2_v80 (V4 m (outs m) c)).trans (congrArg (fun t => rowOf (val_main_v75 (F := Ideal) t)) (keep_V4_arg6 m (outs m) c))) (ix2 (0 : Fin 1) k)).trans (rowOf_apply _ k))

/-- The node array after layer 1's normalisation region. -/
theorem layer1 (c : Dev nD) : (V8 m (outs m) c (Proc.devRef .tc main_v97)) = L1 m c := by
  refine ((hF3 m c 5).symm.trans (bn_final3 (atRefs (V7 m (outs m))) c)).trans ?_
  refine (bn_layer (H22 (atRefs (V5 m (outs m))) c) (V7 m (outs m) c (Proc.devRef .tc main_v81_0)) (V7 m (outs m) c (Proc.devRef .tc main_v93)) (V7 m (outs m) c (Proc.devRef .tc main_v94)) (V7 m (outs m) c (Proc.devRef .tc main_v95)) (V7 m (outs m) c (Proc.devRef .tc main_v96))
      (V6 m (outs m) c (Proc.devRef .tc main_v81_1)) (V6 m (outs m) c (Proc.devRef .tc main_v81_2)) (val_main_v77 (F := Ideal) (m ((c : Thread nD τ).loc main_arg7))) (val_main_v79 (F := Ideal) (m ((c : Thread nD τ).loc main_arg8)))
      ((keep_V7_v81_0 m (outs m) c).trans ((hF2 m c 5).symm.trans (final2_5 (atRefs (V5 m (outs m))) c)))
      (h3_v93 (V6 m (outs m) c))
      (h3_v94 (V6 m (outs m) c))
      ((h3_v95 (V6 m (outs m) c)).trans (congrArg rowOf ((keep_V6_v60 m (outs m) c).trans ((h2_v60 (V4 m (outs m) c)).trans (congrArg (fun t => val_main_v77 (F := Ideal) t) (keep_V4_arg7 m (outs m) c))))))
      ((h3_v96 (V6 m (outs m) c)).trans (congrArg rowOf ((keep_V6_v62 m (outs m) c).trans ((h2_v62 (V4 m (outs m) c)).trans (congrArg (fun t => val_main_v79 (F := Ideal) t) (keep_V4_arg8 m (outs m) c))))))
      (fun j => (at_ix (hF2 m c 6).symm (ix2 (0 : Fin 1) j)).trans (final2_6 (atRefs (V5 m (outs m))) c j))
      (fun j => (at_ix (hF2 m c 7).symm (ix2 (0 : Fin 1) j)).trans (final2_7 (atRefs (V5 m (outs m))) c j))).trans ?_
  exact congrArg (fun H => GinSpec.bnK nl el H (fun j => val_main_v77 (F := Ideal) (m ((c : Thread nD τ).loc main_arg7)) (ix1 j)) (fun j => val_main_v79 (F := Ideal) (m ((c : Thread nD τ).loc main_arg8)) (ix1 j))) (entry1 m c)

/-! ## Layer 2 -/

/-- Layer 2 of the network as a function of the launch arguments. -/
def L2 (c : Dev nD) : (⟨Cert.ReferenceIdeal.S100000x64, .f32⟩ : BufTy).Contents (Elt Ideal) :=
  LK_2 (prep_2 (F := Ideal) (L1 m c) (m ((c : Thread nD τ).loc main_arg1)) (m ((c : Thread nD τ).loc main_arg9))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The aggregation input of layer 2, as the stretch before its dense-layer region leaves it. -/
theorem prep2 (c : Dev nD) : (V9 m (outs m) c (Proc.devRef .tc main_v125)) = (prep_2 (F := Ideal) (L1 m c) (m ((c : Thread nD τ).loc main_arg1)) (m ((c : Thread nD τ).loc main_arg9))) :=
  ((h4_v125 (V8 m (outs m) c)).trans (prepG_congr (layer1 m c) ((keep_V8_v1 m (outs m) c).trans (h0_v1 (V0 m c))) ((keep_V8_v3 m (outs m) c).trans (h0_v3 (V0 m c))) (congrArg (fun t => val_main_v145 (F := Ideal) t) (keep_V8_arg9 m (outs m) c))))

/-- The two dense layers of region 4's entry arrays are those of the aggregation input at slice 2 of the parameters. -/
theorem entry2 (c : Dev nD) : H24 (atRefs (V9 m (outs m))) c = GinSpec.mlp (prep_2 (F := Ideal) (L1 m c) (m ((c : Thread nD τ).loc main_arg1)) (m ((c : Thread nD τ).loc main_arg9))) (val_main_v133 (F := Ideal) (m ((c : Thread nD τ).loc main_arg3))) (fun k => val_main_v135 (F := Ideal) (m ((c : Thread nD τ).loc main_arg4)) (ix1 k)) (val_main_v137 (F := Ideal) (m ((c : Thread nD τ).loc main_arg5))) (fun k => val_main_v139 (F := Ideal) (m ((c : Thread nD τ).loc main_arg6)) (ix1 k)) :=
  mlp_congr (prep2 m c)
    ((h4_v99 (V8 m (outs m) c)).trans (congrArg (fun t => val_main_v133 (F := Ideal) t) (keep_V8_arg3 m (outs m) c)))
    (funext fun k => (at_ix ((h4_v126 (V8 m (outs m) c)).trans (congrArg (fun t => rowOf (val_main_v135 (F := Ideal) t)) (keep_V8_arg4 m (outs m) c))) (ix2 (0 : Fin 1) k)).trans (rowOf_apply _ k))
    ((h4_v103 (V8 m (outs m) c)).trans (congrArg (fun t => val_main_v137 (F := Ideal) t) (keep_V8_arg5 m (outs m) c)))
    (funext fun k => (at_ix ((h4_v127 (V8 m (outs m) c)).trans (congrArg (fun t => rowOf (val_main_v139 (F := Ideal) t)) (keep_V8_arg6 m (outs m) c))) (ix2 (0 : Fin 1) k)).trans (rowOf_apply _ k))

/-- The node array after layer 2's normalisation region. -/
theorem layer2 (c : Dev nD) : (V12 m (outs m) c (Proc.devRef .tc main_v144)) = L2 m c := by
  refine ((hF5 m c 5).symm.trans (bn_final5 (atRefs (V11 m (outs m))) c)).trans ?_
  refine (bn_layer (H24 (atRefs (V9 m (outs m))) c) (V11 m (outs m) c (Proc.devRef .tc main_v128_0)) (V11 m (outs m) c (Proc.devRef .tc main_v140)) (V11 m (outs m) c (Proc.devRef .tc main_v141)) (V11 m (outs m) c (Proc.devRef .tc main_v142)) (V11 m (outs m) c (Proc.devRef .tc main_v143))
      (V10 m (outs m) c (Proc.devRef .tc main_v128_1)) (V10 m (outs m) c (Proc.devRef .tc main_v128_2)) (val_main_v141 (F := Ideal) (m ((c : Thread nD τ).loc main_arg7))) (val_main_v143 (F := Ideal) (m ((c : Thread nD τ).loc main_arg8)))
      ((keep_V11_v128_0 m (outs m) c).trans ((hF4 m c 5).symm.trans (final4_5 (atRefs (V9 m (outs m))) c)))
      (h5_v140 (V10 m (outs m) c))
      (h5_v141 (V10 m (outs m) c))
      ((h5_v142 (V10 m (outs m) c)).trans (congrArg rowOf ((keep_V10_v107 m (outs m) c).trans ((h4_v107 (V8 m (outs m) c)).trans (congrArg (fun t => val_main_v141 (F := Ideal) t) (keep_V8_arg7 m (outs m) c))))))
      ((h5_v143 (V10 m (outs m) c)).trans (congrArg rowOf ((keep_V10_v109 m (outs m) c).trans ((h4_v109 (V8 m (outs m) c)).trans (congrArg (fun t => val_main_v143 (F := Ideal) t) (keep_V8_arg8 m (outs m) c))))))
      (fun j => (at_ix (hF4 m c 6).symm (ix2 (0 : Fin 1) j)).trans (final4_6 (atRefs (V9 m (outs m))) c j))
      (fun j => (at_ix (hF4 m c 7).symm (ix2 (0 : Fin 1) j)).trans (final4_7 (atRefs (V9 m (outs m))) c j))).trans ?_
  exact congrArg (fun H => GinSpec.bnK nl el H (fun j => val_main_v141 (F := Ideal) (m ((c : Thread nD τ).loc main_arg7)) (ix1 j)) (fun j => val_main_v143 (F := Ideal) (m ((c : Thread nD τ).loc main_arg8)) (ix1 j))) (entry2 m c)

/-! ## The result -/

/-- The kernel program's result buffer after the last stretch: the pooled last dense layer of the third layer's node array. -/
theorem kernel_value (c : Dev nD) : V13 m (outs m) c (Proc.devRef .tc main_v160)
    = kerSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (h6_v160 (V12 m (outs m) c)).trans (tail_congr (layer2 m c) (keep_V12_arg2 m (outs m) c) (keep_V12_arg10 m (outs m) c) (keep_V12_arg11 m (outs m) c))

end Chain

end Cert.KernelIdeal.Hand

end
-- ==== Proof.Claims.lean ====
/- The five claims, assembled: each frame from its program's run read at the arguments; the idealization's ledger is
   empty; and the two idealized programs end with equal results because the kernel's network (the column variance as
   the mean of squares less the squared mean) and the reference's (the mean of squared deviations) are one function on
   finite arguments, which the precondition provides. -/
import proofs.«170985_j13606456394542_1_alg».proof.Defs
import proofs.«170985_j13606456394542_1_alg».proof.Proof.AsmI
import proofs.«170985_j13606456394542_1_alg».proof.Proof.AsmB
import proofs.«170985_j13606456394542_1_alg».proof.Proof.KValI
import proofs.«170985_j13606456394542_1_alg».proof.Proof.RefBridge
import proofs.«170985_j13606456394542_1_alg».proof.Proof.Gen.Kernel
import proofs.«170985_j13606456394542_1_alg».proof.Proof.Gen.Kernel.Regions
import proofs.«170985_j13606456394542_1_alg».proof.Proof.Gen.KernelIdeal
import proofs.«170985_j13606456394542_1_alg».proof.Proof.Gen.KernelIdeal.Regions
import proofs.«170985_j13606456394542_1_alg».proof.Proof.Gen.ReferenceIdeal
import proofs.«170985_j13606456394542_1_alg».proof.Proof.Gen.Pre_finite_inputs

set_option maxRecDepth 16384

noncomputable section

open Idealize.ShloMosaic Idealize.ShloMosaic.TcCoe Idealize.SL.Sem

/-! ## Each program's run read at its result and its arguments -/

namespace Cert.KernelIdeal.Hand

open Cert.KernelIdeal Cert.KernelIdeal.Gen

variable {F : FTy → Type} [FloatOps F]

/-- An unscoped TensorCore buffer is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the twelve arguments: the result's buffer ends at the last valuation's contents,
    and no item writes an argument, so each argument ends as launched. -/
theorem run_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v160) = V13 m (outs m) c main_v160
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v160 (by decide)),
      (h c _ (mem_uc main_arg0 (by decide))).trans (V13_main_arg0 m _ c),
      (h c _ (mem_uc main_arg1 (by decide))).trans (V13_main_arg1 m _ c),
      (h c _ (mem_uc main_arg2 (by decide))).trans (V13_main_arg2 m _ c),
      (h c _ (mem_uc main_arg3 (by decide))).trans (V13_main_arg3 m _ c),
      (h c _ (mem_uc main_arg4 (by decide))).trans (V13_main_arg4 m _ c),
      (h c _ (mem_uc main_arg5 (by decide))).trans (V13_main_arg5 m _ c),
      (h c _ (mem_uc main_arg6 (by decide))).trans (V13_main_arg6 m _ c),
      (h c _ (mem_uc main_arg7 (by decide))).trans (V13_main_arg7 m _ c),
      (h c _ (mem_uc main_arg8 (by decide))).trans (V13_main_arg8 m _ c),
      (h c _ (mem_uc main_arg9 (by decide))).trans (V13_main_arg9 m _ c),
      (h c _ (mem_uc main_arg10 (by decide))).trans (V13_main_arg10 m _ c),
      (h c _ (mem_uc main_arg11 (by decide))).trans (V13_main_arg11 m _ c)⟩)
    (run_all m ρ)

end Cert.KernelIdeal.Hand

namespace Cert.Kernel.Hand

open Cert.Kernel Cert.Kernel.Gen

variable {F : FTy → Type} [FloatOps F]

/-- An unscoped TensorCore buffer is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the twelve arguments: the result's buffer ends at the last valuation's contents,
    and no item writes an argument, so each argument ends as launched. -/
theorem run_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v160) = V13 m (outs m) c main_v160
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v160 (by decide)),
      (h c _ (mem_uc main_arg0 (by decide))).trans (V13_main_arg0 m _ c),
      (h c _ (mem_uc main_arg1 (by decide))).trans (V13_main_arg1 m _ c),
      (h c _ (mem_uc main_arg2 (by decide))).trans (V13_main_arg2 m _ c),
      (h c _ (mem_uc main_arg3 (by decide))).trans (V13_main_arg3 m _ c),
      (h c _ (mem_uc main_arg4 (by decide))).trans (V13_main_arg4 m _ c),
      (h c _ (mem_uc main_arg5 (by decide))).trans (V13_main_arg5 m _ c),
      (h c _ (mem_uc main_arg6 (by decide))).trans (V13_main_arg6 m _ c),
      (h c _ (mem_uc main_arg7 (by decide))).trans (V13_main_arg7 m _ c),
      (h c _ (mem_uc main_arg8 (by decide))).trans (V13_main_arg8 m _ c),
      (h c _ (mem_uc main_arg9 (by decide))).trans (V13_main_arg9 m _ c),
      (h c _ (mem_uc main_arg10 (by decide))).trans (V13_main_arg10 m _ c),
      (h c _ (mem_uc main_arg11 (by decide))).trans (V13_main_arg11 m _ c)⟩)
    (run_all m ρ)

end Cert.Kernel.Hand

/-! ## The claims -/

namespace Cert.Proof.Claims

/-- The kernel program as printed runs and keeps its arguments. -/
theorem frame_k : Cert.frame_Kernel := fun m ρ _ =>
  (θ_run Cert.Kernel.defs _ _).mono (fun _ h c => (h c).2) (Cert.Kernel.Hand.run_args (F := Bits) m ρ)

/-- So does its reading over the extended reals. -/
theorem frame_ki : Cert.frame_KernelIdeal := fun m ρ _ =>
  (θ_run Cert.KernelIdeal.defs _ _).mono (fun _ h c => (h c).2) (Cert.KernelIdeal.Hand.run_args (F := Ideal) m ρ)

/-- The reference runs and keeps its arguments: its value run, less the result. -/
theorem frame_ri : Cert.frame_ReferenceIdeal := fun m ρ _ =>
  (θ_run Cert.ReferenceIdeal.defs _ _).mono (fun _ h c => (h c).2) (Cert.ReferenceIdeal.RefValue.ref_value m ρ)

/-- The idealization rewrote no operation. -/
theorem preserves : Cert.preserves_Kernel_KernelIdeal := trivial

/-- Over the extended reals the kernel's result is the network with the column variance spelt as the mean of squares less
    the squared mean, the reference's the network with the mean of squared deviations; on finite arguments — the
    precondition — the two are one function, and the memories agree on the arguments. -/
theorem algebraic : Cert.algebraic_KernelIdeal_ReferenceIdeal := by
  intro m ρ m' ρ' hpre hagree
  refine ⟨fun c => Cert.ReferenceIdeal.RefValue.refSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono (fun _ h c =>
      ⟨(h c).1.trans ((Cert.KernelIdeal.Hand.kernel_value m c).trans
          (Cert.ReferenceIdeal.RefValue.bridge _ _ _ _ _ _ _ _ _ _ _ _ (hpre c))), (h c).2⟩)
      (Cert.KernelIdeal.Hand.run_args (F := Ideal) m ρ)
  · refine (θ_run Cert.ReferenceIdeal.defs _ _).mono (fun _ h c => ⟨(h c).1.trans ?_, (h c).2⟩)
      (Cert.ReferenceIdeal.RefValue.ref_value m' ρ')
    obtain ⟨e0, e1, e2, e3, e4, e5, e6, e7, e8, e9, e10, e11⟩ := hagree c
    rw [e0, e1, e2, e3, e4, e5, e6, e7, e8, e9, e10, e11]

end Cert.Proof.Claims

end
-- ==== Proof.lean ====
/-
  The certificate of a three-layer graph network against its plain reference.

  Each layer aggregates every node's neighbours (a row gather and an accumulating scatter, left to the host in both
  programs), adds (1 + ε)·x, applies two dense layers with relu, normalises every column by its mean and variance over
  the 100000 rows, scales, shifts and applies relu; at the end the rows are pooled by graph and a last dense layer is
  applied. The kernel program computes the two dense layers block by block (20 blocks of 5000 rows) and keeps running
  column sums of the result and of its squares across the blocks; its variance is the mean of squares less the squared
  mean, where the reference takes the mean of squared deviations.

  Frames: @main is seven stretches of host operations around six kernel regions; every region is entered from the
  contents the stretch before it left and leaves its arrays at what its write-backs leave, and no item writes an argument.
  Values, over the extended reals: a block of the dense layers is the same sums of products as the reference's products of
  whole arrays; the running sums after the last block are the column sums over all rows (a sum over 100000 rows regrouped
  as 20 × 5000); the two variances agree because every entry is a real number — the inputs are finite, and gathers, finite
  sums, products, maxima, the quotient by 100000 and the reciprocal square root of a positive real keep entries real —,
  so the square of a difference expands inside the finite sums. Everything else is the same term on both sides.
-/
import proofs.«170985_j13606456394542_1_alg».proof.Defs
import proofs.«170985_j13606456394542_1_alg».proof.Proof.Claims
import proofs.«170985_j13606456394542_1_alg».proof.Proof.Gen.Kernel
import proofs.«170985_j13606456394542_1_alg».proof.Proof.Gen.KernelIdeal
import proofs.«170985_j13606456394542_1_alg».proof.Proof.Gen.ReferenceIdeal
import proofs.«170985_j13606456394542_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
